-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x96x112x112 : Shape := ⟨5, ![4, 4, 96, 112, 112]⟩
abbrev S_ : Shape := ⟨0, ![]⟩

class Facts : Prop where
  bcast_S_S4x4x96x112x112 : S_.BroadcastsInDim S4x4x96x112x112 (![] : Fin 0 → Fin S4x4x96x112x112.rank)
  reducesTo_S4x4x96x112x112_S_d0_1_2_3_4 : S4x4x96x112x112.ReducesTo [0, 1, 2, 3, 4] S_
  h_S_ : 0 < S_.numel

variable [Facts]

def fn {F : FTy → Type} [FloatOps F] (main_arg0 : FVec F S4x4x96x112x112 .f32) : IVec S_ 1 :=
  let main_v0 : FVec F S4x4x96x112x112 .f32 := Host.absf main_arg0
  let main_cst : FVec F S_ .f32 := constant S_ .f32 0x7F800000#32
  let main_v1 : FVec F S4x4x96x112x112 .f32 := broadcastInDim S4x4x96x112x112 ![] bcast_S_S4x4x96x112x112 main_cst
  let main_v2 : IVec S4x4x96x112x112 1 := cmpf .olt main_v0 main_v1
  let main_c : IVec S_ 1 := constantI S_ 1 1#1
  let main_v3 : IVec S_ 1 := (fun x v => Host.reduce IntOp.andi x v reducesTo_S4x4x96x112x112_S_d0_1_2_3_4 h_S_) main_v2 main_c
  main_v3
-- ==== Kernel.lean ====
abbrev S4x4x96x112x112 : Shape := ⟨5, ![4, 4, 96, 112, 112]⟩
abbrev S1536x112x112 : Shape := ⟨3, ![1536, 112, 112]⟩
abbrev S1536x224x224 : Shape := ⟨3, ![1536, 224, 224]⟩
abbrev S112x112 : Shape := ⟨2, ![112, 112]⟩
abbrev S112x224 : Shape := ⟨2, ![112, 224]⟩
abbrev S_ : Shape := ⟨0, ![]⟩
abbrev S16 : Shape := ⟨1, ![16]⟩
abbrev S1x16 : Shape := ⟨2, ![1, 16]⟩
abbrev S1x112x112 : Shape := ⟨3, ![1, 112, 112]⟩
abbrev S1x112x224 : Shape := ⟨3, ![1, 112, 224]⟩
abbrev S4x4x96x224x224 : Shape := ⟨5, ![4, 4, 96, 224, 224]⟩

abbrev nBuf : Table → Nat
  | .hbm => 4
  | .local .scVector .vmem => 4
  | _ => 0

abbrev bufTy : (tb : Table) → Fin (nBuf tb) → BufTy
  | .hbm, ⟨0, _⟩ => ⟨S4x4x96x112x112, .f32⟩
  | .hbm, ⟨1, _⟩ => ⟨S1536x112x112, .f32⟩
  | .hbm, ⟨2, _⟩ => ⟨S1536x224x224, .f32⟩
  | .hbm, ⟨3, _⟩ => ⟨S4x4x96x224x224, .f32⟩
  | .local .scVector .vmem, ⟨0, _⟩ => ⟨S112x112, .f32⟩
  | .local .scVector .vmem, ⟨1, _⟩ => ⟨S112x112, .f32⟩
  | .local .scVector .vmem, ⟨2, _⟩ => ⟨S112x224, .f32⟩
  | .local .scVector .vmem, ⟨3, _⟩ => ⟨S112x224, .f32⟩
  | _, _ => ⟨S4x4x96x112x112, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c112_i32 : BitVec 32 := 112#32
  let v7 : BitVec 32 := Scalar.addi c0_i32_1 c112_i32
  let c1_i32 : BitVec 32 := 1#32
  ⟨c0_i32_1, v7, c1_i32⟩
@[reducible] def k0_t2_loop : Scf.Loop 32 :=
  let c0_i32_27 : BitVec 32 := 0#32
  let c14_i32 : BitVec 32 := 14#32
  let v28 : BitVec 32 := Scalar.addi c0_i32_27 c14_i32
  let c1_i32_28 : BitVec 32 := 1#32
  ⟨c0_i32_27, v28, c1_i32_28⟩
def k0_off1 (k0_t1 : Fin k0_t1_loop.trips) (k0_t2 : Fin k0_t2_loop.trips) : Fin 2 → Nat :=
  let c0_i32_1 : BitVec 32 := 0#32
  let c1_i32 : BitVec 32 := 1#32
  let arg12 : BitVec 32 := Scf.iv c0_i32_1 c1_i32 k0_t1
  let v30 : Index := Scalar.indexCast arg12
  let c0_i32_27 : BitVec 32 := 0#32
  let c1_i32_28 : BitVec 32 := 1#32
  let arg13 : BitVec 32 := Scf.iv c0_i32_27 c1_i32_28 k0_t2
  let c16_i32 : BitVec 32 := 16#32
  let v29 : BitVec 32 := Scalar.muli arg13 c16_i32
  let v31 : Index := Scalar.indexCast v29
  ![v30.toNat, v31.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_3 : BitVec 32 := 0#32
  let c0_i32_4 : BitVec 32 := 0#32
  ![v2.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c1_i32_7 : BitVec 32 := 1#32
  let v12 : BitVec 32 := Scalar.addi v2 c1_i32_7
  let c0_i32_8 : BitVec 32 := 0#32
  let c0_i32_9 : BitVec 32 := 0#32
  ![v12.toNat, 0, 0]
@[reducible] def k0_t3_loop : Scf.Loop 32 :=
  let c0_i32_13 : BitVec 32 := 0#32
  let c48_i32_14 : BitVec 32 := 48#32
  let v17 : BitVec 32 := Scalar.addi c0_i32_13 c48_i32_14
  let c1_i32_15 : BitVec 32 := 1#32
  ⟨c0_i32_13, v17, c1_i32_15⟩
def k0_cond1 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c2_i32_27 : BitVec 32 := 2#32
  let c0_i32_28 : BitVec 32 := 0#32
  let v28 : BitVec 1 := Scalar.cmpi .eq c2_i32_27 c0_i32_28
  let c1_i32_29 : BitVec 32 := 1#32
  let v29 : BitVec 32 := Scalar.select v28 c1_i32_29 c2_i32_27
  let v30 : BitVec 32 := Scalar.remsi arg12 v29
  let c0_i32_31 : BitVec 32 := 0#32
  let v32 : BitVec 1 := Scalar.cmpi .slt v30 c0_i32_31
  let c0_i32_32 : BitVec 32 := 0#32
  let v33 : BitVec 1 := Scalar.cmpi .slt v29 c0_i32_32
  let v34 : BitVec 1 := Scalar.xori v32 v33
  let c0_i32_30 : BitVec 32 := 0#32
  let v31 : BitVec 1 := Scalar.cmpi .ne v30 c0_i32_30
  let v35 : BitVec 1 := Scalar.andi v34 v31
  let v36 : BitVec 32 := Scalar.addi v30 v29
  let v37 : BitVec 32 := Scalar.select v35 v36 v30
  let c0_i32_33 : BitVec 32 := 0#32
  let v39 : BitVec 1 := Scalar.cmpi .eq v37 c0_i32_33
  let v40 : BitVec 32 := Scalar.extui v39
  let c0_i32_34 : BitVec 32 := 0#32
  let v41 : BitVec 1 := Scalar.cmpi .ne v40 c0_i32_34
  v41

def k0_off4 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c0_i32_37 : BitVec 32 := 0#32
  let c0_i32_38 : BitVec 32 := 0#32
  ![v38.toNat, 0, 0]
def k0_cond2 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c0_i32_41 : BitVec 32 := 0#32
  let v49 : BitVec 1 := Scalar.cmpi .sgt arg12 c0_i32_41
  let v50 : BitVec 32 := Scalar.extui v49
  let c0_i32_42 : BitVec 32 := 0#32
  let v51 : BitVec 1 := Scalar.cmpi .ne v50 c0_i32_42
  v51

def k0_off5 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c0_i32_65 : BitVec 32 := 0#32
  let c0_i32_66 : BitVec 32 := 0#32
  ![v38.toNat, 0, 0]
@[reducible] def k0_t4_loop : Scf.Loop 32 :=
  let c0_i32_44 : BitVec 32 := 0#32
  let c56_i32 : BitVec 32 := 56#32
  let v52 : BitVec 32 := Scalar.addi c0_i32_44 c56_i32
  let c1_i32_45 : BitVec 32 := 1#32
  ⟨c0_i32_44, v52, c1_i32_45⟩
def k0_off6 (k0_t4 : Fin k0_t4_loop.trips) : Fin 2 → Nat :=
  let c0_i32_67 : BitVec 32 := 0#32
  let c0_i32_44 : BitVec 32 := 0#32
  let c1_i32_45 : BitVec 32 := 1#32
  let arg13 : BitVec 32 := Scf.iv c0_i32_44 c1_i32_45 k0_t4
  let v72 : BitVec 32 := Scalar.addi c0_i32_67 arg13
  let v73 : Index := Scalar.indexCast v72
  let c0 : Index := 0#32
  ![v73.toNat, 0]

def k0_chk1 (k0_t3 : Fin k0_t3_loop.trips) (v71 : IVec S16 32) (v76 : IVec S16 32) : Prop :=
  (∀ (k0_h1 : k0_cond1 k0_t3 = 1#1), ∀ a x, ((![v71, v76] : Fin 2 → IVec S16 32) a x).toNat < S112x224.size a)
instance k0_chk1.dec : ∀ (k0_t3 : Fin k0_t3_loop.trips) (v71 : IVec S16 32) (v76 : IVec S16 32), Decidable (k0_chk1 k0_t3 v71 v76) := fun k0_t3 v71 v76 => decidable_of_iff' _ (Iff.of_eq (k0_chk1.eq_1 k0_t3 v71 v76))
theorem k0_idx1_inb : ∀ (k0_t3 : Fin k0_t3_loop.trips) (v71 : IVec S16 32) (v76 : IVec S16 32) (k0_hw1 : k0_chk1 k0_t3 v71 v76), ∀ (k0_h1 : k0_cond1 k0_t3 = 1#1), ∀ a x, ((![v71, v76] : Fin 2 → IVec S16 32) a x).toNat < S112x224.size a := fun k0_t3 v71 v76 k0_hw1 k0_h1 => k0_hw1 k0_h1
def k0_off7 (k0_t4 : Fin k0_t4_loop.trips) : Fin 2 → Nat :=
  let c0_i32_69 : BitVec 32 := 0#32
  let c0_i32_44 : BitVec 32 := 0#32
  let c1_i32_45 : BitVec 32 := 1#32
  let arg13 : BitVec 32 := Scf.iv c0_i32_44 c1_i32_45 k0_t4
  let v77 : BitVec 32 := Scalar.addi c0_i32_69 arg13
  let v78 : Index := Scalar.indexCast v77
  let c16 : Index := 16#32
  ![v78.toNat, 16]

def k0_chk2 (k0_t3 : Fin k0_t3_loop.trips) (v71 : IVec S16 32) (v81 : IVec S16 32) : Prop :=
  (∀ (k0_h1 : k0_cond1 k0_t3 = 1#1), ∀ a x, ((![v71, v81] : Fin 2 → IVec S16 32) a x).toNat < S112x224.size a)
instance k0_chk2.dec : ∀ (k0_t3 : Fin k0_t3_loop.trips) (v71 : IVec S16 32) (v81 : IVec S16 32), Decidable (k0_chk2 k0_t3 v71 v81) := fun k0_t3 v71 v81 => decidable_of_iff' _ (Iff.of_eq (k0_chk2.eq_1 k0_t3 v71 v81))
theorem k0_idx2_inb : ∀ (k0_t3 : Fin k0_t3_loop.trips) (v71 : IVec S16 32) (v81 : IVec S16 32) (k0_hw2 : k0_chk2 k0_t3 v71 v81), ∀ (k0_h1 : k0_cond1 k0_t3 = 1#1), ∀ a x, ((![v71, v81] : Fin 2 → IVec S16 32) a x).toNat < S112x224.size a := fun k0_t3 v71 v81 k0_hw2 k0_h1 => k0_hw2 k0_h1
def k0_off8 (k0_t4 : Fin k0_t4_loop.trips) : Fin 2 → Nat :=
  let c0_i32_70 : BitVec 32 := 0#32
  let c0_i32_44 : BitVec 32 := 0#32
  let c1_i32_45 : BitVec 32 := 1#32
  let arg13 : BitVec 32 := Scf.iv c0_i32_44 c1_i32_45 k0_t4
  let v82 : BitVec 32 := Scalar.addi c0_i32_70 arg13
  let v83 : Index := Scalar.indexCast v82
  let c32 : Index := 32#32
  ![v83.toNat, 32]

def k0_chk3 (k0_t3 : Fin k0_t3_loop.trips) (v71 : IVec S16 32) (v86 : IVec S16 32) : Prop :=
  (∀ (k0_h1 : k0_cond1 k0_t3 = 1#1), ∀ a x, ((![v71, v86] : Fin 2 → IVec S16 32) a x).toNat < S112x224.size a)
instance k0_chk3.dec : ∀ (k0_t3 : Fin k0_t3_loop.trips) (v71 : IVec S16 32) (v86 : IVec S16 32), Decidable (k0_chk3 k0_t3 v71 v86) := fun k0_t3 v71 v86 => decidable_of_iff' _ (Iff.of_eq (k0_chk3.eq_1 k0_t3 v71 v86))
theorem k0_idx3_inb : ∀ (k0_t3 : Fin k0_t3_loop.trips) (v71 : IVec S16 32) (v86 : IVec S16 32) (k0_hw3 : k0_chk3 k0_t3 v71 v86), ∀ (k0_h1 : k0_cond1 k0_t3 = 1#1), ∀ a x, ((![v71, v86] : Fin 2 → IVec S16 32) a x).toNat < S112x224.size a := fun k0_t3 v71 v86 k0_hw3 k0_h1 => k0_hw3 k0_h1
def k0_off9 (k0_t4 : Fin k0_t4_loop.trips) : Fin 2 → Nat :=
  let c0_i32_71 : BitVec 32 := 0#32
  let c0_i32_44 : BitVec 32 := 0#32
  let c1_i32_45 : BitVec 32 := 1#32
  let arg13 : BitVec 32 := Scf.iv c0_i32_44 c1_i32_45 k0_t4
  let v87 : BitVec 32 := Scalar.addi c0_i32_71 arg13
  let v88 : Index := Scalar.indexCast v87
  let c48 : Index := 48#32
  ![v88.toNat, 48]

def k0_chk4 (k0_t3 : Fin k0_t3_loop.trips) (v71 : IVec S16 32) (v91 : IVec S16 32) : Prop :=
  (∀ (k0_h1 : k0_cond1 k0_t3 = 1#1), ∀ a x, ((![v71, v91] : Fin 2 → IVec S16 32) a x).toNat < S112x224.size a)
instance k0_chk4.dec : ∀ (k0_t3 : Fin k0_t3_loop.trips) (v71 : IVec S16 32) (v91 : IVec S16 32), Decidable (k0_chk4 k0_t3 v71 v91) := fun k0_t3 v71 v91 => decidable_of_iff' _ (Iff.of_eq (k0_chk4.eq_1 k0_t3 v71 v91))
theorem k0_idx4_inb : ∀ (k0_t3 : Fin k0_t3_loop.trips) (v71 : IVec S16 32) (v91 : IVec S16 32) (k0_hw4 : k0_chk4 k0_t3 v71 v91), ∀ (k0_h1 : k0_cond1 k0_t3 = 1#1), ∀ a x, ((![v71, v91] : Fin 2 → IVec S16 32) a x).toNat < S112x224.size a := fun k0_t3 v71 v91 k0_hw4 k0_h1 => k0_hw4 k0_h1
def k0_off10 (k0_t4 : Fin k0_t4_loop.trips) : Fin 2 → Nat :=
  let c0_i32_72 : BitVec 32 := 0#32
  let c0_i32_44 : BitVec 32 := 0#32
  let c1_i32_45 : BitVec 32 := 1#32
  let arg13 : BitVec 32 := Scf.iv c0_i32_44 c1_i32_45 k0_t4
  let v92 : BitVec 32 := Scalar.addi c0_i32_72 arg13
  let v93 : Index := Scalar.indexCast v92
  let c64 : Index := 64#32
  ![v93.toNat, 64]

def k0_chk5 (k0_t3 : Fin k0_t3_loop.trips) (v71 : IVec S16 32) (v96 : IVec S16 32) : Prop :=
  (∀ (k0_h1 : k0_cond1 k0_t3 = 1#1), ∀ a x, ((![v71, v96] : Fin 2 → IVec S16 32) a x).toNat < S112x224.size a)
instance k0_chk5.dec : ∀ (k0_t3 : Fin k0_t3_loop.trips) (v71 : IVec S16 32) (v96 : IVec S16 32), Decidable (k0_chk5 k0_t3 v71 v96) := fun k0_t3 v71 v96 => decidable_of_iff' _ (Iff.of_eq (k0_chk5.eq_1 k0_t3 v71 v96))
theorem k0_idx5_inb : ∀ (k0_t3 : Fin k0_t3_loop.trips) (v71 : IVec S16 32) (v96 : IVec S16 32) (k0_hw5 : k0_chk5 k0_t3 v71 v96), ∀ (k0_h1 : k0_cond1 k0_t3 = 1#1), ∀ a x, ((![v71, v96] : Fin 2 → IVec S16 32) a x).toNat < S112x224.size a := fun k0_t3 v71 v96 k0_hw5 k0_h1 => k0_hw5 k0_h1
def k0_off11 (k0_t4 : Fin k0_t4_loop.trips) : Fin 2 → Nat :=
  let c0_i32_73 : BitVec 32 := 0#32
  let c0_i32_44 : BitVec 32 := 0#32
  let c1_i32_45 : BitVec 32 := 1#32
  let arg13 : BitVec 32 := Scf.iv c0_i32_44 c1_i32_45 k0_t4
  let v97 : BitVec 32 := Scalar.addi c0_i32_73 arg13
  let v98 : Index := Scalar.indexCast v97
  let c80 : Index := 80#32
  ![v98.toNat, 80]

def k0_chk6 (k0_t3 : Fin k0_t3_loop.trips) (v71 : IVec S16 32) (v101 : IVec S16 32) : Prop :=
  (∀ (k0_h1 : k0_cond1 k0_t3 = 1#1), ∀ a x, ((![v71, v101] : Fin 2 → IVec S16 32) a x).toNat < S112x224.size a)
instance k0_chk6.dec : ∀ (k0_t3 : Fin k0_t3_loop.trips) (v71 : IVec S16 32) (v101 : IVec S16 32), Decidable (k0_chk6 k0_t3 v71 v101) := fun k0_t3 v71 v101 => decidable_of_iff' _ (Iff.of_eq (k0_chk6.eq_1 k0_t3 v71 v101))
theorem k0_idx6_inb : ∀ (k0_t3 : Fin k0_t3_loop.trips) (v71 : IVec S16 32) (v101 : IVec S16 32) (k0_hw6 : k0_chk6 k0_t3 v71 v101), ∀ (k0_h1 : k0_cond1 k0_t3 = 1#1), ∀ a x, ((![v71, v101] : Fin 2 → IVec S16 32) a x).toNat < S112x224.size a := fun k0_t3 v71 v101 k0_hw6 k0_h1 => k0_hw6 k0_h1
def k0_off12 (k0_t4 : Fin k0_t4_loop.trips) : Fin 2 → Nat :=
  let c0_i32_74 : BitVec 32 := 0#32
  let c0_i32_44 : BitVec 32 := 0#32
  let c1_i32_45 : BitVec 32 := 1#32
  let arg13 : BitVec 32 := Scf.iv c0_i32_44 c1_i32_45 k0_t4
  let v102 : BitVec 32 := Scalar.addi c0_i32_74 arg13
  let v103 : Index := Scalar.indexCast v102
  let c96 : Index := 96#32
  ![v103.toNat, 96]

def k0_chk7 (k0_t3 : Fin k0_t3_loop.trips) (v71 : IVec S16 32) (v106 : IVec S16 32) : Prop :=
  (∀ (k0_h1 : k0_cond1 k0_t3 = 1#1), ∀ a x, ((![v71, v106] : Fin 2 → IVec S16 32) a x).toNat < S112x224.size a)
instance k0_chk7.dec : ∀ (k0_t3 : Fin k0_t3_loop.trips) (v71 : IVec S16 32) (v106 : IVec S16 32), Decidable (k0_chk7 k0_t3 v71 v106) := fun k0_t3 v71 v106 => decidable_of_iff' _ (Iff.of_eq (k0_chk7.eq_1 k0_t3 v71 v106))
theorem k0_idx7_inb : ∀ (k0_t3 : Fin k0_t3_loop.trips) (v71 : IVec S16 32) (v106 : IVec S16 32) (k0_hw7 : k0_chk7 k0_t3 v71 v106), ∀ (k0_h1 : k0_cond1 k0_t3 = 1#1), ∀ a x, ((![v71, v106] : Fin 2 → IVec S16 32) a x).toNat < S112x224.size a := fun k0_t3 v71 v106 k0_hw7 k0_h1 => k0_hw7 k0_h1
def k0_off13 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c0_i32_47 : BitVec 32 := 0#32
  let c0_i32_48 : BitVec 32 := 0#32
  ![v38.toNat, 0, 0]
def k0_cond3 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c0_i32_51 : BitVec 32 := 0#32
  let v57 : BitVec 1 := Scalar.cmpi .sgt arg12 c0_i32_51
  let v58 : BitVec 32 := Scalar.extui v57
  let c0_i32_52 : BitVec 32 := 0#32
  let v59 : BitVec 1 := Scalar.cmpi .ne v58 c0_i32_52
  v59

def k0_off14 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c112_i32_65 : BitVec 32 := 112#32
  let c0_i32_66 : BitVec 32 := 0#32
  ![v38.toNat, 112, 0]
@[reducible] def k0_t5_loop : Scf.Loop 32 :=
  let c0_i32_54 : BitVec 32 := 0#32
  let c56_i32_55 : BitVec 32 := 56#32
  let v60 : BitVec 32 := Scalar.addi c0_i32_54 c56_i32_55
  let c1_i32_56 : BitVec 32 := 1#32
  ⟨c0_i32_54, v60, c1_i32_56⟩
def k0_off15 (k0_t5 : Fin k0_t5_loop.trips) : Fin 2 → Nat :=
  let c56_i32_67 : BitVec 32 := 56#32
  let c0_i32_54 : BitVec 32 := 0#32
  let c1_i32_56 : BitVec 32 := 1#32
  let arg13 : BitVec 32 := Scf.iv c0_i32_54 c1_i32_56 k0_t5
  let v72 : BitVec 32 := Scalar.addi c56_i32_67 arg13
  let v73 : Index := Scalar.indexCast v72
  let c0 : Index := 0#32
  ![v73.toNat, 0]

def k0_chk8 (k0_t3 : Fin k0_t3_loop.trips) (v71 : IVec S16 32) (v76 : IVec S16 32) : Prop :=
  (∀ (k0_h1 : k0_cond1 k0_t3 = 1#1), ∀ a x, ((![v71, v76] : Fin 2 → IVec S16 32) a x).toNat < S112x224.size a)
instance k0_chk8.dec : ∀ (k0_t3 : Fin k0_t3_loop.trips) (v71 : IVec S16 32) (v76 : IVec S16 32), Decidable (k0_chk8 k0_t3 v71 v76) := fun k0_t3 v71 v76 => decidable_of_iff' _ (Iff.of_eq (k0_chk8.eq_1 k0_t3 v71 v76))
theorem k0_idx8_inb : ∀ (k0_t3 : Fin k0_t3_loop.trips) (v71 : IVec S16 32) (v76 : IVec S16 32) (k0_hw8 : k0_chk8 k0_t3 v71 v76), ∀ (k0_h1 : k0_cond1 k0_t3 = 1#1), ∀ a x, ((![v71, v76] : Fin 2 → IVec S16 32) a x).toNat < S112x224.size a := fun k0_t3 v71 v76 k0_hw8 k0_h1 => k0_hw8 k0_h1
def k0_off16 (k0_t5 : Fin k0_t5_loop.trips) : Fin 2 → Nat :=
  let c56_i32_69 : BitVec 32 := 56#32
  let c0_i32_54 : BitVec 32 := 0#32
  let c1_i32_56 : BitVec 32 := 1#32
  let arg13 : BitVec 32 := Scf.iv c0_i32_54 c1_i32_56 k0_t5
  let v77 : BitVec 32 := Scalar.addi c56_i32_69 arg13
  let v78 : Index := Scalar.indexCast v77
  let c16 : Index := 16#32
  ![v78.toNat, 16]

def k0_chk9 (k0_t3 : Fin k0_t3_loop.trips) (v71 : IVec S16 32) (v81 : IVec S16 32) : Prop :=
  (∀ (k0_h1 : k0_cond1 k0_t3 = 1#1), ∀ a x, ((![v71, v81] : Fin 2 → IVec S16 32) a x).toNat < S112x224.size a)
instance k0_chk9.dec : ∀ (k0_t3 : Fin k0_t3_loop.trips) (v71 : IVec S16 32) (v81 : IVec S16 32), Decidable (k0_chk9 k0_t3 v71 v81) := fun k0_t3 v71 v81 => decidable_of_iff' _ (Iff.of_eq (k0_chk9.eq_1 k0_t3 v71 v81))
theorem k0_idx9_inb : ∀ (k0_t3 : Fin k0_t3_loop.trips) (v71 : IVec S16 32) (v81 : IVec S16 32) (k0_hw9 : k0_chk9 k0_t3 v71 v81), ∀ (k0_h1 : k0_cond1 k0_t3 = 1#1), ∀ a x, ((![v71, v81] : Fin 2 → IVec S16 32) a x).toNat < S112x224.size a := fun k0_t3 v71 v81 k0_hw9 k0_h1 => k0_hw9 k0_h1
def k0_off17 (k0_t5 : Fin k0_t5_loop.trips) : Fin 2 → Nat :=
  let c56_i32_70 : BitVec 32 := 56#32
  let c0_i32_54 : BitVec 32 := 0#32
  let c1_i32_56 : BitVec 32 := 1#32
  let arg13 : BitVec 32 := Scf.iv c0_i32_54 c1_i32_56 k0_t5
  let v82 : BitVec 32 := Scalar.addi c56_i32_70 arg13
  let v83 : Index := Scalar.indexCast v82
  let c32 : Index := 32#32
  ![v83.toNat, 32]

def k0_chk10 (k0_t3 : Fin k0_t3_loop.trips) (v71 : IVec S16 32) (v86 : IVec S16 32) : Prop :=
  (∀ (k0_h1 : k0_cond1 k0_t3 = 1#1), ∀ a x, ((![v71, v86] : Fin 2 → IVec S16 32) a x).toNat < S112x224.size a)
instance k0_chk10.dec : ∀ (k0_t3 : Fin k0_t3_loop.trips) (v71 : IVec S16 32) (v86 : IVec S16 32), Decidable (k0_chk10 k0_t3 v71 v86) := fun k0_t3 v71 v86 => decidable_of_iff' _ (Iff.of_eq (k0_chk10.eq_1 k0_t3 v71 v86))
theorem k0_idx10_inb : ∀ (k0_t3 : Fin k0_t3_loop.trips) (v71 : IVec S16 32) (v86 : IVec S16 32) (k0_hw10 : k0_chk10 k0_t3 v71 v86), ∀ (k0_h1 : k0_cond1 k0_t3 = 1#1), ∀ a x, ((![v71, v86] : Fin 2 → IVec S16 32) a x).toNat < S112x224.size a := fun k0_t3 v71 v86 k0_hw10 k0_h1 => k0_hw10 k0_h1
def k0_off18 (k0_t5 : Fin k0_t5_loop.trips) : Fin 2 → Nat :=
  let c56_i32_71 : BitVec 32 := 56#32
  let c0_i32_54 : BitVec 32 := 0#32
  let c1_i32_56 : BitVec 32 := 1#32
  let arg13 : BitVec 32 := Scf.iv c0_i32_54 c1_i32_56 k0_t5
  let v87 : BitVec 32 := Scalar.addi c56_i32_71 arg13
  let v88 : Index := Scalar.indexCast v87
  let c48 : Index := 48#32
  ![v88.toNat, 48]

def k0_chk11 (k0_t3 : Fin k0_t3_loop.trips) (v71 : IVec S16 32) (v91 : IVec S16 32) : Prop :=
  (∀ (k0_h1 : k0_cond1 k0_t3 = 1#1), ∀ a x, ((![v71, v91] : Fin 2 → IVec S16 32) a x).toNat < S112x224.size a)
instance k0_chk11.dec : ∀ (k0_t3 : Fin k0_t3_loop.trips) (v71 : IVec S16 32) (v91 : IVec S16 32), Decidable (k0_chk11 k0_t3 v71 v91) := fun k0_t3 v71 v91 => decidable_of_iff' _ (Iff.of_eq (k0_chk11.eq_1 k0_t3 v71 v91))
theorem k0_idx11_inb : ∀ (k0_t3 : Fin k0_t3_loop.trips) (v71 : IVec S16 32) (v91 : IVec S16 32) (k0_hw11 : k0_chk11 k0_t3 v71 v91), ∀ (k0_h1 : k0_cond1 k0_t3 = 1#1), ∀ a x, ((![v71, v91] : Fin 2 → IVec S16 32) a x).toNat < S112x224.size a := fun k0_t3 v71 v91 k0_hw11 k0_h1 => k0_hw11 k0_h1
def k0_off19 (k0_t5 : Fin k0_t5_loop.trips) : Fin 2 → Nat :=
  let c56_i32_72 : BitVec 32 := 56#32
  let c0_i32_54 : BitVec 32 := 0#32
  let c1_i32_56 : BitVec 32 := 1#32
  let arg13 : BitVec 32 := Scf.iv c0_i32_54 c1_i32_56 k0_t5
  let v92 : BitVec 32 := Scalar.addi c56_i32_72 arg13
  let v93 : Index := Scalar.indexCast v92
  let c64 : Index := 64#32
  ![v93.toNat, 64]

def k0_chk12 (k0_t3 : Fin k0_t3_loop.trips) (v71 : IVec S16 32) (v96 : IVec S16 32) : Prop :=
  (∀ (k0_h1 : k0_cond1 k0_t3 = 1#1), ∀ a x, ((![v71, v96] : Fin 2 → IVec S16 32) a x).toNat < S112x224.size a)
instance k0_chk12.dec : ∀ (k0_t3 : Fin k0_t3_loop.trips) (v71 : IVec S16 32) (v96 : IVec S16 32), Decidable (k0_chk12 k0_t3 v71 v96) := fun k0_t3 v71 v96 => decidable_of_iff' _ (Iff.of_eq (k0_chk12.eq_1 k0_t3 v71 v96))
theorem k0_idx12_inb : ∀ (k0_t3 : Fin k0_t3_loop.trips) (v71 : IVec S16 32) (v96 : IVec S16 32) (k0_hw12 : k0_chk12 k0_t3 v71 v96), ∀ (k0_h1 : k0_cond1 k0_t3 = 1#1), ∀ a x, ((![v71, v96] : Fin 2 → IVec S16 32) a x).toNat < S112x224.size a := fun k0_t3 v71 v96 k0_hw12 k0_h1 => k0_hw12 k0_h1
def k0_off20 (k0_t5 : Fin k0_t5_loop.trips) : Fin 2 → Nat :=
  let c56_i32_73 : BitVec 32 := 56#32
  let c0_i32_54 : BitVec 32 := 0#32
  let c1_i32_56 : BitVec 32 := 1#32
  let arg13 : BitVec 32 := Scf.iv c0_i32_54 c1_i32_56 k0_t5
  let v97 : BitVec 32 := Scalar.addi c56_i32_73 arg13
  let v98 : Index := Scalar.indexCast v97
  let c80 : Index := 80#32
  ![v98.toNat, 80]

def k0_chk13 (k0_t3 : Fin k0_t3_loop.trips) (v71 : IVec S16 32) (v101 : IVec S16 32) : Prop :=
  (∀ (k0_h1 : k0_cond1 k0_t3 = 1#1), ∀ a x, ((![v71, v101] : Fin 2 → IVec S16 32) a x).toNat < S112x224.size a)
instance k0_chk13.dec : ∀ (k0_t3 : Fin k0_t3_loop.trips) (v71 : IVec S16 32) (v101 : IVec S16 32), Decidable (k0_chk13 k0_t3 v71 v101) := fun k0_t3 v71 v101 => decidable_of_iff' _ (Iff.of_eq (k0_chk13.eq_1 k0_t3 v71 v101))
theorem k0_idx13_inb : ∀ (k0_t3 : Fin k0_t3_loop.trips) (v71 : IVec S16 32) (v101 : IVec S16 32) (k0_hw13 : k0_chk13 k0_t3 v71 v101), ∀ (k0_h1 : k0_cond1 k0_t3 = 1#1), ∀ a x, ((![v71, v101] : Fin 2 → IVec S16 32) a x).toNat < S112x224.size a := fun k0_t3 v71 v101 k0_hw13 k0_h1 => k0_hw13 k0_h1
def k0_off21 (k0_t5 : Fin k0_t5_loop.trips) : Fin 2 → Nat :=
  let c56_i32_74 : BitVec 32 := 56#32
  let c0_i32_54 : BitVec 32 := 0#32
  let c1_i32_56 : BitVec 32 := 1#32
  let arg13 : BitVec 32 := Scf.iv c0_i32_54 c1_i32_56 k0_t5
  let v102 : BitVec 32 := Scalar.addi c56_i32_74 arg13
  let v103 : Index := Scalar.indexCast v102
  let c96 : Index := 96#32
  ![v103.toNat, 96]

def k0_chk14 (k0_t3 : Fin k0_t3_loop.trips) (v71 : IVec S16 32) (v106 : IVec S16 32) : Prop :=
  (∀ (k0_h1 : k0_cond1 k0_t3 = 1#1), ∀ a x, ((![v71, v106] : Fin 2 → IVec S16 32) a x).toNat < S112x224.size a)
instance k0_chk14.dec : ∀ (k0_t3 : Fin k0_t3_loop.trips) (v71 : IVec S16 32) (v106 : IVec S16 32), Decidable (k0_chk14 k0_t3 v71 v106) := fun k0_t3 v71 v106 => decidable_of_iff' _ (Iff.of_eq (k0_chk14.eq_1 k0_t3 v71 v106))
theorem k0_idx14_inb : ∀ (k0_t3 : Fin k0_t3_loop.trips) (v71 : IVec S16 32) (v106 : IVec S16 32) (k0_hw14 : k0_chk14 k0_t3 v71 v106), ∀ (k0_h1 : k0_cond1 k0_t3 = 1#1), ∀ a x, ((![v71, v106] : Fin 2 → IVec S16 32) a x).toNat < S112x224.size a := fun k0_t3 v71 v106 k0_hw14 k0_h1 => k0_hw14 k0_h1
def k0_off22 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c112_i32_58 : BitVec 32 := 112#32
  let c0_i32_59 : BitVec 32 := 0#32
  ![v38.toNat, 112, 0]
def k0_cond4 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c2_i32_62 : BitVec 32 := 2#32
  let v65 : BitVec 32 := Scalar.addi arg12 c2_i32_62
  let c48_i32_63 : BitVec 32 := 48#32
  let v66 : BitVec 1 := Scalar.cmpi .slt v65 c48_i32_63
  let v67 : BitVec 32 := Scalar.extui v66
  let c0_i32_64 : BitVec 32 := 0#32
  let v68 : BitVec 1 := Scalar.cmpi .ne v67 c0_i32_64
  v68

def k0_off23 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c2_i32_65 : BitVec 32 := 2#32
  let v69 : BitVec 32 := Scalar.addi v38 c2_i32_65
  let c0_i32_66 : BitVec 32 := 0#32
  let c0_i32_67 : BitVec 32 := 0#32
  ![v69.toNat, 0, 0]
def k0_cond5 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c2_i32_27 : BitVec 32 := 2#32
  let c0_i32_28 : BitVec 32 := 0#32
  let v28 : BitVec 1 := Scalar.cmpi .eq c2_i32_27 c0_i32_28
  let c1_i32_29 : BitVec 32 := 1#32
  let v29 : BitVec 32 := Scalar.select v28 c1_i32_29 c2_i32_27
  let v30 : BitVec 32 := Scalar.remsi arg12 v29
  let c0_i32_31 : BitVec 32 := 0#32
  let v32 : BitVec 1 := Scalar.cmpi .slt v30 c0_i32_31
  let c0_i32_32 : BitVec 32 := 0#32
  let v33 : BitVec 1 := Scalar.cmpi .slt v29 c0_i32_32
  let v34 : BitVec 1 := Scalar.xori v32 v33
  let c0_i32_30 : BitVec 32 := 0#32
  let v31 : BitVec 1 := Scalar.cmpi .ne v30 c0_i32_30
  let v35 : BitVec 1 := Scalar.andi v34 v31
  let v36 : BitVec 32 := Scalar.addi v30 v29
  let v37 : BitVec 32 := Scalar.select v35 v36 v30
  let c1_i32_35 : BitVec 32 := 1#32
  let v42 : BitVec 1 := Scalar.cmpi .eq v37 c1_i32_35
  let v43 : BitVec 32 := Scalar.extui v42
  let c0_i32_36 : BitVec 32 := 0#32
  let v44 : BitVec 1 := Scalar.cmpi .ne v43 c0_i32_36
  v44

def k0_off24 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c0_i32_37 : BitVec 32 := 0#32
  let c0_i32_38 : BitVec 32 := 0#32
  ![v38.toNat, 0, 0]
def k0_cond6 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c0_i32_41 : BitVec 32 := 0#32
  let v49 : BitVec 1 := Scalar.cmpi .sgt arg12 c0_i32_41
  let v50 : BitVec 32 := Scalar.extui v49
  let c0_i32_42 : BitVec 32 := 0#32
  let v51 : BitVec 1 := Scalar.cmpi .ne v50 c0_i32_42
  v51

def k0_off25 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c0_i32_65 : BitVec 32 := 0#32
  let c0_i32_66 : BitVec 32 := 0#32
  ![v38.toNat, 0, 0]
@[reducible] def k0_t6_loop : Scf.Loop 32 :=
  let c0_i32_44 : BitVec 32 := 0#32
  let c56_i32 : BitVec 32 := 56#32
  let v52 : BitVec 32 := Scalar.addi c0_i32_44 c56_i32
  let c1_i32_45 : BitVec 32 := 1#32
  ⟨c0_i32_44, v52, c1_i32_45⟩
def k0_off26 (k0_t6 : Fin k0_t6_loop.trips) : Fin 2 → Nat :=
  let c0_i32_67 : BitVec 32 := 0#32
  let c0_i32_44 : BitVec 32 := 0#32
  let c1_i32_45 : BitVec 32 := 1#32
  let arg13 : BitVec 32 := Scf.iv c0_i32_44 c1_i32_45 k0_t6
  let v72 : BitVec 32 := Scalar.addi c0_i32_67 arg13
  let v73 : Index := Scalar.indexCast v72
  let c0 : Index := 0#32
  ![v73.toNat, 0]

def k0_chk15 (k0_t3 : Fin k0_t3_loop.trips) (v71 : IVec S16 32) (v76 : IVec S16 32) : Prop :=
  (∀ (k0_h5 : k0_cond5 k0_t3 = 1#1), ∀ a x, ((![v71, v76] : Fin 2 → IVec S16 32) a x).toNat < S112x224.size a)
instance k0_chk15.dec : ∀ (k0_t3 : Fin k0_t3_loop.trips) (v71 : IVec S16 32) (v76 : IVec S16 32), Decidable (k0_chk15 k0_t3 v71 v76) := fun k0_t3 v71 v76 => decidable_of_iff' _ (Iff.of_eq (k0_chk15.eq_1 k0_t3 v71 v76))
theorem k0_idx15_inb : ∀ (k0_t3 : Fin k0_t3_loop.trips) (v71 : IVec S16 32) (v76 : IVec S16 32) (k0_hw15 : k0_chk15 k0_t3 v71 v76), ∀ (k0_h5 : k0_cond5 k0_t3 = 1#1), ∀ a x, ((![v71, v76] : Fin 2 → IVec S16 32) a x).toNat < S112x224.size a := fun k0_t3 v71 v76 k0_hw15 k0_h5 => k0_hw15 k0_h5
def k0_off27 (k0_t6 : Fin k0_t6_loop.trips) : Fin 2 → Nat :=
  let c0_i32_69 : BitVec 32 := 0#32
  let c0_i32_44 : BitVec 32 := 0#32
  let c1_i32_45 : BitVec 32 := 1#32
  let arg13 : BitVec 32 := Scf.iv c0_i32_44 c1_i32_45 k0_t6
  let v77 : BitVec 32 := Scalar.addi c0_i32_69 arg13
  let v78 : Index := Scalar.indexCast v77
  let c16 : Index := 16#32
  ![v78.toNat, 16]

def k0_chk16 (k0_t3 : Fin k0_t3_loop.trips) (v71 : IVec S16 32) (v81 : IVec S16 32) : Prop :=
  (∀ (k0_h5 : k0_cond5 k0_t3 = 1#1), ∀ a x, ((![v71, v81] : Fin 2 → IVec S16 32) a x).toNat < S112x224.size a)
instance k0_chk16.dec : ∀ (k0_t3 : Fin k0_t3_loop.trips) (v71 : IVec S16 32) (v81 : IVec S16 32), Decidable (k0_chk16 k0_t3 v71 v81) := fun k0_t3 v71 v81 => decidable_of_iff' _ (Iff.of_eq (k0_chk16.eq_1 k0_t3 v71 v81))
theorem k0_idx16_inb : ∀ (k0_t3 : Fin k0_t3_loop.trips) (v71 : IVec S16 32) (v81 : IVec S16 32) (k0_hw16 : k0_chk16 k0_t3 v71 v81), ∀ (k0_h5 : k0_cond5 k0_t3 = 1#1), ∀ a x, ((![v71, v81] : Fin 2 → IVec S16 32) a x).toNat < S112x224.size a := fun k0_t3 v71 v81 k0_hw16 k0_h5 => k0_hw16 k0_h5
def k0_off28 (k0_t6 : Fin k0_t6_loop.trips) : Fin 2 → Nat :=
  let c0_i32_70 : BitVec 32 := 0#32
  let c0_i32_44 : BitVec 32 := 0#32
  let c1_i32_45 : BitVec 32 := 1#32
  let arg13 : BitVec 32 := Scf.iv c0_i32_44 c1_i32_45 k0_t6
  let v82 : BitVec 32 := Scalar.addi c0_i32_70 arg13
  let v83 : Index := Scalar.indexCast v82
  let c32 : Index := 32#32
  ![v83.toNat, 32]

def k0_chk17 (k0_t3 : Fin k0_t3_loop.trips) (v71 : IVec S16 32) (v86 : IVec S16 32) : Prop :=
  (∀ (k0_h5 : k0_cond5 k0_t3 = 1#1), ∀ a x, ((![v71, v86] : Fin 2 → IVec S16 32) a x).toNat < S112x224.size a)
instance k0_chk17.dec : ∀ (k0_t3 : Fin k0_t3_loop.trips) (v71 : IVec S16 32) (v86 : IVec S16 32), Decidable (k0_chk17 k0_t3 v71 v86) := fun k0_t3 v71 v86 => decidable_of_iff' _ (Iff.of_eq (k0_chk17.eq_1 k0_t3 v71 v86))
theorem k0_idx17_inb : ∀ (k0_t3 : Fin k0_t3_loop.trips) (v71 : IVec S16 32) (v86 : IVec S16 32) (k0_hw17 : k0_chk17 k0_t3 v71 v86), ∀ (k0_h5 : k0_cond5 k0_t3 = 1#1), ∀ a x, ((![v71, v86] : Fin 2 → IVec S16 32) a x).toNat < S112x224.size a := fun k0_t3 v71 v86 k0_hw17 k0_h5 => k0_hw17 k0_h5
def k0_off29 (k0_t6 : Fin k0_t6_loop.trips) : Fin 2 → Nat :=
  let c0_i32_71 : BitVec 32 := 0#32
  let c0_i32_44 : BitVec 32 := 0#32
  let c1_i32_45 : BitVec 32 := 1#32
  let arg13 : BitVec 32 := Scf.iv c0_i32_44 c1_i32_45 k0_t6
  let v87 : BitVec 32 := Scalar.addi c0_i32_71 arg13
  let v88 : Index := Scalar.indexCast v87
  let c48 : Index := 48#32
  ![v88.toNat, 48]

def k0_chk18 (k0_t3 : Fin k0_t3_loop.trips) (v71 : IVec S16 32) (v91 : IVec S16 32) : Prop :=
  (∀ (k0_h5 : k0_cond5 k0_t3 = 1#1), ∀ a x, ((![v71, v91] : Fin 2 → IVec S16 32) a x).toNat < S112x224.size a)
instance k0_chk18.dec : ∀ (k0_t3 : Fin k0_t3_loop.trips) (v71 : IVec S16 32) (v91 : IVec S16 32), Decidable (k0_chk18 k0_t3 v71 v91) := fun k0_t3 v71 v91 => decidable_of_iff' _ (Iff.of_eq (k0_chk18.eq_1 k0_t3 v71 v91))
theorem k0_idx18_inb : ∀ (k0_t3 : Fin k0_t3_loop.trips) (v71 : IVec S16 32) (v91 : IVec S16 32) (k0_hw18 : k0_chk18 k0_t3 v71 v91), ∀ (k0_h5 : k0_cond5 k0_t3 = 1#1), ∀ a x, ((![v71, v91] : Fin 2 → IVec S16 32) a x).toNat < S112x224.size a := fun k0_t3 v71 v91 k0_hw18 k0_h5 => k0_hw18 k0_h5
def k0_off30 (k0_t6 : Fin k0_t6_loop.trips) : Fin 2 → Nat :=
  let c0_i32_72 : BitVec 32 := 0#32
  let c0_i32_44 : BitVec 32 := 0#32
  let c1_i32_45 : BitVec 32 := 1#32
  let arg13 : BitVec 32 := Scf.iv c0_i32_44 c1_i32_45 k0_t6
  let v92 : BitVec 32 := Scalar.addi c0_i32_72 arg13
  let v93 : Index := Scalar.indexCast v92
  let c64 : Index := 64#32
  ![v93.toNat, 64]

def k0_chk19 (k0_t3 : Fin k0_t3_loop.trips) (v71 : IVec S16 32) (v96 : IVec S16 32) : Prop :=
  (∀ (k0_h5 : k0_cond5 k0_t3 = 1#1), ∀ a x, ((![v71, v96] : Fin 2 → IVec S16 32) a x).toNat < S112x224.size a)
instance k0_chk19.dec : ∀ (k0_t3 : Fin k0_t3_loop.trips) (v71 : IVec S16 32) (v96 : IVec S16 32), Decidable (k0_chk19 k0_t3 v71 v96) := fun k0_t3 v71 v96 => decidable_of_iff' _ (Iff.of_eq (k0_chk19.eq_1 k0_t3 v71 v96))
theorem k0_idx19_inb : ∀ (k0_t3 : Fin k0_t3_loop.trips) (v71 : IVec S16 32) (v96 : IVec S16 32) (k0_hw19 : k0_chk19 k0_t3 v71 v96), ∀ (k0_h5 : k0_cond5 k0_t3 = 1#1), ∀ a x, ((![v71, v96] : Fin 2 → IVec S16 32) a x).toNat < S112x224.size a := fun k0_t3 v71 v96 k0_hw19 k0_h5 => k0_hw19 k0_h5
def k0_off31 (k0_t6 : Fin k0_t6_loop.trips) : Fin 2 → Nat :=
  let c0_i32_73 : BitVec 32 := 0#32
  let c0_i32_44 : BitVec 32 := 0#32
  let c1_i32_45 : BitVec 32 := 1#32
  let arg13 : BitVec 32 := Scf.iv c0_i32_44 c1_i32_45 k0_t6
  let v97 : BitVec 32 := Scalar.addi c0_i32_73 arg13
  let v98 : Index := Scalar.indexCast v97
  let c80 : Index := 80#32
  ![v98.toNat, 80]

def k0_chk20 (k0_t3 : Fin k0_t3_loop.trips) (v71 : IVec S16 32) (v101 : IVec S16 32) : Prop :=
  (∀ (k0_h5 : k0_cond5 k0_t3 = 1#1), ∀ a x, ((![v71, v101] : Fin 2 → IVec S16 32) a x).toNat < S112x224.size a)
instance k0_chk20.dec : ∀ (k0_t3 : Fin k0_t3_loop.trips) (v71 : IVec S16 32) (v101 : IVec S16 32), Decidable (k0_chk20 k0_t3 v71 v101) := fun k0_t3 v71 v101 => decidable_of_iff' _ (Iff.of_eq (k0_chk20.eq_1 k0_t3 v71 v101))
theorem k0_idx20_inb : ∀ (k0_t3 : Fin k0_t3_loop.trips) (v71 : IVec S16 32) (v101 : IVec S16 32) (k0_hw20 : k0_chk20 k0_t3 v71 v101), ∀ (k0_h5 : k0_cond5 k0_t3 = 1#1), ∀ a x, ((![v71, v101] : Fin 2 → IVec S16 32) a x).toNat < S112x224.size a := fun k0_t3 v71 v101 k0_hw20 k0_h5 => k0_hw20 k0_h5
def k0_off32 (k0_t6 : Fin k0_t6_loop.trips) : Fin 2 → Nat :=
  let c0_i32_74 : BitVec 32 := 0#32
  let c0_i32_44 : BitVec 32 := 0#32
  let c1_i32_45 : BitVec 32 := 1#32
  let arg13 : BitVec 32 := Scf.iv c0_i32_44 c1_i32_45 k0_t6
  let v102 : BitVec 32 := Scalar.addi c0_i32_74 arg13
  let v103 : Index := Scalar.indexCast v102
  let c96 : Index := 96#32
  ![v103.toNat, 96]

def k0_chk21 (k0_t3 : Fin k0_t3_loop.trips) (v71 : IVec S16 32) (v106 : IVec S16 32) : Prop :=
  (∀ (k0_h5 : k0_cond5 k0_t3 = 1#1), ∀ a x, ((![v71, v106] : Fin 2 → IVec S16 32) a x).toNat < S112x224.size a)
instance k0_chk21.dec : ∀ (k0_t3 : Fin k0_t3_loop.trips) (v71 : IVec S16 32) (v106 : IVec S16 32), Decidable (k0_chk21 k0_t3 v71 v106) := fun k0_t3 v71 v106 => decidable_of_iff' _ (Iff.of_eq (k0_chk21.eq_1 k0_t3 v71 v106))
theorem k0_idx21_inb : ∀ (k0_t3 : Fin k0_t3_loop.trips) (v71 : IVec S16 32) (v106 : IVec S16 32) (k0_hw21 : k0_chk21 k0_t3 v71 v106), ∀ (k0_h5 : k0_cond5 k0_t3 = 1#1), ∀ a x, ((![v71, v106] : Fin 2 → IVec S16 32) a x).toNat < S112x224.size a := fun k0_t3 v71 v106 k0_hw21 k0_h5 => k0_hw21 k0_h5
def k0_off33 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c0_i32_47 : BitVec 32 := 0#32
  let c0_i32_48 : BitVec 32 := 0#32
  ![v38.toNat, 0, 0]
def k0_cond7 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c0_i32_51 : BitVec 32 := 0#32
  let v57 : BitVec 1 := Scalar.cmpi .sgt arg12 c0_i32_51
  let v58 : BitVec 32 := Scalar.extui v57
  let c0_i32_52 : BitVec 32 := 0#32
  let v59 : BitVec 1 := Scalar.cmpi .ne v58 c0_i32_52
  v59

def k0_off34 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c112_i32_65 : BitVec 32 := 112#32
  let c0_i32_66 : BitVec 32 := 0#32
  ![v38.toNat, 112, 0]
@[reducible] def k0_t7_loop : Scf.Loop 32 :=
  let c0_i32_54 : BitVec 32 := 0#32
  let c56_i32_55 : BitVec 32 := 56#32
  let v60 : BitVec 32 := Scalar.addi c0_i32_54 c56_i32_55
  let c1_i32_56 : BitVec 32 := 1#32
  ⟨c0_i32_54, v60, c1_i32_56⟩
def k0_off35 (k0_t7 : Fin k0_t7_loop.trips) : Fin 2 → Nat :=
  let c56_i32_67 : BitVec 32 := 56#32
  let c0_i32_54 : BitVec 32 := 0#32
  let c1_i32_56 : BitVec 32 := 1#32
  let arg13 : BitVec 32 := Scf.iv c0_i32_54 c1_i32_56 k0_t7
  let v72 : BitVec 32 := Scalar.addi c56_i32_67 arg13
  let v73 : Index := Scalar.indexCast v72
  let c0 : Index := 0#32
  ![v73.toNat, 0]

def k0_chk22 (k0_t3 : Fin k0_t3_loop.trips) (v71 : IVec S16 32) (v76 : IVec S16 32) : Prop :=
  (∀ (k0_h5 : k0_cond5 k0_t3 = 1#1), ∀ a x, ((![v71, v76] : Fin 2 → IVec S16 32) a x).toNat < S112x224.size a)
instance k0_chk22.dec : ∀ (k0_t3 : Fin k0_t3_loop.trips) (v71 : IVec S16 32) (v76 : IVec S16 32), Decidable (k0_chk22 k0_t3 v71 v76) := fun k0_t3 v71 v76 => decidable_of_iff' _ (Iff.of_eq (k0_chk22.eq_1 k0_t3 v71 v76))
theorem k0_idx22_inb : ∀ (k0_t3 : Fin k0_t3_loop.trips) (v71 : IVec S16 32) (v76 : IVec S16 32) (k0_hw22 : k0_chk22 k0_t3 v71 v76), ∀ (k0_h5 : k0_cond5 k0_t3 = 1#1), ∀ a x, ((![v71, v76] : Fin 2 → IVec S16 32) a x).toNat < S112x224.size a := fun k0_t3 v71 v76 k0_hw22 k0_h5 => k0_hw22 k0_h5
def k0_off36 (k0_t7 : Fin k0_t7_loop.trips) : Fin 2 → Nat :=
  let c56_i32_69 : BitVec 32 := 56#32
  let c0_i32_54 : BitVec 32 := 0#32
  let c1_i32_56 : BitVec 32 := 1#32
  let arg13 : BitVec 32 := Scf.iv c0_i32_54 c1_i32_56 k0_t7
  let v77 : BitVec 32 := Scalar.addi c56_i32_69 arg13
  let v78 : Index := Scalar.indexCast v77
  let c16 : Index := 16#32
  ![v78.toNat, 16]

def k0_chk23 (k0_t3 : Fin k0_t3_loop.trips) (v71 : IVec S16 32) (v81 : IVec S16 32) : Prop :=
  (∀ (k0_h5 : k0_cond5 k0_t3 = 1#1), ∀ a x, ((![v71, v81] : Fin 2 → IVec S16 32) a x).toNat < S112x224.size a)
instance k0_chk23.dec : ∀ (k0_t3 : Fin k0_t3_loop.trips) (v71 : IVec S16 32) (v81 : IVec S16 32), Decidable (k0_chk23 k0_t3 v71 v81) := fun k0_t3 v71 v81 => decidable_of_iff' _ (Iff.of_eq (k0_chk23.eq_1 k0_t3 v71 v81))
theorem k0_idx23_inb : ∀ (k0_t3 : Fin k0_t3_loop.trips) (v71 : IVec S16 32) (v81 : IVec S16 32) (k0_hw23 : k0_chk23 k0_t3 v71 v81), ∀ (k0_h5 : k0_cond5 k0_t3 = 1#1), ∀ a x, ((![v71, v81] : Fin 2 → IVec S16 32) a x).toNat < S112x224.size a := fun k0_t3 v71 v81 k0_hw23 k0_h5 => k0_hw23 k0_h5
def k0_off37 (k0_t7 : Fin k0_t7_loop.trips) : Fin 2 → Nat :=
  let c56_i32_70 : BitVec 32 := 56#32
  let c0_i32_54 : BitVec 32 := 0#32
  let c1_i32_56 : BitVec 32 := 1#32
  let arg13 : BitVec 32 := Scf.iv c0_i32_54 c1_i32_56 k0_t7
  let v82 : BitVec 32 := Scalar.addi c56_i32_70 arg13
  let v83 : Index := Scalar.indexCast v82
  let c32 : Index := 32#32
  ![v83.toNat, 32]

def k0_chk24 (k0_t3 : Fin k0_t3_loop.trips) (v71 : IVec S16 32) (v86 : IVec S16 32) : Prop :=
  (∀ (k0_h5 : k0_cond5 k0_t3 = 1#1), ∀ a x, ((![v71, v86] : Fin 2 → IVec S16 32) a x).toNat < S112x224.size a)
instance k0_chk24.dec : ∀ (k0_t3 : Fin k0_t3_loop.trips) (v71 : IVec S16 32) (v86 : IVec S16 32), Decidable (k0_chk24 k0_t3 v71 v86) := fun k0_t3 v71 v86 => decidable_of_iff' _ (Iff.of_eq (k0_chk24.eq_1 k0_t3 v71 v86))
theorem k0_idx24_inb : ∀ (k0_t3 : Fin k0_t3_loop.trips) (v71 : IVec S16 32) (v86 : IVec S16 32) (k0_hw24 : k0_chk24 k0_t3 v71 v86), ∀ (k0_h5 : k0_cond5 k0_t3 = 1#1), ∀ a x, ((![v71, v86] : Fin 2 → IVec S16 32) a x).toNat < S112x224.size a := fun k0_t3 v71 v86 k0_hw24 k0_h5 => k0_hw24 k0_h5
def k0_off38 (k0_t7 : Fin k0_t7_loop.trips) : Fin 2 → Nat :=
  let c56_i32_71 : BitVec 32 := 56#32
  let c0_i32_54 : BitVec 32 := 0#32
  let c1_i32_56 : BitVec 32 := 1#32
  let arg13 : BitVec 32 := Scf.iv c0_i32_54 c1_i32_56 k0_t7
  let v87 : BitVec 32 := Scalar.addi c56_i32_71 arg13
  let v88 : Index := Scalar.indexCast v87
  let c48 : Index := 48#32
  ![v88.toNat, 48]

def k0_chk25 (k0_t3 : Fin k0_t3_loop.trips) (v71 : IVec S16 32) (v91 : IVec S16 32) : Prop :=
  (∀ (k0_h5 : k0_cond5 k0_t3 = 1#1), ∀ a x, ((![v71, v91] : Fin 2 → IVec S16 32) a x).toNat < S112x224.size a)
instance k0_chk25.dec : ∀ (k0_t3 : Fin k0_t3_loop.trips) (v71 : IVec S16 32) (v91 : IVec S16 32), Decidable (k0_chk25 k0_t3 v71 v91) := fun k0_t3 v71 v91 => decidable_of_iff' _ (Iff.of_eq (k0_chk25.eq_1 k0_t3 v71 v91))
theorem k0_idx25_inb : ∀ (k0_t3 : Fin k0_t3_loop.trips) (v71 : IVec S16 32) (v91 : IVec S16 32) (k0_hw25 : k0_chk25 k0_t3 v71 v91), ∀ (k0_h5 : k0_cond5 k0_t3 = 1#1), ∀ a x, ((![v71, v91] : Fin 2 → IVec S16 32) a x).toNat < S112x224.size a := fun k0_t3 v71 v91 k0_hw25 k0_h5 => k0_hw25 k0_h5
def k0_off39 (k0_t7 : Fin k0_t7_loop.trips) : Fin 2 → Nat :=
  let c56_i32_72 : BitVec 32 := 56#32
  let c0_i32_54 : BitVec 32 := 0#32
  let c1_i32_56 : BitVec 32 := 1#32
  let arg13 : BitVec 32 := Scf.iv c0_i32_54 c1_i32_56 k0_t7
  let v92 : BitVec 32 := Scalar.addi c56_i32_72 arg13
  let v93 : Index := Scalar.indexCast v92
  let c64 : Index := 64#32
  ![v93.toNat, 64]

def k0_chk26 (k0_t3 : Fin k0_t3_loop.trips) (v71 : IVec S16 32) (v96 : IVec S16 32) : Prop :=
  (∀ (k0_h5 : k0_cond5 k0_t3 = 1#1), ∀ a x, ((![v71, v96] : Fin 2 → IVec S16 32) a x).toNat < S112x224.size a)
instance k0_chk26.dec : ∀ (k0_t3 : Fin k0_t3_loop.trips) (v71 : IVec S16 32) (v96 : IVec S16 32), Decidable (k0_chk26 k0_t3 v71 v96) := fun k0_t3 v71 v96 => decidable_of_iff' _ (Iff.of_eq (k0_chk26.eq_1 k0_t3 v71 v96))
theorem k0_idx26_inb : ∀ (k0_t3 : Fin k0_t3_loop.trips) (v71 : IVec S16 32) (v96 : IVec S16 32) (k0_hw26 : k0_chk26 k0_t3 v71 v96), ∀ (k0_h5 : k0_cond5 k0_t3 = 1#1), ∀ a x, ((![v71, v96] : Fin 2 → IVec S16 32) a x).toNat < S112x224.size a := fun k0_t3 v71 v96 k0_hw26 k0_h5 => k0_hw26 k0_h5
def k0_off40 (k0_t7 : Fin k0_t7_loop.trips) : Fin 2 → Nat :=
  let c56_i32_73 : BitVec 32 := 56#32
  let c0_i32_54 : BitVec 32 := 0#32
  let c1_i32_56 : BitVec 32 := 1#32
  let arg13 : BitVec 32 := Scf.iv c0_i32_54 c1_i32_56 k0_t7
  let v97 : BitVec 32 := Scalar.addi c56_i32_73 arg13
  let v98 : Index := Scalar.indexCast v97
  let c80 : Index := 80#32
  ![v98.toNat, 80]

def k0_chk27 (k0_t3 : Fin k0_t3_loop.trips) (v71 : IVec S16 32) (v101 : IVec S16 32) : Prop :=
  (∀ (k0_h5 : k0_cond5 k0_t3 = 1#1), ∀ a x, ((![v71, v101] : Fin 2 → IVec S16 32) a x).toNat < S112x224.size a)
instance k0_chk27.dec : ∀ (k0_t3 : Fin k0_t3_loop.trips) (v71 : IVec S16 32) (v101 : IVec S16 32), Decidable (k0_chk27 k0_t3 v71 v101) := fun k0_t3 v71 v101 => decidable_of_iff' _ (Iff.of_eq (k0_chk27.eq_1 k0_t3 v71 v101))
theorem k0_idx27_inb : ∀ (k0_t3 : Fin k0_t3_loop.trips) (v71 : IVec S16 32) (v101 : IVec S16 32) (k0_hw27 : k0_chk27 k0_t3 v71 v101), ∀ (k0_h5 : k0_cond5 k0_t3 = 1#1), ∀ a x, ((![v71, v101] : Fin 2 → IVec S16 32) a x).toNat < S112x224.size a := fun k0_t3 v71 v101 k0_hw27 k0_h5 => k0_hw27 k0_h5
def k0_off41 (k0_t7 : Fin k0_t7_loop.trips) : Fin 2 → Nat :=
  let c56_i32_74 : BitVec 32 := 56#32
  let c0_i32_54 : BitVec 32 := 0#32
  let c1_i32_56 : BitVec 32 := 1#32
  let arg13 : BitVec 32 := Scf.iv c0_i32_54 c1_i32_56 k0_t7
  let v102 : BitVec 32 := Scalar.addi c56_i32_74 arg13
  let v103 : Index := Scalar.indexCast v102
  let c96 : Index := 96#32
  ![v103.toNat, 96]

def k0_chk28 (k0_t3 : Fin k0_t3_loop.trips) (v71 : IVec S16 32) (v106 : IVec S16 32) : Prop :=
  (∀ (k0_h5 : k0_cond5 k0_t3 = 1#1), ∀ a x, ((![v71, v106] : Fin 2 → IVec S16 32) a x).toNat < S112x224.size a)
instance k0_chk28.dec : ∀ (k0_t3 : Fin k0_t3_loop.trips) (v71 : IVec S16 32) (v106 : IVec S16 32), Decidable (k0_chk28 k0_t3 v71 v106) := fun k0_t3 v71 v106 => decidable_of_iff' _ (Iff.of_eq (k0_chk28.eq_1 k0_t3 v71 v106))
theorem k0_idx28_inb : ∀ (k0_t3 : Fin k0_t3_loop.trips) (v71 : IVec S16 32) (v106 : IVec S16 32) (k0_hw28 : k0_chk28 k0_t3 v71 v106), ∀ (k0_h5 : k0_cond5 k0_t3 = 1#1), ∀ a x, ((![v71, v106] : Fin 2 → IVec S16 32) a x).toNat < S112x224.size a := fun k0_t3 v71 v106 k0_hw28 k0_h5 => k0_hw28 k0_h5
def k0_off42 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c112_i32_58 : BitVec 32 := 112#32
  let c0_i32_59 : BitVec 32 := 0#32
  ![v38.toNat, 112, 0]
def k0_cond8 (k0_t3 : Fin k0_t3_loop.trips) : BitVec 1 :=
  let c0_i32_13 : BitVec 32 := 0#32
  let c1_i32_15 : BitVec 32 := 1#32
  let arg12 : BitVec 32 := Scf.iv c0_i32_13 c1_i32_15 k0_t3
  let c2_i32_62 : BitVec 32 := 2#32
  let v65 : BitVec 32 := Scalar.addi arg12 c2_i32_62
  let c48_i32_63 : BitVec 32 := 48#32
  let v66 : BitVec 1 := Scalar.cmpi .slt v65 c48_i32_63
  let v67 : BitVec 32 := Scalar.extui v66
  let c0_i32_64 : BitVec 32 := 0#32
  let v68 : BitVec 1 := Scalar.cmpi .ne v67 c0_i32_64
  v68

def k0_off43 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_13 : BitVec 32 := 0#32
  let c1_i32_15 : BitVec 32 := 1#32
  let arg12 : BitVec 32 := Scf.iv c0_i32_13 c1_i32_15 k0_t3
  let v38 : BitVec 32 := Scalar.addi v2 arg12
  let c2_i32_65 : BitVec 32 := 2#32
  let v69 : BitVec 32 := Scalar.addi v38 c2_i32_65
  let c0_i32_66 : BitVec 32 := 0#32
  let c0_i32_67 : BitVec 32 := 0#32
  ![v69.toNat, 0, 0]
def k0_off44 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c48_i32_17 : BitVec 32 := 48#32
  let v18 : BitVec 32 := Scalar.addi v2 c48_i32_17
  let c1_i32_18 : BitVec 32 := 1#32
  let v19 : BitVec 32 := Scalar.subi v18 c1_i32_18
  let c0_i32_19 : BitVec 32 := 0#32
  let c0_i32_20 : BitVec 32 := 0#32
  ![v19.toNat, 0, 0]
def k0_off45 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c48_i32_17 : BitVec 32 := 48#32
  let v18 : BitVec 32 := Scalar.addi v2 c48_i32_17
  let c1_i32_18 : BitVec 32 := 1#32
  let v19 : BitVec 32 := Scalar.subi v18 c1_i32_18
  let c112_i32_23 : BitVec 32 := 112#32
  let c0_i32_24 : BitVec 32 := 0#32
  ![v19.toNat, 112, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x4x96x112x112_S1536x112x112 : S4x4x96x112x112.ShapeCasts S1536x112x112
  iota_S16_d0_w32_scVector : S16.Iotas .scVector 32 [0]
  h_S1x16 : 0 < S1x16.numel
  shapeCasts_S1x16_S16 : S1x16.ShapeCasts S16
  shapeCasts_S16_S1x16 : S16.ShapeCasts S1x16
  squeezes_S1x112x112_S112x112 : S1x112x112.Squeezes S112x112
  squeezes_S1x112x224_S112x224 : S1x112x224.Squeezes S112x224
  h_S112x224 : 0 < S112x224.numel
  shapeCasts_S1536x224x224_S4x4x96x224x224 : S1536x224x224.ShapeCasts S4x4x96x224x224
  hcc0_scratch4 : 0 + S_.numel ≤ 4
  hcc0_scratch5 : 1 + S_.numel ≤ 4
  hcc0_scratch6 : 2 + S_.numel ≤ 4
  hcc0_scratch7 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_t2_ok : k0_t2_loop.OK
  k0_off1_inb : ∀ (k0_t1 : Fin k0_t1_loop.trips) (k0_t2 : Fin k0_t2_loop.trips), ∀ a, (k0_off1 k0_t1 k0_t2) a + S1x16.size a ≤ S112x224.size a
  k0_off2_inb : ∀ i : grid0.Coords, ∀ a, (k0_off2 i) a + S1x112x112.size a ≤ S1536x112x112.size a
  k0_off3_inb : ∀ i : grid0.Coords, ∀ a, (k0_off3 i) a + S1x112x112.size a ≤ S1536x112x112.size a
  k0_t3_ok : k0_t3_loop.OK
  k0_off4_inb : ∀ (i : grid0.Coords) (k0_t3 : Fin k0_t3_loop.trips), ∀ (k0_h1 : k0_cond1 k0_t3 = 1#1), ∀ a, (k0_off4 i k0_t3) a + S1x112x112.size a ≤ S1536x112x112.size a
  k0_off5_inb : ∀ (i : grid0.Coords) (k0_t3 : Fin k0_t3_loop.trips), ∀ (k0_h1 : k0_cond1 k0_t3 = 1#1), ∀ (k0_h2 : k0_cond2 k0_t3 = 1#1), ∀ a, (k0_off5 i k0_t3) a + S1x112x224.size a ≤ S1536x224x224.size a
  k0_t4_ok : ∀ k0_t3 : Fin k0_t3_loop.trips, ∀ (k0_h1 : k0_cond1 k0_t3 = 1#1), k0_t4_loop.OK
  k0_off6_inb : ∀ (k0_t3 : Fin k0_t3_loop.trips) (k0_t4 : Fin k0_t4_loop.trips), ∀ (k0_h1 : k0_cond1 k0_t3 = 1#1), ∀ a, (k0_off6 k0_t4) a + S1x16.size a ≤ S112x112.size a
  k0_off7_inb : ∀ (k0_t3 : Fin k0_t3_loop.trips) (k0_t4 : Fin k0_t4_loop.trips), ∀ (k0_h1 : k0_cond1 k0_t3 = 1#1), ∀ a, (k0_off7 k0_t4) a + S1x16.size a ≤ S112x112.size a
  k0_off8_inb : ∀ (k0_t3 : Fin k0_t3_loop.trips) (k0_t4 : Fin k0_t4_loop.trips), ∀ (k0_h1 : k0_cond1 k0_t3 = 1#1), ∀ a, (k0_off8 k0_t4) a + S1x16.size a ≤ S112x112.size a
  k0_off9_inb : ∀ (k0_t3 : Fin k0_t3_loop.trips) (k0_t4 : Fin k0_t4_loop.trips), ∀ (k0_h1 : k0_cond1 k0_t3 = 1#1), ∀ a, (k0_off9 k0_t4) a + S1x16.size a ≤ S112x112.size a
  k0_off10_inb : ∀ (k0_t3 : Fin k0_t3_loop.trips) (k0_t4 : Fin k0_t4_loop.trips), ∀ (k0_h1 : k0_cond1 k0_t3 = 1#1), ∀ a, (k0_off10 k0_t4) a + S1x16.size a ≤ S112x112.size a
  k0_off11_inb : ∀ (k0_t3 : Fin k0_t3_loop.trips) (k0_t4 : Fin k0_t4_loop.trips), ∀ (k0_h1 : k0_cond1 k0_t3 = 1#1), ∀ a, (k0_off11 k0_t4) a + S1x16.size a ≤ S112x112.size a
  k0_off12_inb : ∀ (k0_t3 : Fin k0_t3_loop.trips) (k0_t4 : Fin k0_t4_loop.trips), ∀ (k0_h1 : k0_cond1 k0_t3 = 1#1), ∀ a, (k0_off12 k0_t4) a + S1x16.size a ≤ S112x112.size a
  k0_off13_inb : ∀ (i : grid0.Coords) (k0_t3 : Fin k0_t3_loop.trips), ∀ (k0_h1 : k0_cond1 k0_t3 = 1#1), ∀ a, (k0_off13 i k0_t3) a + S1x112x224.size a ≤ S1536x224x224.size a
  k0_off14_inb : ∀ (i : grid0.Coords) (k0_t3 : Fin k0_t3_loop.trips), ∀ (k0_h1 : k0_cond1 k0_t3 = 1#1), ∀ (k0_h3 : k0_cond3 k0_t3 = 1#1), ∀ a, (k0_off14 i k0_t3) a + S1x112x224.size a ≤ S1536x224x224.size a
  k0_t5_ok : ∀ k0_t3 : Fin k0_t3_loop.trips, ∀ (k0_h1 : k0_cond1 k0_t3 = 1#1), k0_t5_loop.OK
  k0_off15_inb : ∀ (k0_t3 : Fin k0_t3_loop.trips) (k0_t5 : Fin k0_t5_loop.trips), ∀ (k0_h1 : k0_cond1 k0_t3 = 1#1), ∀ a, (k0_off15 k0_t5) a + S1x16.size a ≤ S112x112.size a
  k0_off16_inb : ∀ (k0_t3 : Fin k0_t3_loop.trips) (k0_t5 : Fin k0_t5_loop.trips), ∀ (k0_h1 : k0_cond1 k0_t3 = 1#1), ∀ a, (k0_off16 k0_t5) a + S1x16.size a ≤ S112x112.size a
  k0_off17_inb : ∀ (k0_t3 : Fin k0_t3_loop.trips) (k0_t5 : Fin k0_t5_loop.trips), ∀ (k0_h1 : k0_cond1 k0_t3 = 1#1), ∀ a, (k0_off17 k0_t5) a + S1x16.size a ≤ S112x112.size a
  k0_off18_inb : ∀ (k0_t3 : Fin k0_t3_loop.trips) (k0_t5 : Fin k0_t5_loop.trips), ∀ (k0_h1 : k0_cond1 k0_t3 = 1#1), ∀ a, (k0_off18 k0_t5) a + S1x16.size a ≤ S112x112.size a
  k0_off19_inb : ∀ (k0_t3 : Fin k0_t3_loop.trips) (k0_t5 : Fin k0_t5_loop.trips), ∀ (k0_h1 : k0_cond1 k0_t3 = 1#1), ∀ a, (k0_off19 k0_t5) a + S1x16.size a ≤ S112x112.size a
  k0_off20_inb : ∀ (k0_t3 : Fin k0_t3_loop.trips) (k0_t5 : Fin k0_t5_loop.trips), ∀ (k0_h1 : k0_cond1 k0_t3 = 1#1), ∀ a, (k0_off20 k0_t5) a + S1x16.size a ≤ S112x112.size a
  k0_off21_inb : ∀ (k0_t3 : Fin k0_t3_loop.trips) (k0_t5 : Fin k0_t5_loop.trips), ∀ (k0_h1 : k0_cond1 k0_t3 = 1#1), ∀ a, (k0_off21 k0_t5) a + S1x16.size a ≤ S112x112.size a
  k0_off22_inb : ∀ (i : grid0.Coords) (k0_t3 : Fin k0_t3_loop.trips), ∀ (k0_h1 : k0_cond1 k0_t3 = 1#1), ∀ a, (k0_off22 i k0_t3) a + S1x112x224.size a ≤ S1536x224x224.size a
  k0_off23_inb : ∀ (i : grid0.Coords) (k0_t3 : Fin k0_t3_loop.trips), ∀ (k0_h1 : k0_cond1 k0_t3 = 1#1), ∀ (k0_h4 : k0_cond4 k0_t3 = 1#1), ∀ a, (k0_off23 i k0_t3) a + S1x112x112.size a ≤ S1536x112x112.size a
  k0_off24_inb : ∀ (i : grid0.Coords) (k0_t3 : Fin k0_t3_loop.trips), ∀ (k0_h5 : k0_cond5 k0_t3 = 1#1), ∀ a, (k0_off24 i k0_t3) a + S1x112x112.size a ≤ S1536x112x112.size a
  k0_off25_inb : ∀ (i : grid0.Coords) (k0_t3 : Fin k0_t3_loop.trips), ∀ (k0_h5 : k0_cond5 k0_t3 = 1#1), ∀ (k0_h6 : k0_cond6 k0_t3 = 1#1), ∀ a, (k0_off25 i k0_t3) a + S1x112x224.size a ≤ S1536x224x224.size a
  k0_t6_ok : ∀ k0_t3 : Fin k0_t3_loop.trips, ∀ (k0_h5 : k0_cond5 k0_t3 = 1#1), k0_t6_loop.OK
  k0_off26_inb : ∀ (k0_t3 : Fin k0_t3_loop.trips) (k0_t6 : Fin k0_t6_loop.trips), ∀ (k0_h5 : k0_cond5 k0_t3 = 1#1), ∀ a, (k0_off26 k0_t6) a + S1x16.size a ≤ S112x112.size a
  k0_off27_inb : ∀ (k0_t3 : Fin k0_t3_loop.trips) (k0_t6 : Fin k0_t6_loop.trips), ∀ (k0_h5 : k0_cond5 k0_t3 = 1#1), ∀ a, (k0_off27 k0_t6) a + S1x16.size a ≤ S112x112.size a
  k0_off28_inb : ∀ (k0_t3 : Fin k0_t3_loop.trips) (k0_t6 : Fin k0_t6_loop.trips), ∀ (k0_h5 : k0_cond5 k0_t3 = 1#1), ∀ a, (k0_off28 k0_t6) a + S1x16.size a ≤ S112x112.size a
  k0_off29_inb : ∀ (k0_t3 : Fin k0_t3_loop.trips) (k0_t6 : Fin k0_t6_loop.trips), ∀ (k0_h5 : k0_cond5 k0_t3 = 1#1), ∀ a, (k0_off29 k0_t6) a + S1x16.size a ≤ S112x112.size a
  k0_off30_inb : ∀ (k0_t3 : Fin k0_t3_loop.trips) (k0_t6 : Fin k0_t6_loop.trips), ∀ (k0_h5 : k0_cond5 k0_t3 = 1#1), ∀ a, (k0_off30 k0_t6) a + S1x16.size a ≤ S112x112.size a
  k0_off31_inb : ∀ (k0_t3 : Fin k0_t3_loop.trips) (k0_t6 : Fin k0_t6_loop.trips), ∀ (k0_h5 : k0_cond5 k0_t3 = 1#1), ∀ a, (k0_off31 k0_t6) a + S1x16.size a ≤ S112x112.size a
  k0_off32_inb : ∀ (k0_t3 : Fin k0_t3_loop.trips) (k0_t6 : Fin k0_t6_loop.trips), ∀ (k0_h5 : k0_cond5 k0_t3 = 1#1), ∀ a, (k0_off32 k0_t6) a + S1x16.size a ≤ S112x112.size a
  k0_off33_inb : ∀ (i : grid0.Coords) (k0_t3 : Fin k0_t3_loop.trips), ∀ (k0_h5 : k0_cond5 k0_t3 = 1#1), ∀ a, (k0_off33 i k0_t3) a + S1x112x224.size a ≤ S1536x224x224.size a
  k0_off34_inb : ∀ (i : grid0.Coords) (k0_t3 : Fin k0_t3_loop.trips), ∀ (k0_h5 : k0_cond5 k0_t3 = 1#1), ∀ (k0_h7 : k0_cond7 k0_t3 = 1#1), ∀ a, (k0_off34 i k0_t3) a + S1x112x224.size a ≤ S1536x224x224.size a
  k0_t7_ok : ∀ k0_t3 : Fin k0_t3_loop.trips, ∀ (k0_h5 : k0_cond5 k0_t3 = 1#1), k0_t7_loop.OK
  k0_off35_inb : ∀ (k0_t3 : Fin k0_t3_loop.trips) (k0_t7 : Fin k0_t7_loop.trips), ∀ (k0_h5 : k0_cond5 k0_t3 = 1#1), ∀ a, (k0_off35 k0_t7) a + S1x16.size a ≤ S112x112.size a
  k0_off36_inb : ∀ (k0_t3 : Fin k0_t3_loop.trips) (k0_t7 : Fin k0_t7_loop.trips), ∀ (k0_h5 : k0_cond5 k0_t3 = 1#1), ∀ a, (k0_off36 k0_t7) a + S1x16.size a ≤ S112x112.size a
  k0_off37_inb : ∀ (k0_t3 : Fin k0_t3_loop.trips) (k0_t7 : Fin k0_t7_loop.trips), ∀ (k0_h5 : k0_cond5 k0_t3 = 1#1), ∀ a, (k0_off37 k0_t7) a + S1x16.size a ≤ S112x112.size a
  k0_off38_inb : ∀ (k0_t3 : Fin k0_t3_loop.trips) (k0_t7 : Fin k0_t7_loop.trips), ∀ (k0_h5 : k0_cond5 k0_t3 = 1#1), ∀ a, (k0_off38 k0_t7) a + S1x16.size a ≤ S112x112.size a
  k0_off39_inb : ∀ (k0_t3 : Fin k0_t3_loop.trips) (k0_t7 : Fin k0_t7_loop.trips), ∀ (k0_h5 : k0_cond5 k0_t3 = 1#1), ∀ a, (k0_off39 k0_t7) a + S1x16.size a ≤ S112x112.size a
  k0_off40_inb : ∀ (k0_t3 : Fin k0_t3_loop.trips) (k0_t7 : Fin k0_t7_loop.trips), ∀ (k0_h5 : k0_cond5 k0_t3 = 1#1), ∀ a, (k0_off40 k0_t7) a + S1x16.size a ≤ S112x112.size a
  k0_off41_inb : ∀ (k0_t3 : Fin k0_t3_loop.trips) (k0_t7 : Fin k0_t7_loop.trips), ∀ (k0_h5 : k0_cond5 k0_t3 = 1#1), ∀ a, (k0_off41 k0_t7) a + S1x16.size a ≤ S112x112.size a
  k0_off42_inb : ∀ (i : grid0.Coords) (k0_t3 : Fin k0_t3_loop.trips), ∀ (k0_h5 : k0_cond5 k0_t3 = 1#1), ∀ a, (k0_off42 i k0_t3) a + S1x112x224.size a ≤ S1536x224x224.size a
  k0_off43_inb : ∀ (i : grid0.Coords) (k0_t3 : Fin k0_t3_loop.trips), ∀ (k0_h5 : k0_cond5 k0_t3 = 1#1), ∀ (k0_h8 : k0_cond8 k0_t3 = 1#1), ∀ a, (k0_off43 i k0_t3) a + S1x112x112.size a ≤ S1536x112x112.size a
  k0_off44_inb : ∀ i : grid0.Coords, ∀ a, (k0_off44 i) a + S1x112x224.size a ≤ S1536x224x224.size a
  k0_off45_inb : ∀ i : grid0.Coords, ∀ a, (k0_off45 i) a + S1x112x224.size a ≤ S1536x224x224.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

class Facts : Prop extends Facts₀ where

variable [Facts]
-- ==== ReferenceIdeal.lean ====
abbrev S4x4x96x112x112 : Shape := ⟨5, ![4, 4, 96, 112, 112]⟩
abbrev S112 : Shape := ⟨1, ![112]⟩
abbrev S_ : Shape := ⟨0, ![]⟩
abbrev S4x4x96x224x224 : Shape := ⟨5, ![4, 4, 96, 224, 224]⟩
abbrev S112x1 : Shape := ⟨2, ![112, 1]⟩
abbrev S1x112 : Shape := ⟨2, ![1, 112]⟩
abbrev S112x112 : Shape := ⟨2, ![112, 112]⟩
abbrev S112x112x1 : Shape := ⟨3, ![112, 112, 1]⟩
abbrev S112x112x2 : Shape := ⟨3, ![112, 112, 2]⟩

abbrev nBuf : Space → Nat
  | .hbm => 39
  | .vmem => 0
  | .smem => 0
  | _ => 0

abbrev bufTy : (tb : Table) → Fin (tcTables nBuf tb) → BufTy
  | .hbm, ⟨0, _⟩ => ⟨S4x4x96x112x112, .f32⟩
  | .hbm, ⟨1, _⟩ => ⟨S112, .i32⟩
  | .hbm, ⟨2, _⟩ => ⟨S_, .i32⟩
  | .hbm, ⟨3, _⟩ => ⟨S112, .i32⟩
  | .hbm, ⟨4, _⟩ => ⟨S112, .i32⟩
  | .hbm, ⟨5, _⟩ => ⟨S_, .i32⟩
  | .hbm, ⟨6, _⟩ => ⟨S112, .i32⟩
  | .hbm, ⟨7, _⟩ => ⟨S112, .i32⟩
  | .hbm, ⟨8, _⟩ => ⟨S112, .i32⟩
  | .hbm, ⟨9, _⟩ => ⟨S_, .i32⟩
  | .hbm, ⟨10, _⟩ => ⟨S112, .i32⟩
  | .hbm, ⟨11, _⟩ => ⟨S112, .i32⟩
  | .hbm, ⟨12, _⟩ => ⟨S_, .i32⟩
  | .hbm, ⟨13, _⟩ => ⟨S112, .i32⟩
  | .hbm, ⟨14, _⟩ => ⟨S112, .i32⟩
  | .hbm, ⟨15, _⟩ => ⟨S_, .f32⟩
  | .hbm, ⟨16, _⟩ => ⟨S4x4x96x224x224, .f32⟩
  | .hbm, ⟨17, _⟩ => ⟨S112x1, .i32⟩
  | .hbm, ⟨18, _⟩ => ⟨S1x112, .i32⟩
  | .hbm, ⟨19, _⟩ => ⟨S_, .i32⟩
  | .hbm, ⟨20, _⟩ => ⟨S112x1, .i32⟩
  | .hbm, ⟨21, _⟩ => ⟨S112x1, .i1⟩
  | .hbm, ⟨22, _⟩ => ⟨S_, .i32⟩
  | .hbm, ⟨23, _⟩ => ⟨S112x1, .i32⟩
  | .hbm, ⟨24, _⟩ => ⟨S112x1, .i32⟩
  | .hbm, ⟨25, _⟩ => ⟨S112x1, .i32⟩
  | .hbm, ⟨26, _⟩ => ⟨S_, .i32⟩
  | .hbm, ⟨27, _⟩ => ⟨S1x112, .i32⟩
  | .hbm, ⟨28, _⟩ => ⟨S1x112, .i1⟩
  | .hbm, ⟨29, _⟩ => ⟨S_, .i32⟩
  | .hbm, ⟨30, _⟩ => ⟨S1x112, .i32⟩
  | .hbm, ⟨31, _⟩ => ⟨S1x112, .i32⟩
  | .hbm, ⟨32, _⟩ => ⟨S1x112, .i32⟩
  | .hbm, ⟨33, _⟩ => ⟨S112x112, .i32⟩
  | .hbm, ⟨34, _⟩ => ⟨S112x112, .i32⟩
  | .hbm, ⟨35, _⟩ => ⟨S112x112x1, .i32⟩
  | .hbm, ⟨36, _⟩ => ⟨S112x112x1, .i32⟩
  | .hbm, ⟨37, _⟩ => ⟨S112x112x2, .i32⟩
  | .hbm, ⟨38, _⟩ => ⟨S4x4x96x224x224, .f32⟩
  | _, _ => ⟨S4x4x96x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S112 : S_.BroadcastsInDim S112 (![] : Fin 0 → Fin S112.rank)
  bcast_S_S4x4x96x224x224 : S_.BroadcastsInDim S4x4x96x224x224 (![] : Fin 0 → Fin S4x4x96x224x224.rank)
  bcast_S112_S112x1_0 : S112.BroadcastsInDim S112x1 (![0] : Fin 1 → Fin S112x1.rank)
  bcast_S112_S1x112_1 : S112.BroadcastsInDim S1x112 (![1] : Fin 1 → Fin S1x112.rank)
  bcast_S_S112x1 : S_.BroadcastsInDim S112x1 (![] : Fin 0 → Fin S112x1.rank)
  bcast_S_S1x112 : S_.BroadcastsInDim S1x112 (![] : Fin 0 → Fin S1x112.rank)
  bcast_S112x1_S112x112_0_1 : S112x1.BroadcastsInDim S112x112 (![0, 1] : Fin 2 → Fin S112x112.rank)
  bcast_S1x112_S112x112_0_1 : S1x112.BroadcastsInDim S112x112 (![0, 1] : Fin 2 → Fin S112x112.rank)
  bcast_S112x112_S112x112x1_0_1 : S112x112.BroadcastsInDim S112x112x1 (![0, 1] : Fin 2 → Fin S112x112x1.rank)
  concatenates_S112x112x1_S112x112x1_S112x112x2_d2 : Shape.Concatenates [S112x112x1, S112x112x1] S112x112x2 2
  scatter_S4x4x96x224x224_S112x112x2_S4x4x96x112x112_012_34_34_2_wf : ScatterDims.WF S4x4x96x224x224 S112x112x2 S4x4x96x112x112 [0, 1, 2] [3, 4] [3, 4] 2

variable [Facts₀]

def scatter_S4x4x96x224x224_S112x112x2_S4x4x96x112x112_012_34_34_2 : ScatterDims S4x4x96x224x224 S112x112x2 S4x4x96x112x112 where
  updateWindowDims := [0, 1, 2]
  insertedWindowDims := [3, 4]
  scatterDimsToOperandDims := [3, 4]
  indexVectorDim := 2
  wf := scatter_S4x4x96x224x224_S112x112x2_S4x4x96x112x112_012_34_34_2_wf

class Facts : Prop extends Facts₀ where

variable [Facts]
-- ==== Proof.Spec.lean ====
import Idealize.ShloMosaic.PureOps

/-!
The upsampling as one function of the argument array: entry (b, i, c, 2h+1, 2w+1) of the result is
entry (b, i, c, h, w) of the argument, and every entry with an even row or column is zero.
-/

noncomputable section

namespace Cert.Proof.Spec

open Idealize.ShloMosaic

abbrev SI : Shape := ⟨5, ![4, 4, 96, 112, 112]⟩
abbrev SO : Shape := ⟨5, ![4, 4, 96, 224, 224]⟩

/-- The argument entry that the result entry at odd row and column copies. -/
def src5 (i : SO.Idx) : SI.Idx :=
  fun a => match a with
    | ⟨0, _⟩ => ⟨(i 0).val, (i 0).isLt⟩
    | ⟨1, _⟩ => ⟨(i 1).val, (i 1).isLt⟩
    | ⟨2, _⟩ => ⟨(i 2).val, (i 2).isLt⟩
    | ⟨3, _⟩ => ⟨(i 3).val / 2, by have h : (i 3).val < 224 := (i 3).isLt; show (i 3).val / 2 < 112; omega⟩
    | ⟨4, _⟩ => ⟨(i 4).val / 2, by have h : (i 4).val < 224 := (i 4).isLt; show (i 4).val / 2 < 112; omega⟩

variable {F : FTy → Type} [FloatOps F]

/-- The result array as a function of the argument array. -/
def up5 (x : SI.Idx → Elt F .f32) : SO.Idx → Elt F .f32 :=
  fun i => if (i 3).val % 2 = 1 ∧ (i 4).val % 2 = 1 then x (src5 i) else (Scalar.ofBits .f32 0x00000000#32 : F .f32)

end Cert.Proof.Spec

end
-- ==== Proof.RefSide.lean ====
import proofs.«218969_g18416819765331_cont_7to1_658_22_alg».proof.Proof.Spec
import proofs.«218969_g18416819765331_cont_7to1_658_22_alg».proof.Proof.Gen.ReferenceIdeal.Read
import proofs.«218969_g18416819765331_cont_7to1_658_22_alg».proof.Proof.Gen.ReferenceIdeal
import proofs.«218969_g18416819765331_cont_7to1_658_22_alg».proof.Proof.Gen.Pre_finite_inputs
import proofs.«218969_g18416819765331_cont_7to1_658_22_alg».proof.Defs
import Idealize.ShloMosaic.Lib.Pipeline.Value

/-!
The reference side. The reference builds a table of target positions, row `2h + 1` and column `2w + 1` for the
argument entry at row `h` and column `w`, and scatters the argument into an array of zeros at those positions.

A scatter whose body keeps the update is a left fold, over the update entries in row-major order, of "rewrite the
array at the position this entry names". Read at one position, the fold gives the array's own entry when no update
names the position, and the update's entry when every update that names the position carries the same entry. Here
the positions are pairwise distinct (the map `(h, w) ↦ (2h + 1, 2w + 1)` has a left inverse, halving), each lies
inside the result, and a position is named exactly when its row and column are both odd: so the result is the
upsampling of `Spec.up5`.
-/

noncomputable section

namespace Cert.Proof.RefSide

open Idealize.ShloMosaic Idealize.ShloMosaic.TcCoe Idealize.SL.Sem

section Fold
variable {ι κ α : Type} [DecidableEq ι]

/-- One step of a scatter whose body keeps the update: the array rewritten at the index the step names, if any. -/
def step (g : κ → Option ι) (v : κ → α) (r : ι → α) (n : κ) : ι → α :=
  match g n with
  | some i => fun i' => if i' = i then v n else r i'
  | none => r

/-- Read at a position no step names, the fold leaves the array's entry. -/
theorem foldl_step_miss (g : κ → Option ι) (v : κ → α) (i : ι) :
    ∀ (l : List κ) (x : ι → α), (∀ n ∈ l, g n ≠ some i) → (l.foldl (step g v) x) i = x i
  | [], x, _ => rfl
  | n :: l, x, h => by
    rw [List.foldl_cons, foldl_step_miss g v i l _ (fun m hm => h m (List.mem_cons_of_mem _ hm))]
    have hn := h n (List.mem_cons_self ..)
    unfold step
    cases hg : g n with
    | none => rfl
    | some i₀ =>
      have : i ≠ i₀ := fun e => hn (by rw [hg, e])
      simp [this]

/-- Read at a position some step names, the fold gives the entry `a` when every step naming the position carries `a`:
    the last such step decides, and they all agree. -/
theorem foldl_step_hit (g : κ → Option ι) (v : κ → α) (i : ι) (a : α) :
    ∀ (l : List κ) (x : ι → α), (∀ n ∈ l, g n = some i → v n = a) → (∃ n ∈ l, g n = some i) →
      (l.foldl (step g v) x) i = a
  | [], x, _, h => by obtain ⟨n, hn, _⟩ := h; cases hn
  | n :: l, x, hv, hex => by
    rw [List.foldl_cons]
    by_cases hl : ∃ m ∈ l, g m = some i
    · exact foldl_step_hit g v i a l _ (fun m hm => hv m (List.mem_cons_of_mem _ hm)) hl
    · have hmiss : ∀ m ∈ l, g m ≠ some i := fun m hm e => hl ⟨m, hm, e⟩
      rw [foldl_step_miss g v i l _ hmiss]
      obtain ⟨m, hm, hgm⟩ := hex
      have hmn : m = n := by
        rcases List.mem_cons.1 hm with h | h
        · exact h
        · exact absurd hgm (hmiss m h)
      subst hmn
      have := hv m (List.mem_cons_self ..) hgm
      unfold step
      rw [hgm]
      simp [this]

end Fold

section Scatter
variable {s si u : Shape} {w : Nat} {α : Type}

/-- A scatter whose body returns the update is the fold of `step` over the update entries in row-major order. -/
theorem scatter_set_eq (d : ScatterDims s si u) (x : s.Idx → α) (idx : IVec si w) (upd : u.Idx → α) :
    Host.scatter d (fun _ b => b) x idx upd =
      (List.finRange u.numel).foldl
        (step (fun n => d.resultIdx? (u.rowMajor.symm n) idx) (fun n => upd (u.rowMajor.symm n))) x := by
  unfold Host.scatter
  congr 1
  funext r n
  unfold step
  dsimp only
  generalize d.resultIdx? (u.rowMajor.symm n) idx = o
  cases o with
  | none => rfl
  | some i =>
    funext i'
    by_cases e : i' = i <;> simp [e]

/-- At a position no update lands on, the scatter leaves the operand's entry. -/
theorem scatter_set_miss (d : ScatterDims s si u) (x : s.Idx → α) (idx : IVec si w) (upd : u.Idx → α) (i : s.Idx)
    (h : ∀ j, d.resultIdx? j idx ≠ some i) : Host.scatter d (fun _ b => b) x idx upd i = x i := by
  rw [scatter_set_eq]
  exact foldl_step_miss _ _ i _ x (fun n _ => h _)

/-- At a position exactly one update entry `j` lands on, the scatter gives that update's entry. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  rw [scatter_set_eq]
  refine foldl_step_hit _ _ i (upd j) _ x (fun n _ hn => by rw [huniq _ hn]) ⟨u.rowMajor j, List.mem_finRange _, ?_⟩
  show d.resultIdx? (u.rowMajor.symm (u.rowMajor j)) idx = some i
  rw [Equiv.symm_apply_apply]; exact hj

end Scatter

section Concrete
open Cert.ReferenceIdeal Cert.ReferenceIdeal.Gen Cert.ReferenceIdeal.Read Cert.Proof.Spec
variable {F : FTy → Type} [FloatOps F]

/-- The scatter's dimension numbers: update axes 0, 1, 2 are window axes; result axes 3, 4 are indexed. -/
abbrev dS := scatter_S4x4x96x224x224_S112x112x2_S4x4x96x112x112_012_34_34_2

/-- The index arithmetic for one row or column: `1 + 2·h` in 32 bits, for `h < 112`, is not negative, so the
    correction for negative indices is not taken, and its signed reading is `2h + 1`. -/
theorem odd_index (h : Fin 112) :
    (Scalar.select (IntOp.cmpi .slt (IntOp.addi 1#32 (IntOp.muli 2#32 (BitVec.ofNat 32 h.val))) 0#32)
      (IntOp.addi (IntOp.addi 1#32 (IntOp.muli 2#32 (BitVec.ofNat 32 h.val))) 224#32)
      (IntOp.addi 1#32 (IntOp.muli 2#32 (BitVec.ofNat 32 h.val)))).toInt = 2 * (h.val : Int) + 1 := by
  revert h; decide

/-- The row table: entry `(h, w)` is `2h + 1`. -/
theorem v25_toInt (i : S112x112x1.Idx) : (val_main_v25 (F := F) i).toInt = 2 * ((i 0).val : Int) + 1 := by
  simp only [val_main_v25_apply, val_main_v23_apply, val_main_v17_apply, val_main_v14_apply, val_main_v16_apply,
    val_main_v11_apply, val_main_v13_apply, val_main_v15_apply, val_main_v4_apply, val_main_v3_apply, val_main_v2_apply,
    val_main_v1_apply, val_main_v0_apply, val_main_c_apply, val_main_c_0_apply, val_main_c_3_apply, val_main_c_4_apply]
  exact odd_index (i 0)

/-- The column table: entry `(h, w)` is `2w + 1`. -/
theorem v26_toInt (i : S112x112x1.Idx) : (val_main_v26 (F := F) i).toInt = 2 * ((i 1).val : Int) + 1 := by
  simp only [val_main_v26_apply, val_main_v24_apply, val_main_v22_apply, val_main_v19_apply, val_main_v21_apply,
    val_main_v12_apply, val_main_v18_apply, val_main_v20_apply, val_main_v9_apply, val_main_v8_apply, val_main_v7_apply,
    val_main_v6_apply, val_main_v5_apply, val_main_c_1_apply, val_main_c_2_apply, val_main_c_5_apply, val_main_c_6_apply]
  exact odd_index (i 1)

/-- The index of either piece of the index tensor with the row and column of an index of the whole. -/
def piece (k : S112x112x2.Idx) : S112x112x1.Idx := fun b => match b with
  | ⟨0, _⟩ => ⟨(k 0).val, (k 0).isLt⟩ | ⟨1, _⟩ => ⟨(k 1).val, (k 1).isLt⟩ | ⟨2, _⟩ => ⟨0, Nat.one_pos⟩

/-- Component 0 of the index tensor at `(h, w)` is the row `2h + 1`. -/
theorem v27_at0 (k : S112x112x2.Idx) (hk : (k 2).val = 0) :
    (val_main_v27 (F := F) k).toInt = 2 * ((k 0).val : Int) + 1 := by
  unfold val_main_v27
  rw [concatenate_pair_apply_left (s₁ := S112x112x1) (s₂ := S112x112x1) 2 (val_main_v25 (F := F)) (val_main_v26 (F := F))
    concatenates_S112x112x1_S112x112x1_S112x112x2_d2 k rfl (piece k)
    (fun b => match b with | ⟨0, _⟩ => rfl | ⟨1, _⟩ => rfl | ⟨2, _⟩ => hk.symm)]
  exact v25_toInt _

/-- Component 1 of the index tensor at `(h, w)` is the column `2w + 1`. -/
theorem v27_at1 (k : S112x112x2.Idx) (hk : (k 2).val = 1) :
    (val_main_v27 (F := F) k).toInt = 2 * ((k 1).val : Int) + 1 := by
  unfold val_main_v27
  rw [concatenate_pair_apply_right (s₁ := S112x112x1) (s₂ := S112x112x1) 2 (val_main_v25 (F := F)) (val_main_v26 (F := F))
    concatenates_S112x112x1_S112x112x1_S112x112x2_d2 k rfl rfl (piece k)
    (fun b hb => match b, hb with | ⟨0, _⟩, _ => rfl | ⟨1, _⟩, _ => rfl | ⟨2, _⟩, hb => absurd rfl hb)
    (by show 0 + 1 = (k 2).val; omega)]
  exact v26_toInt _

/-- The window of update entry `j` starts at row `2·j₃ + 1` … -/
theorem start3 (j : S4x4x96x112x112.Idx) : dS.start j (val_main_v27 (F := F)) 3 = 2 * ((j 3).val : Int) + 1 :=
  v27_at0 (dS.siIdx j ⟨0, by decide⟩) rfl

/-- … and at column `2·j₄ + 1`. -/
theorem start4 (j : S4x4x96x112x112.Idx) : dS.start j (val_main_v27 (F := F)) 4 = 2 * ((j 4).val : Int) + 1 :=
  v27_at1 (dS.siIdx j ⟨1, by decide⟩) rfl

/-- Where the scatter puts the update entry `j`: the same image, row `2h + 1`, column `2w + 1`. -/
def dst (j : SI.Idx) : SO.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨2 * (j 3).val + 1, by have h : (j 3).val < 112 := (j 3).isLt; show 2 * (j 3).val + 1 < 224; omega⟩
  | ⟨4, _⟩ => ⟨2 * (j 4).val + 1, by have h : (j 4).val < 112 := (j 4).isLt; show 2 * (j 4).val + 1 < 224; omega⟩

/-- Start plus window coordinate, axis by axis: the image coordinates of `j` on axes 0, 1, 2 (start 0), the odd row
    and column on axes 3, 4 (window coordinate 0). -/
theorem start_window (j : SI.Idx) (a : Fin 5) :
    dS.start j (val_main_v27 (F := F)) a + (dS.window j a : Int) = ((dst j a).val : Int) :=
  match a with
  | ⟨0, _⟩ => by show (0 : Int) + ((j 0).val : Int) = ((j 0).val : Int); omega
  | ⟨1, _⟩ => by show (0 : Int) + ((j 1).val : Int) = ((j 1).val : Int); omega
  | ⟨2, _⟩ => by show (0 : Int) + ((j 2).val : Int) = ((j 2).val : Int); omega
  | ⟨3, _⟩ => by
    show dS.start j (val_main_v27 (F := F)) 3 + ((0 : Nat) : Int) = ((2 * (j 3).val + 1 : Nat) : Int)
    rw [start3]; push_cast; omega
  | ⟨4, _⟩ => by
    show dS.start j (val_main_v27 (F := F)) 4 + ((0 : Nat) : Int) = ((2 * (j 4).val + 1 : Nat) : Int)
    rw [start4]; push_cast; omega

/-- Every update entry lands inside the result, at `dst j`. -/
theorem resultIdx_eq (j : SI.Idx) : dS.resultIdx? j (val_main_v27 (F := F)) = some (dst j) := by
  have h : ∀ a, 0 ≤ dS.start j (val_main_v27 (F := F)) a + (dS.window j a : Int)
      ∧ dS.start j (val_main_v27 (F := F)) a + (dS.window j a : Int) < S4x4x96x224x224.size a := by
    intro a
    rw [start_window]
    exact ⟨Int.natCast_nonneg _, by exact_mod_cast (dst j a).isLt⟩
  unfold ScatterDims.resultIdx?
  rw [dif_pos h]
  congr 1
  funext a
  apply Fin.ext
  show (dS.start j (val_main_v27 (F := F)) a + (dS.window j a : Int)).toNat = (dst j a).val
  rw [start_window]
  exact Int.toNat_natCast _

/-- Halving undoes `h ↦ 2h + 1`: the positions are pairwise distinct. -/
theorem src5_dst (j : SI.Idx) : src5 (dst j) = j := by
  funext a
  match a with
  | ⟨0, _⟩ => rfl
  | ⟨1, _⟩ => rfl
  | ⟨2, _⟩ => rfl
  | ⟨3, _⟩ => apply Fin.ext; show (2 * (j 3).val + 1) / 2 = (j 3).val; omega
  | ⟨4, _⟩ => apply Fin.ext; show (2 * (j 4).val + 1) / 2 = (j 4).val; omega

/-- A position with odd row and column is the one its half lands on. -/
theorem dst_src5 (i : SO.Idx) (h3 : (i 3).val % 2 = 1) (h4 : (i 4).val % 2 = 1) : dst (src5 i) = i := by
  funext a
  match a with
  | ⟨0, _⟩ => rfl
  | ⟨1, _⟩ => rfl
  | ⟨2, _⟩ => rfl
  | ⟨3, _⟩ => apply Fin.ext; show 2 * ((i 3).val / 2) + 1 = (i 3).val; omega
  | ⟨4, _⟩ => apply Fin.ext; show 2 * ((i 4).val / 2) + 1 = (i 4).val; omega

/-- Only positions with odd row and column are landed on. -/
theorem dst_odd (j : SI.Idx) : ((dst j) 3).val % 2 = 1 ∧ ((dst j) 4).val % 2 = 1 :=
  ⟨by show (2 * (j 3).val + 1) % 2 = 1; omega, by show (2 * (j 4).val + 1) % 2 = 1; omega⟩

/-- The reference's result: the scatter of the argument into zeros is the upsampling. -/
theorem ref_val (x : SI.Idx → Elt F .f32) : val_main_v28 (F := F) x = up5 x := by
  funext i
  unfold val_main_v28 up5
  by_cases h : (i 3).val % 2 = 1 ∧ (i 4).val % 2 = 1
  · rw [if_pos h]
    exact scatter_set_hit dS _ _ x i (src5 i) (by rw [resultIdx_eq, dst_src5 i h.1 h.2]) (fun j' hj' => by
      rw [resultIdx_eq] at hj'
      rw [← Option.some.inj hj', src5_dst])
  · rw [if_neg h]
    rw [scatter_set_miss dS _ _ x i (fun j hj => h (by
      rw [resultIdx_eq] at hj
      rw [← Option.some.inj hj]; exact dst_odd j))]
    rw [val_main_v10_apply, val_main_cst_apply]

end Concrete

section Run
open Cert.ReferenceIdeal Cert.Proof.Spec

/-- Every run of the reference ends with the upsampling of its argument in the result, the argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v28)
            = Cert.Proof.Spec.up5 (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  (θ_run Cert.ReferenceIdeal.defs _ _).mono
    (fun _ h c => ⟨((h c).1.trans (Cert.ReferenceIdeal.Read.val_main_v28_eq _)).trans (ref_val _), (h c).2⟩)
    (Cert.ReferenceIdeal.Value.run (F := Ideal) m' ρ')

/-- The reference runs and leaves its argument unchanged. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

end Run

end Cert.Proof.RefSide

end
-- ==== Proof.LibStoreIdx.lean ====
import Idealize.ShloMosaic.PureOps.ShapeOps

/-!
# An indexed store whose lanes name pairwise distinct elements

An indexed store takes a rank-one vector of values and, for each axis of a buffer, a vector of
indices of the same length; lane `k` names the buffer element whose coordinate on every axis is lane
`k` of that axis' index vector. The store visits the lanes in ascending order and, at each lane whose
mask bit is set, overwrites the named element with the lane's value (or adds onto it, when the store
accumulates). When several lanes name one element the last lane wins, so in general the result
depends on the order.

This file treats the unmasked, non-accumulating store. It is a fold of single-lane writes over the
lanes. An element that no lane names keeps its old value. When the map from lanes to named elements
is injective the order no longer matters: the element that lane `k` names ends as lane `k`'s value.
Together the two facts give the store in closed form against any function that finds, for an
element, the lane naming it.
-/

noncomputable section

namespace Cert.Proof.LibStoreIdx

open Idealize.ShloMosaic

variable {F : FTy → Type} [FloatOps F]

section StoreIdxDistinct
variable {s : Shape} {e : EltTy} {d : Fin 1 → Nat}

/-- One lane's write: the element the lane's index names becomes the lane's value. -/
def putLane (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- The unmasked, non-adding store is the fold of the lanes' writes. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (putLane idxs v h) f := by
  unfold storeIdx
  dsimp only
  congr 1

/-- An element none of the listed lanes names is untouched by their writes. -/
theorem foldl_putLane_miss (idxs : Fin s.rank → IVec ⟨1, d⟩ 32) (v : Vec F ⟨1, d⟩ e)
    (h : ∀ a x, (idxs a x).toNat < s.size a) (L : List (Fin (d 0))) (g : Vec F s e) (j : s.Idx)
    (hmiss : ∀ k ∈ L, idxAt idxs h (Shape.ofLane k) ≠ j) : (L.foldl (putLane idxs v h) g) j = g j := by
  induction L generalizing g with
  | nil => rfl
  | cons k L ih =>
    rw [List.foldl_cons, ih _ (fun k' hk' => hmiss k' (List.mem_cons_of_mem _ hk'))]
    unfold putLane
    rw [if_neg]
    intro hall
    exact hmiss k (List.mem_cons_self ..) (funext fun a => Fin.ext (hall a).symm)

/-- With pairwise distinct indices, the element a listed lane names ends as that lane's value. -/
theorem foldl_putLane_hit (idxs : Fin s.rank → IVec ⟨1, d⟩ 32) (v : Vec F ⟨1, d⟩ e)
    (h : ∀ a x, (idxs a x).toNat < s.size a)
    (hinj : Function.Injective fun k : Fin (d 0) => idxAt idxs h (Shape.ofLane k))
    (L : List (Fin (d 0))) (g : Vec F s e) (k : Fin (d 0)) (hk : k ∈ L) :
    (L.foldl (putLane idxs v h) g) (idxAt idxs h (Shape.ofLane k)) = v (Shape.ofLane k) := by
  induction L generalizing g with
  | nil => cases hk
  | cons k' L ih =>
    rw [List.foldl_cons]
    by_cases hin : k ∈ L
    · exact ih _ hin
    · have hkk : k = k' := by
        rcases List.mem_cons.1 hk with h' | h'
        · exact h'
        · exact absurd h' hin
      subst hkk
      rw [foldl_putLane_miss idxs v h L _ _ (fun k'' hk'' heq => hin (by have e : k'' = k := hinj heq; rw [← e]; exact hk''))]
      unfold putLane
      rw [if_pos (fun a => rfl)]

/-- **Indexed store, distinct indices, at a named element.** The element lane `k` names holds lane `k`'s
    value after the store. -/
theorem storeIdx_at_lane (f : Vec F s e) (idxs : Fin s.rank → IVec ⟨1, d⟩ 32) (v : Vec F ⟨1, d⟩ e)
    (h : ∀ a x, (idxs a x).toNat < s.size a)
    (hinj : Function.Injective fun k : Fin (d 0) => idxAt idxs h (Shape.ofLane k)) (k : Fin (d 0)) :
    storeIdx f idxs v (fun _ => 1#1) false h (idxAt idxs h (Shape.ofLane k)) = v (Shape.ofLane k) := by
  rw [storeIdx_eq_foldl]
  exact foldl_putLane_hit idxs v h hinj _ f k (List.mem_finRange k)

/-- **Indexed store at an element no lane names.** It keeps its old value (no distinctness needed). -/
theorem storeIdx_off_lanes (f : Vec F s e) (idxs : Fin s.rank → IVec ⟨1, d⟩ 32) (v : Vec F ⟨1, d⟩ e)
    (h : ∀ a x, (idxs a x).toNat < s.size a) (j : s.Idx)
    (hmiss : ∀ k : Fin (d 0), idxAt idxs h (Shape.ofLane k) ≠ j) :
    storeIdx f idxs v (fun _ => 1#1) false h j = f j := by
  rw [storeIdx_eq_foldl]
  exact foldl_putLane_miss idxs v h _ f j (fun k _ => hmiss k)

/-- **Indexed store, distinct indices, in closed form** against a lane finder: if `lane j` is the lane
    naming `j` when there is one (and `none` otherwise), the store reads that lane's value there and
    the old value elsewhere. -/
theorem storeIdx_eq_of_finder (f : Vec F s e) (idxs : Fin s.rank → IVec ⟨1, d⟩ 32) (v : Vec F ⟨1, d⟩ e)
    (h : ∀ a x, (idxs a x).toNat < s.size a)
    (hinj : Function.Injective fun k : Fin (d 0) => idxAt idxs h (Shape.ofLane k))
    (lane : s.Idx → Option (Fin (d 0)))
    (hsome : ∀ j k, lane j = some k → idxAt idxs h (Shape.ofLane k) = j)
    (hnone : ∀ j, lane j = none → ∀ k, idxAt idxs h (Shape.ofLane k) ≠ j) :
    storeIdx f idxs v (fun _ => 1#1) false h
      = fun j => match lane j with | some k => v (Shape.ofLane k) | none => f j := by
  funext j
  cases hl : lane j with
  | some k =>
    show _ = v (Shape.ofLane k)
    rw [← hsome j k hl]
    exact storeIdx_at_lane f idxs v h hinj k
  | none => exact storeIdx_off_lanes f idxs v h j (hnone j hl)

end StoreIdxDistinct

end Cert.Proof.LibStoreIdx

end
-- ==== Proof.KI.Common.lean ====
import proofs.«218969_g18416819765331_cont_7to1_658_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218969_g18416819765331_cont_7to1_658_22_alg».proof.Proof.Gen.KernelIdeal
import proofs.«218969_g18416819765331_cont_7to1_658_22_alg».proof.Proof.Gen.KernelIdeal.Skeleton

/-!
The upsampling kernel's vocabulary. Thirty-two vector subcores each take forty-eight consecutive
images of the input, viewed as 1536 images of 112 × 112, and produce the same forty-eight images
of the result, 224 × 224 each: entry (2h+1, 2w+1) of a result image is entry (h, w) of the input
image, every other entry is zero. This file names the launch configuration, the ghost state, the
arrays, each subcore's slab of both arrays, and the result as one function of the input.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The argument, the input as 1536 images, the result as 1536 images, the result. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-! ## The result as one function of the input -/

section Value
variable [FloatOps F]

/-- The zero the kernel fills its staging rows with. -/
abbrev zeroF : F .f32 := Scalar.ofBits .f32 0x00000000#32

/-- The input image entry that result entry `(n, r, c)` copies when `r` and `c` are odd. -/
def srcIdx (j : S1536x224x224.Idx) : S1536x112x112.Idx :=
  fun a => match a with
    | ⟨0, _⟩ => ⟨(j 0).val, (j 0).isLt⟩
    | ⟨1, _⟩ => ⟨(j 1).val / 2, by have h : (j 1).val < 224 := (j 1).isLt; show (j 1).val / 2 < 112; omega⟩
    | ⟨2, _⟩ => ⟨(j 2).val / 2, by have h : (j 2).val < 224 := (j 2).isLt; show (j 2).val / 2 < 112; omega⟩

/-- The result images as a function of the input images: odd rows and columns copy, the rest is zero. -/
def up (X : S1536x112x112.Idx → Elt F .f32) : S1536x224x224.Idx → Elt F .f32 :=
  fun j => if (j 1).val % 2 = 1 ∧ (j 2).val % 2 = 1 then X (srcIdx j) else (zeroF : F .f32)

end Value

end Cert.Proof.KI

end
-- ==== Proof.KI.Pay.lean ====
import proofs.«218969_g18416819765331_cont_7to1_658_22_alg».proof.Proof.KI.Common

/-!
What the launch hands each vector subcore and takes back. Subcore `i` of SparseCore `c` works on the
forty-eight images starting at image `96 i + 48 c`: it is handed that slab of the input images, to
read, and the same slab of the result images, to fill; it hands both back, the result slab holding
the upsampling of the input slab.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)

/-- A vector subcore's grid coordinates: its SparseCore, then its number within it. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The subcore's thread. -/
abbrev thr (d : Dev nD) (L : grid0.Coords) : Thread nD τ := V d (cV L) (jV L)

theorem xR_inb (L : grid0.Coords) : ∀ a, (![96 * (L 1).val + 48 * (L 0).val, 0, 0] : Fin 3 → Nat) a + (![48, 112, 112] : Fin 3 → Nat) a ≤ S1536x112x112.size a := by
  have h0 : (L 0).val < 2 := (L 0).isLt
  have h1 : (L 1).val < 16 := (L 1).isLt
  intro a; fin_cases a
  · show 96 * (L 1).val + 48 * (L 0).val + 48 ≤ 1536; omega
  · show 0 + 112 ≤ 112; omega
  · show 0 + 112 ≤ 112; omega
theorem oR_inb (L : grid0.Coords) : ∀ a, (![96 * (L 1).val + 48 * (L 0).val, 0, 0] : Fin 3 → Nat) a + (![48, 224, 224] : Fin 3 → Nat) a ≤ S1536x224x224.size a := by
  have h0 : (L 0).val < 2 := (L 0).isLt
  have h1 : (L 1).val < 16 := (L 1).isLt
  intro a; fin_cases a
  · show 96 * (L 1).val + 48 * (L 0).val + 48 ≤ 1536; omega
  · show 0 + 224 ≤ 224; omega
  · show 0 + 224 ≤ 224; omega
/-- The subcore's forty-eight input images, and its forty-eight result images, as rectangles. -/
abbrev xR (L : grid0.Coords) : Rect S1536x112x112 := Rect.unit (s := S1536x112x112) ![96 * (L 1).val + 48 * (L 0).val, 0, 0] ![48, 112, 112] (xR_inb L)
abbrev oR (L : grid0.Coords) : Rect S1536x224x224 := Rect.unit (s := S1536x224x224) ![96 * (L 1).val + 48 * (L 0).val, 0, 0] ![48, 224, 224] (oR_inb L)
/-- Their elements. -/
abbrev xSet (L : grid0.Coords) : Finset S1536x112x112.Idx := (xV).view.setOn (xR L).set
abbrev oSet (L : grid0.Coords) : Finset S1536x224x224.Idx := (oV).view.setOn (oR L).set

variable [FloatOps F]

-- The input images' contents when the kernel is called, and the result images' contents then, per device.
variable (X : (d : Dev nD) → Buf (Elt F) (xLoc d)) (O₀ : (d : Dev nD) → Buf (Elt F) (oLoc d))

/-- What a subcore is handed: its input slab, its result slab as the call finds it. -/
abbrev goAt (d : Dev nD) (L : grid0.Coords) : sProp 𝕄 :=
  iprop((xLoc d ↦[xSet L]{fullShare} X d) ∗ (oLoc d ↦[oSet L]{fullShare} O₀ d))
/-- What it hands back: its input slab unchanged, its result slab upsampled. -/
abbrev tdAt (d : Dev nD) (L : grid0.Coords) : sProp 𝕄 :=
  iprop((xLoc d ↦[xSet L]{fullShare} X d) ∗ (oLoc d ↦[oSet L]{fullShare} up (X d)))

theorem bound_zero : grid0.bound 0 = 2 := rfl
theorem bound_one : grid0.bound 1 = 16 := rfl

/-- The coordinates of task `i` of SparseCore `c` of the call. -/
abbrev LL (c : Fin ((K (F := F)).nCore 0)) (i : Fin ((K (F := F)).nSub 0)) : grid0.Coords :=
  coordsV (Fin.cast (nCore_zero.trans bound_zero.symm) c) (Fin.cast (nSub_zero.trans bound_one.symm) i)

/-- The one call: each SparseCore takes its sixteen subcores' slabs and brings them back. -/
def P : (K (F := F)).Pay (nD := nD) (Val := Elt F) (Name := ℕ) (U := UU) where
  st := fun q d c => match q with | 0 => bigSep Finset.univ fun i : Fin ((K (F := F)).nSub 0) => goAt X O₀ d (LL c i)
  dn := fun q d c => match q with | 0 => bigSep Finset.univ fun i : Fin ((K (F := F)).nSub 0) => tdAt X d (LL c i)
  go := fun q d c i => match q with | 0 => goAt X O₀ d (LL c i)
  td := fun q d c i => match q with | 0 => tdAt X d (LL c i)
  x := fun _ _ => iprop(emp)

instance P_storable : (P (F := F) X O₀).IsStorable where
  st q d c := match q with | 0 => (inferInstance : BI.Storable (upEmb : UEmb _ 𝕄) (bigSep Finset.univ fun i : Fin ((K (F := F)).nSub 0) => goAt X O₀ d (LL c i)))
  dn q d c := match q with | 0 => (inferInstance : BI.Storable (upEmb : UEmb _ 𝕄) (bigSep Finset.univ fun i : Fin ((K (F := F)).nSub 0) => tdAt X d (LL c i)))
  go q d c i := match q with | 0 => (inferInstance : BI.Storable (upEmb : UEmb _ 𝕄) (goAt X O₀ d (LL c i)))
  td q d c i := match q with | 0 => (inferInstance : BI.Storable (upEmb : UEmb _ 𝕄) (tdAt X d (LL c i)))

/-- The operands split among the tasks exactly as the call states them. -/
theorem vecSplit : (K (F := F)).VecSplit' (P X O₀) 0 := by
  intro d c
  show (bigSep Finset.univ fun i : Fin ((K (F := F)).nSub 0) => goAt X O₀ d (LL c i)) ⊢ |={Set.univ}=> iprop(
      (bigSep Finset.univ fun i : Fin ((K (F := F)).nSub 0) => goAt X O₀ d (LL c i))
      ∗ ((bigSep Finset.univ fun i : Fin ((K (F := F)).nSub 0) => tdAt X d (LL c i))
          -∗ (bigSep Finset.univ fun i : Fin ((K (F := F)).nSub 0) => tdAt X d (LL c i))))
  iintro H; imodintro
  isplitl [H]; · iexact H
  iintro H; iexact H

end Cert.Proof.KI

end
-- ==== Proof.KI.TileRes.lean ====
import proofs.«218969_g18416819765331_cont_7to1_658_22_alg».proof.Proof.KI.Pay

/-!
What a vector subcore holds of its own when its task starts: its four transfer semaphores, each at
zero, and its four staging buffers, two of an input image's size and two of half a result image's,
at whatever contents; and the two image arrays as the subcore addresses them, which are the
device's arrays.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable (d : Dev nD) (L : grid0.Coords)

/-! ## The arrays and the staging buffers as the subcore addresses them -/

theorem pts_xV (I : Finset (Idx (xLoc d))) (q : PosShare TreeShare) (f : Buf (Elt F) (xLoc d)) :
    ((xV).view.loc (thr d L) ↦[I]{q} f : sProp 𝕄) = xLoc d ↦[I]{q} f := rfl
theorem pts_oV (I : Finset (Idx (oLoc d))) (q : PosShare TreeShare) (f : Buf (Elt F) (oLoc d)) :
    ((oV).view.loc (thr d L) ↦[I]{q} f : sProp 𝕄) = oLoc d ↦[I]{q} f := rfl
theorem pts_i0V (f : Buf (Elt F) ((thr d L).loc cc0_scratch0)) :
    ((i0V).view.loc (thr d L) ↦{fullShare} f : sProp 𝕄) = (thr d L).loc cc0_scratch0 ↦{fullShare} f := rfl
theorem pts_i1V (f : Buf (Elt F) ((thr d L).loc cc0_scratch1)) :
    ((i1V).view.loc (thr d L) ↦{fullShare} f : sProp 𝕄) = (thr d L).loc cc0_scratch1 ↦{fullShare} f := rfl
theorem pts_o0V (f : Buf (Elt F) ((thr d L).loc cc0_scratch2)) :
    ((o0V).view.loc (thr d L) ↦{fullShare} f : sProp 𝕄) = (thr d L).loc cc0_scratch2 ↦{fullShare} f := rfl
theorem pts_o1V (f : Buf (Elt F) ((thr d L).loc cc0_scratch3)) :
    ((o1V).view.loc (thr d L) ↦{fullShare} f : sProp 𝕄) = (thr d L).loc cc0_scratch3 ↦{fullShare} f := rfl

/-! ## The subcore's own semaphores -/

/-- The four transfer semaphores' cells: one per staging buffer. -/
abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)
abbrev cell7 (d : Dev nD) (L : grid0.Coords) : GSem nD τ sig := (thr d L, .dma cc0_scratch7.sem)

theorem cell_ne {a b : SemLoc sig} (h : a ≠ b) : ((thr d L, a) : GSem nD τ sig) ≠ (thr d L, b) :=
  fun e => h (congrArg Prod.snd e)

/-- The four semaphores are among the subcore's own: they are them, each at zero, and the rest. -/
theorem ownSems0_V :
    (ownSems0 (thr d L) : sProp 𝕄)
      = iprop(semVal (cell4 d L) 0 ∗ semVal (cell5 d L) 0 ∗ semVal (cell6 d L) 0 ∗ semVal (cell7 d L) 0
          ∗ bigSep (((((ownCells (thr d L)).erase (cell4 d L)).erase (cell5 d L)).erase (cell6 d L)).erase (cell7 d L)) fun g => semVal g 0) := by
  unfold SparseCore.Cfg.ownSems0
  have m4 : cell4 d L ∈ ownCells (thr d L) := (mem_ownCells (g := cell4 d L)).mpr ⟨rfl, by
    show (SemLoc.dma cc0_scratch4.sem : SemLoc sig).isScoped .scVector = true; decide⟩
  have m5 : cell5 d L ∈ ownCells (thr d L) := (mem_ownCells (g := cell5 d L)).mpr ⟨rfl, by
    show (SemLoc.dma cc0_scratch5.sem : SemLoc sig).isScoped .scVector = true; decide⟩
  have m6 : cell6 d L ∈ ownCells (thr d L) := (mem_ownCells (g := cell6 d L)).mpr ⟨rfl, by
    show (SemLoc.dma cc0_scratch6.sem : SemLoc sig).isScoped .scVector = true; decide⟩
  have m7 : cell7 d L ∈ ownCells (thr d L) := (mem_ownCells (g := cell7 d L)).mpr ⟨rfl, by
    show (SemLoc.dma cc0_scratch7.sem : SemLoc sig).isScoped .scVector = true; decide⟩
  have n54 : cell5 d L ≠ cell4 d L := cell_ne d L (by decide)
  have n64 : cell6 d L ≠ cell4 d L := cell_ne d L (by decide)
  have n65 : cell6 d L ≠ cell5 d L := cell_ne d L (by decide)
  have n74 : cell7 d L ≠ cell4 d L := cell_ne d L (by decide)
  have n75 : cell7 d L ≠ cell5 d L := cell_ne d L (by decide)
  have n76 : cell7 d L ≠ cell6 d L := cell_ne d L (by decide)
  rw [SparseCore.bigSep_erase' m4,
    SparseCore.bigSep_erase' (Finset.mem_erase.mpr ⟨n54, m5⟩),
    SparseCore.bigSep_erase' (Finset.mem_erase.mpr ⟨n65, Finset.mem_erase.mpr ⟨n64, m6⟩⟩),
    SparseCore.bigSep_erase' (Finset.mem_erase.mpr ⟨n76, Finset.mem_erase.mpr ⟨n75, Finset.mem_erase.mpr ⟨n74, m7⟩⟩⟩)]

/-! ## The subcore's own buffers -/

/-- The subcore as a processor, and its four staging buffers as the device names them. -/
abbrev prV (L : grid0.Coords) : Proc τ := Proc.scVector (cV L) (jV L)
abbrev buf0 (L : grid0.Coords) : DevRef τ sig := (prV L).devRef cc0_scratch0
abbrev buf1 (L : grid0.Coords) : DevRef τ sig := (prV L).devRef cc0_scratch1
abbrev buf2 (L : grid0.Coords) : DevRef τ sig := (prV L).devRef cc0_scratch2
abbrev buf3 (L : grid0.Coords) : DevRef τ sig := (prV L).devRef cc0_scratch3

theorem buf_ne {a b : Ref sig .scVector} (h : a ≠ b) : (prV L).devRef a ≠ (prV L).devRef b :=
  fun e => h (Proc.devRef_injective _ e)

/-- The four staging buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (prV L)).erase (buf0 L)).erase (buf1 L)).erase (buf2 L)).erase (buf3 L))
              fun b => iprop(∃ f, ((d, b) : Loc nD τ sig) ↦{fullShare} f)) := by
  unfold SparseCore.Cfg.ownBufs
  have m0 : buf0 L ∈ ownRefs (τ := τ) (sig := sig) (prV L) := SparseCore.Cfg.mem_ownRefs_of_owner (p := prV L) (b := buf0 L) rfl
  have m1 : buf1 L ∈ ownRefs (τ := τ) (sig := sig) (prV L) := SparseCore.Cfg.mem_ownRefs_of_owner (p := prV L) (b := buf1 L) rfl
  have m2 : buf2 L ∈ ownRefs (τ := τ) (sig := sig) (prV L) := SparseCore.Cfg.mem_ownRefs_of_owner (p := prV L) (b := buf2 L) rfl
  have m3 : buf3 L ∈ ownRefs (τ := τ) (sig := sig) (prV L) := SparseCore.Cfg.mem_ownRefs_of_owner (p := prV L) (b := buf3 L) rfl
  have n10 : buf1 L ≠ buf0 L := buf_ne L (by decide)
  have n20 : buf2 L ≠ buf0 L := buf_ne L (by decide)
  have n21 : buf2 L ≠ buf1 L := buf_ne L (by decide)
  have n30 : buf3 L ≠ buf0 L := buf_ne L (by decide)
  have n31 : buf3 L ≠ buf1 L := buf_ne L (by decide)
  have n32 : buf3 L ≠ buf2 L := buf_ne L (by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

end Cert.Proof.KI

end
-- ==== Proof.KI.TileObl.lean ====
import proofs.«218969_g18416819765331_cont_7to1_658_22_alg».proof.Proof.KI.TileRes

/-!
From one subcore's task to the launch's obligation. The task, proved once at a symbolic device and
symbolic grid coordinates — from the subcore's two slabs, its own buffers and semaphores, and what it
owes, the body runs to its end and hands back the input slab unchanged and the result slab upsampled —
is what the launch asks of task `i` of SparseCore `c`, whose coordinates those are.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]
variable (X : (d : Dev nD) → Buf (Elt F) (xLoc d)) (O₀ : (d : Dev nD) → Buf (Elt F) (oLoc d))

/-- The task on the vector subcore at grid coordinates `L` of device `d`: from its slab of the input
    images and its slab of the result images as the call finds them, its own buffers and semaphores,
    and what it owes, the body runs to its end, handing back the input slab unchanged and the result
    slab upsampled, with its buffers and semaphores, owing what it owed and having waited on nothing
    that is another thread's. -/
def TileBody : Prop :=
  ∀ (hF : (K (F := F)).Facts) (d : Dev nD) (L : grid0.Coords) (O : CellTallies nD τ sig (HIx 1)) (W : Waits sig (HIx 1)) (hO : ∀ g, O g none = 0),
    iprop(levAts (K (F := F)).L (K (F := F)).lev ∗ emp ∗ goAt X O₀ d L
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7)
          fun _ => iprop(tdAt X d L ∗ scopedBufs (thr d L) ∗ scopedSems0 (thr d L)
            ∗ ∃ W', ⌜∀ p ∈ W', p ∈ W ∨ p.2 = none⌝ ∗ owes (thr d L) O W')

/-- The body table's entry for a vector subcore is the body at that subcore's coordinates. -/
theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) i0V (Memref.isWhole_whole _) i1V (Memref.isWhole_whole _)
          o0V (Memref.isWhole_whole _) o1V (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the one call's tasks, from the task at symbolic coordinates. -/
theorem tileObl_of (hB : TileBody X O₀) : (K (F := F)).TileObl (D (F := F)) 𝒱 (P X O₀) v₀ 0 := by
  intro d c i O W hO _ _
  simp only [show (P X O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hB facts d (coordsV ⟨_, hci.1⟩ ⟨_, hci.2⟩) O W hO).trans (wp_mono frame _ _ fun _ => obl_post)

end Cert.Proof.KI

end
-- ==== Proof.KI.Zero.lean ====
import proofs.«218969_g18416819765331_cont_7to1_658_22_alg».proof.Proof.KI.Pay
import Idealize.ShloMosaic.Lib.WritesUnit

/-!
The kernel's first act: it zeroes its two staging images, 112 rows of 224, sixteen entries at a time — row by
row, fourteen stores a row into each image. Before store `n` of row `k` an image holds zeros in its rows below
`k` and in the first `16 n` entries of row `k`, and what it held before elsewhere; after the last row it is zero
everywhere.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

/-! ## The partly zeroed image -/

/-- Rows below `k` zeroed. -/
def zrows (k : Nat) (g : S112x224.Idx → Elt F .f32) : S112x224.Idx → Elt F .f32 :=
  fun j => if (j 0).val < k then (zeroF : F .f32) else g j
/-- Rows below `k` zeroed and the first `16 * n` columns of row `k`. -/
def zpart (k n : Nat) (g : S112x224.Idx → Elt F .f32) : S112x224.Idx → Elt F .f32 :=
  fun j => if (j 0).val < k ∨ ((j 0).val = k ∧ (j 1).val < 16 * n) then (zeroF : F .f32) else g j

theorem zpart_zero (k : Nat) (g : S112x224.Idx → Elt F .f32) : zpart k 0 g = zrows k g := by
  funext j
  unfold zpart zrows
  by_cases h : (j 0).val < k
  · rw [if_pos (Or.inl h), if_pos h]
  · rw [if_neg (by rintro (a | ⟨_, a⟩) <;> omega), if_neg h]

theorem zpart_full (k : Nat) (g : S112x224.Idx → Elt F .f32) : zpart k 14 g = zrows (k + 1) g := by
  funext j
  unfold zpart zrows
  have h1 : (j 1).val < 16 * 14 := (j 1).isLt
  by_cases h : (j 0).val < k
  · rw [if_pos (Or.inl h), if_pos (by omega)]
  · by_cases h' : (j 0).val = k
    · rw [if_pos (Or.inr ⟨h', h1⟩), if_pos (by omega)]
    · rw [if_neg (by rintro (a | ⟨a, _⟩) <;> omega), if_neg (by omega)]

theorem zrows_zero (g : S112x224.Idx → Elt F .f32) : zrows 0 g = g := by
  funext j
  unfold zrows
  rw [if_neg (Nat.not_lt_zero _)]

theorem zrows_all (g : S112x224.Idx → Elt F .f32) : zrows 112 g = fun _ => (zeroF : F .f32) := by
  funext j
  unfold zrows
  rw [if_pos (show (j 0).val < 112 from (j 0).isLt)]

/-- One store of sixteen zeros at row `k1`, columns `16 k2 … 16 k2 + 15`, takes the image zeroed up to column
    `16 k2` of that row to the image zeroed up to column `16 (k2 + 1)`. -/
theorem store_step0 (k1 : Fin k0_t1_loop.trips) (k2 : Fin k0_t2_loop.trips) (g : S112x224.Idx → Elt F .f32)
    (h : ∀ a, (k0_off1 k1 k2) a + S1x16.size a ≤ S112x224.size a) :
    (o0V).view.writes (Elt F) (zpart k1.val k2.val g)
        [⟨Rect.unit (k0_off1 k1 k2) S1x16.size h, shapeCast S1x16 (k0_pay58 (F := F)) shapeCasts_S16_S1x16⟩]
      = zpart k1.val (k2.val + 1) g := by
  funext j
  have hr := View.read_writes_cons_unit (o0V).view (zpart k1.val k2.val g) h
    (shapeCast S1x16 (k0_pay58 (F := F)) shapeCasts_S16_S1x16) [] j (k0_off1_eq k1 k2)
  refine (show _ = _ from hr).trans ?_
  split
  · rename_i hc
    have h0 := hc 0
    have h1 := hc 1
    have e0 : (j 0).val = k1.val := by
      have : (j 0).val < k1.val + 1 := h0.2
      have : k1.val ≤ (j 0).val := h0.1
      omega
    have e1 : (j 1).val < 16 * (k2.val + 1) := by
      have : (j 1).val < 16 * k2.val + 16 := h1.2
      omega
    unfold zpart
    rw [if_pos (Or.inr ⟨e0, e1⟩)]
    rfl
  · rename_i hc
    show zpart k1.val k2.val g j = zpart k1.val (k2.val + 1) g j
    unfold zpart
    by_cases hz : (j 0).val < k1.val ∨ ((j 0).val = k1.val ∧ (j 1).val < 16 * k2.val)
    · rw [if_pos hz, if_pos (by rcases hz with a | ⟨a, b⟩; exact Or.inl a; exact Or.inr ⟨a, by omega⟩)]
    · rw [if_neg hz, if_neg]
      rintro (a | ⟨a, b⟩)
      · exact hz (Or.inl a)
      · apply hc
        intro c
        match c with
        | ⟨0, _⟩ => exact ⟨by show k1.val ≤ (j 0).val; omega, by show (j 0).val < k1.val + 1; omega⟩
        | ⟨1, _⟩ =>
          refine ⟨?_, by show (j 1).val < 16 * k2.val + 16; omega⟩
          show 16 * k2.val ≤ (j 1).val
          by_contra hlt
          exact hz (Or.inr ⟨a, by omega⟩)

/-- The same store into the second staging image. -/
theorem store_step1 (k1 : Fin k0_t1_loop.trips) (k2 : Fin k0_t2_loop.trips) (g : S112x224.Idx → Elt F .f32)
    (h : ∀ a, (k0_off1 k1 k2) a + S1x16.size a ≤ S112x224.size a) :
    (o1V).view.writes (Elt F) (zpart k1.val k2.val g)
        [⟨Rect.unit (k0_off1 k1 k2) S1x16.size h, shapeCast S1x16 (k0_pay58 (F := F)) shapeCasts_S16_S1x16⟩]
      = zpart k1.val (k2.val + 1) g := by
  funext j
  have hr := View.read_writes_cons_unit (o1V).view (zpart k1.val k2.val g) h
    (shapeCast S1x16 (k0_pay58 (F := F)) shapeCasts_S16_S1x16) [] j (k0_off1_eq k1 k2)
  refine (show _ = _ from hr).trans ?_
  split
  · rename_i hc
    have h0 := hc 0
    have h1 := hc 1
    have e0 : (j 0).val = k1.val := by
      have : (j 0).val < k1.val + 1 := h0.2
      have : k1.val ≤ (j 0).val := h0.1
      omega
    have e1 : (j 1).val < 16 * (k2.val + 1) := by
      have : (j 1).val < 16 * k2.val + 16 := h1.2
      omega
    unfold zpart
    rw [if_pos (Or.inr ⟨e0, e1⟩)]
    rfl
  · rename_i hc
    show zpart k1.val k2.val g j = zpart k1.val (k2.val + 1) g j
    unfold zpart
    by_cases hz : (j 0).val < k1.val ∨ ((j 0).val = k1.val ∧ (j 1).val < 16 * k2.val)
    · rw [if_pos hz, if_pos (by rcases hz with a | ⟨a, b⟩; exact Or.inl a; exact Or.inr ⟨a, by omega⟩)]
    · rw [if_neg hz, if_neg]
      rintro (a | ⟨a, b⟩)
      · exact hz (Or.inl a)
      · apply hc
        intro c
        match c with
        | ⟨0, _⟩ => exact ⟨by show k1.val ≤ (j 0).val; omega, by show (j 0).val < k1.val + 1; omega⟩
        | ⟨1, _⟩ =>
          refine ⟨?_, by show (j 1).val < 16 * k2.val + 16; omega⟩
          show 16 * k2.val ≤ (j 1).val
          by_contra hlt
          exact hz (Or.inr ⟨a, by omega⟩)

/-! ## The loops -/

section Tile
variable (d : Dev nD) (L : grid0.Coords)

/-- Before row `k1`: both staging images zeroed in the rows below `k1`. -/
def inv1 (g0 g1 : S112x224.Idx → Elt F .f32) (k1 : Nat) (_ : PUnit) : sProp 𝕄 :=
  iprop(((o0V).view.loc (thr d L) ↦{fullShare} zrows k1 g0) ∗ ((o1V).view.loc (thr d L) ↦{fullShare} zrows k1 g1))
/-- Before store `k2` of row `k1`: both staging images zeroed below row `k1` and in its first `16 k2` columns. -/
def inv2 (g0 g1 : S112x224.Idx → Elt F .f32) (k1 : Nat) (k2 : Nat) (_ : PUnit) : sProp 𝕄 :=
  iprop(((o0V).view.loc (thr d L) ↦{fullShare} zpart k1 k2 g0) ∗ ((o1V).view.loc (thr d L) ↦{fullShare} zpart k1 k2 g1))

set_option maxHeartbeats 4000000 in
/-- One trip of the inner loop: sixteen more zeros in row `k1` of each image. -/
theorem zero_inner_step (g0 g1 : S112x224.Idx → Elt F .f32) (k1 : Fin k0_t1_loop.trips) (k2 : Fin k0_t2_loop.trips) (acc : PUnit) :
    inv2 d L g0 g1 k1.val k2.val acc ⊢ wp frame (wpE (defs₀ (F := F)) 𝒱₀ (thr d L) none) Set.univ
      (k0_t2_body L xV (Memref.isWhole_whole _) oV (Memref.isWhole_whole _) i0V (Memref.isWhole_whole _) i1V (Memref.isWhole_whole _)
        o0V (Memref.isWhole_whole _) o1V (Memref.isWhole_whole _) cc0_scratch4 cc0_scratch5 cc0_scratch6 cc0_scratch7 k1 k2 acc)
      (inv2 d L g0 g1 k1.val (k2.val + 1)) := by
  unfold inv2
  iintro ⟨Ho0, Ho1⟩
  sl_unfold [k0_t2_body]
  sl_exec
  sl_step
  irw [← store_step0 k1 k2 g0 (k0_off1_inb k1 k2), ← store_step1 k1 k2 g1 (k0_off1_inb k1 k2)]
  isplitl [Ho0]
  · iexact Ho0
  · iexact Ho1

theorem t2_trips : Scf.trips k0_t2_loop.lb k0_t2_loop.ub k0_t2_loop.st = 14 := by decide
theorem t1_trips : Scf.trips k0_t1_loop.lb k0_t1_loop.ub k0_t1_loop.st = 112 := by decide

/-- Nothing of row `k` zeroed yet: the rows below `k` are. -/
theorem inv2_zero (g0 g1 : S112x224.Idx → Elt F .f32) (k : Nat) (acc : PUnit) :
    inv2 d L g0 g1 k 0 acc = inv1 d L g0 g1 k acc := by
  unfold inv2 inv1; rw [zpart_zero, zpart_zero]
/-- All fourteen pieces of row `k` zeroed: the rows below `k + 1` are. -/
theorem inv2_full (g0 g1 : S112x224.Idx → Elt F .f32) (k : Nat) :
    inv2 d L g0 g1 k 14 = inv1 d L g0 g1 (k + 1) := by
  funext acc; unfold inv2 inv1; rw [zpart_full, zpart_full]

set_option maxHeartbeats 4000000 in
/-- One trip of the outer loop: row `k1` of each image zeroed, by fourteen trips of the inner loop. -/
theorem zero_outer_step (g0 g1 : S112x224.Idx → Elt F .f32) (k1 : Fin k0_t1_loop.trips) (acc : PUnit) :
    inv1 d L g0 g1 k1.val acc ⊢ wp frame (wpE (defs₀ (F := F)) 𝒱₀ (thr d L) none) Set.univ
      (k0_t1_body L xV (Memref.isWhole_whole _) oV (Memref.isWhole_whole _) i0V (Memref.isWhole_whole _) i1V (Memref.isWhole_whole _)
        o0V (Memref.isWhole_whole _) o1V (Memref.isWhole_whole _) cc0_scratch4 cc0_scratch5 cc0_scratch6 cc0_scratch7 k1 acc)
      (inv1 d L g0 g1 (k1.val + 1)) := by
  iintro HI
  sl_unfold [k0_t1_body]
  sl_for (inv2 d L g0 g1 k1.val) $$ [HI]
  case region =>
    intro k2 acc2
    exact zero_inner_step d L g0 g1 k1 k2 acc2
  · irw [inv2_zero]
    iexact HI
  irw [t2_trips, inv2_full]
  iintro %acc2 HI
  sl_exec
  sl_step
  iexact HI

/-! ## Entering and leaving the outer loop -/

/-- Before the first row nothing is zeroed: the invariant is the two images as they were found. -/
theorem inv1_zero (g0 g1 : S112x224.Idx → Elt F .f32) (acc : PUnit) :
    inv1 d L g0 g1 0 acc
      = iprop(((o0V).view.loc (thr d L) ↦{fullShare} g0) ∗ ((o1V).view.loc (thr d L) ↦{fullShare} g1)) := by
  unfold inv1; rw [zrows_zero, zrows_zero]

/-- After the last row both images are zero everywhere. -/
theorem inv1_all (g0 g1 : S112x224.Idx → Elt F .f32) :
    inv1 d L g0 g1 112
      = fun _ => iprop(((o0V).view.loc (thr d L) ↦{fullShare} fun _ => (zeroF : F .f32))
          ∗ ((o1V).view.loc (thr d L) ↦{fullShare} fun _ => (zeroF : F .f32))) := by
  funext acc; unfold inv1; rw [zrows_all, zrows_all]

/-- The entry fact as an entailment. -/
theorem inv1_entry (g0 g1 : S112x224.Idx → Elt F .f32) (acc : PUnit) :
    iprop(((o0V).view.loc (thr d L) ↦{fullShare} g0) ∗ ((o1V).view.loc (thr d L) ↦{fullShare} g1))
      ⊢ inv1 d L g0 g1 0 acc := by
  rw [inv1_zero]

/-- The exit fact as an entailment, at the loop's own trip count. -/
theorem inv1_exit (g0 g1 : S112x224.Idx → Elt F .f32) (acc : PUnit) :
    inv1 d L g0 g1 (Scf.trips k0_t1_loop.lb k0_t1_loop.ub k0_t1_loop.st) acc
      ⊢ iprop(((o0V).view.loc (thr d L) ↦{fullShare} fun _ => (zeroF : F .f32))
          ∗ ((o1V).view.loc (thr d L) ↦{fullShare} fun _ => (zeroF : F .f32))) := by
  rw [t1_trips, inv1_all]

end Tile

end Cert.Proof.KI

end
-- ==== Proof.KI.Half.lean ====
import proofs.«218969_g18416819765331_cont_7to1_658_22_alg».proof.Proof.KI.Common

/-!
A staging buffer holds one half of a result image: 112 rows of 224. Its odd rows and columns copy
fifty-six rows of the input image; everything else is zero.
-/

noncomputable section

namespace Cert.Proof.KI

open Cert.KernelIdeal Cert.KernelIdeal.Gen
open Idealize.ShloMosaic

variable {F : FTy → Type} [FloatOps F]

/-- Entry `(r, c)` of an input image buffer (coordinates past the buffer are clamped; never used there). -/
def hIdx (r c : Nat) : S112x112.Idx :=
  fun a => match a with
    | ⟨0, _⟩ => ⟨min r 111, by show _ < 112; omega⟩
    | ⟨1, _⟩ => ⟨min c 111, by show _ < 112; omega⟩

/-- The staging buffer after `k` rows of the input image, from row `base` on, have been scattered over `g`:
    staging row `2 q + 1`, `q < k`, holds at column `2 w + 1` the input entry `(base + q, w)`. -/
def scatK (fi : S112x112.Idx → Elt F .f32) (base k : Nat) (g : S112x224.Idx → Elt F .f32) : S112x224.Idx → Elt F .f32 :=
  fun j => if (j 0).val % 2 = 1 ∧ (j 0).val / 2 < k ∧ (j 1).val % 2 = 1 then fi (hIdx (base + (j 0).val / 2) ((j 1).val / 2)) else g j

/-- Half a result image: the fifty-six input rows from `base` on at the odd rows and columns, zero elsewhere. -/
def halfImg (fi : S112x112.Idx → Elt F .f32) (base : Nat) : S112x224.Idx → Elt F .f32 :=
  fun j => if (j 0).val % 2 = 1 ∧ (j 1).val % 2 = 1 then fi (hIdx (base + (j 0).val / 2) ((j 1).val / 2)) else (zeroF : F .f32)

/-- Zero away from the odd rows and columns. -/
def ZeroOff (g : S112x224.Idx → Elt F .f32) : Prop :=
  ∀ j, ¬((j 0).val % 2 = 1 ∧ (j 1).val % 2 = 1) → g j = (zeroF : F .f32)

theorem scatK_zero (fi : S112x112.Idx → Elt F .f32) (base : Nat) (g : S112x224.Idx → Elt F .f32) : scatK fi base 0 g = g := by
  funext j; unfold scatK; rw [if_neg]; omega

theorem scatK_full (fi : S112x112.Idx → Elt F .f32) (base : Nat) (g : S112x224.Idx → Elt F .f32) (hg : ZeroOff g) :
    scatK fi base 56 g = halfImg fi base := by
  funext j; unfold scatK halfImg
  have h0 : (j 0).val < 112 := (j 0).isLt
  by_cases h : (j 0).val % 2 = 1 ∧ (j 1).val % 2 = 1
  · rw [if_pos ⟨h.1, by omega, h.2⟩, if_pos h]
  · rw [if_neg (fun hh => h ⟨hh.1, hh.2.2⟩), if_neg h]; exact hg j h

theorem zeroOff_halfImg (fi : S112x112.Idx → Elt F .f32) (base : Nat) : ZeroOff (halfImg fi base) := by
  intro j h; unfold halfImg; rw [if_neg h]

theorem zeroOff_zero : ZeroOff (fun _ : S112x224.Idx => (zeroF : F .f32)) := fun _ _ => rfl

end Cert.Proof.KI

end
-- ==== Proof.KI.Windows.lean ====
import proofs.«218969_g18416819765331_cont_7to1_658_22_alg».proof.Proof.KI.Pay
import proofs.«218969_g18416819765331_cont_7to1_658_22_alg».proof.Proof.KI.Half

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

/-!
Windows of the two image arrays: one input image of the slab, and one half (112 rows) of a result
image. Two windows at different images, or at the two halves of one image, share no element.
-/

/-- The first image of the subcore's slab. -/
abbrev bOf (L : grid0.Coords) : Nat := 96 * (L 1).val + 48 * (L 0).val

theorem bOf_le (L : grid0.Coords) : bOf L + 48 ≤ 1536 := by
  have h0 : (L 0).val < 2 := (L 0).isLt
  have h1 : (L 1).val < 16 := (L 1).isLt
  show 96 * (L 1).val + 48 * (L 0).val + 48 ≤ 1536; omega

/-- Image `n` of the slab, as an input buffer receives it. -/
def imgOf (L : grid0.Coords) (X : S1536x112x112.Idx → Elt F .f32) (n : Nat) : S112x112.Idx → Elt F .f32 :=
  fun y => X (fun a => match a with
    | ⟨0, _⟩ => ⟨min (bOf L + n) 1535, by show _ < 1536; omega⟩
    | ⟨1, _⟩ => ⟨(y 0).val, (y 0).isLt⟩
    | ⟨2, _⟩ => ⟨(y 1).val, (y 1).isLt⟩)

/-- The result images of the slab below its image `n` are final in `fo`. -/
def Done (L : grid0.Coords) (X : S1536x112x112.Idx → Elt F .f32) (fo : S1536x224x224.Idx → Elt F .f32) (n : Nat) : Prop :=
  ∀ j : S1536x224x224.Idx, bOf L ≤ (j 0).val → (j 0).val < bOf L + n → fo j = up X j

theorem done_zero (L : grid0.Coords) (X : S1536x112x112.Idx → Elt F .f32) (fo : S1536x224x224.Idx → Elt F .f32) : Done L X fo 0 := by
  intro j h1 h2; omega

omit [FloatOps F] in
/-- Two input-image windows at different images are disjoint. -/
theorem xwin_disjoint (o1 o2 : Fin 3 → Nat) (h1 : ∀ a, o1 a + S1x112x112.size a ≤ S1536x112x112.size a) (h2 : ∀ a, o2 a + S1x112x112.size a ≤ S1536x112x112.size a)
    (hne : o1 0 + 1 ≤ o2 0 ∨ o2 0 + 1 ≤ o1 0) :
    Disjoint ((xV).slice (Rect.unit (s := S1536x112x112) o1 S1x112x112.size h1) (fun _ => rfl)).view.set
      (((xV).slice (Rect.unit (s := S1536x112x112) o2 S1x112x112.size h2) (fun _ => rfl)).squeeze S112x112 squeezes_S1x112x112_S112x112).view.set := by
  rw [Memref.set_view_squeeze]
  refine View.disjoint_of_boxes (xV).view (Rect.unit (s := S1536x112x112) o1 S1x112x112.size h1).toLoadRect
    (Rect.unit (s := S1536x112x112) o2 S1x112x112.size h2).toLoadRect ?_ ?_ ⟨0, by decide⟩ ?_
  · exact View.set_slice_subset_setOn _ _
  · exact View.set_slice_subset_setOn _ _
  · show (1 = 0 ∨ o1 0 + 1 * (1 - 1) < o2 0) ∨ (1 = 0 ∨ o2 0 + 1 * (1 - 1) < o1 0)
    omega

omit [FloatOps F] in
/-- Two result half-image windows at different images, or at different halves, are disjoint. -/
theorem owin_disjoint (o1 o2 : Fin 3 → Nat) (h1 : ∀ a, o1 a + S1x112x224.size a ≤ S1536x224x224.size a) (h2 : ∀ a, o2 a + S1x112x224.size a ≤ S1536x224x224.size a)
    (hne : (o1 0 + 1 ≤ o2 0 ∨ o2 0 + 1 ≤ o1 0) ∨ (o1 1 + 112 ≤ o2 1 ∨ o2 1 + 112 ≤ o1 1)) :
    Disjoint ((oV).slice (Rect.unit (s := S1536x224x224) o1 S1x112x224.size h1) (fun _ => rfl)).view.set
      (((oV).slice (Rect.unit (s := S1536x224x224) o2 S1x112x224.size h2) (fun _ => rfl)).squeeze S112x224 squeezes_S1x112x224_S112x224).view.set := by
  rw [Memref.set_view_squeeze]
  rcases hne with hne | hne
  · refine View.disjoint_of_boxes (oV).view (Rect.unit (s := S1536x224x224) o1 S1x112x224.size h1).toLoadRect
      (Rect.unit (s := S1536x224x224) o2 S1x112x224.size h2).toLoadRect ?_ ?_ ⟨0, by decide⟩ ?_
    · exact View.set_slice_subset_setOn _ _
    · exact View.set_slice_subset_setOn _ _
    · show (1 = 0 ∨ o1 0 + 1 * (1 - 1) < o2 0) ∨ (1 = 0 ∨ o2 0 + 1 * (1 - 1) < o1 0)
      omega
  · refine View.disjoint_of_boxes (oV).view (Rect.unit (s := S1536x224x224) o1 S1x112x224.size h1).toLoadRect
      (Rect.unit (s := S1536x224x224) o2 S1x112x224.size h2).toLoadRect ?_ ?_ ⟨1, by decide⟩ ?_
    · exact View.set_slice_subset_setOn _ _
    · exact View.set_slice_subset_setOn _ _
    · show (112 = 0 ∨ o1 1 + 1 * (112 - 1) < o2 1) ∨ (112 = 0 ∨ o2 1 + 1 * (112 - 1) < o1 1)
      omega

end Cert.Proof.KI

end
-- ==== Proof.KI.Inv.lean ====
import proofs.«218969_g18416819765331_cont_7to1_658_22_alg».proof.Proof.KI.Pay
import proofs.«218969_g18416819765331_cont_7to1_658_22_alg».proof.Proof.KI.Windows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

/-!
The state of a subcore between two images. Images are copied in two ahead, alternating between the two
input buffers, and each staging buffer's copy out is left under way until the next image needs the buffer.
-/

/-- The offsets of the window of input image `n` of the slab, and of the half at row `r` of its result image. -/
def xOff (L : grid0.Coords) (n : Nat) : Fin 3 → Nat := ![96 * (L 1).val + 48 * (L 0).val + n, 0, 0]
instance closedOff_xOff (L : grid0.Coords) (n : Nat) : ClosedOff (xOff L n) := ⟨![96 * (L 1).val + 48 * (L 0).val + n, 0, 0], rfl⟩
def oOff (L : grid0.Coords) (n r : Nat) : Fin 3 → Nat := ![96 * (L 1).val + 48 * (L 0).val + n, r, 0]
instance closedOff_oOff (L : grid0.Coords) (n r : Nat) : ClosedOff (oOff L n r) := ⟨![96 * (L 1).val + 48 * (L 0).val + n, r, 0], rfl⟩

omit [FloatOps F] in
theorem xOff_eq (L : grid0.Coords) (n : Nat) : xOff L n = ![bOf L + n, 0, 0] := rfl
omit [FloatOps F] in
theorem oOff_eq (L : grid0.Coords) (n r : Nat) : oOff L n r = ![bOf L + n, r, 0] := rfl

section Inv
variable (d : Dev nD) (L : grid0.Coords) (X : S1536x112x112.Idx → Elt F .f32)

/-- Both input buffers await an image of the slab: the older copy, of image `n`, lands in the first input buffer,
    the newer, of image `n + 1`, in the second; the slab of input images is held less the two windows lent. -/
def inTwoE (n : Nat) : sProp 𝕄 :=
  iprop(∃ (offA offB : Fin 3 → Nat) (hA : ∀ a, offA a + S1x112x112.size a ≤ S1536x112x112.size a)
      (hB : ∀ a, offB a + S1x112x112.size a ≤ S1536x112x112.size a) (payA payB : S112x112.Idx → Elt F .f32),
    ⌜offA = xOff L n ∧ offB = xOff L (n + 1) ∧ payA = imgOf L X n ∧ payB = imgOf L X (n + 1)⌝
    ∗ Transfers.Flight countersEmb (thr d L) (SemLoc.dma cc0_scratch4.sem) (default : HIx 1) 401408
      iprop(((i0V).view.loc (thr d L) ↦{fullShare} payA)
        ∗ ((xV).view.loc (thr d L) ↦[(((xV).slice (Rect.unit (s := S1536x112x112) offA S1x112x112.size hA) (fun _ => rfl)).squeeze S112x112 squeezes_S1x112x112_S112x112).view.set]{fullShare} X))
    ∗ Transfers.Flight countersEmb (thr d L) (SemLoc.dma cc0_scratch5.sem) (default : HIx 1) 401408
      iprop(((i1V).view.loc (thr d L) ↦{fullShare} payB)
        ∗ ((xV).view.loc (thr d L) ↦[(((xV).slice (Rect.unit (s := S1536x112x112) offB S1x112x112.size hB) (fun _ => rfl)).squeeze S112x112 squeezes_S1x112x112_S112x112).view.set]{fullShare} X))
    ∗ ((xV).view.loc (thr d L) ↦[((xV).view.setOn (xR L).set \ (((xV).slice (Rect.unit (s := S1536x112x112) offA S1x112x112.size hA) (fun _ => rfl)).squeeze S112x112 squeezes_S1x112x112_S112x112).view.set) \ (((xV).slice (Rect.unit (s := S1536x112x112) offB S1x112x112.size hB) (fun _ => rfl)).squeeze S112x112 squeezes_S1x112x112_S112x112).view.set]{fullShare} X))

/-- Both input buffers await an image of the slab, their roles exchanged: the older copy, of image `n`, lands in the
    second input buffer, the newer, of image `n + 1`, in the first; the slab of input images is held less the two windows lent. -/
def inTwoO (n : Nat) : sProp 𝕄 :=
  iprop(∃ (offA offB : Fin 3 → Nat) (hA : ∀ a, offA a + S1x112x112.size a ≤ S1536x112x112.size a)
      (hB : ∀ a, offB a + S1x112x112.size a ≤ S1536x112x112.size a) (payA payB : S112x112.Idx → Elt F .f32),
    ⌜offA = xOff L n ∧ offB = xOff L (n + 1) ∧ payA = imgOf L X n ∧ payB = imgOf L X (n + 1)⌝
    ∗ Transfers.Flight countersEmb (thr d L) (SemLoc.dma cc0_scratch5.sem) (default : HIx 1) 401408
      iprop(((i1V).view.loc (thr d L) ↦{fullShare} payA)
        ∗ ((xV).view.loc (thr d L) ↦[(((xV).slice (Rect.unit (s := S1536x112x112) offA S1x112x112.size hA) (fun _ => rfl)).squeeze S112x112 squeezes_S1x112x112_S112x112).view.set]{fullShare} X))
    ∗ Transfers.Flight countersEmb (thr d L) (SemLoc.dma cc0_scratch4.sem) (default : HIx 1) 401408
      iprop(((i0V).view.loc (thr d L) ↦{fullShare} payB)
        ∗ ((xV).view.loc (thr d L) ↦[(((xV).slice (Rect.unit (s := S1536x112x112) offB S1x112x112.size hB) (fun _ => rfl)).squeeze S112x112 squeezes_S1x112x112_S112x112).view.set]{fullShare} X))
    ∗ ((xV).view.loc (thr d L) ↦[((xV).view.setOn (xR L).set \ (((xV).slice (Rect.unit (s := S1536x112x112) offA S1x112x112.size hA) (fun _ => rfl)).squeeze S112x112 squeezes_S1x112x112_S112x112).view.set) \ (((xV).slice (Rect.unit (s := S1536x112x112) offB S1x112x112.size hB) (fun _ => rfl)).squeeze S112x112 squeezes_S1x112x112_S112x112).view.set]{fullShare} X))

/-- Both staging buffers are on their way out, carrying the two halves of result image `n` of the slab; every
    result image up to `n` is final in the contents the slab of result images is held at. -/
def outTwo (n : Nat) : sProp 𝕄 :=
  iprop(∃ (offC offD : Fin 3 → Nat) (hC : ∀ a, offC a + S1x112x224.size a ≤ S1536x224x224.size a)
      (hD : ∀ a, offD a + S1x112x224.size a ≤ S1536x224x224.size a) (fo : S1536x224x224.Idx → Elt F .f32) (ga gb : S112x224.Idx → Elt F .f32),
    ⌜offC = oOff L n 0 ∧ offD = oOff L n 112 ∧ ZeroOff ga ∧ ZeroOff gb ∧ Done L X fo (n + 1)⌝
    ∗ Transfers.Flight countersEmb (thr d L) (SemLoc.dma cc0_scratch6.sem) (default : HIx 1) 802816
      iprop(((oV).view.loc (thr d L) ↦[(((oV).slice (Rect.unit (s := S1536x224x224) offC S1x112x224.size hC) (fun _ => rfl)).squeeze S112x224 squeezes_S1x112x224_S112x224).view.set]{fullShare} fo)
        ∗ ((o0V).view.loc (thr d L) ↦[(o0V).view.set]{fullShare} ga))
    ∗ ((o0V).view.loc (thr d L) ↦[Finset.univ \ (o0V).view.set]{fullShare} ga)
    ∗ Transfers.Flight countersEmb (thr d L) (SemLoc.dma cc0_scratch7.sem) (default : HIx 1) 802816
      iprop(((oV).view.loc (thr d L) ↦[(((oV).slice (Rect.unit (s := S1536x224x224) offD S1x112x224.size hD) (fun _ => rfl)).squeeze S112x224 squeezes_S1x112x224_S112x224).view.set]{fullShare} fo)
        ∗ ((o1V).view.loc (thr d L) ↦[(o1V).view.set]{fullShare} gb))
    ∗ ((o1V).view.loc (thr d L) ↦[Finset.univ \ (o1V).view.set]{fullShare} gb)
    ∗ ((oV).view.loc (thr d L) ↦[((oV).view.setOn (oR L).set \ (((oV).slice (Rect.unit (s := S1536x224x224) offC S1x112x224.size hC) (fun _ => rfl)).squeeze S112x224 squeezes_S1x112x224_S112x224).view.set) \ (((oV).slice (Rect.unit (s := S1536x224x224) offD S1x112x224.size hD) (fun _ => rfl)).squeeze S112x224 squeezes_S1x112x224_S112x224).view.set]{fullShare} fo))

/-- What the subcore owes, its recorded waits grown only by waits of its own semaphores. -/
def owesAt (O : CellTallies nD τ sig (HIx 1)) (W : Waits sig (HIx 1)) : sProp 𝕄 :=
  iprop(∃ W', ⌜∀ p ∈ W', p ∈ W ∨ p.2 = none⌝ ∗ owes (thr d L) O W')

end Inv

end Cert.Proof.KI

end
-- ==== Proof.KI.Inv2.lean ====
import proofs.«218969_g18416819765331_cont_7to1_658_22_alg».proof.Proof.KI.Pay
import proofs.«218969_g18416819765331_cont_7to1_658_22_alg».proof.Proof.KI.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

/-!
The states at the ends of a subcore's run: before the first image nothing is on its way out; before the
last image only one input copy is outstanding; after it none.
-/

section Inv
variable (d : Dev nD) (L : grid0.Coords) (X : S1536x112x112.Idx → Elt F .f32)

/-- Before the first image: both staging buffers zero, their semaphores free, the slab of result images whole. -/
def outZero : sProp 𝕄 :=
  iprop(∃ (fo : S1536x224x224.Idx → Elt F .f32),
    ((o0V).view.loc (thr d L) ↦{fullShare} (fun _ => (zeroF : F .f32)))
    ∗ ((o1V).view.loc (thr d L) ↦{fullShare} (fun _ => (zeroF : F .f32)))
    ∗ semVal (thr d L, .dma cc0_scratch6.sem) 0 ∗ semVal (thr d L, .dma cc0_scratch7.sem) 0
    ∗ ((oV).view.loc (thr d L) ↦[(oV).view.setOn (oR L).set]{fullShare} fo))

/-- Before the last image (the forty-eighth, an odd trip): its copy into the second input buffer is outstanding,
    the first input buffer is free. -/
def inOne47 : sProp 𝕄 :=
  iprop(∃ (offA : Fin 3 → Nat) (hA : ∀ a, offA a + S1x112x112.size a ≤ S1536x112x112.size a) (payA : S112x112.Idx → Elt F .f32),
    ⌜offA = xOff L 47 ∧ payA = imgOf L X 47⌝
    ∗ Transfers.Flight countersEmb (thr d L) (SemLoc.dma cc0_scratch5.sem) (default : HIx 1) 401408
      iprop(((i1V).view.loc (thr d L) ↦{fullShare} payA)
        ∗ ((xV).view.loc (thr d L) ↦[(((xV).slice (Rect.unit (s := S1536x112x112) offA S1x112x112.size hA) (fun _ => rfl)).squeeze S112x112 squeezes_S1x112x112_S112x112).view.set]{fullShare} X))
    ∗ (∃ f, (i0V).view.loc (thr d L) ↦{fullShare} f) ∗ semVal (thr d L, .dma cc0_scratch4.sem) 0
    ∗ ((xV).view.loc (thr d L) ↦[(xV).view.setOn (xR L).set \ (((xV).slice (Rect.unit (s := S1536x112x112) offA S1x112x112.size hA) (fun _ => rfl)).squeeze S112x112 squeezes_S1x112x112_S112x112).view.set]{fullShare} X))

/-- After the last image: both input buffers free, the slab of input images whole. -/
def inNone : sProp 𝕄 :=
  iprop((∃ f, (i0V).view.loc (thr d L) ↦{fullShare} f) ∗ (∃ f, (i1V).view.loc (thr d L) ↦{fullShare} f)
    ∗ semVal (thr d L, .dma cc0_scratch4.sem) 0 ∗ semVal (thr d L, .dma cc0_scratch5.sem) 0
    ∗ ((xV).view.loc (thr d L) ↦[(xV).view.setOn (xR L).set]{fullShare} X))

/-- The input side before trip `t`. -/
def inPart (t : Nat) : sProp 𝕄 :=
  if t % 2 = 0 then (if t + 1 < 48 then inTwoE d L X t else inNone d L X)
  else (if t + 1 < 48 then inTwoO d L X t else inOne47 d L X)

/-- The output side before trip `t`. -/
def outPart (t : Nat) : sProp 𝕄 :=
  if t = 0 then outZero d L else outTwo d L X (t - 1)

/-- The subcore's state before trip `t` of the loop over its images. -/
def tinv (O : CellTallies nD τ sig (HIx 1)) (W : Waits sig (HIx 1)) (t : Nat) (_ : PUnit) : sProp 𝕄 :=
  iprop(Transfers.MayWaits (thr d L) (default : HIx 1) O ∗ inPart d L X t ∗ outPart d L X t ∗ owesAt d L O W)

end Inv

end Cert.Proof.KI

end
-- ==== Proof.KI.WinIn.lean ====
import proofs.«218969_g18416819765331_cont_7to1_658_22_alg».proof.Proof.KI.Windows

/-!
What an input buffer holds after one image of the slab has been copied into it. The copy reads the
image's window of the input array — one image, all its rows and columns, seen as a 112 × 112 array by
dropping the leading axis of size one — and writes it over the whole buffer: the buffer then holds
the image, whatever it held before.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

/-- Image `n` of the slab lies inside the input array. -/
theorem xwin_inb (L : grid0.Coords) (n : Nat) (hn : n < 48) :
    ∀ a, (![bOf L + n, 0, 0] : Fin 3 → Nat) a + S1x112x112.size a ≤ S1536x112x112.size a := by
  have hb := bOf_le L
  intro a
  match a with
  | ⟨0, _⟩ => show bOf L + n + 1 ≤ 1536; omega
  | ⟨1, _⟩ => show 0 + 112 ≤ 112; omega
  | ⟨2, _⟩ => show 0 + 112 ≤ 112; omega

/-- Either half (rows from `r = 0` or from `r = 112`) of result image `n` of the slab lies inside the result array. -/
theorem owin_inb (L : grid0.Coords) (n : Nat) (hn : n < 48) (r : Nat) (hr : r = 0 ∨ r = 112) :
    ∀ a, (![bOf L + n, r, 0] : Fin 3 → Nat) a + S1x112x224.size a ≤ S1536x224x224.size a := by
  have hb := bOf_le L
  intro a
  match a with
  | ⟨0, _⟩ => show bOf L + n + 1 ≤ 1536; omega
  | ⟨1, _⟩ => show r + 112 ≤ 224; omega
  | ⟨2, _⟩ => show 0 + 224 ≤ 224; omega

variable [FloatOps F]

/-- The window of image `bOf L + n` of the input array, read as a 112 × 112 array, is image `n` of the slab. -/
theorem xwin_read (L : grid0.Coords) (X : S1536x112x112.Idx → Elt F .f32) (n : Nat) (hn : n < 48) (off : Fin 3 → Nat)
    (h : ∀ a, off a + S1x112x112.size a ≤ S1536x112x112.size a) (hoff : off = ![bOf L + n, 0, 0]) :
    View.read (Elt F) (((xV).slice (Rect.unit (s := S1536x112x112) off S1x112x112.size h) (fun _ => rfl)).squeeze S112x112 squeezes_S1x112x112_S112x112).view X
      = imgOf L X n := by
  subst hoff
  funext y
  rw [View.read_apply]
  unfold imgOf
  have he : (((xV).slice (Rect.unit (s := S1536x112x112) ![bOf L + n, 0, 0] S1x112x112.size h) (fun _ => rfl)).squeeze S112x112 squeezes_S1x112x112_S112x112).view.emb y
      = (fun a => match a with
          | ⟨0, _⟩ => ⟨min (bOf L + n) 1535, by show _ < 1536; omega⟩
          | ⟨1, _⟩ => ⟨(y 0).val, (y 0).isLt⟩
          | ⟨2, _⟩ => ⟨(y 1).val, (y 1).isLt⟩ : S1536x112x112.Idx) := by
    show (Rect.unit (s := S1536x112x112) ![bOf L + n, 0, 0] S1x112x112.size h).emb (Shape.reshapeEquiv _ y) = _
    rw [Shape.reshapeEquiv_cons_one]
    have hb := bOf_le L
    funext a
    match a with
    | ⟨0, _⟩ => apply Fin.ext; show bOf L + n + 1 * 0 = min (bOf L + n) 1535; omega
    | ⟨1, _⟩ => apply Fin.ext; show 0 + 1 * (y 0).val = (y 0).val; omega
    | ⟨2, _⟩ => apply Fin.ext; show 0 + 1 * (y 1).val = (y 1).val; omega
  rw [he]
  rfl

/-- After the copy of image `n` into the first input buffer, the buffer holds the image. -/
theorem in_pay_eq0 (L : grid0.Coords) (X : S1536x112x112.Idx → Elt F .f32) (n : Nat) (hn : n < 48) (off : Fin 3 → Nat)
    (h : ∀ a, off a + S1x112x112.size a ≤ S1536x112x112.size a) (hoff : off = ![bOf L + n, 0, 0])
    (f : S112x112.Idx → Elt F .f32) :
    View.write (Elt F) (Memref.whole cc0_scratch0).view f
        (ReadAs.same.apply (View.read (Elt F) (((xV).slice (Rect.unit (s := S1536x112x112) off S1x112x112.size h) (fun _ => rfl)).squeeze S112x112 squeezes_S1x112x112_S112x112).view X))
        Finset.univ
      = imgOf L X n := by
  rw [xwin_read L X n hn off h hoff]
  exact View.write_whole_univ cc0_scratch0 f (imgOf L X n)

/-- After the copy of image `n` into the second input buffer, the buffer holds the image. -/
theorem in_pay_eq1 (L : grid0.Coords) (X : S1536x112x112.Idx → Elt F .f32) (n : Nat) (hn : n < 48) (off : Fin 3 → Nat)
    (h : ∀ a, off a + S1x112x112.size a ≤ S1536x112x112.size a) (hoff : off = ![bOf L + n, 0, 0])
    (f : S112x112.Idx → Elt F .f32) :
    View.write (Elt F) (Memref.whole cc0_scratch1).view f
        (ReadAs.same.apply (View.read (Elt F) (((xV).slice (Rect.unit (s := S1536x112x112) off S1x112x112.size h) (fun _ => rfl)).squeeze S112x112 squeezes_S1x112x112_S112x112).view X))
        Finset.univ
      = imgOf L X n := by
  rw [xwin_read L X n hn off h hoff]
  exact View.write_whole_univ cc0_scratch1 f (imgOf L X n)

end Cert.Proof.KI

end
-- ==== Proof.KI.WinOut.lean ====
import proofs.«218969_g18416819765331_cont_7to1_658_22_alg».proof.Proof.KI.Windows

/-!
The result side of one image. A half-image window of the result images, at image `b` and first row
`r₀`, holds entry `(r, c)` of a staging buffer at result entry `(b, r₀ + r, c)`. Writing the two
staging buffers of image `n` of the slab — the upper half of its upsampling, then the lower half —
through the two windows of that image makes the result images final up to and including image `n`:
row `r` of the upper half and row `r - 112` of the lower half are row `r` of the upsampled image,
whose odd rows and columns copy row `r / 2` of the input image, 112 being even. The two windows share
no element, so the second write leaves the first window as the first write left it. When all
forty-eight images are final the subcore's result slab is the upsampling of its input slab.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

/-! ## A half-image window and where its entries sit -/

/-- The half-image window of the result images at offsets `off`: one image, 112 rows, all 224 columns. -/
abbrev OW (off : Fin 3 → Nat) (h : ∀ a, off a + S1x112x224.size a ≤ S1536x224x224.size a) : Memref sig .scVector .hbm S112x224 .f32 :=
  ((oV).slice (Rect.unit (s := S1536x224x224) off S1x112x224.size h) (fun _ => rfl)).squeeze S112x224 squeezes_S1x112x224_S112x224

/-- Entry `(r, c)` of a half image as entry `(0, r, c)` of a block of one image. -/
def owLift (y : S112x224.Idx) : S1x112x224.Idx :=
  fun a => match a with
    | ⟨0, _⟩ => ⟨0, show 0 < 1 from Nat.one_pos⟩
    | ⟨1, _⟩ => ⟨(y 0).val, (y 0).isLt⟩
    | ⟨2, _⟩ => ⟨(y 1).val, (y 1).isLt⟩

theorem reshape_owLift (hq : S112x224.numel = S1x112x224.numel) (y : S112x224.Idx) : Shape.reshapeEquiv hq y = owLift y := by
  refine Shape.reshapeEquiv_eq_of_rowMajor hq ?_
  rw [Shape.rowMajor_val_three, Shape.rowMajor_val_two]
  show (0 * 112 + (y 0).val) * 224 + (y 1).val = (y 0).val * 224 + (y 1).val
  omega

/-- The result entry under entry `(r, c)` of the window at offsets `off`. -/
def owIdx (off : Fin 3 → Nat) (h : ∀ a, off a + S1x112x224.size a ≤ S1536x224x224.size a) (y : S112x224.Idx) : S1536x224x224.Idx :=
  fun a => match a with
    | ⟨0, _⟩ => ⟨off 0, by have h0 : off 0 + 1 ≤ 1536 := h 0; show off 0 < 1536; omega⟩
    | ⟨1, _⟩ => ⟨off 1 + (y 0).val, by have h1 : off 1 + 112 ≤ 224 := h 1; have hy : (y 0).val < 112 := (y 0).isLt; show off 1 + (y 0).val < 224; omega⟩
    | ⟨2, _⟩ => ⟨off 2 + (y 1).val, by have h2 : off 2 + 224 ≤ 224 := h 2; have hy : (y 1).val < 224 := (y 1).isLt; show off 2 + (y 1).val < 224; omega⟩

theorem emb_OW (off : Fin 3 → Nat) (h : ∀ a, off a + S1x112x224.size a ≤ S1536x224x224.size a) (y : S112x224.Idx) :
    (OW off h).view.emb y = owIdx off h y := by
  show (Rect.unit (s := S1536x224x224) off S1x112x224.size h).emb (Shape.reshapeEquiv squeezes_S1x112x224_S112x224.numel_eq y) = _
  rw [reshape_owLift]
  funext a; apply Fin.ext
  rw [Rect.emb_apply]
  match a with
  | ⟨0, _⟩ => show off 0 + 1 * 0 = off 0; omega
  | ⟨1, _⟩ => show off 1 + 1 * (y 0).val = off 1 + (y 0).val; omega
  | ⟨2, _⟩ => show off 2 + 1 * (y 1).val = off 2 + (y 1).val; omega

theorem mem_OW (off : Fin 3 → Nat) (h : ∀ a, off a + S1x112x224.size a ≤ S1536x224x224.size a) (j : S1536x224x224.Idx)
    (hj : j ∈ (OW off h).view.set) : ∃ y, j = owIdx off h y := by
  obtain ⟨y, -, e⟩ := Finset.mem_map.mp hj
  exact ⟨y, e.symm.trans (emb_OW off h y)⟩

variable [FloatOps F]

/-- Writing a half image through the window puts its entry `(r, c)` at the result entry under it, -/
theorem write_OW_emb (off : Fin 3 → Nat) (h : ∀ a, off a + S1x112x224.size a ≤ S1536x224x224.size a)
    (f : S1536x224x224.Idx → Elt F .f32) (w : S112x224.Idx → Elt F .f32) (y : S112x224.Idx) :
    View.write (Elt F) (OW off h).view f w Finset.univ (owIdx off h y) = w y := by
  rw [← emb_OW, View.write_emb_of_mem _ _ (Finset.mem_univ _)]
  rfl
/-- and leaves every result entry under none of the window's alone. -/
theorem write_OW_not (off : Fin 3 → Nat) (h : ∀ a, off a + S1x112x224.size a ≤ S1536x224x224.size a)
    (f : S1536x224x224.Idx → Elt F .f32) (w : S112x224.Idx → Elt F .f32) (j : S1536x224x224.Idx) (hj : ∀ y, j ≠ owIdx off h y) :
    View.write (Elt F) (OW off h).view f w Finset.univ j = f j :=
  View.write_of_not_mem _ _ _ fun hm => by
    rw [View.setOn_univ] at hm
    obtain ⟨y, e⟩ := mem_OW off h j hm
    exact hj y e

/-! ## One image written out -/

section Image

variable (L : grid0.Coords) (X : S1536x112x112.Idx → Elt F .f32) (n : Nat)
variable (offC offD : Fin 3 → Nat)
variable (hC : ∀ a, offC a + S1x112x224.size a ≤ S1536x224x224.size a) (hD : ∀ a, offD a + S1x112x224.size a ≤ S1536x224x224.size a)

/-- The result images after the upper half of the upsampling of image `n` of the slab is written
    through the window at `offC`, -/
abbrev outA (fo : S1536x224x224.Idx → Elt F .f32) : S1536x224x224.Idx → Elt F .f32 :=
  View.write (Elt F) (OW offC hC).view fo (ReadAs.same.apply (View.read (Elt F) (o0V).view (halfImg (imgOf L X n) 0))) Finset.univ
/-- and after the lower half is then written through the window at `offD`. -/
abbrev outB (fo : S1536x224x224.Idx → Elt F .f32) : S1536x224x224.Idx → Elt F .f32 :=
  View.write (Elt F) (OW offD hD).view (outA L X n offC hC fo) (ReadAs.same.apply (View.read (Elt F) (o1V).view (halfImg (imgOf L X n) 56))) Finset.univ

/-- The input entry an odd row and column of the upsampled image `n` of the slab copies. -/
theorem imgOf_src (hn : n < 48) (j : S1536x224x224.Idx) (hj : (j 0).val = bOf L + n) :
    imgOf L X n (hIdx ((j 1).val / 2) ((j 2).val / 2)) = X (srcIdx j) := by
  have hb : bOf L + 48 ≤ 1536 := bOf_le L
  have h1 : (j 1).val < 224 := (j 1).isLt
  have h2 : (j 2).val < 224 := (j 2).isLt
  unfold imgOf
  refine congrArg X (funext fun a => Fin.ext ?_)
  match a with
  | ⟨0, _⟩ => show min (bOf L + n) 1535 = (j 0).val; omega
  | ⟨1, _⟩ => show min ((j 1).val / 2) 111 = (j 1).val / 2; omega
  | ⟨2, _⟩ => show min ((j 2).val / 2) 111 = (j 2).val / 2; omega

/-- (1) With the images below image `n` of the slab final, writing out the two halves of image `n` makes the images below `n + 1` final. -/
theorem out_done (hC' : offC = ![bOf L + n, 0, 0]) (hD' : offD = ![bOf L + n, 112, 0]) (hn : n < 48)
    (fo : S1536x224x224.Idx → Elt F .f32) (hdone : Done L X fo n) :
    Done L X (outB L X n offC offD hC hD fo) (n + 1) := by
  subst hC' hD'
  intro j hlo hhi
  have h1 : (j 1).val < 224 := (j 1).isLt
  have h2 : (j 2).val < 224 := (j 2).isLt
  by_cases hlt : (j 0).val < bOf L + n
  · -- an earlier image: under neither window
    have hnD : ∀ y, j ≠ owIdx ![bOf L + n, 112, 0] hD y := fun y e => by
      have e0 : (j 0).val = bOf L + n := congrArg (fun k : S1536x224x224.Idx => (k 0).val) e
      omega
    have hnC : ∀ y, j ≠ owIdx ![bOf L + n, 0, 0] hC y := fun y e => by
      have e0 : (j 0).val = bOf L + n := congrArg (fun k : S1536x224x224.Idx => (k 0).val) e
      omega
    show View.write (Elt F) (OW _ hD).view _ _ Finset.univ j = _
    rw [write_OW_not _ hD _ _ j hnD]
    show View.write (Elt F) (OW _ hC).view _ _ Finset.univ j = _
    rw [write_OW_not _ hC _ _ j hnC]
    exact hdone j hlo hlt
  · have h0 : (j 0).val = bOf L + n := by omega
    by_cases hr : (j 1).val < 112
    · -- the upper half: under the first window, not under the second
      have hnD : ∀ y, j ≠ owIdx ![bOf L + n, 112, 0] hD y := fun y e => by
        have e1 : (j 1).val = 112 + (y 0).val := congrArg (fun k : S1536x224x224.Idx => (k 1).val) e
        omega
      have hj : j = owIdx ![bOf L + n, 0, 0] hC (fun a => match a with | ⟨0, _⟩ => ⟨(j 1).val, hr⟩ | ⟨1, _⟩ => ⟨(j 2).val, h2⟩) := by
        funext a; apply Fin.ext
        match a with
        | ⟨0, _⟩ => exact h0
        | ⟨1, _⟩ => show (j 1).val = 0 + (j 1).val; omega
        | ⟨2, _⟩ => show (j 2).val = 0 + (j 2).val; omega
      show View.write (Elt F) (OW _ hD).view _ _ Finset.univ j = _
      rw [write_OW_not _ hD _ _ j hnD]
      show View.write (Elt F) (OW _ hC).view _ _ Finset.univ j = _
      rw [hj, write_OW_emb _ hC, ← hj]
      show halfImg (imgOf L X n) 0 _ = up X j
      unfold halfImg up
      show (if (j 1).val % 2 = 1 ∧ (j 2).val % 2 = 1 then imgOf L X n (hIdx (0 + (j 1).val / 2) ((j 2).val / 2)) else _) = _
      rw [Nat.zero_add, imgOf_src L X n hn j h0]
    · -- the lower half: under the second window
      have hr' : (j 1).val - 112 < 112 := by omega
      have hj : j = owIdx ![bOf L + n, 112, 0] hD (fun a => match a with | ⟨0, _⟩ => ⟨(j 1).val - 112, hr'⟩ | ⟨1, _⟩ => ⟨(j 2).val, h2⟩) := by
        funext a; apply Fin.ext
        match a with
        | ⟨0, _⟩ => exact h0
        | ⟨1, _⟩ => show (j 1).val = 112 + ((j 1).val - 112); omega
        | ⟨2, _⟩ => show (j 2).val = 0 + (j 2).val; omega
      show View.write (Elt F) (OW _ hD).view _ _ Finset.univ j = _
      rw [hj, write_OW_emb _ hD, ← hj]
      show halfImg (imgOf L X n) 56 _ = up X j
      unfold halfImg up
      show (if ((j 1).val - 112) % 2 = 1 ∧ (j 2).val % 2 = 1 then imgOf L X n (hIdx (56 + ((j 1).val - 112) / 2) ((j 2).val / 2)) else _) = _
      have hp : (((j 1).val - 112) % 2 = 1 ∧ (j 2).val % 2 = 1) ↔ ((j 1).val % 2 = 1 ∧ (j 2).val % 2 = 1) := by omega
      have hq : 56 + ((j 1).val - 112) / 2 = (j 1).val / 2 := by omega
      rw [hq, imgOf_src L X n hn j h0]
      exact if_congr hp rfl rfl

/-- (2) The two windows of one image share no element: the second write leaves the first window as the first write left it. -/
theorem out_agree (hC' : offC = ![bOf L + n, 0, 0]) (hD' : offD = ![bOf L + n, 112, 0]) (fo : S1536x224x224.Idx → Elt F .f32) :
    ∀ j ∈ (OW offC hC).view.set, outA L X n offC hC fo j = outB L X n offC offD hC hD fo j := by
  subst hC' hD'
  intro j hj
  obtain ⟨y, e⟩ := mem_OW _ hC j hj
  have hy : (y 0).val < 112 := (y 0).isLt
  have e1 : (j 1).val = 0 + (y 0).val := congrArg (fun k : S1536x224x224.Idx => (k 1).val) e
  refine (write_OW_not _ hD _ _ j fun y' e' => ?_).symm
  have e1' : (j 1).val = 112 + (y' 0).val := congrArg (fun k : S1536x224x224.Idx => (k 1).val) e'
  omega

/-- The same as an equation of assertions: the first window held at either contents. -/
theorem out_agree_pts (hC' : offC = ![bOf L + n, 0, 0]) (hD' : offD = ![bOf L + n, 112, 0]) (fo : S1536x224x224.Idx → Elt F .f32)
    (d : Dev nD) (c : Fin τ.nSC) (i : Fin τ.nSub) :
    ((oV).view.loc (V d c i) ↦[(OW offC hC).view.set]{fullShare} outA L X n offC hC fo : sProp 𝕄)
      = ((oV).view.loc (V d c i) ↦[(OW offC hC).view.set]{fullShare} outB L X n offC offD hC hD fo) :=
  pointsTo_congr (out_agree L X n offC offD hC hD hC' hD' fo)
/-- The same with the location spelt through the window. -/
theorem out_agree_pts' (hC' : offC = ![bOf L + n, 0, 0]) (hD' : offD = ![bOf L + n, 112, 0]) (fo : S1536x224x224.Idx → Elt F .f32)
    (d : Dev nD) (c : Fin τ.nSC) (i : Fin τ.nSub) :
    ((OW offC hC).view.loc (V d c i) ↦[(OW offC hC).view.set]{fullShare} outA L X n offC hC fo : sProp 𝕄)
      = ((OW offC hC).view.loc (V d c i) ↦[(OW offC hC).view.set]{fullShare} outB L X n offC offD hC hD fo) :=
  pointsTo_congr (out_agree L X n offC offD hC hD hC' hD' fo)

end Image

/-! ## The whole slab -/

/-- (3) With all forty-eight images final, the subcore's result slab is the upsampling. -/
theorem done_all (L : grid0.Coords) (X : S1536x112x112.Idx → Elt F .f32) (fo : S1536x224x224.Idx → Elt F .f32) (hdone : Done L X fo 48) :
    ∀ j ∈ (oV).view.setOn (oR L).set, fo j = up X j := by
  intro j hj
  have hj' : j ∈ (oR L).set := by
    have e : (oV).view.setOn (oR L).set = (oR L).set := by
      show ((oR L).set).map (View.whole (main_v1_scv : Ref sig .scVector)).emb = _
      exact Finset.map_refl
    rwa [e] at hj
  have h0 := (Rect.mem_set_unit.mp hj') 0
  exact hdone j h0.1 h0.2

/-- The same as an equation of assertions: the result slab held at what the subcore left is held at the upsampling. -/
theorem done_all_pts (d : Dev nD) (L : grid0.Coords) (X : S1536x112x112.Idx → Elt F .f32) (fo : Buf (Elt F) (oLoc d)) (hdone : Done L X fo 48) :
    (oLoc d ↦[oSet L]{fullShare} fo : sProp 𝕄) = (oLoc d ↦[oSet L]{fullShare} up X) :=
  pointsTo_congr (done_all L X fo hdone)

end Cert.Proof.KI

end
-- ==== Proof.KI.Conds.lean ====
import proofs.«218969_g18416819765331_cont_7to1_658_22_alg».proof.Proof.KI.Pay

/-!
The conditions the image loop tests, in closed form. The loop runs forty-eight trips, one per image
of a subcore's slab. Even trips work through the first pair of buffers, odd trips through the second;
every trip but the first waits for an earlier write-back, and every trip but the last two starts the
read of the image two trips ahead.
-/

namespace Cert.Proof.KI

open Cert.KernelIdeal Cert.KernelIdeal.Gen
open Idealize.ShloMosaic

/-- The image loop has forty-eight trips. -/
theorem t3_trips : Scf.trips k0_t3_loop.lb k0_t3_loop.ub k0_t3_loop.st = 48 := by decide
theorem t3_trips' : k0_t3_loop.trips = 48 := t3_trips

theorem t3_lt (t : Fin k0_t3_loop.trips) : t.val < 48 := lt_of_lt_of_eq t.isLt t3_trips'

/-- The trip is even. -/
theorem cond1_iff : ∀ t : Fin k0_t3_loop.trips, k0_cond1 t = 1#1 ↔ t.val % 2 = 0 := by decide +kernel
/-- The trip is odd. -/
theorem cond5_iff : ∀ t : Fin k0_t3_loop.trips, k0_cond5 t = 1#1 ↔ t.val % 2 = 1 := by decide +kernel
/-- The trip is not the first. -/
theorem cond2_iff : ∀ t : Fin k0_t3_loop.trips, k0_cond2 t = 1#1 ↔ 0 < t.val := by decide +kernel
theorem cond3_iff : ∀ t : Fin k0_t3_loop.trips, k0_cond3 t = 1#1 ↔ 0 < t.val := by decide +kernel
theorem cond6_iff : ∀ t : Fin k0_t3_loop.trips, k0_cond6 t = 1#1 ↔ 0 < t.val := by decide +kernel
theorem cond7_iff : ∀ t : Fin k0_t3_loop.trips, k0_cond7 t = 1#1 ↔ 0 < t.val := by decide +kernel
/-- The trip is not one of the last two. -/
theorem cond4_iff : ∀ t : Fin k0_t3_loop.trips, k0_cond4 t = 1#1 ↔ t.val + 2 < 48 := by decide +kernel
theorem cond8_iff : ∀ t : Fin k0_t3_loop.trips, k0_cond8 t = 1#1 ↔ t.val + 2 < 48 := by decide +kernel

end Cert.Proof.KI
-- ==== Proof.KI.Scatter.lean ====
import proofs.«218969_g18416819765331_cont_7to1_658_22_alg».proof.Proof.KI.Common

/-!
Pure facts about the kernel's indexed scatter stores. Each trip of the inner loops writes seven
sixteen-lane pieces into one odd row of a 112 × 224 staging buffer: store number `n` of trip `k`
puts lane `l` of its piece at row `2k + 1`, column `32n + 1 + 2l`. This file gives the closed form of
an indexed store whose lanes name pairwise distinct elements, the lane values of the row and column
index vectors, the in-range facts the stores need, and the effect of one store and of the seven
stores of a trip as functions on the buffer's contents.
-/

noncomputable section

namespace Cert.Proof.KI

open Cert.KernelIdeal Cert.KernelIdeal.Gen
open Idealize.ShloMosaic

variable {F : FTy → Type} [FloatOps F]

/-! ## A general lemma: an unmasked, non-adding indexed store whose lanes name pairwise distinct indices

The store folds over the lanes in ascending order, each lane overwriting the element its index names.
When no two lanes name one index the order does not matter: the element a lane names ends as that
lane's value, and every element no lane names keeps its old value. -/

section StoreIdxDistinct
variable {s : Shape} {e : EltTy} {d : Fin 1 → Nat}

/-- One lane's write: the element the lane's index names becomes the lane's value. -/
def putLane (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- The unmasked, non-adding store is the fold of the lanes' writes. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (putLane idxs v h) f := by
  unfold storeIdx
  dsimp only
  congr 1
  funext g k
  have h1 : (1#1 : BitVec 1) = 1 := rfl
  rw [if_pos h1]
  funext j
  rw [if_neg (by decide : ¬ (false = true))]
  unfold putLane
  by_cases hc : ∀ a, (j a).val = (idxAt idxs h (Shape.ofLane k) a).val
  · rw [if_pos hc, if_pos hc]
  · rw [if_neg hc, if_neg hc]

/-- An element none of the listed lanes names is untouched by their writes. -/
theorem foldl_putLane_miss (idxs : Fin s.rank → IVec ⟨1, d⟩ 32) (v : Vec F ⟨1, d⟩ e)
    (h : ∀ a x, (idxs a x).toNat < s.size a) (L : List (Fin (d 0))) (g : Vec F s e) (j : s.Idx)
    (hmiss : ∀ k ∈ L, idxAt idxs h (Shape.ofLane k) ≠ j) : (L.foldl (putLane idxs v h) g) j = g j := by
  induction L generalizing g with
  | nil => rfl
  | cons k L ih =>
    rw [List.foldl_cons, ih _ (fun k' hk' => hmiss k' (List.mem_cons_of_mem _ hk'))]
    unfold putLane
    rw [if_neg]
    intro hall
    exact hmiss k (List.mem_cons_self ..) (funext fun a => Fin.ext (hall a).symm)

/-- With pairwise distinct indices, the element a listed lane names ends as that lane's value. -/
theorem foldl_putLane_hit (idxs : Fin s.rank → IVec ⟨1, d⟩ 32) (v : Vec F ⟨1, d⟩ e)
    (h : ∀ a x, (idxs a x).toNat < s.size a)
    (hinj : Function.Injective fun k : Fin (d 0) => idxAt idxs h (Shape.ofLane k))
    (L : List (Fin (d 0))) (g : Vec F s e) (k : Fin (d 0)) (hk : k ∈ L) :
    (L.foldl (putLane idxs v h) g) (idxAt idxs h (Shape.ofLane k)) = v (Shape.ofLane k) := by
  induction L generalizing g with
  | nil => cases hk
  | cons k' L ih =>
    rw [List.foldl_cons]
    by_cases hin : k ∈ L
    · exact ih _ hin
    · have hkk : k = k' := by
        rcases List.mem_cons.1 hk with h' | h'
        · exact h'
        · exact absurd h' hin
      subst hkk
      rw [foldl_putLane_miss idxs v h L _ _ (fun k'' hk'' heq => hin (by have e : k'' = k := hinj heq; rw [← e]; exact hk''))]
      unfold putLane
      rw [if_pos (fun a => rfl)]

/-- **Indexed store, distinct indices, at a named element.** The element lane `k` names holds lane `k`'s
    value after the store. -/
theorem storeIdx_at_lane (f : Vec F s e) (idxs : Fin s.rank → IVec ⟨1, d⟩ 32) (v : Vec F ⟨1, d⟩ e)
    (h : ∀ a x, (idxs a x).toNat < s.size a)
    (hinj : Function.Injective fun k : Fin (d 0) => idxAt idxs h (Shape.ofLane k)) (k : Fin (d 0)) :
    storeIdx f idxs v (fun _ => 1#1) false h (idxAt idxs h (Shape.ofLane k)) = v (Shape.ofLane k) := by
  rw [storeIdx_eq_foldl]
  exact foldl_putLane_hit idxs v h hinj _ f k (List.mem_finRange k)

/-- **Indexed store at an element no lane names.** It keeps its old value (no distinctness needed). -/
theorem storeIdx_off_lanes (f : Vec F s e) (idxs : Fin s.rank → IVec ⟨1, d⟩ 32) (v : Vec F ⟨1, d⟩ e)
    (h : ∀ a x, (idxs a x).toNat < s.size a) (j : s.Idx)
    (hmiss : ∀ k : Fin (d 0), idxAt idxs h (Shape.ofLane k) ≠ j) :
    storeIdx f idxs v (fun _ => 1#1) false h j = f j := by
  rw [storeIdx_eq_foldl]
  exact foldl_putLane_miss idxs v h _ f j (fun k _ => hmiss k)

/-- **Indexed store, distinct indices, in closed form** against a lane finder: if `lane j` is the lane
    naming `j` when there is one (and `none` otherwise), the store reads that lane's value there and
    the old value elsewhere. -/
theorem storeIdx_eq_of_finder (f : Vec F s e) (idxs : Fin s.rank → IVec ⟨1, d⟩ 32) (v : Vec F ⟨1, d⟩ e)
    (h : ∀ a x, (idxs a x).toNat < s.size a)
    (hinj : Function.Injective fun k : Fin (d 0) => idxAt idxs h (Shape.ofLane k))
    (lane : s.Idx → Option (Fin (d 0)))
    (hsome : ∀ j k, lane j = some k → idxAt idxs h (Shape.ofLane k) = j)
    (hnone : ∀ j, lane j = none → ∀ k, idxAt idxs h (Shape.ofLane k) ≠ j) :
    storeIdx f idxs v (fun _ => 1#1) false h
      = fun j => match lane j with | some k => v (Shape.ofLane k) | none => f j := by
  funext j
  cases hl : lane j with
  | some k =>
    show _ = v (Shape.ofLane k)
    rw [← hsome j k hl]
    exact storeIdx_at_lane f idxs v h hinj k
  | none => exact storeIdx_off_lanes f idxs v h j (hnone j hl)

end StoreIdxDistinct

/-! ## Lane values of the index vectors -/

/-- The row word of trip `k`: `2k + 1` computed in 32-bit words. -/
abbrev rowWord (k : Nat) : BitVec 32 := Scalar.addi (Scalar.muli 2#32 (Scf.iv 0#32 1#32 k)) 1#32

/-- The row vector of trip `k`: every lane holds the row word. -/
abbrev rowVec (k : Nat) : IVec S16 32 := broadcast S16 (rowWord k)

/-- The column vector with base `c`: lane `l` holds `c + 2l`. -/
abbrev colVec (c : BitVec 32) : IVec S16 32 := addi (broadcast S16 c) k0_pay57

theorem t4_trips : k0_t4_loop.trips = 56 := by decide
theorem t5_trips : k0_t5_loop.trips = 56 := by decide
theorem t6_trips : k0_t6_loop.trips = 56 := by decide
theorem t7_trips : k0_t7_loop.trips = 56 := by decide

theorem lane_lt (x : S16.Idx) : (x 0).val < 16 := (x 0).isLt

/-- Lane `l` of the doubled lane numbers is `2l`. -/
theorem pay57_toNat (x : S16.Idx) : (k0_pay57 x).toNat = 2 * (x 0).val := by
  have hx := lane_lt x
  have h : k0_pay57 x = 2#32 * BitVec.ofNat 32 (x 0).val := by
    simp [k0_pay57, muli, IntOp.muli, broadcast, iota]
  rw [h, BitVec.toNat_mul, BitVec.toNat_ofNat, BitVec.toNat_ofNat]
  omega

/-- Lane `l` of a column vector with base `c` is `c + 2l`, when that does not wrap. -/
theorem colVec_toNat (c : BitVec 32) (hc : c.toNat + 30 < 2 ^ 32) (x : S16.Idx) :
    (colVec c x).toNat = c.toNat + 2 * (x 0).val := by
  have hx := lane_lt x
  have h57 := pay57_toNat x
  simp only [colVec, addi, IntOp.addi, broadcast, BitVec.toNat_add, h57]
  omega

/-- The row word of trip `k` is `2k + 1`, when that does not wrap. -/
theorem rowWord_toNat (k : Nat) (hk : 2 * k + 1 < 2 ^ 32) : (rowWord k).toNat = 2 * k + 1 := by
  simp only [rowWord, Scalar.addi, Scalar.muli, IntOp.addi, IntOp.muli, Scf.iv, BitVec.toNat_add, BitVec.toNat_mul,
    BitVec.toNat_ofNat]
  omega

theorem rowVec_toNat (k : Nat) (hk : 2 * k + 1 < 2 ^ 32) (x : S16.Idx) : (rowVec k x).toNat = 2 * k + 1 :=
  rowWord_toNat k hk

theorem rowVec_t4 (k : Fin k0_t4_loop.trips) (x : S16.Idx) : (rowVec k x).toNat = 2 * k.val + 1 :=
  rowVec_toNat _ (by have := lt_of_lt_of_eq k.isLt t4_trips; omega) x
theorem rowVec_t5 (k : Fin k0_t5_loop.trips) (x : S16.Idx) : (rowVec k x).toNat = 2 * k.val + 1 :=
  rowVec_toNat _ (by have := lt_of_lt_of_eq k.isLt t5_trips; omega) x
theorem rowVec_t6 (k : Fin k0_t6_loop.trips) (x : S16.Idx) : (rowVec k x).toNat = 2 * k.val + 1 :=
  rowVec_toNat _ (by have := lt_of_lt_of_eq k.isLt t6_trips; omega) x
theorem rowVec_t7 (k : Fin k0_t7_loop.trips) (x : S16.Idx) : (rowVec k x).toNat = 2 * k.val + 1 :=
  rowVec_toNat _ (by have := lt_of_lt_of_eq k.isLt t7_trips; omega) x

/-! ## The column payloads are column vectors, and the side conditions the body assumes hold -/

theorem pay2_eq : k0_pay2 k0_pay57 = colVec 1#32 := rfl
theorem pay4_eq : k0_pay4 k0_pay57 = colVec 33#32 := rfl
theorem pay6_eq : k0_pay6 k0_pay57 = colVec 65#32 := rfl
theorem pay8_eq : k0_pay8 k0_pay57 = colVec 97#32 := rfl
theorem pay10_eq : k0_pay10 k0_pay57 = colVec 129#32 := rfl
theorem pay22_eq : k0_pay22 k0_pay57 = colVec 161#32 := rfl
theorem pay24_eq : k0_pay24 k0_pay57 = colVec 193#32 := rfl
theorem pay12_eq : k0_pay12 k0_pay57 = colVec 1#32 := rfl
theorem pay14_eq : k0_pay14 k0_pay57 = colVec 33#32 := rfl
theorem pay16_eq : k0_pay16 k0_pay57 = colVec 65#32 := rfl
theorem pay18_eq : k0_pay18 k0_pay57 = colVec 97#32 := rfl
theorem pay20_eq : k0_pay20 k0_pay57 = colVec 129#32 := rfl
theorem pay26_eq : k0_pay26 k0_pay57 = colVec 161#32 := rfl
theorem pay28_eq : k0_pay28 k0_pay57 = colVec 193#32 := rfl
theorem pay30_eq : k0_pay30 k0_pay57 = colVec 1#32 := rfl
theorem pay32_eq : k0_pay32 k0_pay57 = colVec 33#32 := rfl
theorem pay34_eq : k0_pay34 k0_pay57 = colVec 65#32 := rfl
theorem pay36_eq : k0_pay36 k0_pay57 = colVec 97#32 := rfl
theorem pay38_eq : k0_pay38 k0_pay57 = colVec 129#32 := rfl
theorem pay50_eq : k0_pay50 k0_pay57 = colVec 161#32 := rfl
theorem pay52_eq : k0_pay52 k0_pay57 = colVec 193#32 := rfl
theorem pay40_eq : k0_pay40 k0_pay57 = colVec 1#32 := rfl
theorem pay42_eq : k0_pay42 k0_pay57 = colVec 33#32 := rfl
theorem pay44_eq : k0_pay44 k0_pay57 = colVec 65#32 := rfl
theorem pay46_eq : k0_pay46 k0_pay57 = colVec 97#32 := rfl
theorem pay48_eq : k0_pay48 k0_pay57 = colVec 129#32 := rfl
theorem pay54_eq : k0_pay54 k0_pay57 = colVec 161#32 := rfl
theorem pay56_eq : k0_pay56 k0_pay57 = colVec 193#32 := rfl

/-- Rows `2k + 1 ≤ 111` and columns `c + 2l ≤ 223` are inside the 112 × 224 staging buffer. -/
theorem idx_inb (k : Nat) (hk : k < 56) (c : BitVec 32) (hc : c.toNat + 30 < 224) :
    ∀ a x, ((![rowVec k, colVec c] : Fin 2 → IVec S16 32) a x).toNat < S112x224.size a := by
  intro a x
  have hx := lane_lt x
  match a with
  | ⟨0, _⟩ =>
    show (rowVec k x).toNat < 112
    rw [rowVec_toNat k (by omega) x]; omega
  | ⟨1, _⟩ =>
    show (colVec c x).toNat < 224
    rw [colVec_toNat c (by omega) x]; omega

theorem chk1_holds (t : Fin k0_t3_loop.trips) (k : Fin k0_t4_loop.trips) : k0_chk1 t (rowVec k) (k0_pay2 k0_pay57) :=
  fun _ => idx_inb k (lt_of_lt_of_eq k.isLt t4_trips) 1#32 (by decide)
theorem chk2_holds (t : Fin k0_t3_loop.trips) (k : Fin k0_t4_loop.trips) : k0_chk2 t (rowVec k) (k0_pay4 k0_pay57) :=
  fun _ => idx_inb k (lt_of_lt_of_eq k.isLt t4_trips) 33#32 (by decide)
theorem chk3_holds (t : Fin k0_t3_loop.trips) (k : Fin k0_t4_loop.trips) : k0_chk3 t (rowVec k) (k0_pay6 k0_pay57) :=
  fun _ => idx_inb k (lt_of_lt_of_eq k.isLt t4_trips) 65#32 (by decide)
theorem chk4_holds (t : Fin k0_t3_loop.trips) (k : Fin k0_t4_loop.trips) : k0_chk4 t (rowVec k) (k0_pay8 k0_pay57) :=
  fun _ => idx_inb k (lt_of_lt_of_eq k.isLt t4_trips) 97#32 (by decide)
theorem chk5_holds (t : Fin k0_t3_loop.trips) (k : Fin k0_t4_loop.trips) : k0_chk5 t (rowVec k) (k0_pay10 k0_pay57) :=
  fun _ => idx_inb k (lt_of_lt_of_eq k.isLt t4_trips) 129#32 (by decide)
theorem chk6_holds (t : Fin k0_t3_loop.trips) (k : Fin k0_t4_loop.trips) : k0_chk6 t (rowVec k) (k0_pay22 k0_pay57) :=
  fun _ => idx_inb k (lt_of_lt_of_eq k.isLt t4_trips) 161#32 (by decide)
theorem chk7_holds (t : Fin k0_t3_loop.trips) (k : Fin k0_t4_loop.trips) : k0_chk7 t (rowVec k) (k0_pay24 k0_pay57) :=
  fun _ => idx_inb k (lt_of_lt_of_eq k.isLt t4_trips) 193#32 (by decide)
theorem chk8_holds (t : Fin k0_t3_loop.trips) (k : Fin k0_t5_loop.trips) : k0_chk8 t (rowVec k) (k0_pay12 k0_pay57) :=
  fun _ => idx_inb k (lt_of_lt_of_eq k.isLt t5_trips) 1#32 (by decide)
theorem chk9_holds (t : Fin k0_t3_loop.trips) (k : Fin k0_t5_loop.trips) : k0_chk9 t (rowVec k) (k0_pay14 k0_pay57) :=
  fun _ => idx_inb k (lt_of_lt_of_eq k.isLt t5_trips) 33#32 (by decide)
theorem chk10_holds (t : Fin k0_t3_loop.trips) (k : Fin k0_t5_loop.trips) : k0_chk10 t (rowVec k) (k0_pay16 k0_pay57) :=
  fun _ => idx_inb k (lt_of_lt_of_eq k.isLt t5_trips) 65#32 (by decide)
theorem chk11_holds (t : Fin k0_t3_loop.trips) (k : Fin k0_t5_loop.trips) : k0_chk11 t (rowVec k) (k0_pay18 k0_pay57) :=
  fun _ => idx_inb k (lt_of_lt_of_eq k.isLt t5_trips) 97#32 (by decide)
theorem chk12_holds (t : Fin k0_t3_loop.trips) (k : Fin k0_t5_loop.trips) : k0_chk12 t (rowVec k) (k0_pay20 k0_pay57) :=
  fun _ => idx_inb k (lt_of_lt_of_eq k.isLt t5_trips) 129#32 (by decide)
theorem chk13_holds (t : Fin k0_t3_loop.trips) (k : Fin k0_t5_loop.trips) : k0_chk13 t (rowVec k) (k0_pay26 k0_pay57) :=
  fun _ => idx_inb k (lt_of_lt_of_eq k.isLt t5_trips) 161#32 (by decide)
theorem chk14_holds (t : Fin k0_t3_loop.trips) (k : Fin k0_t5_loop.trips) : k0_chk14 t (rowVec k) (k0_pay28 k0_pay57) :=
  fun _ => idx_inb k (lt_of_lt_of_eq k.isLt t5_trips) 193#32 (by decide)
theorem chk15_holds (t : Fin k0_t3_loop.trips) (k : Fin k0_t6_loop.trips) : k0_chk15 t (rowVec k) (k0_pay30 k0_pay57) :=
  fun _ => idx_inb k (lt_of_lt_of_eq k.isLt t6_trips) 1#32 (by decide)
theorem chk16_holds (t : Fin k0_t3_loop.trips) (k : Fin k0_t6_loop.trips) : k0_chk16 t (rowVec k) (k0_pay32 k0_pay57) :=
  fun _ => idx_inb k (lt_of_lt_of_eq k.isLt t6_trips) 33#32 (by decide)
theorem chk17_holds (t : Fin k0_t3_loop.trips) (k : Fin k0_t6_loop.trips) : k0_chk17 t (rowVec k) (k0_pay34 k0_pay57) :=
  fun _ => idx_inb k (lt_of_lt_of_eq k.isLt t6_trips) 65#32 (by decide)
theorem chk18_holds (t : Fin k0_t3_loop.trips) (k : Fin k0_t6_loop.trips) : k0_chk18 t (rowVec k) (k0_pay36 k0_pay57) :=
  fun _ => idx_inb k (lt_of_lt_of_eq k.isLt t6_trips) 97#32 (by decide)
theorem chk19_holds (t : Fin k0_t3_loop.trips) (k : Fin k0_t6_loop.trips) : k0_chk19 t (rowVec k) (k0_pay38 k0_pay57) :=
  fun _ => idx_inb k (lt_of_lt_of_eq k.isLt t6_trips) 129#32 (by decide)
theorem chk20_holds (t : Fin k0_t3_loop.trips) (k : Fin k0_t6_loop.trips) : k0_chk20 t (rowVec k) (k0_pay50 k0_pay57) :=
  fun _ => idx_inb k (lt_of_lt_of_eq k.isLt t6_trips) 161#32 (by decide)
theorem chk21_holds (t : Fin k0_t3_loop.trips) (k : Fin k0_t6_loop.trips) : k0_chk21 t (rowVec k) (k0_pay52 k0_pay57) :=
  fun _ => idx_inb k (lt_of_lt_of_eq k.isLt t6_trips) 193#32 (by decide)
theorem chk22_holds (t : Fin k0_t3_loop.trips) (k : Fin k0_t7_loop.trips) : k0_chk22 t (rowVec k) (k0_pay40 k0_pay57) :=
  fun _ => idx_inb k (lt_of_lt_of_eq k.isLt t7_trips) 1#32 (by decide)
theorem chk23_holds (t : Fin k0_t3_loop.trips) (k : Fin k0_t7_loop.trips) : k0_chk23 t (rowVec k) (k0_pay42 k0_pay57) :=
  fun _ => idx_inb k (lt_of_lt_of_eq k.isLt t7_trips) 33#32 (by decide)
theorem chk24_holds (t : Fin k0_t3_loop.trips) (k : Fin k0_t7_loop.trips) : k0_chk24 t (rowVec k) (k0_pay44 k0_pay57) :=
  fun _ => idx_inb k (lt_of_lt_of_eq k.isLt t7_trips) 65#32 (by decide)
theorem chk25_holds (t : Fin k0_t3_loop.trips) (k : Fin k0_t7_loop.trips) : k0_chk25 t (rowVec k) (k0_pay46 k0_pay57) :=
  fun _ => idx_inb k (lt_of_lt_of_eq k.isLt t7_trips) 97#32 (by decide)
theorem chk26_holds (t : Fin k0_t3_loop.trips) (k : Fin k0_t7_loop.trips) : k0_chk26 t (rowVec k) (k0_pay48 k0_pay57) :=
  fun _ => idx_inb k (lt_of_lt_of_eq k.isLt t7_trips) 129#32 (by decide)
theorem chk27_holds (t : Fin k0_t3_loop.trips) (k : Fin k0_t7_loop.trips) : k0_chk27 t (rowVec k) (k0_pay54 k0_pay57) :=
  fun _ => idx_inb k (lt_of_lt_of_eq k.isLt t7_trips) 161#32 (by decide)
theorem chk28_holds (t : Fin k0_t3_loop.trips) (k : Fin k0_t7_loop.trips) : k0_chk28 t (rowVec k) (k0_pay56 k0_pay57) :=
  fun _ => idx_inb k (lt_of_lt_of_eq k.isLt t7_trips) 193#32 (by decide)

/-! ## One store as a function on the staging buffer's contents -/

/-- Two indices of a rank-two shape are equal when their coordinates are. -/
theorem idx2_ext {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

/-- Lane `m mod 16` of a sixteen-lane vector, as its index. -/
def lane16 (m : Nat) : S16.Idx := Shape.ofLane (d := ![16]) ⟨m % 16, Nat.mod_lt _ (by decide)⟩

theorem lane16_val (m : Nat) : (lane16 m 0).val = m % 16 := rfl

/-- One store with row word `r = R` and column base `c = C`: lane `l` lands at `(R, C + 2l)`, so the
    store reads the piece at row `R` on the sixteen columns `C, C + 2, …, C + 30` and the old contents
    elsewhere. -/
theorem store_one (f : Vec F S112x224 .f32) (r c : BitVec 32) (R C : Nat) (hr : r.toNat = R) (hc : c.toNat = C)
    (hC : C + 30 < 224) (v : Vec F S16 .f32)
    (h : ∀ a x, ((![broadcast S16 r, colVec c] : Fin 2 → IVec S16 32) a x).toNat < S112x224.size a) :
    storeIdx f ![broadcast S16 r, colVec c] v (fun _ => 1#1) false h
      = fun j => if (j 0).val = R ∧ C ≤ (j 1).val ∧ (j 1).val ≤ C + 30 ∧ ((j 1).val - C) % 2 = 0
          then v (lane16 (((j 1).val - C) / 2)) else f j := by
  have hrow : ∀ k : Fin 16, (idxAt (s := S112x224) ![broadcast S16 r, colVec c] h (Shape.ofLane (d := ![16]) k) 0).val = R :=
    fun _ => hr
  have hcol : ∀ k : Fin 16, (idxAt (s := S112x224) ![broadcast S16 r, colVec c] h (Shape.ofLane (d := ![16]) k) 1).val
      = C + 2 * k.val := by
    intro k
    show (colVec c (Shape.ofLane (d := ![16]) k)).toNat = _
    rw [colVec_toNat c (by omega), hc]; rfl
  have hinj : Function.Injective fun k : Fin 16 =>
      idxAt (s := S112x224) ![broadcast S16 r, colVec c] h (Shape.ofLane (d := ![16]) k) := by
    intro k k' hkk
    have h1 := congrArg (fun i : S112x224.Idx => (i 1).val) hkk
    simp only [hcol] at h1
    exact Fin.ext (by omega)
  funext j
  by_cases hj : (j 0).val = R ∧ C ≤ (j 1).val ∧ (j 1).val ≤ C + 30 ∧ ((j 1).val - C) % 2 = 0
  · rw [if_pos hj]
    obtain ⟨h0, h1, h2, h3⟩ := hj
    have hm : ((j 1).val - C) / 2 < 16 := by omega
    have hjk : idxAt (s := S112x224) ![broadcast S16 r, colVec c] h
        (Shape.ofLane (d := ![16]) (⟨((j 1).val - C) / 2, hm⟩ : Fin 16)) = j :=
      idx2_ext _ _ (by rw [hrow]; exact h0.symm) (by rw [hcol]; show C + 2 * (((j 1).val - C) / 2) = (j 1).val; omega)
    have hl : lane16 (((j 1).val - C) / 2) = Shape.ofLane (d := ![16]) (⟨((j 1).val - C) / 2, hm⟩ : Fin 16) := by
      unfold lane16; congr 1; exact Fin.ext (Nat.mod_eq_of_lt hm)
    have key := storeIdx_at_lane f ![broadcast S16 r, colVec c] v h hinj (⟨((j 1).val - C) / 2, hm⟩ : Fin 16)
    rw [hjk] at key
    rw [hl]; exact key
  · rw [if_neg hj]
    apply storeIdx_off_lanes
    intro k hk
    apply hj
    have e0 := hrow k
    have e1 := hcol k
    rw [hk] at e0 e1
    have := k.isLt
    refine ⟨e0, ?_, ?_, ?_⟩ <;> omega

/-- The store of piece `n` (`n < 7`) of a trip: column base `32n + 1`. The sixteen columns are the odd
    columns of the `n`-th block of thirty-two, and lane `l` is read back as lane `(col / 2) mod 16`. -/
theorem store_piece (f : Vec F S112x224 .f32) (r c : BitVec 32) (R n : Nat) (hr : r.toNat = R) (hn : n < 7)
    (hc : c.toNat = 32 * n + 1) (v : Vec F S16 .f32)
    (h : ∀ a x, ((![broadcast S16 r, colVec c] : Fin 2 → IVec S16 32) a x).toNat < S112x224.size a) :
    storeIdx f ![broadcast S16 r, colVec c] v (fun _ => 1#1) false h
      = fun j => if (j 0).val = R ∧ 32 * n + 1 ≤ (j 1).val ∧ (j 1).val ≤ 32 * n + 31 ∧ (j 1).val % 2 = 1
          then v (lane16 ((j 1).val / 2)) else f j := by
  rw [store_one f r c R (32 * n + 1) hr hc (by omega) v h]
  funext j
  by_cases hj : (j 0).val = R ∧ 32 * n + 1 ≤ (j 1).val ∧ (j 1).val ≤ 32 * n + 31 ∧ (j 1).val % 2 = 1
  · have hj' : (j 0).val = R ∧ 32 * n + 1 ≤ (j 1).val ∧ (j 1).val ≤ 32 * n + 1 + 30 ∧ ((j 1).val - (32 * n + 1)) % 2 = 0 := by
      obtain ⟨h0, h1, h2, h3⟩ := hj
      refine ⟨h0, h1, ?_, ?_⟩ <;> omega
    rw [if_pos hj, if_pos hj']
    congr 1
    funext a
    match a with
    | ⟨0, _⟩ =>
      apply Fin.ext
      show ((j 1).val - (32 * n + 1)) / 2 % 16 = (j 1).val / 2 % 16
      obtain ⟨h0, h1, h2, h3⟩ := hj
      omega
  · have hj' : ¬ ((j 0).val = R ∧ 32 * n + 1 ≤ (j 1).val ∧ (j 1).val ≤ 32 * n + 1 + 30 ∧ ((j 1).val - (32 * n + 1)) % 2 = 0) := by
      intro ⟨h0, h1, h2, h3⟩
      apply hj
      refine ⟨h0, h1, ?_, ?_⟩ <;> omega
    rw [if_neg hj, if_neg hj']

/-! ## The seven stores of one trip -/

/-- One of seven by number (the last for every number from six on). -/
def pick7 {α : Type} (v0 v1 v2 v3 v4 v5 v6 : α) : Nat → α
  | 0 => v0 | 1 => v1 | 2 => v2 | 3 => v3 | 4 => v4 | 5 => v5 | _ => v6

/-- The seven stores of a trip with row word `r = R`, column bases `1, 33, …, 193` and pieces `v0 … v6`:
    together they fill the odd columns of row `R` — column `c` reads lane `(c / 2) mod 16` of piece
    `c / 32` — and leave everything else as it was. -/
theorem trip_stores (f : Vec F S112x224 .f32) (r : BitVec 32) (R : Nat) (hr : r.toNat = R)
    (v0 v1 v2 v3 v4 v5 v6 : Vec F S16 .f32)
    (h0 : ∀ a x, ((![broadcast S16 r, colVec 1#32] : Fin 2 → IVec S16 32) a x).toNat < S112x224.size a)
    (h1 : ∀ a x, ((![broadcast S16 r, colVec 33#32] : Fin 2 → IVec S16 32) a x).toNat < S112x224.size a)
    (h2 : ∀ a x, ((![broadcast S16 r, colVec 65#32] : Fin 2 → IVec S16 32) a x).toNat < S112x224.size a)
    (h3 : ∀ a x, ((![broadcast S16 r, colVec 97#32] : Fin 2 → IVec S16 32) a x).toNat < S112x224.size a)
    (h4 : ∀ a x, ((![broadcast S16 r, colVec 129#32] : Fin 2 → IVec S16 32) a x).toNat < S112x224.size a)
    (h5 : ∀ a x, ((![broadcast S16 r, colVec 161#32] : Fin 2 → IVec S16 32) a x).toNat < S112x224.size a)
    (h6 : ∀ a x, ((![broadcast S16 r, colVec 193#32] : Fin 2 → IVec S16 32) a x).toNat < S112x224.size a) :
    storeIdx (storeIdx (storeIdx (storeIdx (storeIdx (storeIdx (storeIdx f ![broadcast S16 r, colVec 1#32] v0 (fun _ => 1#1) false h0) ![broadcast S16 r, colVec 33#32] v1 (fun _ => 1#1) false h1) ![broadcast S16 r, colVec 65#32] v2 (fun _ => 1#1) false h2) ![broadcast S16 r, colVec 97#32] v3 (fun _ => 1#1) false h3) ![broadcast S16 r, colVec 129#32] v4 (fun _ => 1#1) false h4) ![broadcast S16 r, colVec 161#32] v5 (fun _ => 1#1) false h5) ![broadcast S16 r, colVec 193#32] v6 (fun _ => 1#1) false h6
      = fun j => if (j 0).val = R ∧ (j 1).val % 2 = 1
          then pick7 v0 v1 v2 v3 v4 v5 v6 ((j 1).val / 32) (lane16 ((j 1).val / 2)) else f j := by
  rw [store_piece _ r 193#32 R 6 hr (by omega) rfl v6 h6,
    store_piece _ r 161#32 R 5 hr (by omega) rfl v5 h5,
    store_piece _ r 129#32 R 4 hr (by omega) rfl v4 h4,
    store_piece _ r 97#32 R 3 hr (by omega) rfl v3 h3,
    store_piece _ r 65#32 R 2 hr (by omega) rfl v2 h2,
    store_piece _ r 33#32 R 1 hr (by omega) rfl v1 h1,
    store_piece _ r 1#32 R 0 hr (by omega) rfl v0 h0]
  funext j
  have hj1 : (j 1).val < 224 := (j 1).isLt
  beta_reduce
  split_ifs <;> first
    | rfl
    | (exfalso; omega)
    | (have hq : (j 1).val / 32 = 0 := by omega
       rw [hq]; rfl)
    | (have hq : (j 1).val / 32 = 1 := by omega
       rw [hq]; rfl)
    | (have hq : (j 1).val / 32 = 2 := by omega
       rw [hq]; rfl)
    | (have hq : (j 1).val / 32 = 3 := by omega
       rw [hq]; rfl)
    | (have hq : (j 1).val / 32 = 4 := by omega
       rw [hq]; rfl)
    | (have hq : (j 1).val / 32 = 5 := by omega
       rw [hq]; rfl)
    | (have hq : (j 1).val / 32 = 6 := by omega
       rw [hq]; rfl)

/-! ## The same at the kernel's own names: one site, and the trips of the four inner loops -/

/-- One store of trip `k` with column base `c = 32n + 1`. -/
theorem store_site (f : Vec F S112x224 .f32) (k : Nat) (hk : k < 56) (c : BitVec 32) (n : Nat) (hn : n < 7)
    (hc : c.toNat = 32 * n + 1) (v : Vec F S16 .f32)
    (h : ∀ a x, ((![rowVec k, colVec c] : Fin 2 → IVec S16 32) a x).toNat < S112x224.size a) :
    storeIdx f ![rowVec k, colVec c] v (fun _ => 1#1) false h
      = fun j => if (j 0).val = 2 * k + 1 ∧ 32 * n + 1 ≤ (j 1).val ∧ (j 1).val ≤ 32 * n + 31 ∧ (j 1).val % 2 = 1
          then v (lane16 ((j 1).val / 2)) else f j :=
  store_piece f (rowWord k) c (2 * k + 1) n (rowWord_toNat k (by omega)) hn hc v h

/-- The seven stores of trip `k` of the first inner loop fill the odd columns of row `2k + 1`. -/
theorem trip_t4 (f : Vec F S112x224 .f32) (k : Fin k0_t4_loop.trips) (v0 v1 v2 v3 v4 v5 v6 : Vec F S16 .f32)
    (h0 : ∀ a x, ((![rowVec k, k0_pay2 k0_pay57] : Fin 2 → IVec S16 32) a x).toNat < S112x224.size a)
    (h1 : ∀ a x, ((![rowVec k, k0_pay4 k0_pay57] : Fin 2 → IVec S16 32) a x).toNat < S112x224.size a)
    (h2 : ∀ a x, ((![rowVec k, k0_pay6 k0_pay57] : Fin 2 → IVec S16 32) a x).toNat < S112x224.size a)
    (h3 : ∀ a x, ((![rowVec k, k0_pay8 k0_pay57] : Fin 2 → IVec S16 32) a x).toNat < S112x224.size a)
    (h4 : ∀ a x, ((![rowVec k, k0_pay10 k0_pay57] : Fin 2 → IVec S16 32) a x).toNat < S112x224.size a)
    (h5 : ∀ a x, ((![rowVec k, k0_pay22 k0_pay57] : Fin 2 → IVec S16 32) a x).toNat < S112x224.size a)
    (h6 : ∀ a x, ((![rowVec k, k0_pay24 k0_pay57] : Fin 2 → IVec S16 32) a x).toNat < S112x224.size a) :
    storeIdx (storeIdx (storeIdx (storeIdx (storeIdx (storeIdx (storeIdx f ![rowVec k, k0_pay2 k0_pay57] v0 (fun _ => 1#1) false h0) ![rowVec k, k0_pay4 k0_pay57] v1 (fun _ => 1#1) false h1) ![rowVec k, k0_pay6 k0_pay57] v2 (fun _ => 1#1) false h2) ![rowVec k, k0_pay8 k0_pay57] v3 (fun _ => 1#1) false h3) ![rowVec k, k0_pay10 k0_pay57] v4 (fun _ => 1#1) false h4) ![rowVec k, k0_pay22 k0_pay57] v5 (fun _ => 1#1) false h5) ![rowVec k, k0_pay24 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t4_trips; omega))
    v0 v1 v2 v3 v4 v5 v6 h0 h1 h2 h3 h4 h5 h6

/-- The seven stores of trip `k` of the second inner loop fill the odd columns of row `2k + 1`. -/
theorem trip_t5 (f : Vec F S112x224 .f32) (k : Fin k0_t5_loop.trips) (v0 v1 v2 v3 v4 v5 v6 : Vec F S16 .f32)
    (h0 : ∀ a x, ((![rowVec k, k0_pay12 k0_pay57] : Fin 2 → IVec S16 32) a x).toNat < S112x224.size a)
    (h1 : ∀ a x, ((![rowVec k, k0_pay14 k0_pay57] : Fin 2 → IVec S16 32) a x).toNat < S112x224.size a)
    (h2 : ∀ a x, ((![rowVec k, k0_pay16 k0_pay57] : Fin 2 → IVec S16 32) a x).toNat < S112x224.size a)
    (h3 : ∀ a x, ((![rowVec k, k0_pay18 k0_pay57] : Fin 2 → IVec S16 32) a x).toNat < S112x224.size a)
    (h4 : ∀ a x, ((![rowVec k, k0_pay20 k0_pay57] : Fin 2 → IVec S16 32) a x).toNat < S112x224.size a)
    (h5 : ∀ a x, ((![rowVec k, k0_pay26 k0_pay57] : Fin 2 → IVec S16 32) a x).toNat < S112x224.size a)
    (h6 : ∀ a x, ((![rowVec k, k0_pay28 k0_pay57] : Fin 2 → IVec S16 32) a x).toNat < S112x224.size a) :
    storeIdx (storeIdx (storeIdx (storeIdx (storeIdx (storeIdx (storeIdx f ![rowVec k, k0_pay12 k0_pay57] v0 (fun _ => 1#1) false h0) ![rowVec k, k0_pay14 k0_pay57] v1 (fun _ => 1#1) false h1) ![rowVec k, k0_pay16 k0_pay57] v2 (fun _ => 1#1) false h2) ![rowVec k, k0_pay18 k0_pay57] v3 (fun _ => 1#1) false h3) ![rowVec k, k0_pay20 k0_pay57] v4 (fun _ => 1#1) false h4) ![rowVec k, k0_pay26 k0_pay57] v5 (fun _ => 1#1) false h5) ![rowVec k, k0_pay28 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t5_trips; omega))
    v0 v1 v2 v3 v4 v5 v6 h0 h1 h2 h3 h4 h5 h6

/-- The seven stores of trip `k` of the third inner loop fill the odd columns of row `2k + 1`. -/
theorem trip_t6 (f : Vec F S112x224 .f32) (k : Fin k0_t6_loop.trips) (v0 v1 v2 v3 v4 v5 v6 : Vec F S16 .f32)
    (h0 : ∀ a x, ((![rowVec k, k0_pay30 k0_pay57] : Fin 2 → IVec S16 32) a x).toNat < S112x224.size a)
    (h1 : ∀ a x, ((![rowVec k, k0_pay32 k0_pay57] : Fin 2 → IVec S16 32) a x).toNat < S112x224.size a)
    (h2 : ∀ a x, ((![rowVec k, k0_pay34 k0_pay57] : Fin 2 → IVec S16 32) a x).toNat < S112x224.size a)
    (h3 : ∀ a x, ((![rowVec k, k0_pay36 k0_pay57] : Fin 2 → IVec S16 32) a x).toNat < S112x224.size a)
    (h4 : ∀ a x, ((![rowVec k, k0_pay38 k0_pay57] : Fin 2 → IVec S16 32) a x).toNat < S112x224.size a)
    (h5 : ∀ a x, ((![rowVec k, k0_pay50 k0_pay57] : Fin 2 → IVec S16 32) a x).toNat < S112x224.size a)
    (h6 : ∀ a x, ((![rowVec k, k0_pay52 k0_pay57] : Fin 2 → IVec S16 32) a x).toNat < S112x224.size a) :
    storeIdx (storeIdx (storeIdx (storeIdx (storeIdx (storeIdx (storeIdx f ![rowVec k, k0_pay30 k0_pay57] v0 (fun _ => 1#1) false h0) ![rowVec k, k0_pay32 k0_pay57] v1 (fun _ => 1#1) false h1) ![rowVec k, k0_pay34 k0_pay57] v2 (fun _ => 1#1) false h2) ![rowVec k, k0_pay36 k0_pay57] v3 (fun _ => 1#1) false h3) ![rowVec k, k0_pay38 k0_pay57] v4 (fun _ => 1#1) false h4) ![rowVec k, k0_pay50 k0_pay57] v5 (fun _ => 1#1) false h5) ![rowVec k, k0_pay52 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t6_trips; omega))
    v0 v1 v2 v3 v4 v5 v6 h0 h1 h2 h3 h4 h5 h6

/-- The seven stores of trip `k` of the fourth inner loop fill the odd columns of row `2k + 1`. -/
theorem trip_t7 (f : Vec F S112x224 .f32) (k : Fin k0_t7_loop.trips) (v0 v1 v2 v3 v4 v5 v6 : Vec F S16 .f32)
    (h0 : ∀ a x, ((![rowVec k, k0_pay40 k0_pay57] : Fin 2 → IVec S16 32) a x).toNat < S112x224.size a)
    (h1 : ∀ a x, ((![rowVec k, k0_pay42 k0_pay57] : Fin 2 → IVec S16 32) a x).toNat < S112x224.size a)
    (h2 : ∀ a x, ((![rowVec k, k0_pay44 k0_pay57] : Fin 2 → IVec S16 32) a x).toNat < S112x224.size a)
    (h3 : ∀ a x, ((![rowVec k, k0_pay46 k0_pay57] : Fin 2 → IVec S16 32) a x).toNat < S112x224.size a)
    (h4 : ∀ a x, ((![rowVec k, k0_pay48 k0_pay57] : Fin 2 → IVec S16 32) a x).toNat < S112x224.size a)
    (h5 : ∀ a x, ((![rowVec k, k0_pay54 k0_pay57] : Fin 2 → IVec S16 32) a x).toNat < S112x224.size a)
    (h6 : ∀ a x, ((![rowVec k, k0_pay56 k0_pay57] : Fin 2 → IVec S16 32) a x).toNat < S112x224.size a) :
    storeIdx (storeIdx (storeIdx (storeIdx (storeIdx (storeIdx (storeIdx f ![rowVec k, k0_pay40 k0_pay57] v0 (fun _ => 1#1) false h0) ![rowVec k, k0_pay42 k0_pay57] v1 (fun _ => 1#1) false h1) ![rowVec k, k0_pay44 k0_pay57] v2 (fun _ => 1#1) false h2) ![rowVec k, k0_pay46 k0_pay57] v3 (fun _ => 1#1) false h3) ![rowVec k, k0_pay48 k0_pay57] v4 (fun _ => 1#1) false h4) ![rowVec k, k0_pay54 k0_pay57] v5 (fun _ => 1#1) false h5) ![rowVec k, k0_pay56 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t7_trips; omega))
    v0 v1 v2 v3 v4 v5 v6 h0 h1 h2 h3 h4 h5 h6

end Cert.Proof.KI

end
-- ==== Proof.KI.ScatterLoop.lean ====
import proofs.«218969_g18416819765331_cont_7to1_658_22_alg».proof.Proof.KI.Pay
import proofs.«218969_g18416819765331_cont_7to1_658_22_alg».proof.Proof.KI.Scatter
import proofs.«218969_g18416819765331_cont_7to1_658_22_alg».proof.Proof.KI.Half
import Idealize.ShloMosaic.Lib.Pipeline.Value

/-!
What the kernel's four scatter loops leave in a staging buffer. Trip `k` of a loop loads row
`base + k` of a 112 × 112 input image as seven pieces of sixteen entries and stores piece `n`, lane `l`,
at row `2k + 1`, column `32n + 1 + 2l` of a 112 × 224 staging buffer: the row lands on the odd columns
of an odd row. With the buffer after `k` trips stated as a function, this file reads the loaded pieces back as entries
of the input image and shows that one more trip's seven stores take the function at `k` to the
function at `k + 1`.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

/-! ## One more trip, as functions

Trip `k` writes row `base + k` of the input onto the odd columns of row `2k + 1`. -/

section Pure
variable [FloatOps F]

/-- One more trip: writing row `base + k` of the input onto the odd columns of row `2k + 1` turns the
    buffer after `k` trips into the buffer after `k + 1`. The pieces are read by column: column `2c + 1`
    takes lane `c mod 16` of piece `c / 16`, which is the input's entry `(base + k, c)`. -/
theorem scatK_succ_of_pieces (fi : S112x112.Idx → Elt F .f32) (base k : Nat) (g : S112x224.Idx → Elt F .f32)
    (v0 v1 v2 v3 v4 v5 v6 : Vec F S16 .f32)
    (hv : ∀ c : Nat, c < 112 → pick7 v0 v1 v2 v3 v4 v5 v6 (c / 16) (lane16 c) = fi (hIdx (base + k) c)) :
    (fun j : S112x224.Idx => if (j 0).val = 2 * k + 1 ∧ (j 1).val % 2 = 1
        then pick7 v0 v1 v2 v3 v4 v5 v6 ((j 1).val / 32) (lane16 ((j 1).val / 2)) else scatK fi base k g j)
      = scatK fi base (k + 1) g := by
  funext j
  have h1 : (j 1).val < 224 := (j 1).isLt
  by_cases hc : (j 0).val = 2 * k + 1 ∧ (j 1).val % 2 = 1
  · obtain ⟨hr, ho⟩ := hc
    have e : (j 1).val / 32 = (j 1).val / 2 / 16 := by omega
    have hq : (j 0).val / 2 = k := by omega
    rw [if_pos ⟨hr, ho⟩, e, hv _ (by omega)]
    unfold scatK
    rw [if_pos ⟨by omega, by omega, ho⟩, hq]
  · rw [if_neg hc]
    unfold scatK
    by_cases hd : (j 0).val % 2 = 1 ∧ (j 0).val / 2 < k ∧ (j 1).val % 2 = 1
    · rw [if_pos hd, if_pos ⟨hd.1, by omega, hd.2.2⟩]
    · rw [if_neg hd, if_neg]
      rintro ⟨a, b, c⟩
      by_cases hlt : (j 0).val / 2 < k
      · exact hd ⟨a, hlt, c⟩
      · exact hc ⟨by omega, c⟩

end Pure

/-! ## The pieces a trip loads -/

section Pieces
variable [FloatOps F]

/-- Sixteen consecutive entries of row `r` of the image in the first input buffer, from column `16n` on, loaded as a
    1 × 16 block and viewed as sixteen lanes: for a column `c` of that block, lane `c mod 16` is the image's
    entry `(r, c)`. -/
theorem piece_i0 (fi : S112x112.Idx → Elt F .f32) (off : Fin 2 → Nat)
    (inb : ∀ a, off a + S1x16.size a ≤ S112x112.size a) (r n : Nat) (hoff : off = ![r, 16 * n]) (c : Nat)
    (hcn : c / 16 = n) :
    (shapeCast S16 (View.readAt (Elt F) (i0V).view (Rect.unit (s := S112x112) off S1x16.size inb).toLoadRect fi)
        shapeCasts_S1x16_S16) (lane16 c) = fi (hIdx r c) := by
  subst hoff
  have h0' : r + 1 ≤ 112 := inb 0
  have h1' : 16 * n + 16 ≤ 112 := inb 1
  refine (shapeCast_dropUnit_apply ![16] _ shapeCasts_S1x16_S16 (lane16 c)).trans ?_
  rw [View.readAt_apply]
  show fi _ = fi _
  refine congrArg fi (idx2_ext _ _ ?_ ?_)
  · show r + 1 * 0 = min r 111
    omega
  · show 16 * n + 1 * (c % 16) = min c 111
    omega

/-- Sixteen consecutive entries of row `r` of the image in the second input buffer, from column `16n` on, loaded as a
    1 × 16 block and viewed as sixteen lanes: for a column `c` of that block, lane `c mod 16` is the image's
    entry `(r, c)`. -/
theorem piece_i1 (fi : S112x112.Idx → Elt F .f32) (off : Fin 2 → Nat)
    (inb : ∀ a, off a + S1x16.size a ≤ S112x112.size a) (r n : Nat) (hoff : off = ![r, 16 * n]) (c : Nat)
    (hcn : c / 16 = n) :
    (shapeCast S16 (View.readAt (Elt F) (i1V).view (Rect.unit (s := S112x112) off S1x16.size inb).toLoadRect fi)
        shapeCasts_S1x16_S16) (lane16 c) = fi (hIdx r c) := by
  subst hoff
  have h0' : r + 1 ≤ 112 := inb 0
  have h1' : 16 * n + 16 ≤ 112 := inb 1
  refine (shapeCast_dropUnit_apply ![16] _ shapeCasts_S1x16_S16 (lane16 c)).trans ?_
  rw [View.readAt_apply]
  show fi _ = fi _
  refine congrArg fi (idx2_ext _ _ ?_ ?_)
  · show r + 1 * 0 = min r 111
    omega
  · show 16 * n + 1 * (c % 16) = min c 111
    omega

end Pieces

/-! ## A whole-buffer load and store on a staging buffer -/

section Whole
variable [FloatOps F]

/-- Storing a whole staging buffer's worth of contents leaves those contents, and loading the whole
    buffer reads its contents. -/
theorem writes_o0 (g w : S112x224.Idx → Elt F .f32) :
    (o0V).view.writes (Elt F) g [⟨Rect.whole S112x224, w⟩] = w :=
  Memref.write_access_whole_univ (Elt F) cc0_scratch2 g w
theorem writes_o1 (g w : S112x224.Idx → Elt F .f32) :
    (o1V).view.writes (Elt F) g [⟨Rect.whole S112x224, w⟩] = w :=
  Memref.write_access_whole_univ (Elt F) cc0_scratch3 g w
theorem readAt_o0 (g : S112x224.Idx → Elt F .f32) :
    View.readAt (Elt F) (o0V).view (LoadRect.whole S112x224) g = g :=
  Memref.readAt_whole (Elt F) cc0_scratch2 g
theorem readAt_o1 (g : S112x224.Idx → Elt F .f32) :
    View.readAt (Elt F) (o1V).view (LoadRect.whole S112x224) g = g :=
  Memref.readAt_whole (Elt F) cc0_scratch3 g

end Whole

end Cert.Proof.KI

end
-- ==== Proof.KI.ScatterLoop4.lean ====
import proofs.«218969_g18416819765331_cont_7to1_658_22_alg».proof.Proof.KI.ScatterLoop

/-!
The first scatter loop of the kernel, one trip at a time: a trip's seven loads and seven indexed
stores take the staging buffer with `k` rows scattered to the staging buffer with `k + 1`.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

/-! ## The first scatter loop

It reads rows `k` of the image in the first input buffer and fills the odd rows of the first staging buffer. -/

section Loop4
variable [FloatOps F] (d : Dev nD) (L : grid0.Coords)

/-- After `k` trips: the input buffer as it was, the staging buffer with `k` rows scattered. -/
def inv4 (fi : S112x112.Idx → Elt F .f32) (g : S112x224.Idx → Elt F .f32) (k : Nat) (_ : Unit) : sProp 𝕄 :=
  iprop(((i0V).view.loc (thr d L) ↦{fullShare} fi) ∗ ((o0V).view.loc (thr d L) ↦{fullShare} scatK fi 0 k g))

/-- The seven pieces trip `k` loads are row `k` of the input, sixteen columns each. -/
theorem t4_pieces (fi : S112x112.Idx → Elt F .f32) (k : Fin k0_t4_loop.trips)
    (p0 : ∀ a, k0_off6 k a + S1x16.size a ≤ S112x112.size a)
    (p1 : ∀ a, k0_off7 k a + S1x16.size a ≤ S112x112.size a)
    (p2 : ∀ a, k0_off8 k a + S1x16.size a ≤ S112x112.size a)
    (p3 : ∀ a, k0_off9 k a + S1x16.size a ≤ S112x112.size a)
    (p4 : ∀ a, k0_off10 k a + S1x16.size a ≤ S112x112.size a)
    (p5 : ∀ a, k0_off11 k a + S1x16.size a ≤ S112x112.size a)
    (p6 : ∀ a, k0_off12 k a + S1x16.size a ≤ S112x112.size a)
    (c : Nat) (hc : c < 112) :
    pick7 (k0_pay1 (View.readAt (Elt F) (i0V).view (Rect.unit (s := S112x112) (k0_off6 k) S1x16.size p0).toLoadRect fi))
      (k0_pay3 (View.readAt (Elt F) (i0V).view (Rect.unit (s := S112x112) (k0_off7 k) S1x16.size p1).toLoadRect fi))
      (k0_pay5 (View.readAt (Elt F) (i0V).view (Rect.unit (s := S112x112) (k0_off8 k) S1x16.size p2).toLoadRect fi))
      (k0_pay7 (View.readAt (Elt F) (i0V).view (Rect.unit (s := S112x112) (k0_off9 k) S1x16.size p3).toLoadRect fi))
      (k0_pay9 (View.readAt (Elt F) (i0V).view (Rect.unit (s := S112x112) (k0_off10 k) S1x16.size p4).toLoadRect fi))
      (k0_pay21 (View.readAt (Elt F) (i0V).view (Rect.unit (s := S112x112) (k0_off11 k) S1x16.size p5).toLoadRect fi))
      (k0_pay23 (View.readAt (Elt F) (i0V).view (Rect.unit (s := S112x112) (k0_off12 k) S1x16.size p6).toLoadRect fi))
      (c / 16) (lane16 c) = fi (hIdx (0 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i0 fi _ p0 (k.val) 0 (k0_off6_eq k) c e).trans (congrArg (fun r => fi (hIdx r c)) (by omega))
  · rw [e]
    exact (piece_i0 fi _ p1 (k.val) 1 (k0_off7_eq k) c e).trans (congrArg (fun r => fi (hIdx r c)) (by omega))
  · rw [e]
    exact (piece_i0 fi _ p2 (k.val) 2 (k0_off8_eq k) c e).trans (congrArg (fun r => fi (hIdx r c)) (by omega))
  · rw [e]
    exact (piece_i0 fi _ p3 (k.val) 3 (k0_off9_eq k) c e).trans (congrArg (fun r => fi (hIdx r c)) (by omega))
  · rw [e]
    exact (piece_i0 fi _ p4 (k.val) 4 (k0_off10_eq k) c e).trans (congrArg (fun r => fi (hIdx r c)) (by omega))
  · rw [e]
    exact (piece_i0 fi _ p5 (k.val) 5 (k0_off11_eq k) c e).trans (congrArg (fun r => fi (hIdx r c)) (by omega))
  · rw [e]
    exact (piece_i0 fi _ p6 (k.val) 6 (k0_off12_eq k) c e).trans (congrArg (fun r => fi (hIdx r c)) (by omega))

set_option maxHeartbeats 4000000 in
/-- One trip of the loop takes the invariant at `k` to the invariant at `k + 1`. -/
theorem t4_step (t : Fin k0_t3_loop.trips) (h1 : k0_cond1 t = 1#1) (k : Fin k0_t4_loop.trips) (acc : Unit)
    (fi : S112x112.Idx → Elt F .f32) (g : S112x224.Idx → Elt F .f32) :
    inv4 d L fi g k.val acc
      ⊢ wp frame (wpE (defs₀ (F := F)) 𝒱₀ (thr d L) none) Set.univ
          (k0_t4_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h1 k acc)
          (inv4 d L fi g (k.val + 1)) := by
  unfold inv4
  iintro ⟨Hi, Ho⟩
  sl_unfold [k0_t4_body]
  sl_exec (disch := first | exact chk1_holds t k | exact chk2_holds t k | exact chk3_holds t k | exact chk4_holds t k | exact chk5_holds t k | exact chk6_holds t k | exact chk7_holds t k)
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  sl_unfold_run_names
  repeat rw [readAt_o0]
  rw [trip_t4 (scatK fi 0 k.val g) k,
    scatK_succ_of_pieces fi 0 k.val g _ _ _ _ _ _ _ (t4_pieces fi k _ _ _ _ _ _ _)]
  sl_step
  isplitl [Hi]
  · iexact Hi
  · iexact Ho

end Loop4

end Cert.Proof.KI

end
-- ==== Proof.KI.ScatterLoop5.lean ====
import proofs.«218969_g18416819765331_cont_7to1_658_22_alg».proof.Proof.KI.ScatterLoop

/-!
The second scatter loop of the kernel, one trip at a time: a trip's seven loads and seven indexed
stores take the staging buffer with `k` rows scattered to the staging buffer with `k + 1`.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

/-! ## The second scatter loop

It reads rows `56 + k` of the image in the first input buffer and fills the odd rows of the second staging buffer. -/

section Loop5
variable [FloatOps F] (d : Dev nD) (L : grid0.Coords)

/-- After `k` trips: the input buffer as it was, the staging buffer with `k` rows scattered. -/
def inv5 (fi : S112x112.Idx → Elt F .f32) (g : S112x224.Idx → Elt F .f32) (k : Nat) (_ : Unit) : sProp 𝕄 :=
  iprop(((i0V).view.loc (thr d L) ↦{fullShare} fi) ∗ ((o1V).view.loc (thr d L) ↦{fullShare} scatK fi 56 k g))

/-- The seven pieces trip `k` loads are row `56 + k` of the input, sixteen columns each. -/
theorem t5_pieces (fi : S112x112.Idx → Elt F .f32) (k : Fin k0_t5_loop.trips)
    (p0 : ∀ a, k0_off15 k a + S1x16.size a ≤ S112x112.size a)
    (p1 : ∀ a, k0_off16 k a + S1x16.size a ≤ S112x112.size a)
    (p2 : ∀ a, k0_off17 k a + S1x16.size a ≤ S112x112.size a)
    (p3 : ∀ a, k0_off18 k a + S1x16.size a ≤ S112x112.size a)
    (p4 : ∀ a, k0_off19 k a + S1x16.size a ≤ S112x112.size a)
    (p5 : ∀ a, k0_off20 k a + S1x16.size a ≤ S112x112.size a)
    (p6 : ∀ a, k0_off21 k a + S1x16.size a ≤ S112x112.size a)
    (c : Nat) (hc : c < 112) :
    pick7 (k0_pay11 (View.readAt (Elt F) (i0V).view (Rect.unit (s := S112x112) (k0_off15 k) S1x16.size p0).toLoadRect fi))
      (k0_pay13 (View.readAt (Elt F) (i0V).view (Rect.unit (s := S112x112) (k0_off16 k) S1x16.size p1).toLoadRect fi))
      (k0_pay15 (View.readAt (Elt F) (i0V).view (Rect.unit (s := S112x112) (k0_off17 k) S1x16.size p2).toLoadRect fi))
      (k0_pay17 (View.readAt (Elt F) (i0V).view (Rect.unit (s := S112x112) (k0_off18 k) S1x16.size p3).toLoadRect fi))
      (k0_pay19 (View.readAt (Elt F) (i0V).view (Rect.unit (s := S112x112) (k0_off19 k) S1x16.size p4).toLoadRect fi))
      (k0_pay25 (View.readAt (Elt F) (i0V).view (Rect.unit (s := S112x112) (k0_off20 k) S1x16.size p5).toLoadRect fi))
      (k0_pay27 (View.readAt (Elt F) (i0V).view (Rect.unit (s := S112x112) (k0_off21 k) S1x16.size p6).toLoadRect fi))
      (c / 16) (lane16 c) = fi (hIdx (56 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i0 fi _ p0 (k.val + 56) 0 (k0_off15_eq k) c e).trans (congrArg (fun r => fi (hIdx r c)) (by omega))
  · rw [e]
    exact (piece_i0 fi _ p1 (k.val + 56) 1 (k0_off16_eq k) c e).trans (congrArg (fun r => fi (hIdx r c)) (by omega))
  · rw [e]
    exact (piece_i0 fi _ p2 (k.val + 56) 2 (k0_off17_eq k) c e).trans (congrArg (fun r => fi (hIdx r c)) (by omega))
  · rw [e]
    exact (piece_i0 fi _ p3 (k.val + 56) 3 (k0_off18_eq k) c e).trans (congrArg (fun r => fi (hIdx r c)) (by omega))
  · rw [e]
    exact (piece_i0 fi _ p4 (k.val + 56) 4 (k0_off19_eq k) c e).trans (congrArg (fun r => fi (hIdx r c)) (by omega))
  · rw [e]
    exact (piece_i0 fi _ p5 (k.val + 56) 5 (k0_off20_eq k) c e).trans (congrArg (fun r => fi (hIdx r c)) (by omega))
  · rw [e]
    exact (piece_i0 fi _ p6 (k.val + 56) 6 (k0_off21_eq k) c e).trans (congrArg (fun r => fi (hIdx r c)) (by omega))

set_option maxHeartbeats 4000000 in
/-- One trip of the loop takes the invariant at `k` to the invariant at `k + 1`. -/
theorem t5_step (t : Fin k0_t3_loop.trips) (h1 : k0_cond1 t = 1#1) (k : Fin k0_t5_loop.trips) (acc : Unit)
    (fi : S112x112.Idx → Elt F .f32) (g : S112x224.Idx → Elt F .f32) :
    inv5 d L fi g k.val acc
      ⊢ wp frame (wpE (defs₀ (F := F)) 𝒱₀ (thr d L) none) Set.univ
          (k0_t5_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h1 k acc)
          (inv5 d L fi g (k.val + 1)) := by
  unfold inv5
  iintro ⟨Hi, Ho⟩
  sl_unfold [k0_t5_body]
  sl_exec (disch := first | exact chk8_holds t k | exact chk9_holds t k | exact chk10_holds t k | exact chk11_holds t k | exact chk12_holds t k | exact chk13_holds t k | exact chk14_holds t k)
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  sl_unfold_run_names
  repeat rw [readAt_o1]
  rw [trip_t5 (scatK fi 56 k.val g) k,
    scatK_succ_of_pieces fi 56 k.val g _ _ _ _ _ _ _ (t5_pieces fi k _ _ _ _ _ _ _)]
  sl_step
  isplitl [Hi]
  · iexact Hi
  · iexact Ho

end Loop5

end Cert.Proof.KI

end
-- ==== Proof.KI.TripE.lean ====
import proofs.«218969_g18416819765331_cont_7to1_658_22_alg».proof.Proof.KI.Pay
import proofs.«218969_g18416819765331_cont_7to1_658_22_alg».proof.Proof.KI.Inv
import proofs.«218969_g18416819765331_cont_7to1_658_22_alg».proof.Proof.KI.ScatterLoop4
import proofs.«218969_g18416819765331_cont_7to1_658_22_alg».proof.Proof.KI.ScatterLoop5
import proofs.«218969_g18416819765331_cont_7to1_658_22_alg».proof.Proof.KI.WinIn
import proofs.«218969_g18416819765331_cont_7to1_658_22_alg».proof.Proof.KI.WinOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

section Tile
variable (d : Dev nD) (L : grid0.Coords)

set_option maxHeartbeats 8000000 in
/-- An even trip in the middle of the run: the image in the first input buffer is scattered into both staging buffers
    and copied out; the image after next is fetched into the first input buffer. -/
theorem trip_even (O : CellTallies nD τ sig (HIx 1)) (W : Waits sig (HIx 1))
    (X : S1536x112x112.Idx → Elt F .f32)
    (t : Fin k0_t3_loop.trips) (acc : Unit)
    (h1 : k0_cond1 t = 1#1) (h5 : ¬ k0_cond5 t = 1#1) (h2 : k0_cond2 t = 1#1) (h3 : k0_cond3 t = 1#1) (h4 : k0_cond4 t = 1#1)
    (ht1 : 1 ≤ t.val) (ht2 : t.val + 2 < 48) :
    iprop(Transfers.MayWaits (thr d L) (default : HIx 1) O
        ∗ inTwoE d L X t.val
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inTwoO d L X (t.val + 1) ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  unfold inTwoE outTwo owesAt
  iintro ⟨#Hmw, ⟨%offA, %offB, %hA, %hB, %payA, %payB, %hp, HfA, HfB, Hx⟩, ⟨%offC, %offD, %hC, %hD, %fo, %ga, %gb, %hq, HfC, Ho0, HfD, Ho1, Ho⟩, ⟨%W', %hW', HO⟩⟩
  obtain ⟨rfl, rfl, rfl, rfl⟩ := hp
  obtain ⟨rfl, rfl, hga, hgb, hdone⟩ := hq
  sl_unfold [k0_t3_body]
  sl_exec
  sl_for (inv4 d L (imgOf L X t.val) ga) $$ [HfA_dst Ho0]
  case region => intro k acc'; exact t4_step d L t h1 k acc' _ _
  · unfold inv4; rw [scatK_zero]
    isplitl [HfA_dst]; · iexact HfA_dst
    iexact Ho0
  iintro %_ HI
  unfold inv4
  icases HI with ⟨Hi0, Ho0⟩
  sl_exec
  sl_for (inv5 d L (imgOf L X t.val) gb) $$ [Hi0 Ho1]
  case region => intro k acc'; exact t5_step d L t h1 k acc' _ _
  · unfold inv5; rw [scatK_zero]
    isplitl [Hi0]; · iexact Hi0
    iexact Ho1
  iintro %_ HI
  unfold inv5
  icases HI with ⟨Hi0, Ho1⟩
  sl_exec
  sl_step
  sl_unfold_run_names
  have e4 : Scf.trips k0_t4_loop.lb k0_t4_loop.ub k0_t4_loop.st = 56 := by decide
  have e5 : Scf.trips k0_t5_loop.lb k0_t5_loop.ub k0_t5_loop.st = 56 := by decide
  rw [e4, scatK_full _ _ _ hga, scatK_full _ _ _ hgb]
  have hoff23 : k0_off23 L t = xOff L (t.val + 1 + 1) := by
    rw [k0_off23_eq]; unfold xOff; congr 1
  unfold inTwoO
  isplitl [HfB HfA Hx]
  · iexists (xOff L (t.val + 1)), (k0_off23 L t), hB, (k0_off23_inb L t h1 h4), (imgOf L X (t.val + 1)), _
    isplitr
    · ipureintro
      exact ⟨rfl, hoff23, rfl, in_pay_eq0 L X (t.val + 1 + 1) (by omega) (k0_off23 L t) (k0_off23_inb L t h1 h4) (hoff23.trans (xOff_eq L _)) (imgOf L X t.val)⟩
    isplitl [HfB]; · iexact HfB
    isplitl [HfA]; · iexact HfA
    iexact Hx
  isplitl [HfC Ho0 HfD Ho1 Ho]
  · have hoff13 : k0_off13 L t = ![bOf L + t.val, 0, 0] := k0_off13_eq L t
    have hoff22 : k0_off22 L t = ![bOf L + t.val, 112, 0] := k0_off22_eq L t
    have hdone' : Done L X fo t.val := by
      have e : t.val - 1 + 1 = t.val := by omega
      rw [e] at hdone; exact hdone
    rw [out_agree_pts' L X t.val (k0_off13 L t) (k0_off22 L t) (k0_off13_inb L t h1) (k0_off22_inb L t h1) hoff13 hoff22 fo d (cV L) (jV L)]
    iexists (k0_off13 L t), (k0_off22 L t), (k0_off13_inb L t h1), (k0_off22_inb L t h1), _, (halfImg (imgOf L X t.val) 0), (halfImg (imgOf L X t.val) 56)
    isplitr
    · ipureintro
      exact ⟨hoff13.trans (oOff_eq L _ _).symm, hoff22.trans (oOff_eq L _ _).symm, zeroOff_halfImg _ _, zeroOff_halfImg _ _,
        out_done L X t.val (k0_off13 L t) (k0_off22 L t) (k0_off13_inb L t h1) (k0_off22_inb L t h1) hoff13 hoff22 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KI

end
-- ==== Proof.KI.ScatterLoop6.lean ====
import proofs.«218969_g18416819765331_cont_7to1_658_22_alg».proof.Proof.KI.ScatterLoop

/-!
The third scatter loop of the kernel, one trip at a time: a trip's seven loads and seven indexed
stores take the staging buffer with `k` rows scattered to the staging buffer with `k + 1`.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

/-! ## The third scatter loop

It reads rows `k` of the image in the second input buffer and fills the odd rows of the first staging buffer. -/

section Loop6
variable [FloatOps F] (d : Dev nD) (L : grid0.Coords)

/-- After `k` trips: the input buffer as it was, the staging buffer with `k` rows scattered. -/
def inv6 (fi : S112x112.Idx → Elt F .f32) (g : S112x224.Idx → Elt F .f32) (k : Nat) (_ : Unit) : sProp 𝕄 :=
  iprop(((i1V).view.loc (thr d L) ↦{fullShare} fi) ∗ ((o0V).view.loc (thr d L) ↦{fullShare} scatK fi 0 k g))

/-- The seven pieces trip `k` loads are row `k` of the input, sixteen columns each. -/
theorem t6_pieces (fi : S112x112.Idx → Elt F .f32) (k : Fin k0_t6_loop.trips)
    (p0 : ∀ a, k0_off26 k a + S1x16.size a ≤ S112x112.size a)
    (p1 : ∀ a, k0_off27 k a + S1x16.size a ≤ S112x112.size a)
    (p2 : ∀ a, k0_off28 k a + S1x16.size a ≤ S112x112.size a)
    (p3 : ∀ a, k0_off29 k a + S1x16.size a ≤ S112x112.size a)
    (p4 : ∀ a, k0_off30 k a + S1x16.size a ≤ S112x112.size a)
    (p5 : ∀ a, k0_off31 k a + S1x16.size a ≤ S112x112.size a)
    (p6 : ∀ a, k0_off32 k a + S1x16.size a ≤ S112x112.size a)
    (c : Nat) (hc : c < 112) :
    pick7 (k0_pay29 (View.readAt (Elt F) (i1V).view (Rect.unit (s := S112x112) (k0_off26 k) S1x16.size p0).toLoadRect fi))
      (k0_pay31 (View.readAt (Elt F) (i1V).view (Rect.unit (s := S112x112) (k0_off27 k) S1x16.size p1).toLoadRect fi))
      (k0_pay33 (View.readAt (Elt F) (i1V).view (Rect.unit (s := S112x112) (k0_off28 k) S1x16.size p2).toLoadRect fi))
      (k0_pay35 (View.readAt (Elt F) (i1V).view (Rect.unit (s := S112x112) (k0_off29 k) S1x16.size p3).toLoadRect fi))
      (k0_pay37 (View.readAt (Elt F) (i1V).view (Rect.unit (s := S112x112) (k0_off30 k) S1x16.size p4).toLoadRect fi))
      (k0_pay49 (View.readAt (Elt F) (i1V).view (Rect.unit (s := S112x112) (k0_off31 k) S1x16.size p5).toLoadRect fi))
      (k0_pay51 (View.readAt (Elt F) (i1V).view (Rect.unit (s := S112x112) (k0_off32 k) S1x16.size p6).toLoadRect fi))
      (c / 16) (lane16 c) = fi (hIdx (0 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i1 fi _ p0 (k.val) 0 (k0_off26_eq k) c e).trans (congrArg (fun r => fi (hIdx r c)) (by omega))
  · rw [e]
    exact (piece_i1 fi _ p1 (k.val) 1 (k0_off27_eq k) c e).trans (congrArg (fun r => fi (hIdx r c)) (by omega))
  · rw [e]
    exact (piece_i1 fi _ p2 (k.val) 2 (k0_off28_eq k) c e).trans (congrArg (fun r => fi (hIdx r c)) (by omega))
  · rw [e]
    exact (piece_i1 fi _ p3 (k.val) 3 (k0_off29_eq k) c e).trans (congrArg (fun r => fi (hIdx r c)) (by omega))
  · rw [e]
    exact (piece_i1 fi _ p4 (k.val) 4 (k0_off30_eq k) c e).trans (congrArg (fun r => fi (hIdx r c)) (by omega))
  · rw [e]
    exact (piece_i1 fi _ p5 (k.val) 5 (k0_off31_eq k) c e).trans (congrArg (fun r => fi (hIdx r c)) (by omega))
  · rw [e]
    exact (piece_i1 fi _ p6 (k.val) 6 (k0_off32_eq k) c e).trans (congrArg (fun r => fi (hIdx r c)) (by omega))

set_option maxHeartbeats 4000000 in
/-- One trip of the loop takes the invariant at `k` to the invariant at `k + 1`. -/
theorem t6_step (t : Fin k0_t3_loop.trips) (h5 : k0_cond5 t = 1#1) (k : Fin k0_t6_loop.trips) (acc : Unit)
    (fi : S112x112.Idx → Elt F .f32) (g : S112x224.Idx → Elt F .f32) :
    inv6 d L fi g k.val acc
      ⊢ wp frame (wpE (defs₀ (F := F)) 𝒱₀ (thr d L) none) Set.univ
          (k0_t6_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h5 k acc)
          (inv6 d L fi g (k.val + 1)) := by
  unfold inv6
  iintro ⟨Hi, Ho⟩
  sl_unfold [k0_t6_body]
  sl_exec (disch := first | exact chk15_holds t k | exact chk16_holds t k | exact chk17_holds t k | exact chk18_holds t k | exact chk19_holds t k | exact chk20_holds t k | exact chk21_holds t k)
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  sl_unfold_run_names
  repeat rw [readAt_o0]
  rw [trip_t6 (scatK fi 0 k.val g) k,
    scatK_succ_of_pieces fi 0 k.val g _ _ _ _ _ _ _ (t6_pieces fi k _ _ _ _ _ _ _)]
  sl_step
  isplitl [Hi]
  · iexact Hi
  · iexact Ho

end Loop6

end Cert.Proof.KI

end
-- ==== Proof.KI.ScatterLoop7.lean ====
import proofs.«218969_g18416819765331_cont_7to1_658_22_alg».proof.Proof.KI.ScatterLoop

/-!
The fourth scatter loop of the kernel, one trip at a time: a trip's seven loads and seven indexed
stores take the staging buffer with `k` rows scattered to the staging buffer with `k + 1`.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

/-! ## The fourth scatter loop

It reads rows `56 + k` of the image in the second input buffer and fills the odd rows of the second staging buffer. -/

section Loop7
variable [FloatOps F] (d : Dev nD) (L : grid0.Coords)

/-- After `k` trips: the input buffer as it was, the staging buffer with `k` rows scattered. -/
def inv7 (fi : S112x112.Idx → Elt F .f32) (g : S112x224.Idx → Elt F .f32) (k : Nat) (_ : Unit) : sProp 𝕄 :=
  iprop(((i1V).view.loc (thr d L) ↦{fullShare} fi) ∗ ((o1V).view.loc (thr d L) ↦{fullShare} scatK fi 56 k g))

/-- The seven pieces trip `k` loads are row `56 + k` of the input, sixteen columns each. -/
theorem t7_pieces (fi : S112x112.Idx → Elt F .f32) (k : Fin k0_t7_loop.trips)
    (p0 : ∀ a, k0_off35 k a + S1x16.size a ≤ S112x112.size a)
    (p1 : ∀ a, k0_off36 k a + S1x16.size a ≤ S112x112.size a)
    (p2 : ∀ a, k0_off37 k a + S1x16.size a ≤ S112x112.size a)
    (p3 : ∀ a, k0_off38 k a + S1x16.size a ≤ S112x112.size a)
    (p4 : ∀ a, k0_off39 k a + S1x16.size a ≤ S112x112.size a)
    (p5 : ∀ a, k0_off40 k a + S1x16.size a ≤ S112x112.size a)
    (p6 : ∀ a, k0_off41 k a + S1x16.size a ≤ S112x112.size a)
    (c : Nat) (hc : c < 112) :
    pick7 (k0_pay39 (View.readAt (Elt F) (i1V).view (Rect.unit (s := S112x112) (k0_off35 k) S1x16.size p0).toLoadRect fi))
      (k0_pay41 (View.readAt (Elt F) (i1V).view (Rect.unit (s := S112x112) (k0_off36 k) S1x16.size p1).toLoadRect fi))
      (k0_pay43 (View.readAt (Elt F) (i1V).view (Rect.unit (s := S112x112) (k0_off37 k) S1x16.size p2).toLoadRect fi))
      (k0_pay45 (View.readAt (Elt F) (i1V).view (Rect.unit (s := S112x112) (k0_off38 k) S1x16.size p3).toLoadRect fi))
      (k0_pay47 (View.readAt (Elt F) (i1V).view (Rect.unit (s := S112x112) (k0_off39 k) S1x16.size p4).toLoadRect fi))
      (k0_pay53 (View.readAt (Elt F) (i1V).view (Rect.unit (s := S112x112) (k0_off40 k) S1x16.size p5).toLoadRect fi))
      (k0_pay55 (View.readAt (Elt F) (i1V).view (Rect.unit (s := S112x112) (k0_off41 k) S1x16.size p6).toLoadRect fi))
      (c / 16) (lane16 c) = fi (hIdx (56 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i1 fi _ p0 (k.val + 56) 0 (k0_off35_eq k) c e).trans (congrArg (fun r => fi (hIdx r c)) (by omega))
  · rw [e]
    exact (piece_i1 fi _ p1 (k.val + 56) 1 (k0_off36_eq k) c e).trans (congrArg (fun r => fi (hIdx r c)) (by omega))
  · rw [e]
    exact (piece_i1 fi _ p2 (k.val + 56) 2 (k0_off37_eq k) c e).trans (congrArg (fun r => fi (hIdx r c)) (by omega))
  · rw [e]
    exact (piece_i1 fi _ p3 (k.val + 56) 3 (k0_off38_eq k) c e).trans (congrArg (fun r => fi (hIdx r c)) (by omega))
  · rw [e]
    exact (piece_i1 fi _ p4 (k.val + 56) 4 (k0_off39_eq k) c e).trans (congrArg (fun r => fi (hIdx r c)) (by omega))
  · rw [e]
    exact (piece_i1 fi _ p5 (k.val + 56) 5 (k0_off40_eq k) c e).trans (congrArg (fun r => fi (hIdx r c)) (by omega))
  · rw [e]
    exact (piece_i1 fi _ p6 (k.val + 56) 6 (k0_off41_eq k) c e).trans (congrArg (fun r => fi (hIdx r c)) (by omega))

set_option maxHeartbeats 4000000 in
/-- One trip of the loop takes the invariant at `k` to the invariant at `k + 1`. -/
theorem t7_step (t : Fin k0_t3_loop.trips) (h5 : k0_cond5 t = 1#1) (k : Fin k0_t7_loop.trips) (acc : Unit)
    (fi : S112x112.Idx → Elt F .f32) (g : S112x224.Idx → Elt F .f32) :
    inv7 d L fi g k.val acc
      ⊢ wp frame (wpE (defs₀ (F := F)) 𝒱₀ (thr d L) none) Set.univ
          (k0_t7_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h5 k acc)
          (inv7 d L fi g (k.val + 1)) := by
  unfold inv7
  iintro ⟨Hi, Ho⟩
  sl_unfold [k0_t7_body]
  sl_exec (disch := first | exact chk22_holds t k | exact chk23_holds t k | exact chk24_holds t k | exact chk25_holds t k | exact chk26_holds t k | exact chk27_holds t k | exact chk28_holds t k)
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  sl_unfold_run_names
  repeat rw [readAt_o1]
  rw [trip_t7 (scatK fi 56 k.val g) k,
    scatK_succ_of_pieces fi 56 k.val g _ _ _ _ _ _ _ (t7_pieces fi k _ _ _ _ _ _ _)]
  sl_step
  isplitl [Hi]
  · iexact Hi
  · iexact Ho

end Loop7

end Cert.Proof.KI

end
-- ==== Proof.KI.TripO.lean ====
import proofs.«218969_g18416819765331_cont_7to1_658_22_alg».proof.Proof.KI.Pay
import proofs.«218969_g18416819765331_cont_7to1_658_22_alg».proof.Proof.KI.Inv
import proofs.«218969_g18416819765331_cont_7to1_658_22_alg».proof.Proof.KI.ScatterLoop6
import proofs.«218969_g18416819765331_cont_7to1_658_22_alg».proof.Proof.KI.ScatterLoop7
import proofs.«218969_g18416819765331_cont_7to1_658_22_alg».proof.Proof.KI.WinIn
import proofs.«218969_g18416819765331_cont_7to1_658_22_alg».proof.Proof.KI.WinOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

section Tile
variable (d : Dev nD) (L : grid0.Coords)

set_option maxHeartbeats 8000000 in
/-- An odd trip in the middle of the run: the image in the second input buffer is scattered into both staging buffers
    and copied out; the image after next is fetched into the second input buffer. -/
theorem trip_odd (O : CellTallies nD τ sig (HIx 1)) (W : Waits sig (HIx 1))
    (X : S1536x112x112.Idx → Elt F .f32)
    (t : Fin k0_t3_loop.trips) (acc : Unit)
    (h5 : k0_cond5 t = 1#1) (h1 : ¬ k0_cond1 t = 1#1) (h6 : k0_cond6 t = 1#1) (h7 : k0_cond7 t = 1#1) (h8 : k0_cond8 t = 1#1)
    (ht1 : 1 ≤ t.val) (ht2 : t.val + 2 < 48) :
    iprop(Transfers.MayWaits (thr d L) (default : HIx 1) O
        ∗ inTwoO d L X t.val
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inTwoE d L X (t.val + 1) ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  unfold inTwoO outTwo owesAt
  iintro ⟨#Hmw, ⟨%offA, %offB, %hA, %hB, %payA, %payB, %hp, HfA, HfB, Hx⟩, ⟨%offC, %offD, %hC, %hD, %fo, %ga, %gb, %hq, HfC, Ho0, HfD, Ho1, Ho⟩, ⟨%W', %hW', HO⟩⟩
  obtain ⟨rfl, rfl, rfl, rfl⟩ := hp
  obtain ⟨rfl, rfl, hga, hgb, hdone⟩ := hq
  sl_unfold [k0_t3_body]
  sl_exec
  sl_for (inv6 d L (imgOf L X t.val) ga) $$ [HfA_dst Ho0]
  case region => intro k acc'; exact t6_step d L t h5 k acc' _ _
  · unfold inv6; rw [scatK_zero]
    isplitl [HfA_dst]; · iexact HfA_dst
    iexact Ho0
  iintro %_ HI
  unfold inv6
  icases HI with ⟨Hi1, Ho0⟩
  sl_exec
  sl_for (inv7 d L (imgOf L X t.val) gb) $$ [Hi1 Ho1]
  case region => intro k acc'; exact t7_step d L t h5 k acc' _ _
  · unfold inv7; rw [scatK_zero]
    isplitl [Hi1]; · iexact Hi1
    iexact Ho1
  iintro %_ HI
  unfold inv7
  icases HI with ⟨Hi1, Ho1⟩
  sl_exec
  sl_step
  sl_unfold_run_names
  have e6 : Scf.trips k0_t6_loop.lb k0_t6_loop.ub k0_t6_loop.st = 56 := by decide
  have e7 : Scf.trips k0_t7_loop.lb k0_t7_loop.ub k0_t7_loop.st = 56 := by decide
  rw [e6, scatK_full _ _ _ hga, scatK_full _ _ _ hgb]
  have hoff43 : k0_off43 L t = xOff L (t.val + 1 + 1) := by
    rw [k0_off43_eq]; unfold xOff; congr 1
  unfold inTwoE
  isplitl [HfB HfA Hx]
  · iexists (xOff L (t.val + 1)), (k0_off43 L t), hB, (k0_off43_inb L t h5 h8), (imgOf L X (t.val + 1)), _
    isplitr
    · ipureintro
      exact ⟨rfl, hoff43, rfl, in_pay_eq1 L X (t.val + 1 + 1) (by omega) (k0_off43 L t) (k0_off43_inb L t h5 h8) (hoff43.trans (xOff_eq L _)) (imgOf L X t.val)⟩
    isplitl [HfB]; · iexact HfB
    isplitl [HfA]; · iexact HfA
    iexact Hx
  isplitl [HfC Ho0 HfD Ho1 Ho]
  · have hoff33 : k0_off33 L t = ![bOf L + t.val, 0, 0] := k0_off33_eq L t
    have hoff42 : k0_off42 L t = ![bOf L + t.val, 112, 0] := k0_off42_eq L t
    have hdone' : Done L X fo t.val := by
      have e : t.val - 1 + 1 = t.val := by omega
      rw [e] at hdone; exact hdone
    rw [out_agree_pts' L X t.val (k0_off33 L t) (k0_off42 L t) (k0_off33_inb L t h5) (k0_off42_inb L t h5) hoff33 hoff42 fo d (cV L) (jV L)]
    iexists (k0_off33 L t), (k0_off42 L t), (k0_off33_inb L t h5), (k0_off42_inb L t h5), _, (halfImg (imgOf L X t.val) 0), (halfImg (imgOf L X t.val) 56)
    isplitr
    · ipureintro
      exact ⟨hoff33.trans (oOff_eq L _ _).symm, hoff42.trans (oOff_eq L _ _).symm, zeroOff_halfImg _ _, zeroOff_halfImg _ _,
        out_done L X t.val (k0_off33 L t) (k0_off42 L t) (k0_off33_inb L t h5) (k0_off42_inb L t h5) hoff33 hoff42 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KI

end
-- ==== Proof.KI.TripE0.lean ====
import proofs.«218969_g18416819765331_cont_7to1_658_22_alg».proof.Proof.KI.Pay
import proofs.«218969_g18416819765331_cont_7to1_658_22_alg».proof.Proof.KI.Inv
import proofs.«218969_g18416819765331_cont_7to1_658_22_alg».proof.Proof.KI.Inv2
import proofs.«218969_g18416819765331_cont_7to1_658_22_alg».proof.Proof.KI.ScatterLoop4
import proofs.«218969_g18416819765331_cont_7to1_658_22_alg».proof.Proof.KI.ScatterLoop5
import proofs.«218969_g18416819765331_cont_7to1_658_22_alg».proof.Proof.KI.WinIn
import proofs.«218969_g18416819765331_cont_7to1_658_22_alg».proof.Proof.KI.WinOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

section Tile
variable (d : Dev nD) (L : grid0.Coords)

set_option maxHeartbeats 8000000 in
/-- The first trip: nothing is on its way out yet and both staging buffers are zero, so no copy out is waited for; the
    image in the first input buffer is scattered into both staging buffers and copied out; the image after next is
    fetched into the first input buffer. No result image was final before; the first one is after. -/
theorem trip_zero (O : CellTallies nD τ sig (HIx 1)) (W : Waits sig (HIx 1))
    (X : S1536x112x112.Idx → Elt F .f32)
    (t : Fin k0_t3_loop.trips) (acc : Unit)
    (h1 : k0_cond1 t = 1#1) (h5 : ¬ k0_cond5 t = 1#1) (h2 : ¬ k0_cond2 t = 1#1) (h3 : ¬ k0_cond3 t = 1#1) (h4 : k0_cond4 t = 1#1)
    (ht0 : t.val = 0) :
    iprop(Transfers.MayWaits (thr d L) (default : HIx 1) O
        ∗ inTwoE d L X t.val
        ∗ outZero d L
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inTwoO d L X (t.val + 1) ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  unfold inTwoE outZero outTwo owesAt
  iintro ⟨#Hmw, ⟨%offA, %offB, %hA, %hB, %payA, %payB, %hp, HfA, HfB, Hx⟩, ⟨%fo, Ho0, Ho1, HfC, HfD, Ho⟩, ⟨%W', %hW', HO⟩⟩
  obtain ⟨rfl, rfl, rfl, rfl⟩ := hp
  sl_unfold [k0_t3_body]
  sl_exec
  sl_for (inv4 d L (imgOf L X t.val) (fun _ => (zeroF : F .f32))) $$ [HfA_dst Ho0]
  case region => intro k acc'; exact t4_step d L t h1 k acc' _ _
  · unfold inv4; rw [scatK_zero]
    isplitl [HfA_dst]; · iexact HfA_dst
    iexact Ho0
  iintro %_ HI
  unfold inv4
  icases HI with ⟨Hi0, Ho0⟩
  sl_exec
  sl_for (inv5 d L (imgOf L X t.val) (fun _ => (zeroF : F .f32))) $$ [Hi0 Ho1]
  case region => intro k acc'; exact t5_step d L t h1 k acc' _ _
  · unfold inv5; rw [scatK_zero]
    isplitl [Hi0]; · iexact Hi0
    iexact Ho1
  iintro %_ HI
  unfold inv5
  icases HI with ⟨Hi0, Ho1⟩
  sl_exec
  sl_step
  sl_unfold_run_names
  have e4 : Scf.trips k0_t4_loop.lb k0_t4_loop.ub k0_t4_loop.st = 56 := by decide
  rw [e4, scatK_full _ _ _ (zeroOff_zero (F := F)), scatK_full _ _ _ (zeroOff_zero (F := F))]
  have hoff23 : k0_off23 L t = xOff L (t.val + 1 + 1) := by
    rw [k0_off23_eq]; unfold xOff; congr 1
  unfold inTwoO
  isplitl [HfB HfA Hx]
  · iexists (xOff L (t.val + 1)), (k0_off23 L t), hB, (k0_off23_inb L t h1 h4), (imgOf L X (t.val + 1)), _
    isplitr
    · ipureintro
      exact ⟨rfl, hoff23, rfl, in_pay_eq0 L X (t.val + 1 + 1) (by omega) (k0_off23 L t) (k0_off23_inb L t h1 h4) (hoff23.trans (xOff_eq L _)) (imgOf L X t.val)⟩
    isplitl [HfB]; · iexact HfB
    isplitl [HfA]; · iexact HfA
    iexact Hx
  isplitl [HfC Ho0 HfD Ho1 Ho]
  · have hoff13 : k0_off13 L t = ![bOf L + t.val, 0, 0] := k0_off13_eq L t
    have hoff22 : k0_off22 L t = ![bOf L + t.val, 112, 0] := k0_off22_eq L t
    have hdone' : Done L X fo t.val := by
      rw [ht0]; exact done_zero L X fo
    rw [out_agree_pts' L X t.val (k0_off13 L t) (k0_off22 L t) (k0_off13_inb L t h1) (k0_off22_inb L t h1) hoff13 hoff22 fo d (cV L) (jV L)]
    iexists (k0_off13 L t), (k0_off22 L t), (k0_off13_inb L t h1), (k0_off22_inb L t h1), _, (halfImg (imgOf L X t.val) 0), (halfImg (imgOf L X t.val) 56)
    isplitr
    · ipureintro
      exact ⟨hoff13.trans (oOff_eq L _ _).symm, hoff22.trans (oOff_eq L _ _).symm, zeroOff_halfImg _ _, zeroOff_halfImg _ _,
        out_done L X t.val (k0_off13 L t) (k0_off22 L t) (k0_off13_inb L t h1) (k0_off22_inb L t h1) hoff13 hoff22 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    exact hW' p hp

end Tile

end Cert.Proof.KI

end
-- ==== Proof.KI.TripE46.lean ====
import proofs.«218969_g18416819765331_cont_7to1_658_22_alg».proof.Proof.KI.Pay
import proofs.«218969_g18416819765331_cont_7to1_658_22_alg».proof.Proof.KI.Inv
import proofs.«218969_g18416819765331_cont_7to1_658_22_alg».proof.Proof.KI.Inv2
import proofs.«218969_g18416819765331_cont_7to1_658_22_alg».proof.Proof.KI.ScatterLoop4
import proofs.«218969_g18416819765331_cont_7to1_658_22_alg».proof.Proof.KI.ScatterLoop5
import proofs.«218969_g18416819765331_cont_7to1_658_22_alg».proof.Proof.KI.WinIn
import proofs.«218969_g18416819765331_cont_7to1_658_22_alg».proof.Proof.KI.WinOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

section Tile
variable (d : Dev nD) (L : grid0.Coords)

set_option maxHeartbeats 8000000 in
/-- The last even trip: the image in the first input buffer is scattered into both staging buffers and copied
    out; no image is left to fetch, so the first input buffer stays free. -/
theorem trip_last_even (O : CellTallies nD τ sig (HIx 1)) (W : Waits sig (HIx 1))
    (X : S1536x112x112.Idx → Elt F .f32)
    (t : Fin k0_t3_loop.trips) (acc : Unit)
    (h1 : k0_cond1 t = 1#1) (h5 : ¬ k0_cond5 t = 1#1) (h2 : k0_cond2 t = 1#1) (h3 : k0_cond3 t = 1#1) (h4 : ¬ k0_cond4 t = 1#1)
    (ht : t.val = 46) :
    iprop(Transfers.MayWaits (thr d L) (default : HIx 1) O
        ∗ inTwoE d L X t.val
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inOne47 d L X ∗ outTwo d L X t.val ∗ owesAt d L O W)) := by
  have ht48 : t.val < 48 := lt_of_lt_of_le t.isLt k0_t3_abs.2.1
  have hL0 : (L 0).val < 2 := (L 0).isLt
  have e47 : t.val + 1 = 47 := by omega
  have hL1 : (L 1).val < 16 := (L 1).isLt
  unfold inTwoE outTwo owesAt
  iintro ⟨#Hmw, ⟨%offA, %offB, %hA, %hB, %payA, %payB, %hp, HfA, HfB, Hx⟩, ⟨%offC, %offD, %hC, %hD, %fo, %ga, %gb, %hq, HfC, Ho0, HfD, Ho1, Ho⟩, ⟨%W', %hW', HO⟩⟩
  obtain ⟨rfl, rfl, rfl, rfl⟩ := hp
  obtain ⟨rfl, rfl, hga, hgb, hdone⟩ := hq
  sl_unfold [k0_t3_body]
  sl_exec
  sl_for (inv4 d L (imgOf L X t.val) ga) $$ [HfA_dst Ho0]
  case region => intro k acc'; exact t4_step d L t h1 k acc' _ _
  · unfold inv4; rw [scatK_zero]
    isplitl [HfA_dst]; · iexact HfA_dst
    iexact Ho0
  iintro %_ HI
  unfold inv4
  icases HI with ⟨Hi0, Ho0⟩
  sl_exec
  sl_for (inv5 d L (imgOf L X t.val) gb) $$ [Hi0 Ho1]
  case region => intro k acc'; exact t5_step d L t h1 k acc' _ _
  · unfold inv5; rw [scatK_zero]
    isplitl [Hi0]; · iexact Hi0
    iexact Ho1
  iintro %_ HI
  unfold inv5
  icases HI with ⟨Hi0, Ho1⟩
  sl_exec
  sl_step
  sl_unfold_run_names
  have e4 : Scf.trips k0_t4_loop.lb k0_t4_loop.ub k0_t4_loop.st = 56 := by decide
  have e5 : Scf.trips k0_t5_loop.lb k0_t5_loop.ub k0_t5_loop.st = 56 := by decide
  rw [e4, scatK_full _ _ _ hga, scatK_full _ _ _ hgb]
  unfold inOne47
  isplitl [HfB HfA Hi0 Hx]
  · iexists (xOff L (t.val + 1)), hB, (imgOf L X (t.val + 1))
    isplitr
    · ipureintro
      exact ⟨congrArg (xOff L) e47, congrArg (imgOf L X) e47⟩
    isplitl [HfB]; · iexact HfB
    isplitl [Hi0]; · iexists _; iexact Hi0
    isplitl [HfA]; · iexact HfA
    iexact Hx
  isplitl [HfC Ho0 HfD Ho1 Ho]
  · have hoff13 : k0_off13 L t = ![bOf L + t.val, 0, 0] := k0_off13_eq L t
    have hoff22 : k0_off22 L t = ![bOf L + t.val, 112, 0] := k0_off22_eq L t
    have hdone' : Done L X fo t.val := by
      have e : t.val - 1 + 1 = t.val := by omega
      rw [e] at hdone; exact hdone
    rw [out_agree_pts' L X t.val (k0_off13 L t) (k0_off22 L t) (k0_off13_inb L t h1) (k0_off22_inb L t h1) hoff13 hoff22 fo d (cV L) (jV L)]
    iexists (k0_off13 L t), (k0_off22 L t), (k0_off13_inb L t h1), (k0_off22_inb L t h1), _, (halfImg (imgOf L X t.val) 0), (halfImg (imgOf L X t.val) 56)
    isplitr
    · ipureintro
      exact ⟨hoff13.trans (oOff_eq L _ _).symm, hoff22.trans (oOff_eq L _ _).symm, zeroOff_halfImg _ _, zeroOff_halfImg _ _,
        out_done L X t.val (k0_off13 L t) (k0_off22 L t) (k0_off13_inb L t h1) (k0_off22_inb L t h1) hoff13 hoff22 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KI

end
-- ==== Proof.KI.TripO47.lean ====
import proofs.«218969_g18416819765331_cont_7to1_658_22_alg».proof.Proof.KI.Pay
import proofs.«218969_g18416819765331_cont_7to1_658_22_alg».proof.Proof.KI.Inv
import proofs.«218969_g18416819765331_cont_7to1_658_22_alg».proof.Proof.KI.Inv2
import proofs.«218969_g18416819765331_cont_7to1_658_22_alg».proof.Proof.KI.ScatterLoop6
import proofs.«218969_g18416819765331_cont_7to1_658_22_alg».proof.Proof.KI.ScatterLoop7
import proofs.«218969_g18416819765331_cont_7to1_658_22_alg».proof.Proof.KI.WinIn
import proofs.«218969_g18416819765331_cont_7to1_658_22_alg».proof.Proof.KI.WinOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

/-!
The last image of a subcore's slab. It is the forty-eighth, on an odd trip: its copy into the second
input buffer is the only input copy outstanding. The trip waits for it, waits for the two write-backs
of the image before, scatters the image's upper fifty-six rows over the first staging buffer and its
lower fifty-six over the second, and starts the two write-backs; no further image is fetched. After
it both input buffers are free, the slab of input images is whole again, and every result image of
the slab is final in the contents the write-backs carry.
-/

section Tile
variable (d : Dev nD) (L : grid0.Coords)

set_option maxHeartbeats 8000000 in
/-- The last trip: the image in the second input buffer is scattered into both staging buffers and copied out;
    nothing more is fetched. -/
theorem trip_last_odd (O : CellTallies nD τ sig (HIx 1)) (W : Waits sig (HIx 1))
    (X : S1536x112x112.Idx → Elt F .f32)
    (t : Fin k0_t3_loop.trips) (acc : Unit) (ht : t.val = 47)
    (h5 : k0_cond5 t = 1#1) (h1 : ¬ k0_cond1 t = 1#1) (h6 : k0_cond6 t = 1#1) (h7 : k0_cond7 t = 1#1) (h8 : ¬ k0_cond8 t = 1#1) :
    iprop(Transfers.MayWaits (thr d L) (default : HIx 1) O
        ∗ inOne47 d L X
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inNone d L X ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  have e47 : (47 : Nat) = t.val := ht.symm
  unfold inOne47 outTwo owesAt
  iintro ⟨#Hmw, ⟨%offA, %hA, %payA, %hp, HfA, ⟨%f0, Hi0⟩, Hs4, Hx⟩, ⟨%offC, %offD, %hC, %hD, %fo, %ga, %gb, %hq, HfC, Ho0, HfD, Ho1, Ho⟩, ⟨%W', %hW', HO⟩⟩
  -- the image awaited is image `t` of the slab
  rw [e47] at hp
  obtain ⟨rfl, rfl⟩ := hp
  obtain ⟨rfl, rfl, hga, hgb, hdone⟩ := hq
  sl_unfold [k0_t3_body]
  sl_exec
  sl_for (inv6 d L (imgOf L X t.val) ga) $$ [HfA_dst Ho0]
  case region => intro k acc'; exact t6_step d L t h5 k acc' _ _
  · unfold inv6; rw [scatK_zero]
    isplitl [HfA_dst]; · iexact HfA_dst
    iexact Ho0
  iintro %_ HI
  unfold inv6
  icases HI with ⟨Hi1, Ho0⟩
  sl_exec
  sl_for (inv7 d L (imgOf L X t.val) gb) $$ [Hi1 Ho1]
  case region => intro k acc'; exact t7_step d L t h5 k acc' _ _
  · unfold inv7; rw [scatK_zero]
    isplitl [Hi1]; · iexact Hi1
    iexact Ho1
  iintro %_ HI
  unfold inv7
  icases HI with ⟨Hi1, Ho1⟩
  sl_exec
  sl_step
  sl_unfold_run_names
  have e6 : Scf.trips k0_t6_loop.lb k0_t6_loop.ub k0_t6_loop.st = 56 := by decide
  rw [e6, scatK_full _ _ _ hga, scatK_full _ _ _ hgb]
  -- the input side: both buffers free, both semaphores at zero, the slab whole
  unfold inNone
  isplitl [Hi0 Hi1 Hs4 HfA Hx]
  · isplitl [Hi0]; · iexists _; iexact Hi0
    isplitl [Hi1]; · iexists _; iexact Hi1
    isplitl [Hs4]; · iexact Hs4
    isplitl [HfA]; · iexact HfA
    iexact Hx
  -- the output side: the two halves of the last image on their way out, every image of the slab final
  isplitl [HfC Ho0 HfD Ho1 Ho]
  · have hoff33 : k0_off33 L t = ![bOf L + t.val, 0, 0] := k0_off33_eq L t
    have hoff42 : k0_off42 L t = ![bOf L + t.val, 112, 0] := k0_off42_eq L t
    have hdone' : Done L X fo t.val := by
      have e : t.val - 1 + 1 = t.val := by omega
      rw [e] at hdone; exact hdone
    rw [out_agree_pts' L X t.val (k0_off33 L t) (k0_off42 L t) (k0_off33_inb L t h5) (k0_off42_inb L t h5) hoff33 hoff42 fo d (cV L) (jV L)]
    iexists (k0_off33 L t), (k0_off42 L t), (k0_off33_inb L t h5), (k0_off42_inb L t h5), _, (halfImg (imgOf L X t.val) 0), (halfImg (imgOf L X t.val) 56)
    isplitr
    · ipureintro
      exact ⟨hoff33.trans (oOff_eq L _ _).symm, hoff42.trans (oOff_eq L _ _).symm, zeroOff_halfImg _ _, zeroOff_halfImg _ _,
        out_done L X t.val (k0_off33 L t) (k0_off42 L t) (k0_off33_inb L t h5) (k0_off42_inb L t h5) hoff33 hoff42 ht48 fo hdone'⟩
    isplitl [HfC]; · iexact HfC
    isplitl [Ho0]; · iexact Ho0
    isplitl [HfD]; · iexact HfD
    isplitl [Ho1]; · iexact Ho1
    iexact Ho
  -- the waits recorded are of the subcore's own semaphores
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KI

end
-- ==== Proof.KI.TripStep.lean ====
import proofs.«218969_g18416819765331_cont_7to1_658_22_alg».proof.Proof.KI.Pay
import proofs.«218969_g18416819765331_cont_7to1_658_22_alg».proof.Proof.KI.Inv2
import proofs.«218969_g18416819765331_cont_7to1_658_22_alg».proof.Proof.KI.Conds
import proofs.«218969_g18416819765331_cont_7to1_658_22_alg».proof.Proof.KI.TripE
import proofs.«218969_g18416819765331_cont_7to1_658_22_alg».proof.Proof.KI.TripO
import proofs.«218969_g18416819765331_cont_7to1_658_22_alg».proof.Proof.KI.TripE0
import proofs.«218969_g18416819765331_cont_7to1_658_22_alg».proof.Proof.KI.TripE46
import proofs.«218969_g18416819765331_cont_7to1_658_22_alg».proof.Proof.KI.TripO47

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]

/-!
One trip of the loop over the subcore's images, from the state before it to the state before the next:
by cases on the trip's parity (which input buffer it reads) and on whether it is the first trip (nothing to
wait for on the way out), one of the last two (nothing left to fetch), or one in between.
-/

section Tile
variable (d : Dev nD) (L : grid0.Coords)

set_option maxHeartbeats 4000000 in
theorem trip_step (O : CellTallies nD τ sig (HIx 1)) (W : Waits sig (HIx 1)) (X : S1536x112x112.Idx → Elt F .f32)
    (t : Fin k0_t3_loop.trips) (acc : Unit) :
    tinv d L X O W t.val acc
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (tinv d L X O W (t.val + 1)) := by
  have ht := t3_lt t
  unfold tinv
  iintro ⟨#Hmw, HR⟩
  iapply (wp_frame_l frame (wpE (defs₀ (F := F)) 𝒱₀ (thr d L) none) Set.univ (R := Transfers.MayWaits (thr d L) (default : HIx 1) O))
  isplitr; · iexact Hmw
  have hout' : outPart d L X (t.val + 1) = outTwo d L X t.val := by
    unfold outPart; rw [if_neg (by omega), Nat.add_sub_cancel]
  rw [hout']
  by_cases hpar : t.val % 2 = 0
  · have h1 : k0_cond1 t = 1#1 := (cond1_iff t).mpr hpar
    have h5 : ¬ k0_cond5 t = 1#1 := fun h => by have := (cond5_iff t).mp h; omega
    have hin : inPart d L X t.val = inTwoE d L X t.val := by unfold inPart; rw [if_pos hpar, if_pos (by omega)]
    rw [hin]
    by_cases h0 : t.val = 0
    · have h2 : ¬ k0_cond2 t = 1#1 := fun h => by have := (cond2_iff t).mp h; omega
      have h3 : ¬ k0_cond3 t = 1#1 := fun h => by have := (cond3_iff t).mp h; omega
      have h4 : k0_cond4 t = 1#1 := (cond4_iff t).mpr (by omega)
      have hin' : inPart d L X (t.val + 1) = inTwoO d L X (t.val + 1) := by unfold inPart; rw [if_neg (by omega), if_pos (by omega)]
      have hout : outPart d L X t.val = outZero d L := by unfold outPart; rw [if_pos h0]
      rw [hin', hout]
      iapply (trip_zero d L O W X t acc h1 h5 h2 h3 h4 h0)
      isplitr; · iexact Hmw
      iexact HR
    · have h2 : k0_cond2 t = 1#1 := (cond2_iff t).mpr (by omega)
      have h3 : k0_cond3 t = 1#1 := (cond3_iff t).mpr (by omega)
      have hout : outPart d L X t.val = outTwo d L X (t.val - 1) := by unfold outPart; rw [if_neg h0]
      rw [hout]
      by_cases h46 : t.val = 46
      · have h4 : ¬ k0_cond4 t = 1#1 := fun h => by have := (cond4_iff t).mp h; omega
        have hin' : inPart d L X (t.val + 1) = inOne47 d L X := by unfold inPart; rw [if_neg (by omega), if_neg (by omega)]
        rw [hin']
        iapply (trip_last_even d L O W X t acc h1 h5 h2 h3 h4 h46)
        isplitr; · iexact Hmw
        iexact HR
      · have h4 : k0_cond4 t = 1#1 := (cond4_iff t).mpr (by omega)
        have hin' : inPart d L X (t.val + 1) = inTwoO d L X (t.val + 1) := by unfold inPart; rw [if_neg (by omega), if_pos (by omega)]
        rw [hin']
        iapply (trip_even d L O W X t acc h1 h5 h2 h3 h4 (by omega) (by omega))
        isplitr; · iexact Hmw
        iexact HR
  · have h1 : ¬ k0_cond1 t = 1#1 := fun h => hpar ((cond1_iff t).mp h)
    have h5 : k0_cond5 t = 1#1 := (cond5_iff t).mpr (by omega)
    have h6 : k0_cond6 t = 1#1 := (cond6_iff t).mpr (by omega)
    have h7 : k0_cond7 t = 1#1 := (cond7_iff t).mpr (by omega)
    have hout : outPart d L X t.val = outTwo d L X (t.val - 1) := by unfold outPart; rw [if_neg (by omega)]
    rw [hout]
    by_cases h47 : t.val = 47
    · have h8 : ¬ k0_cond8 t = 1#1 := fun h => by have := (cond8_iff t).mp h; omega
      have hin : inPart d L X t.val = inOne47 d L X := by unfold inPart; rw [if_neg hpar, if_neg (by omega)]
      have hin' : inPart d L X (t.val + 1) = inNone d L X := by unfold inPart; rw [if_pos (by omega), if_neg (by omega)]
      rw [hin, hin']
      iapply (trip_last_odd d L O W X t acc h47 h5 h1 h6 h7 h8)
      isplitr; · iexact Hmw
      iexact HR
    · have h8 : k0_cond8 t = 1#1 := (cond8_iff t).mpr (by omega)
      have hin : inPart d L X t.val = inTwoO d L X t.val := by unfold inPart; rw [if_neg hpar, if_pos (by omega)]
      have hin' : inPart d L X (t.val + 1) = inTwoE d L X (t.val + 1) := by unfold inPart; rw [if_pos (by omega), if_pos (by omega)]
      rw [hin, hin']
      iapply (trip_odd d L O W X t acc h5 h1 h6 h7 h8 (by omega) (by omega))
      isplitr; · iexact Hmw
      iexact HR

end Tile

end Cert.Proof.KI

end
-- ==== Proof.KI.TileBody.lean ====
import proofs.«218969_g18416819765331_cont_7to1_658_22_alg».proof.Proof.KI.TileObl
import proofs.«218969_g18416819765331_cont_7to1_658_22_alg».proof.Proof.KI.Zero
import proofs.«218969_g18416819765331_cont_7to1_658_22_alg».proof.Proof.KI.Inv2
import proofs.«218969_g18416819765331_cont_7to1_658_22_alg».proof.Proof.KI.WinIn
import proofs.«218969_g18416819765331_cont_7to1_658_22_alg».proof.Proof.KI.WinOut
import proofs.«218969_g18416819765331_cont_7to1_658_22_alg».proof.Proof.KI.Conds
import proofs.«218969_g18416819765331_cont_7to1_658_22_alg».proof.Proof.KI.TripStep

/-!
One vector subcore's whole task. From its slab of the input images and its slab of the result images,
its four staging buffers and four transfer semaphores, and what it owes: it zeroes the two result
staging buffers, starts the copies of its first two input images, and runs the loop over its
forty-eight images, each trip taking the state before image `t` to the state before image `t + 1`.
After the last trip no input copy is outstanding and the two halves of the last result image are on
their way out; the two final waits bring them back, the result slab is whole again and holds the
upsampling of the input slab, and buffers and semaphores are handed back as they were found.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1536x112x112 EltTy.f32)
local notation "oV" => (Memref.whole Cert.KernelIdeal.main_v1_scv : Memref Cert.KernelIdeal.sig Kind.scVector Space.hbm Cert.KernelIdeal.S1536x224x224 EltTy.f32)
local notation "i0V" => (Memref.whole Cert.KernelIdeal.cc0_scratch0 : Memref Cert.KernelIdeal.sig Kind.scVector Space.vmem Cert.KernelIdeal.S112x112 EltTy.f32)
local notation "i1V" => (Memref.whole Cert.KernelIdeal.cc0_scratch1 : Memref Cert.KernelIdeal.sig Kind.scVector Space.vmem Cert.KernelIdeal.S112x112 EltTy.f32)
local notation "o0V" => (Memref.whole Cert.KernelIdeal.cc0_scratch2 : Memref Cert.KernelIdeal.sig Kind.scVector Space.vmem Cert.KernelIdeal.S112x224 EltTy.f32)
local notation "o1V" => (Memref.whole Cert.KernelIdeal.cc0_scratch3 : Memref Cert.KernelIdeal.sig Kind.scVector Space.vmem Cert.KernelIdeal.S112x224 EltTy.f32)

variable [FloatOps F]
variable (X : (d : Dev nD) → Buf (Elt F) (xLoc d)) (O₀ : (d : Dev nD) → Buf (Elt F) (oLoc d))

/-! ## The loop's invariant at its two ends -/

/-- Before the first image both input copies are under way and nothing is on its way out. -/
theorem inPart_zero (d : Dev nD) (L : grid0.Coords) (X : S1536x112x112.Idx → Elt F .f32) : inPart d L X 0 = inTwoE d L X 0 := by
  unfold inPart; rw [if_pos rfl, if_pos (by omega)]
/-- Before the first image the staging buffers are zero and the result slab is whole. -/
theorem outPart_zero (d : Dev nD) (L : grid0.Coords) (X : S1536x112x112.Idx → Elt F .f32) : outPart d L X 0 = outZero d L := by
  unfold outPart; rw [if_pos rfl]
/-- After the last image no input copy is outstanding. -/
theorem inPart_end (d : Dev nD) (L : grid0.Coords) (X : S1536x112x112.Idx → Elt F .f32) : inPart d L X 48 = inNone d L X := by
  unfold inPart; rw [if_pos rfl, if_neg (by omega)]
/-- After the last image the two halves of the last result image are on their way out. -/
theorem outPart_end (d : Dev nD) (L : grid0.Coords) (X : S1536x112x112.Idx → Elt F .f32) : outPart d L X 48 = outTwo d L X 47 := by
  unfold outPart; rw [if_neg (by omega)]

/-! ## The task -/

set_option maxHeartbeats 8000000 in
/-- The subcore's task: the prologue establishes the loop's invariant before the first image, each trip
    carries it one image on, and after the last image the two final waits return the result slab whole,
    holding the upsampling of the input slab. -/
theorem tile_body : TileBody X O₀ := by
  intro hF d L O W hO
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%f0, H0⟩, ⟨%f1, H1⟩, ⟨%f2, H2⟩, ⟨%f3, H3⟩, Hbufs⟩, ⟨Hs4, Hs5, Hs6, Hs7, Hsems⟩, HO⟩
  ihave Hmw := (show levAts (K (F := F)).L (K (F := F)).lev ⊢ Transfers.MayWaits (thr d L) (default : HIx 1) O from
    (K (F := F)).mayWaits_none (thr := thr d L) hO) $$ Hlv
  ihave Hx := (Entails.of_eq (show (xLoc d ↦[xSet L]{fullShare} X d : sProp 𝕄)
      = ((xV).view.loc (thr d L) ↦[(xV).view.setOn (xR L).set]{fullShare} X d) from rfl)) $$ Hx
  ihave Ho := (Entails.of_eq (show (oLoc d ↦[oSet L]{fullShare} O₀ d : sProp 𝕄)
      = ((oV).view.loc (thr d L) ↦[(oV).view.setOn (oR L).set]{fullShare} O₀ d) from rfl)) $$ Ho
  ihave H0 := (Entails.of_eq (pts_i0V (F := F) d L _).symm) $$ H0
  ihave H1 := (Entails.of_eq (pts_i1V (F := F) d L _).symm) $$ H1
  ihave H2 := (Entails.of_eq (pts_o0V (F := F) d L _).symm) $$ H2
  ihave H3 := (Entails.of_eq (pts_o1V (F := F) d L _).symm) $$ H3
  ihave Hs4 := (Entails.of_eq (show (semVal (cell4 d L) 0 : sProp 𝕄) = semVal (thr d L, .dma cc0_scratch4.sem) 0 from rfl)) $$ Hs4
  ihave Hs5 := (Entails.of_eq (show (semVal (cell5 d L) 0 : sProp 𝕄) = semVal (thr d L, .dma cc0_scratch5.sem) 0 from rfl)) $$ Hs5
  ihave Hs6 := (Entails.of_eq (show (semVal (cell6 d L) 0 : sProp 𝕄) = semVal (thr d L, .dma cc0_scratch6.sem) 0 from rfl)) $$ Hs6
  ihave Hs7 := (Entails.of_eq (show (semVal (cell7 d L) 0 : sProp 𝕄) = semVal (thr d L, .dma cc0_scratch7.sem) 0 from rfl)) $$ Hs7
  sl_exec
  sl_for (inv1 d L f2 f3) $$ [H2 H3]
  case region =>
    intro k1 acc
    exact zero_outer_step d L f2 f3 k1 acc
  · irw [inv1_zero]
    isplitl [H2]
    · iexact H2
    · iexact H3
  irw [t1_trips, inv1_all]
  iintro %acc1 ⟨Ho0, Ho1⟩
  sl_exec
  sl_for (tinv d L (X d) O W) $$ [Hs4 Hs5 Hx Ho Ho0 Ho1 Hs6 Hs7 HO]
  case region =>
    intro t acc
    exact trip_step d L O W (X d) t acc
  · unfold tinv; rw [inPart_zero, outPart_zero]; unfold inTwoE outZero owesAt
    isplitr; · iexact Hmw
    isplitl [Hs4 Hs5 Hx]
    · iexists (k0_off2 L), (k0_off3 L), (k0_off2_inb L), (k0_off3_inb L), _, _
      isplitr
      swap
      · isplitl [Hs4]; · iexact Hs4
        isplitl [Hs5]; · iexact Hs5
        iexact Hx
      ipureintro
      refine ⟨(k0_off2_eq L).trans rfl, (k0_off3_eq L).trans rfl, ?_, ?_⟩
      · exact in_pay_eq0 L (X d) 0 (by omega) (k0_off2 L) (k0_off2_inb L) ((k0_off2_eq L).trans rfl) f0
      · exact in_pay_eq1 L (X d) (0 + 1) (by omega) (k0_off3 L) (k0_off3_inb L) ((k0_off3_eq L).trans rfl) f1
    isplitl [Ho Ho0 Ho1 Hs6 Hs7]
    · iexists _
      isplitl [Ho0]; · iexact Ho0
      isplitl [Ho1]; · iexact Ho1
      isplitl [Hs6]; · iexact Hs6
      isplitl [Hs7]; · iexact Hs7
      iexact Ho
    iexists W; isplitr
    · ipureintro; exact fun p hp => .inl hp
    · iexact HO
  irw [t3_trips]
  iintro %acc2 HI
  unfold tinv
  rw [inPart_end, outPart_end]
  unfold inNone outTwo owesAt
  icases HI with ⟨-, ⟨⟨%g0, Hi0⟩, ⟨%g1, Hi1⟩, Hs4, Hs5, Hx⟩, ⟨%offC, %offD, %hC, %hD, %fo, %ga, %gb, %hp, Hf6, Ho0r, Hf7, Ho1r, Ho⟩, ⟨%W', %hW', HO⟩⟩
  obtain ⟨rfl, rfl, hza, hzb, hdone⟩ := hp
  sl_exec
  sl_step
  ihave Hx := (Entails.of_eq (show (((xV).view.loc (thr d L) ↦[(xV).view.setOn (xR L).set]{fullShare} X d) : sProp 𝕄)
      = (xLoc d ↦[xSet L]{fullShare} X d) from rfl)) $$ Hx
  ihave Ho := (Entails.of_eq (show (((oV).view.loc (thr d L) ↦[(oV).view.setOn (oR L).set]{fullShare} fo) : sProp 𝕄)
      = (oLoc d ↦[oSet L]{fullShare} fo) from rfl)) $$ Ho
  ihave Ho := (Entails.of_eq (done_all_pts (F := F) d L (X d) fo hdone)) $$ Ho
  ihave Hi0 := (Entails.of_eq (pts_i0V (F := F) d L _)) $$ Hi0
  ihave Hi1 := (Entails.of_eq (pts_i1V (F := F) d L _)) $$ Hi1
  ihave Ho0r := (Entails.of_eq (pts_o0V (F := F) d L _)) $$ Ho0r
  ihave Ho1r := (Entails.of_eq (pts_o1V (F := F) d L _)) $$ Ho1r
  isplitl [Hx Ho]
  · isplitl [Hx]; · iexact Hx
    iexact Ho
  isplitl [Hi0 Hi1 Ho0r Ho1r Hbufs]
  · isplitl [Hi0]; · iexists _; iexact Hi0
    isplitl [Hi1]; · iexists _; iexact Hi1
    isplitl [Ho0r]; · iexists _; iexact Ho0r
    isplitl [Ho1r]; · iexists _; iexact Ho1r
    iexact Hbufs
  isplitl [Hs4 Hs5 Hf6 Hf7 Hsems]
  · isplitl [Hs4]; · iexact Hs4
    isplitl [Hs5]; · iexact Hs5
    isplitl [Hf6]; · iexact Hf6
    isplitl [Hf7]; · iexact Hf7
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The launch's obligation for the one call's tasks, at any contents of the two arrays. -/
theorem tileObl_tile : (K (F := F)).TileObl (D (F := F)) 𝒱 (P X O₀) v₀ 0 :=
  tileObl_of X O₀ (tile_body X O₀)

end Cert.Proof.KI

end
-- ==== Proof.KI.Launch.lean ====
import proofs.«218969_g18416819765331_cont_7to1_658_22_alg».proof.Proof.KI.Pay
import proofs.«218969_g18416819765331_cont_7to1_658_22_alg».proof.Proof.Spec

/-!
The launch. The host reads the argument as 1536 images, starts the two SparseCores, waits for them,
and reads the 1536 result images back as the five-axis result. The thirty-two slabs of forty-eight
images tile the 1536 images of either array, so the whole input and result arrays split into what
the subcores are handed and join again from what they hand back; with each subcore's task proved,
every fair run of all the threads ends with the argument unchanged and the result the upsampling.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slabs tile the images -/

theorem xSet_eq (L : grid0.Coords) : xSet L = (xR L).set := by
  show ((xR L).set).map (View.whole (main_v0_scv : Ref sig .scVector)).emb = _
  exact Finset.map_refl
theorem oSet_eq (L : grid0.Coords) : oSet L = (oR L).set := by
  show ((oR L).set).map (View.whole (main_v1_scv : Ref sig .scVector)).emb = _
  exact Finset.map_refl

theorem LL_zero (c : Fin ((K (F := F)).nCore 0)) (i : Fin ((K (F := F)).nSub 0)) : ((LL (F := F) c i) 0).val = c.val := rfl
theorem LL_one (c : Fin ((K (F := F)).nCore 0)) (i : Fin ((K (F := F)).nSub 0)) : ((LL (F := F) c i) 1).val = i.val := rfl

/-- Two different subcores' slabs start at least forty-eight images apart. -/
theorem slab_apart (c c' : Fin ((K (F := F)).nCore 0)) (i i' : Fin ((K (F := F)).nSub 0)) (h : c ≠ c' ∨ i ≠ i') :
    96 * i.val + 48 * c.val + 48 ≤ 96 * i'.val + 48 * c'.val ∨ 96 * i'.val + 48 * c'.val + 48 ≤ 96 * i.val + 48 * c.val := by
  have hc : c.val < 2 := c.isLt
  have hc' : c'.val < 2 := c'.isLt
  have h' : c.val ≠ c'.val ∨ i.val ≠ i'.val := h.imp (fun e e' => e (Fin.ext e')) (fun e e' => e (Fin.ext e'))
  omega

theorem xSlab_disjoint (c c' : Fin ((K (F := F)).nCore 0)) (i i' : Fin ((K (F := F)).nSub 0)) (h : c ≠ c' ∨ i ≠ i') :
    Disjoint (xSet (LL (F := F) c i)) (xSet (LL (F := F) c' i')) := by
  rw [xSet_eq, xSet_eq]
  exact Rect.unit_disjoint (0 : Fin 3) (slab_apart c c' i i' h)
theorem oSlab_disjoint (c c' : Fin ((K (F := F)).nCore 0)) (i i' : Fin ((K (F := F)).nSub 0)) (h : c ≠ c' ∨ i ≠ i') :
    Disjoint (oSet (LL (F := F) c i)) (oSet (LL (F := F) c' i')) := by
  rw [oSet_eq, oSet_eq]
  exact Rect.unit_disjoint (0 : Fin 3) (slab_apart c c' i i' h)

/-- Image `n` is in the slab of subcore `n / 96` of SparseCore `(n % 96) / 48`. -/
theorem xSlab_cover (j : S1536x112x112.Idx) : ∃ (c : Fin ((K (F := F)).nCore 0)) (i : Fin ((K (F := F)).nSub 0)), j ∈ xSet (LL (F := F) c i) := by
  have h0 : (j 0).val < 1536 := (j 0).isLt
  have h1 : (j 1).val < 112 := (j 1).isLt
  have h2 : (j 2).val < 112 := (j 2).isLt
  refine ⟨⟨(j 0).val % 96 / 48, show (j 0).val % 96 / 48 < 2 by omega⟩, ⟨(j 0).val / 96, show (j 0).val / 96 < 16 by omega⟩, ?_⟩
  rw [xSet_eq, Rect.mem_set_unit]
  intro a; fin_cases a
  · show 96 * ((j 0).val / 96) + 48 * ((j 0).val % 96 / 48) ≤ (j 0).val ∧ (j 0).val < 96 * ((j 0).val / 96) + 48 * ((j 0).val % 96 / 48) + 48
    omega
  · show 0 ≤ (j 1).val ∧ (j 1).val < 0 + 112
    omega
  · show 0 ≤ (j 2).val ∧ (j 2).val < 0 + 112
    omega
theorem oSlab_cover (j : S1536x224x224.Idx) : ∃ (c : Fin ((K (F := F)).nCore 0)) (i : Fin ((K (F := F)).nSub 0)), j ∈ oSet (LL (F := F) c i) := by
  have h0 : (j 0).val < 1536 := (j 0).isLt
  have h1 : (j 1).val < 224 := (j 1).isLt
  have h2 : (j 2).val < 224 := (j 2).isLt
  refine ⟨⟨(j 0).val % 96 / 48, show (j 0).val % 96 / 48 < 2 by omega⟩, ⟨(j 0).val / 96, show (j 0).val / 96 < 16 by omega⟩, ?_⟩
  rw [oSet_eq, Rect.mem_set_unit]
  intro a; fin_cases a
  · show 96 * ((j 0).val / 96) + 48 * ((j 0).val % 96 / 48) ≤ (j 0).val ∧ (j 0).val < 96 * ((j 0).val / 96) + 48 * ((j 0).val % 96 / 48) + 48
    omega
  · show 0 ≤ (j 1).val ∧ (j 1).val < 0 + 224
    omega
  · show 0 ≤ (j 2).val ∧ (j 2).val < 0 + 224
    omega

/-- A whole array is the pieces of a family of element sets, indexed by two finite types, that are
    pairwise disjoint and cover it. -/
theorem pointsTo_grid {ℓ : Loc nD τ sig} {A B : Type} [Fintype A] [Fintype B] [DecidableEq A] [DecidableEq B]
    (Kf : A → B → Finset (Idx ℓ))
    (hd : ∀ a a' b b', (a ≠ a' ∨ b ≠ b') → Disjoint (Kf a b) (Kf a' b'))
    (hc : ∀ j, ∃ a b, j ∈ Kf a b) (f : Buf (Elt F) ℓ) :
    (ℓ ↦{fullShare} f : sProp 𝕄) = bigSep Finset.univ fun a : A => bigSep Finset.univ fun b : B => ℓ ↦[Kf a b]{fullShare} f := by
  have hcov : (Finset.univ : Finset A).biUnion (fun a => (Finset.univ : Finset B).biUnion (Kf a)) = Finset.univ := by
    ext j; simp only [Finset.mem_biUnion, Finset.mem_univ, true_and, iff_true]; exact hc j
  have hd1 : ∀ a ∈ (Finset.univ : Finset A), ∀ a' ∈ (Finset.univ : Finset A), a ≠ a' →
      Disjoint ((Finset.univ : Finset B).biUnion (Kf a)) ((Finset.univ : Finset B).biUnion (Kf a')) := fun a _ a' _ h =>
    (Finset.disjoint_biUnion_left _ _ _).mpr fun b _ => (Finset.disjoint_biUnion_right _ _ _).mpr fun b' _ => hd a a' b b' (.inl h)
  rw [show (ℓ ↦{fullShare} f : sProp 𝕄) = ℓ ↦[Finset.univ]{fullShare} f from rfl, ← hcov, pointsTo_biUnion Finset.univ _ hd1]
  exact bigSep_congr fun a _ => pointsTo_biUnion Finset.univ (Kf a) fun b _ b' _ h => hd a a b b' (.inr h)

theorem xPts_slabs (d : Dev nD) (f : Buf (Elt F) (xLoc d)) :
    (xLoc d ↦{fullShare} f : sProp 𝕄)
      = bigSep Finset.univ fun c : Fin ((K (F := F)).nCore 0) => bigSep Finset.univ fun i : Fin ((K (F := F)).nSub 0) =>
          xLoc d ↦[xSet (LL (F := F) c i)]{fullShare} f :=
  pointsTo_grid (ℓ := xLoc d) (fun c i => xSet (LL (F := F) c i)) (fun c c' i i' h => xSlab_disjoint c c' i i' h) xSlab_cover f
theorem oPts_slabs (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[oSet (LL (F := F) c i)]{fullShare} f :=
  pointsTo_grid (ℓ := oLoc d) (fun c i => oSet (LL (F := F) c i)) (fun c c' i i' h => oSlab_disjoint c c' i i' h) oSlab_cover f

/-! ## The arrays when the kernel is called, and the result -/

variable [FloatOps F]
variable (m : (ℓ : Loc nD τ sig) → Buf (Elt F) ℓ) (ρ : Dev nD → PrngReg)

/-- The input images when the kernel is called: the argument read as 1536 images. -/
def X₀ (d : Dev nD) : Buf (Elt F) (xLoc d) :=
  shapeCast S1536x112x112 (m (aLoc d)) Facts₀.shapeCasts_S4x4x96x112x112_S1536x112x112
/-- The result images when the kernel is called: whatever the launch memory holds there. -/
def O₀ (d : Dev nD) : Buf (Elt F) (oLoc d) := m (oLoc d)
/-- The result: the upsampled images read back as the five-axis array. -/
def R₀ (d : Dev nD) : Buf (Elt F) (rLoc d) :=
  shapeCast S4x4x96x224x224 (up (X₀ m d)) Facts₀.shapeCasts_S1536x224x224_S4x4x96x224x224

/-! ## What the call takes for the two SparseCores, and what it hands back -/

variable (X : (d : Dev nD) → Buf (Elt F) (xLoc d)) (O : (d : Dev nD) → Buf (Elt F) (oLoc d))

theorem st0_eq (d : Dev nD) :
    (bigSep Finset.univ fun c : Fin ((K (F := F)).nCore 0) => (P X O).st 0 d c)
      = iprop((xLoc d ↦{fullShare} X d) ∗ (oLoc d ↦{fullShare} O d)) := by
  show (bigSep Finset.univ fun c : Fin ((K (F := F)).nCore 0) => bigSep Finset.univ fun i : Fin ((K (F := F)).nSub 0) =>
      iprop((xLoc d ↦[xSet (LL (F := F) c i)]{fullShare} X d) ∗ (oLoc d ↦[oSet (LL (F := F) c i)]{fullShare} O d))) = _
  rw [xPts_slabs, oPts_slabs, ← bigSep_sep']
  exact bigSep_congr fun c _ => bigSep_sep' _ _ _
theorem dn0_eq (d : Dev nD) :
    (bigSep Finset.univ fun c : Fin ((K (F := F)).nCore 0) => (P X O).dn 0 d c)
      = iprop((xLoc d ↦{fullShare} X d) ∗ (oLoc d ↦{fullShare} up (X d))) := by
  show (bigSep Finset.univ fun c : Fin ((K (F := F)).nCore 0) => bigSep Finset.univ fun i : Fin ((K (F := F)).nSub 0) =>
      iprop((xLoc d ↦[xSet (LL (F := F) c i)]{fullShare} X d) ∗ (oLoc d ↦[oSet (LL (F := F) c i)]{fullShare} up (X d)))) = _
  rw [xPts_slabs, oPts_slabs, ← bigSep_sep']
  exact bigSep_congr fun c _ => bigSep_sep' _ _ _

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X O).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X O).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the argument read as 1536 images, the 1536 result images read back. -/
abbrev op1 : HloOp τ sig (Elt F) :=
  StableHlo.reshape main_arg0 main_v0 rfl Facts₀.shapeCasts_S4x4x96x112x112_S1536x112x112
abbrev op2 : HloOp τ sig (Elt F) :=
  StableHlo.reshape main_v1 main_v2 rfl Facts₀.shapeCasts_S1536x224x224_S4x4x96x224x224

/-- The TensorCore's arrays, all unscoped. -/
abbrev S4 : Finset (DevRef τ sig) := {a', x', o', r'}

omit [FloatOps F] in
theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; and the arrays after the call: the input images as the first reshape left
    them, the result images as the subcores left them. -/
def V0 (d : Dev nD) : Valuation τ sig (Elt F) := fun b => m (d, b)
def V2 (d : Dev nD) : Valuation τ sig (Elt F) := Function.update (Function.update (V0 m d) x' (X₀ m d)) o' (up (X₀ m d))

theorem unscoped_held (d : Dev nD) : (unscopedBufs d (fun b => m ((SparseCore.T d).loc b)) : sProp 𝕄) = held (T d) S4 (V0 m d) := by
  rw [unscopedBufs_eq, held_S4]; rfl

theorem V2_a (d : Dev nD) : V2 m d a' = m (aLoc d) :=
  (Function.update_of_ne (show a' ≠ o' by decide) _ _).trans (Function.update_of_ne (show a' ≠ x' by decide) _ _)
theorem V2_x (d : Dev nD) : V2 m d x' = X₀ m d :=
  (Function.update_of_ne (show x' ≠ o' by decide) _ _).trans (Function.update_self _ _ _)
theorem V2_o (d : Dev nD) : V2 m d o' = up (X₀ m d) := Function.update_self _ _ _
theorem V2_r (d : Dev nD) : V2 m d r' = m (rLoc d) :=
  (Function.update_of_ne (show r' ≠ o' by decide) _ _).trans (Function.update_of_ne (show r' ≠ x' by decide) _ _)

theorem hOp1 : (op1 (F := F)).bufs ⊆ S4 := show ({a', x'} : Finset (DevRef τ sig)) ⊆ S4 by decide
theorem hOp2 : (op2 (F := F)).bufs ⊆ S4 := show ({o', r'} : Finset (DevRef τ sig)) ⊆ S4 by decide

/-- After the first reshape: the input images hold the argument read as 1536 images, the rest what the launch memory holds. -/
theorem held_op1 (d : Dev nD) :
    (held (T d) S4 ((op1 (F := F)).result (V0 m d)) : sProp 𝕄)
      = iprop((aLoc d ↦{fullShare} m (aLoc d)) ∗ (xLoc d ↦{fullShare} X₀ m d) ∗ (oLoc d ↦{fullShare} O₀ m d) ∗ rLoc d ↦{fullShare} m (rLoc d)) := by
  rw [held_S4,
    StableHlo.reshape_result_ne (x := main_arg0) (y := main_v0) _ _ _ _ (V0 m d) (r := main_arg0) (by decide),
    StableHlo.reshape_result_ne (x := main_arg0) (y := main_v0) _ _ _ _ (V0 m d) (r := main_v1) (by decide),
    StableHlo.reshape_result_ne (x := main_arg0) (y := main_v0) _ _ _ _ (V0 m d) (r := main_v2) (by decide),
    StableHlo.reshape_result]
  rfl

/-- After the second: the result holds the result images read back, the argument what it held. -/
theorem held_op2 (d : Dev nD) :
    (held (T d) S4 ((op2 (F := F)).result (V2 m d)) : sProp 𝕄)
      = iprop((aLoc d ↦{fullShare} m (aLoc d)) ∗ (xLoc d ↦{fullShare} X₀ m d) ∗ (oLoc d ↦{fullShare} up (X₀ m d)) ∗ rLoc d ↦{fullShare} R₀ m d) := by
  rw [held_S4,
    StableHlo.reshape_result_ne (x := main_v1) (y := main_v2) _ _ _ _ (V2 m d) (r := main_arg0) (by decide),
    StableHlo.reshape_result_ne (x := main_v1) (y := main_v2) _ _ _ _ (V2 m d) (r := main_v0) (by decide),
    StableHlo.reshape_result_ne (x := main_v1) (y := main_v2) _ _ _ _ (V2 m d) (r := main_v1) (by decide),
    StableHlo.reshape_result, V2_a, V2_x, V2_o]
  rfl

/-- What @main leaves the claim: the argument at its launch contents, the result the upsampling. -/
abbrev FIN (d : Dev nD) : sProp 𝕄 := iprop((aLoc d ↦{fullShare} m (aLoc d)) ∗ (rLoc d ↦{fullShare} R₀ m d))

/-- @main on device `d`'s TensorCore: the argument read as 1536 images, the one call on the two whole
    image arrays, the result images read back; the argument kept. -/
theorem hmain (κ : GSem nD τ sig → ℕ) (d : Dev nD) :
    iprop((K (F := F)).ctx EH (P (X₀ m) (O₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the argument read as 1536 images
  iapply (wp_hlo_within 𝒱 (SparseCore.T d) none Set.univ (op := op1) (S := S4) hOp1 (V := V0 m d)) $$ [Hb Hheld]
  · isplitl [Hb]; · iexact Hb
    iexact Hheld
  iintro ⟨Hb, Hheld⟩
  ihave Hh := (Entails.of_eq (held_op1 (F := F) m d)) $$ Hheld
  icases Hh with ⟨Ha, Hx, Ho, Hr⟩
  rw [wp_ret]; imodintro
  -- the call: both image arrays whole, as the thirty-two slabs, to the two SparseCores and back
  iapply ((K (F := F)).wp_run (D (F := F)) 𝒱 (EH := EH) (P := P (X₀ m) (O₀ m)) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq (X₀ m) (O₀ m) d)) $$ Hdn
  icases Hdn' with ⟨Hx, Ho⟩
  -- the result images read back as the five-axis result
  iapply (wp_hlo_within 𝒱 (SparseCore.T d) none Set.univ (op := op2) (S := S4) hOp2 (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_op2 (F := F) m d)) $$ Hheld
  icases Hh with ⟨Ha, -, -, Hr⟩
  rw [wp_ret]; imodintro; imodintro
  isplitl [Hst]; · iexact Hst
  isplitl [Ha]; · iexact Ha
  iexact Hr

/-! ## The final memory reads the claim -/

def fq (d : Dev nD) (s' : Phys nD τ sig (Elt F)) : Prop := s'.mem.mem (rLoc d) = R₀ m d ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := R₀ m d)) $$ [HSI Hr]
  · isplitl [HSI] <;> iassumption
  icases H with %h2
  ipureintro; exact ⟨funext fun i => h2 i (Finset.mem_univ i), funext fun i => h1 i (Finset.mem_univ i)⟩

/-! ## The program's run -/

/-- Every device ends with its result the upsampled images read back as the five-axis array, and its argument unchanged. -/
def QC : PUnit × MemSt nD τ sig (Elt F) → Prop := fun r => ∀ c : Dev nD, r.2.mem (rLoc c) = R₀ m c ∧ r.2.mem (aLoc c) = m (aLoc c)

/-- With each subcore's task proved, every weakly fair run of all the threads from the launch memory ends so. -/
theorem run_main [∀ e, Nonempty (Elt F e)] (hT : (K (F := F)).TileObl (D (F := F)) 𝒱 (P (X₀ m) (O₀ m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (X₀ m) (O₀ m)) facts v₀
    (fun q hq => match q with | 0 => nomatch hq)
    (fun q _ => match q with | 0 => hT)
    (fun q _ => match q with | 0 => SparseCore.Cfg.VecSplit.of_plain (vecSplit (X₀ m) (O₀ m)))
    m ρ main (fun _ => iprop(emp)) (FIN m) (u₀ (F := F)) (sep_elim_left.trans (hu₀ (X₀ m) (O₀ m))) (hmain m ρ) (fq m) (hfin m) (QC m) (fun _ h => h)

end Cert.Proof.KI

end
-- ==== Proof.KI.Reshape.lean ====
import proofs.«218969_g18416819765331_cont_7to1_658_22_alg».proof.Proof.KI.Common
import proofs.«218969_g18416819765331_cont_7to1_658_22_alg».proof.Proof.Spec
import Idealize.ShloMosaic.Lib.Pipeline.Value

/-!
The two host reshapes around the per-image map. The argument [4, 4, 96, 112, 112] is read as 1536
images by flattening its three leading coordinates (b, i, c) row-major to n = (b * 4 + i) * 96 + c,
and the 1536 result images are read back as [4, 4, 96, 224, 224] by the inverse unflattening. Both
reshapes leave the last two coordinates (row, column) alone, and the per-image map touches only
those two, so the composite is the upsampling stated over the five-axis arrays: entry
(b, i, c, 2h+1, 2w+1) of the result is entry (b, i, c, h, w) of the argument, and every entry with
an even row or column is zero.
-/

noncomputable section

namespace Cert.Proof.KI

open Cert.KernelIdeal
open Idealize.ShloMosaic

variable {F : FTy → Type} [FloatOps F]

/-- The image-array index with the same row-major position as a five-axis result index: the leading
    three coordinates flattened, row and column kept. -/
def flatO (i : S4x4x96x224x224.Idx) : S1536x224x224.Idx :=
  fun a => match a with
    | ⟨0, _⟩ => ⟨((i 0).val * 4 + (i 1).val) * 96 + (i 2).val, by
        have h0 : (i 0).val < 4 := (i 0).isLt
        have h1 : (i 1).val < 4 := (i 1).isLt
        have h2 : (i 2).val < 96 := (i 2).isLt
        show ((i 0).val * 4 + (i 1).val) * 96 + (i 2).val < 1536
        omega⟩
    | ⟨1, _⟩ => ⟨(i 3).val, (i 3).isLt⟩
    | ⟨2, _⟩ => ⟨(i 4).val, (i 4).isLt⟩

/-- Flattening keeps the row-major position: (((b·4 + i)·96 + c)·224 + r)·224 + q on both sides. -/
theorem rowMajor_flatO (i : S4x4x96x224x224.Idx) :
    (S1536x224x224.rowMajor (flatO i)).val = (S4x4x96x224x224.rowMajor i).val := by
  rw [Shape.rowMajor_val_three, Shape.rowMajor_val_five]
  show ((((i 0).val * 4 + (i 1).val) * 96 + (i 2).val) * 224 + (i 3).val) * 224 + (i 4).val
    = ((((i 0).val * 4 + (i 1).val) * 96 + (i 2).val) * 224 + (i 3).val) * 224 + (i 4).val
  rfl

/-- The source entry of the five-axis statement and the source entry of the per-image statement at the
    flattened index sit at the same row-major position of their arrays. -/
theorem rowMajor_src (i : S4x4x96x224x224.Idx) :
    (S4x4x96x112x112.rowMajor (Spec.src5 i)).val = (S1536x112x112.rowMajor (srcIdx (flatO i))).val := by
  rw [Shape.rowMajor_val_three, Shape.rowMajor_val_five]
  show ((((i 0).val * 4 + (i 1).val) * 96 + (i 2).val) * 112 + (i 3).val / 2) * 112 + (i 4).val / 2
    = ((((i 0).val * 4 + (i 1).val) * 96 + (i 2).val) * 112 + (i 3).val / 2) * 112 + (i 4).val / 2
  rfl

/-- The reshape to 1536 images, the per-image map, and the reshape back, composed: the upsampling over
    the five-axis arrays. Stated for any proofs of the two element-count equalities (they are
    propositions, so the program's own named facts are instances). -/
theorem reshape_up' (x : S4x4x96x112x112.Idx → Elt F .f32)
    (h1 : S4x4x96x112x112.ShapeCasts S1536x112x112) (h2 : S1536x224x224.ShapeCasts S4x4x96x224x224) :
    shapeCast S4x4x96x224x224 (up (shapeCast S1536x112x112 x h1)) h2 = Spec.up5 x := by
  funext i
  rw [shapeCast_apply (up (shapeCast S1536x112x112 x h1)) h2 i (flatO i) (rowMajor_flatO i)]
  unfold up Spec.up5
  show (if (i 3).val % 2 = 1 ∧ (i 4).val % 2 = 1 then shapeCast S1536x112x112 x h1 (srcIdx (flatO i)) else _)
    = (if (i 3).val % 2 = 1 ∧ (i 4).val % 2 = 1 then x (Spec.src5 i) else _)
  rw [shapeCast_apply x h1 (srcIdx (flatO i)) (Spec.src5 i) (rowMajor_src i)]

/-- The same, at the two facts the program names for its reshapes. -/
theorem reshape_up [Facts₀] (x : S4x4x96x112x112.Idx → Elt F .f32) :
    shapeCast S4x4x96x224x224
        (up (shapeCast S1536x112x112 x Facts₀.shapeCasts_S4x4x96x112x112_S1536x112x112))
        Facts₀.shapeCasts_S1536x224x224_S4x4x96x224x224
      = Spec.up5 x :=
  reshape_up' x _ _

end Cert.Proof.KI

end
-- ==== Proof.KI.Claims.lean ====
import proofs.«218969_g18416819765331_cont_7to1_658_22_alg».proof.Proof.KI.Launch
import proofs.«218969_g18416819765331_cont_7to1_658_22_alg».proof.Proof.KI.Reshape
import proofs.«218969_g18416819765331_cont_7to1_658_22_alg».proof.Proof.RefSide

/-!
The claims about the idealized kernel, assembled. Every run of the kernel's program ends with the
result array holding the 1536 upsampled images read back as the five-axis array, and the argument
unchanged. Reading the two reshapes at an index identifies that result with the upsampling stated
over the five-axis arrays, which is also what every run of the reference leaves in its result; so
from memories agreeing on the argument both programs end with the same result, entry by entry.
Each vector subcore's task is taken as a hypothesis here.
-/

noncomputable section

namespace Cert.Proof.KI

open Cert.KernelIdeal Cert.KernelIdeal.Gen
open Idealize.ShloMosaic Idealize.ShloMosaic.TcCoe Idealize.SL.Sem

/-- The kernel's result, the upsampled images read back as the five-axis array, is the upsampling of
    the argument over the five-axis arrays. -/
theorem R₀_eq_up5 {F : FTy → Type} [FloatOps F] (m : (ℓ : Loc nD τ sig) → Buf (Elt F) ℓ) (d : Dev nD) :
    R₀ m d = Spec.up5 (m (aLoc d)) :=
  reshape_up (m (aLoc d))

/-- The idealized kernel runs and leaves its argument unchanged. -/
theorem frame_ki
    (hT : ∀ (X : (d : Dev nD) → Buf (Elt Ideal) (xLoc d)) (O : (d : Dev nD) → Buf (Elt Ideal) (oLoc d)),
      (K (F := Ideal)).TileObl (D (F := Ideal)) 𝒱 (P X O) v₀ 0) :
    @Cert.frame_KernelIdeal Cert.KernelIdeal.Gen.facts Cert.Pre_finite_inputs.Gen.facts :=
  fun m g _ => (θ_run Cert.KernelIdeal.defs _ _).mono (fun _ h c => (h c).2)
    (run_main (F := Ideal) m g (hT _ _))

/-- From memories agreeing on the argument, the idealized kernel and the idealized reference both run,
    end with the upsampling of the argument in their results, and leave their arguments unchanged. -/
theorem algebraic
    (hT : ∀ (X : (d : Dev nD) → Buf (Elt Ideal) (xLoc d)) (O : (d : Dev nD) → Buf (Elt Ideal) (oLoc d)),
      (K (F := Ideal)).TileObl (D (F := Ideal)) 𝒱 (P X O) v₀ 0) :
    @Cert.algebraic_KernelIdeal_ReferenceIdeal Cert.KernelIdeal.Gen.facts Cert.ReferenceIdeal.Gen.facts
      Cert.Pre_finite_inputs.Gen.facts := by
  intro m g m' g' _ hagree
  refine ⟨fun c => Spec.up5 (m (aLoc c)), ?_, ?_⟩
  · exact (θ_run Cert.KernelIdeal.defs _ _).mono
      (fun _ h c => ⟨(h c).1.trans (R₀_eq_up5 m c), (h c).2⟩)
      (run_main (F := Ideal) m g (hT _ _))
  · refine (θ_run Cert.ReferenceIdeal.defs _ _).mono (fun _ h c => ⟨(h c).1.trans ?_, (h c).2⟩)
      (Cert.Proof.RefSide.ref_run m' g')
    rw [hagree c]

end Cert.Proof.KI

end
-- ==== Proof.KB.Common.lean ====
import proofs.«218969_g18416819765331_cont_7to1_658_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218969_g18416819765331_cont_7to1_658_22_alg».proof.Proof.Gen.Kernel
import proofs.«218969_g18416819765331_cont_7to1_658_22_alg».proof.Proof.Gen.Kernel.Skeleton

/-!
The upsampling kernel's vocabulary. Thirty-two vector subcores each take forty-eight consecutive
images of the input, viewed as 1536 images of 112 × 112, and produce the same forty-eight images
of the result, 224 × 224 each: entry (2h+1, 2w+1) of a result image is entry (h, w) of the input
image, every other entry is zero. This file names the launch configuration, the ghost state, the
arrays, each subcore's slab of both arrays, and the result as one function of the input.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The argument, the input as 1536 images, the result as 1536 images, the result. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-! ## The result as one function of the input -/

section Value
variable [FloatOps F]

/-- The zero the kernel fills its staging rows with. -/
abbrev zeroF : F .f32 := Scalar.ofBits .f32 0x00000000#32

/-- The input image entry that result entry `(n, r, c)` copies when `r` and `c` are odd. -/
def srcIdx (j : S1536x224x224.Idx) : S1536x112x112.Idx :=
  fun a => match a with
    | ⟨0, _⟩ => ⟨(j 0).val, (j 0).isLt⟩
    | ⟨1, _⟩ => ⟨(j 1).val / 2, by have h : (j 1).val < 224 := (j 1).isLt; show (j 1).val / 2 < 112; omega⟩
    | ⟨2, _⟩ => ⟨(j 2).val / 2, by have h : (j 2).val < 224 := (j 2).isLt; show (j 2).val / 2 < 112; omega⟩

/-- The result images as a function of the input images: odd rows and columns copy, the rest is zero. -/
def up (X : S1536x112x112.Idx → Elt F .f32) : S1536x224x224.Idx → Elt F .f32 :=
  fun j => if (j 1).val % 2 = 1 ∧ (j 2).val % 2 = 1 then X (srcIdx j) else (zeroF : F .f32)

end Value

end Cert.Proof.KB

end
-- ==== Proof.KB.Pay.lean ====
import proofs.«218969_g18416819765331_cont_7to1_658_22_alg».proof.Proof.KB.Common

/-!
What the launch hands each vector subcore and takes back. Subcore `i` of SparseCore `c` works on the
forty-eight images starting at image `96 i + 48 c`: it is handed that slab of the input images, to
read, and the same slab of the result images, to fill; it hands both back, the result slab holding
the upsampling of the input slab.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)

/-- A vector subcore's grid coordinates: its SparseCore, then its number within it. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The subcore's thread. -/
abbrev thr (d : Dev nD) (L : grid0.Coords) : Thread nD τ := V d (cV L) (jV L)

theorem xR_inb (L : grid0.Coords) : ∀ a, (![96 * (L 1).val + 48 * (L 0).val, 0, 0] : Fin 3 → Nat) a + (![48, 112, 112] : Fin 3 → Nat) a ≤ S1536x112x112.size a := by
  have h0 : (L 0).val < 2 := (L 0).isLt
  have h1 : (L 1).val < 16 := (L 1).isLt
  intro a; fin_cases a
  · show 96 * (L 1).val + 48 * (L 0).val + 48 ≤ 1536; omega
  · show 0 + 112 ≤ 112; omega
  · show 0 + 112 ≤ 112; omega
theorem oR_inb (L : grid0.Coords) : ∀ a, (![96 * (L 1).val + 48 * (L 0).val, 0, 0] : Fin 3 → Nat) a + (![48, 224, 224] : Fin 3 → Nat) a ≤ S1536x224x224.size a := by
  have h0 : (L 0).val < 2 := (L 0).isLt
  have h1 : (L 1).val < 16 := (L 1).isLt
  intro a; fin_cases a
  · show 96 * (L 1).val + 48 * (L 0).val + 48 ≤ 1536; omega
  · show 0 + 224 ≤ 224; omega
  · show 0 + 224 ≤ 224; omega
/-- The subcore's forty-eight input images, and its forty-eight result images, as rectangles. -/
abbrev xR (L : grid0.Coords) : Rect S1536x112x112 := Rect.unit (s := S1536x112x112) ![96 * (L 1).val + 48 * (L 0).val, 0, 0] ![48, 112, 112] (xR_inb L)
abbrev oR (L : grid0.Coords) : Rect S1536x224x224 := Rect.unit (s := S1536x224x224) ![96 * (L 1).val + 48 * (L 0).val, 0, 0] ![48, 224, 224] (oR_inb L)
/-- Their elements. -/
abbrev xSet (L : grid0.Coords) : Finset S1536x112x112.Idx := (xV).view.setOn (xR L).set
abbrev oSet (L : grid0.Coords) : Finset S1536x224x224.Idx := (oV).view.setOn (oR L).set

variable [FloatOps F]

-- The input images' contents when the kernel is called, and the result images' contents then, per device.
variable (X : (d : Dev nD) → Buf (Elt F) (xLoc d)) (O₀ : (d : Dev nD) → Buf (Elt F) (oLoc d))

/-- What a subcore is handed: its input slab, its result slab as the call finds it. -/
abbrev goAt (d : Dev nD) (L : grid0.Coords) : sProp 𝕄 :=
  iprop((xLoc d ↦[xSet L]{fullShare} X d) ∗ (oLoc d ↦[oSet L]{fullShare} O₀ d))
/-- What it hands back: its input slab unchanged, its result slab upsampled. -/
abbrev tdAt (d : Dev nD) (L : grid0.Coords) : sProp 𝕄 :=
  iprop((xLoc d ↦[xSet L]{fullShare} X d) ∗ (oLoc d ↦[oSet L]{fullShare} up (X d)))

theorem bound_zero : grid0.bound 0 = 2 := rfl
theorem bound_one : grid0.bound 1 = 16 := rfl

/-- The coordinates of task `i` of SparseCore `c` of the call. -/
abbrev LL (c : Fin ((K (F := F)).nCore 0)) (i : Fin ((K (F := F)).nSub 0)) : grid0.Coords :=
  coordsV (Fin.cast (nCore_zero.trans bound_zero.symm) c) (Fin.cast (nSub_zero.trans bound_one.symm) i)

/-- The one call: each SparseCore takes its sixteen subcores' slabs and brings them back. -/
def P : (K (F := F)).Pay (nD := nD) (Val := Elt F) (Name := ℕ) (U := UU) where
  st := fun q d c => match q with | 0 => bigSep Finset.univ fun i : Fin ((K (F := F)).nSub 0) => goAt X O₀ d (LL c i)
  dn := fun q d c => match q with | 0 => bigSep Finset.univ fun i : Fin ((K (F := F)).nSub 0) => tdAt X d (LL c i)
  go := fun q d c i => match q with | 0 => goAt X O₀ d (LL c i)
  td := fun q d c i => match q with | 0 => tdAt X d (LL c i)
  x := fun _ _ => iprop(emp)

instance P_storable : (P (F := F) X O₀).IsStorable where
  st q d c := match q with | 0 => (inferInstance : BI.Storable (upEmb : UEmb _ 𝕄) (bigSep Finset.univ fun i : Fin ((K (F := F)).nSub 0) => goAt X O₀ d (LL c i)))
  dn q d c := match q with | 0 => (inferInstance : BI.Storable (upEmb : UEmb _ 𝕄) (bigSep Finset.univ fun i : Fin ((K (F := F)).nSub 0) => tdAt X d (LL c i)))
  go q d c i := match q with | 0 => (inferInstance : BI.Storable (upEmb : UEmb _ 𝕄) (goAt X O₀ d (LL c i)))
  td q d c i := match q with | 0 => (inferInstance : BI.Storable (upEmb : UEmb _ 𝕄) (tdAt X d (LL c i)))

/-- The operands split among the tasks exactly as the call states them. -/
theorem vecSplit : (K (F := F)).VecSplit' (P X O₀) 0 := by
  intro d c
  show (bigSep Finset.univ fun i : Fin ((K (F := F)).nSub 0) => goAt X O₀ d (LL c i)) ⊢ |={Set.univ}=> iprop(
      (bigSep Finset.univ fun i : Fin ((K (F := F)).nSub 0) => goAt X O₀ d (LL c i))
      ∗ ((bigSep Finset.univ fun i : Fin ((K (F := F)).nSub 0) => tdAt X d (LL c i))
          -∗ (bigSep Finset.univ fun i : Fin ((K (F := F)).nSub 0) => tdAt X d (LL c i))))
  iintro H; imodintro
  isplitl [H]; · iexact H
  iintro H; iexact H

end Cert.Proof.KB

end
-- ==== Proof.KB.TileRes.lean ====
import proofs.«218969_g18416819765331_cont_7to1_658_22_alg».proof.Proof.KB.Pay

/-!
What a vector subcore holds of its own when its task starts: its four transfer semaphores, each at
zero, and its four staging buffers, two of an input image's size and two of half a result image's,
at whatever contents; and the two image arrays as the subcore addresses them, which are the
device's arrays.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable (d : Dev nD) (L : grid0.Coords)

/-! ## The arrays and the staging buffers as the subcore addresses them -/

theorem pts_xV (I : Finset (Idx (xLoc d))) (q : PosShare TreeShare) (f : Buf (Elt F) (xLoc d)) :
    ((xV).view.loc (thr d L) ↦[I]{q} f : sProp 𝕄) = xLoc d ↦[I]{q} f := rfl
theorem pts_oV (I : Finset (Idx (oLoc d))) (q : PosShare TreeShare) (f : Buf (Elt F) (oLoc d)) :
    ((oV).view.loc (thr d L) ↦[I]{q} f : sProp 𝕄) = oLoc d ↦[I]{q} f := rfl
theorem pts_i0V (f : Buf (Elt F) ((thr d L).loc cc0_scratch0)) :
    ((i0V).view.loc (thr d L) ↦{fullShare} f : sProp 𝕄) = (thr d L).loc cc0_scratch0 ↦{fullShare} f := rfl
theorem pts_i1V (f : Buf (Elt F) ((thr d L).loc cc0_scratch1)) :
    ((i1V).view.loc (thr d L) ↦{fullShare} f : sProp 𝕄) = (thr d L).loc cc0_scratch1 ↦{fullShare} f := rfl
theorem pts_o0V (f : Buf (Elt F) ((thr d L).loc cc0_scratch2)) :
    ((o0V).view.loc (thr d L) ↦{fullShare} f : sProp 𝕄) = (thr d L).loc cc0_scratch2 ↦{fullShare} f := rfl
theorem pts_o1V (f : Buf (Elt F) ((thr d L).loc cc0_scratch3)) :
    ((o1V).view.loc (thr d L) ↦{fullShare} f : sProp 𝕄) = (thr d L).loc cc0_scratch3 ↦{fullShare} f := rfl

/-! ## The subcore's own semaphores -/

/-- The four transfer semaphores' cells: one per staging buffer. -/
abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)
abbrev cell7 (d : Dev nD) (L : grid0.Coords) : GSem nD τ sig := (thr d L, .dma cc0_scratch7.sem)

theorem cell_ne {a b : SemLoc sig} (h : a ≠ b) : ((thr d L, a) : GSem nD τ sig) ≠ (thr d L, b) :=
  fun e => h (congrArg Prod.snd e)

/-- The four semaphores are among the subcore's own: they are them, each at zero, and the rest. -/
theorem ownSems0_V :
    (ownSems0 (thr d L) : sProp 𝕄)
      = iprop(semVal (cell4 d L) 0 ∗ semVal (cell5 d L) 0 ∗ semVal (cell6 d L) 0 ∗ semVal (cell7 d L) 0
          ∗ bigSep (((((ownCells (thr d L)).erase (cell4 d L)).erase (cell5 d L)).erase (cell6 d L)).erase (cell7 d L)) fun g => semVal g 0) := by
  unfold SparseCore.Cfg.ownSems0
  have m4 : cell4 d L ∈ ownCells (thr d L) := (mem_ownCells (g := cell4 d L)).mpr ⟨rfl, by
    show (SemLoc.dma cc0_scratch4.sem : SemLoc sig).isScoped .scVector = true; decide⟩
  have m5 : cell5 d L ∈ ownCells (thr d L) := (mem_ownCells (g := cell5 d L)).mpr ⟨rfl, by
    show (SemLoc.dma cc0_scratch5.sem : SemLoc sig).isScoped .scVector = true; decide⟩
  have m6 : cell6 d L ∈ ownCells (thr d L) := (mem_ownCells (g := cell6 d L)).mpr ⟨rfl, by
    show (SemLoc.dma cc0_scratch6.sem : SemLoc sig).isScoped .scVector = true; decide⟩
  have m7 : cell7 d L ∈ ownCells (thr d L) := (mem_ownCells (g := cell7 d L)).mpr ⟨rfl, by
    show (SemLoc.dma cc0_scratch7.sem : SemLoc sig).isScoped .scVector = true; decide⟩
  have n54 : cell5 d L ≠ cell4 d L := cell_ne d L (by decide)
  have n64 : cell6 d L ≠ cell4 d L := cell_ne d L (by decide)
  have n65 : cell6 d L ≠ cell5 d L := cell_ne d L (by decide)
  have n74 : cell7 d L ≠ cell4 d L := cell_ne d L (by decide)
  have n75 : cell7 d L ≠ cell5 d L := cell_ne d L (by decide)
  have n76 : cell7 d L ≠ cell6 d L := cell_ne d L (by decide)
  rw [SparseCore.bigSep_erase' m4,
    SparseCore.bigSep_erase' (Finset.mem_erase.mpr ⟨n54, m5⟩),
    SparseCore.bigSep_erase' (Finset.mem_erase.mpr ⟨n65, Finset.mem_erase.mpr ⟨n64, m6⟩⟩),
    SparseCore.bigSep_erase' (Finset.mem_erase.mpr ⟨n76, Finset.mem_erase.mpr ⟨n75, Finset.mem_erase.mpr ⟨n74, m7⟩⟩⟩)]

/-! ## The subcore's own buffers -/

/-- The subcore as a processor, and its four staging buffers as the device names them. -/
abbrev prV (L : grid0.Coords) : Proc τ := Proc.scVector (cV L) (jV L)
abbrev buf0 (L : grid0.Coords) : DevRef τ sig := (prV L).devRef cc0_scratch0
abbrev buf1 (L : grid0.Coords) : DevRef τ sig := (prV L).devRef cc0_scratch1
abbrev buf2 (L : grid0.Coords) : DevRef τ sig := (prV L).devRef cc0_scratch2
abbrev buf3 (L : grid0.Coords) : DevRef τ sig := (prV L).devRef cc0_scratch3

theorem buf_ne {a b : Ref sig .scVector} (h : a ≠ b) : (prV L).devRef a ≠ (prV L).devRef b :=
  fun e => h (Proc.devRef_injective _ e)

/-- The four staging buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (prV L)).erase (buf0 L)).erase (buf1 L)).erase (buf2 L)).erase (buf3 L))
              fun b => iprop(∃ f, ((d, b) : Loc nD τ sig) ↦{fullShare} f)) := by
  unfold SparseCore.Cfg.ownBufs
  have m0 : buf0 L ∈ ownRefs (τ := τ) (sig := sig) (prV L) := SparseCore.Cfg.mem_ownRefs_of_owner (p := prV L) (b := buf0 L) rfl
  have m1 : buf1 L ∈ ownRefs (τ := τ) (sig := sig) (prV L) := SparseCore.Cfg.mem_ownRefs_of_owner (p := prV L) (b := buf1 L) rfl
  have m2 : buf2 L ∈ ownRefs (τ := τ) (sig := sig) (prV L) := SparseCore.Cfg.mem_ownRefs_of_owner (p := prV L) (b := buf2 L) rfl
  have m3 : buf3 L ∈ ownRefs (τ := τ) (sig := sig) (prV L) := SparseCore.Cfg.mem_ownRefs_of_owner (p := prV L) (b := buf3 L) rfl
  have n10 : buf1 L ≠ buf0 L := buf_ne L (by decide)
  have n20 : buf2 L ≠ buf0 L := buf_ne L (by decide)
  have n21 : buf2 L ≠ buf1 L := buf_ne L (by decide)
  have n30 : buf3 L ≠ buf0 L := buf_ne L (by decide)
  have n31 : buf3 L ≠ buf1 L := buf_ne L (by decide)
  have n32 : buf3 L ≠ buf2 L := buf_ne L (by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

end Cert.Proof.KB

end
-- ==== Proof.KB.TileObl.lean ====
import proofs.«218969_g18416819765331_cont_7to1_658_22_alg».proof.Proof.KB.TileRes

/-!
From one subcore's task to the launch's obligation. The task, proved once at a symbolic device and
symbolic grid coordinates — from the subcore's two slabs, its own buffers and semaphores, and what it
owes, the body runs to its end and hands back the input slab unchanged and the result slab upsampled —
is what the launch asks of task `i` of SparseCore `c`, whose coordinates those are.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]
variable (X : (d : Dev nD) → Buf (Elt F) (xLoc d)) (O₀ : (d : Dev nD) → Buf (Elt F) (oLoc d))

/-- The task on the vector subcore at grid coordinates `L` of device `d`: from its slab of the input
    images and its slab of the result images as the call finds them, its own buffers and semaphores,
    and what it owes, the body runs to its end, handing back the input slab unchanged and the result
    slab upsampled, with its buffers and semaphores, owing what it owed and having waited on nothing
    that is another thread's. -/
def TileBody : Prop :=
  ∀ (hF : (K (F := F)).Facts) (d : Dev nD) (L : grid0.Coords) (O : CellTallies nD τ sig (HIx 1)) (W : Waits sig (HIx 1)) (hO : ∀ g, O g none = 0),
    iprop(levAts (K (F := F)).L (K (F := F)).lev ∗ emp ∗ goAt X O₀ d L
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7)
          fun _ => iprop(tdAt X d L ∗ scopedBufs (thr d L) ∗ scopedSems0 (thr d L)
            ∗ ∃ W', ⌜∀ p ∈ W', p ∈ W ∨ p.2 = none⌝ ∗ owes (thr d L) O W')

/-- The body table's entry for a vector subcore is the body at that subcore's coordinates. -/
theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) i0V (Memref.isWhole_whole _) i1V (Memref.isWhole_whole _)
          o0V (Memref.isWhole_whole _) o1V (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the one call's tasks, from the task at symbolic coordinates. -/
theorem tileObl_of (hB : TileBody X O₀) : (K (F := F)).TileObl (D (F := F)) 𝒱 (P X O₀) v₀ 0 := by
  intro d c i O W hO _ _
  simp only [show (P X O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hB facts d (coordsV ⟨_, hci.1⟩ ⟨_, hci.2⟩) O W hO).trans (wp_mono frame _ _ fun _ => obl_post)

end Cert.Proof.KB

end
-- ==== Proof.KB.Zero.lean ====
import proofs.«218969_g18416819765331_cont_7to1_658_22_alg».proof.Proof.KB.Pay
import Idealize.ShloMosaic.Lib.WritesUnit

/-!
The kernel's first act: it zeroes its two staging images, 112 rows of 224, sixteen entries at a time — row by
row, fourteen stores a row into each image. Before store `n` of row `k` an image holds zeros in its rows below
`k` and in the first `16 n` entries of row `k`, and what it held before elsewhere; after the last row it is zero
everywhere.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

/-! ## The partly zeroed image -/

/-- Rows below `k` zeroed. -/
def zrows (k : Nat) (g : S112x224.Idx → Elt F .f32) : S112x224.Idx → Elt F .f32 :=
  fun j => if (j 0).val < k then (zeroF : F .f32) else g j
/-- Rows below `k` zeroed and the first `16 * n` columns of row `k`. -/
def zpart (k n : Nat) (g : S112x224.Idx → Elt F .f32) : S112x224.Idx → Elt F .f32 :=
  fun j => if (j 0).val < k ∨ ((j 0).val = k ∧ (j 1).val < 16 * n) then (zeroF : F .f32) else g j

theorem zpart_zero (k : Nat) (g : S112x224.Idx → Elt F .f32) : zpart k 0 g = zrows k g := by
  funext j
  unfold zpart zrows
  by_cases h : (j 0).val < k
  · rw [if_pos (Or.inl h), if_pos h]
  · rw [if_neg (by rintro (a | ⟨_, a⟩) <;> omega), if_neg h]

theorem zpart_full (k : Nat) (g : S112x224.Idx → Elt F .f32) : zpart k 14 g = zrows (k + 1) g := by
  funext j
  unfold zpart zrows
  have h1 : (j 1).val < 16 * 14 := (j 1).isLt
  by_cases h : (j 0).val < k
  · rw [if_pos (Or.inl h), if_pos (by omega)]
  · by_cases h' : (j 0).val = k
    · rw [if_pos (Or.inr ⟨h', h1⟩), if_pos (by omega)]
    · rw [if_neg (by rintro (a | ⟨a, _⟩) <;> omega), if_neg (by omega)]

theorem zrows_zero (g : S112x224.Idx → Elt F .f32) : zrows 0 g = g := by
  funext j
  unfold zrows
  rw [if_neg (Nat.not_lt_zero _)]

theorem zrows_all (g : S112x224.Idx → Elt F .f32) : zrows 112 g = fun _ => (zeroF : F .f32) := by
  funext j
  unfold zrows
  rw [if_pos (show (j 0).val < 112 from (j 0).isLt)]

/-- One store of sixteen zeros at row `k1`, columns `16 k2 … 16 k2 + 15`, takes the image zeroed up to column
    `16 k2` of that row to the image zeroed up to column `16 (k2 + 1)`. -/
theorem store_step0 (k1 : Fin k0_t1_loop.trips) (k2 : Fin k0_t2_loop.trips) (g : S112x224.Idx → Elt F .f32)
    (h : ∀ a, (k0_off1 k1 k2) a + S1x16.size a ≤ S112x224.size a) :
    (o0V).view.writes (Elt F) (zpart k1.val k2.val g)
        [⟨Rect.unit (k0_off1 k1 k2) S1x16.size h, shapeCast S1x16 (k0_pay58 (F := F)) shapeCasts_S16_S1x16⟩]
      = zpart k1.val (k2.val + 1) g := by
  funext j
  have hr := View.read_writes_cons_unit (o0V).view (zpart k1.val k2.val g) h
    (shapeCast S1x16 (k0_pay58 (F := F)) shapeCasts_S16_S1x16) [] j (k0_off1_eq k1 k2)
  refine (show _ = _ from hr).trans ?_
  split
  · rename_i hc
    have h0 := hc 0
    have h1 := hc 1
    have e0 : (j 0).val = k1.val := by
      have : (j 0).val < k1.val + 1 := h0.2
      have : k1.val ≤ (j 0).val := h0.1
      omega
    have e1 : (j 1).val < 16 * (k2.val + 1) := by
      have : (j 1).val < 16 * k2.val + 16 := h1.2
      omega
    unfold zpart
    rw [if_pos (Or.inr ⟨e0, e1⟩)]
    rfl
  · rename_i hc
    show zpart k1.val k2.val g j = zpart k1.val (k2.val + 1) g j
    unfold zpart
    by_cases hz : (j 0).val < k1.val ∨ ((j 0).val = k1.val ∧ (j 1).val < 16 * k2.val)
    · rw [if_pos hz, if_pos (by rcases hz with a | ⟨a, b⟩; exact Or.inl a; exact Or.inr ⟨a, by omega⟩)]
    · rw [if_neg hz, if_neg]
      rintro (a | ⟨a, b⟩)
      · exact hz (Or.inl a)
      · apply hc
        intro c
        match c with
        | ⟨0, _⟩ => exact ⟨by show k1.val ≤ (j 0).val; omega, by show (j 0).val < k1.val + 1; omega⟩
        | ⟨1, _⟩ =>
          refine ⟨?_, by show (j 1).val < 16 * k2.val + 16; omega⟩
          show 16 * k2.val ≤ (j 1).val
          by_contra hlt
          exact hz (Or.inr ⟨a, by omega⟩)

/-- The same store into the second staging image. -/
theorem store_step1 (k1 : Fin k0_t1_loop.trips) (k2 : Fin k0_t2_loop.trips) (g : S112x224.Idx → Elt F .f32)
    (h : ∀ a, (k0_off1 k1 k2) a + S1x16.size a ≤ S112x224.size a) :
    (o1V).view.writes (Elt F) (zpart k1.val k2.val g)
        [⟨Rect.unit (k0_off1 k1 k2) S1x16.size h, shapeCast S1x16 (k0_pay58 (F := F)) shapeCasts_S16_S1x16⟩]
      = zpart k1.val (k2.val + 1) g := by
  funext j
  have hr := View.read_writes_cons_unit (o1V).view (zpart k1.val k2.val g) h
    (shapeCast S1x16 (k0_pay58 (F := F)) shapeCasts_S16_S1x16) [] j (k0_off1_eq k1 k2)
  refine (show _ = _ from hr).trans ?_
  split
  · rename_i hc
    have h0 := hc 0
    have h1 := hc 1
    have e0 : (j 0).val = k1.val := by
      have : (j 0).val < k1.val + 1 := h0.2
      have : k1.val ≤ (j 0).val := h0.1
      omega
    have e1 : (j 1).val < 16 * (k2.val + 1) := by
      have : (j 1).val < 16 * k2.val + 16 := h1.2
      omega
    unfold zpart
    rw [if_pos (Or.inr ⟨e0, e1⟩)]
    rfl
  · rename_i hc
    show zpart k1.val k2.val g j = zpart k1.val (k2.val + 1) g j
    unfold zpart
    by_cases hz : (j 0).val < k1.val ∨ ((j 0).val = k1.val ∧ (j 1).val < 16 * k2.val)
    · rw [if_pos hz, if_pos (by rcases hz with a | ⟨a, b⟩; exact Or.inl a; exact Or.inr ⟨a, by omega⟩)]
    · rw [if_neg hz, if_neg]
      rintro (a | ⟨a, b⟩)
      · exact hz (Or.inl a)
      · apply hc
        intro c
        match c with
        | ⟨0, _⟩ => exact ⟨by show k1.val ≤ (j 0).val; omega, by show (j 0).val < k1.val + 1; omega⟩
        | ⟨1, _⟩ =>
          refine ⟨?_, by show (j 1).val < 16 * k2.val + 16; omega⟩
          show 16 * k2.val ≤ (j 1).val
          by_contra hlt
          exact hz (Or.inr ⟨a, by omega⟩)

/-! ## The loops -/

section Tile
variable (d : Dev nD) (L : grid0.Coords)

/-- Before row `k1`: both staging images zeroed in the rows below `k1`. -/
def inv1 (g0 g1 : S112x224.Idx → Elt F .f32) (k1 : Nat) (_ : PUnit) : sProp 𝕄 :=
  iprop(((o0V).view.loc (thr d L) ↦{fullShare} zrows k1 g0) ∗ ((o1V).view.loc (thr d L) ↦{fullShare} zrows k1 g1))
/-- Before store `k2` of row `k1`: both staging images zeroed below row `k1` and in its first `16 k2` columns. -/
def inv2 (g0 g1 : S112x224.Idx → Elt F .f32) (k1 : Nat) (k2 : Nat) (_ : PUnit) : sProp 𝕄 :=
  iprop(((o0V).view.loc (thr d L) ↦{fullShare} zpart k1 k2 g0) ∗ ((o1V).view.loc (thr d L) ↦{fullShare} zpart k1 k2 g1))

set_option maxHeartbeats 4000000 in
/-- One trip of the inner loop: sixteen more zeros in row `k1` of each image. -/
theorem zero_inner_step (g0 g1 : S112x224.Idx → Elt F .f32) (k1 : Fin k0_t1_loop.trips) (k2 : Fin k0_t2_loop.trips) (acc : PUnit) :
    inv2 d L g0 g1 k1.val k2.val acc ⊢ wp frame (wpE (defs₀ (F := F)) 𝒱₀ (thr d L) none) Set.univ
      (k0_t2_body L xV (Memref.isWhole_whole _) oV (Memref.isWhole_whole _) i0V (Memref.isWhole_whole _) i1V (Memref.isWhole_whole _)
        o0V (Memref.isWhole_whole _) o1V (Memref.isWhole_whole _) cc0_scratch4 cc0_scratch5 cc0_scratch6 cc0_scratch7 k1 k2 acc)
      (inv2 d L g0 g1 k1.val (k2.val + 1)) := by
  unfold inv2
  iintro ⟨Ho0, Ho1⟩
  sl_unfold [k0_t2_body]
  sl_exec
  sl_step
  irw [← store_step0 k1 k2 g0 (k0_off1_inb k1 k2), ← store_step1 k1 k2 g1 (k0_off1_inb k1 k2)]
  isplitl [Ho0]
  · iexact Ho0
  · iexact Ho1

theorem t2_trips : Scf.trips k0_t2_loop.lb k0_t2_loop.ub k0_t2_loop.st = 14 := by decide
theorem t1_trips : Scf.trips k0_t1_loop.lb k0_t1_loop.ub k0_t1_loop.st = 112 := by decide

/-- Nothing of row `k` zeroed yet: the rows below `k` are. -/
theorem inv2_zero (g0 g1 : S112x224.Idx → Elt F .f32) (k : Nat) (acc : PUnit) :
    inv2 d L g0 g1 k 0 acc = inv1 d L g0 g1 k acc := by
  unfold inv2 inv1; rw [zpart_zero, zpart_zero]
/-- All fourteen pieces of row `k` zeroed: the rows below `k + 1` are. -/
theorem inv2_full (g0 g1 : S112x224.Idx → Elt F .f32) (k : Nat) :
    inv2 d L g0 g1 k 14 = inv1 d L g0 g1 (k + 1) := by
  funext acc; unfold inv2 inv1; rw [zpart_full, zpart_full]

set_option maxHeartbeats 4000000 in
/-- One trip of the outer loop: row `k1` of each image zeroed, by fourteen trips of the inner loop. -/
theorem zero_outer_step (g0 g1 : S112x224.Idx → Elt F .f32) (k1 : Fin k0_t1_loop.trips) (acc : PUnit) :
    inv1 d L g0 g1 k1.val acc ⊢ wp frame (wpE (defs₀ (F := F)) 𝒱₀ (thr d L) none) Set.univ
      (k0_t1_body L xV (Memref.isWhole_whole _) oV (Memref.isWhole_whole _) i0V (Memref.isWhole_whole _) i1V (Memref.isWhole_whole _)
        o0V (Memref.isWhole_whole _) o1V (Memref.isWhole_whole _) cc0_scratch4 cc0_scratch5 cc0_scratch6 cc0_scratch7 k1 acc)
      (inv1 d L g0 g1 (k1.val + 1)) := by
  iintro HI
  sl_unfold [k0_t1_body]
  sl_for (inv2 d L g0 g1 k1.val) $$ [HI]
  case region =>
    intro k2 acc2
    exact zero_inner_step d L g0 g1 k1 k2 acc2
  · irw [inv2_zero]
    iexact HI
  irw [t2_trips, inv2_full]
  iintro %acc2 HI
  sl_exec
  sl_step
  iexact HI

/-! ## Entering and leaving the outer loop -/

/-- Before the first row nothing is zeroed: the invariant is the two images as they were found. -/
theorem inv1_zero (g0 g1 : S112x224.Idx → Elt F .f32) (acc : PUnit) :
    inv1 d L g0 g1 0 acc
      = iprop(((o0V).view.loc (thr d L) ↦{fullShare} g0) ∗ ((o1V).view.loc (thr d L) ↦{fullShare} g1)) := by
  unfold inv1; rw [zrows_zero, zrows_zero]

/-- After the last row both images are zero everywhere. -/
theorem inv1_all (g0 g1 : S112x224.Idx → Elt F .f32) :
    inv1 d L g0 g1 112
      = fun _ => iprop(((o0V).view.loc (thr d L) ↦{fullShare} fun _ => (zeroF : F .f32))
          ∗ ((o1V).view.loc (thr d L) ↦{fullShare} fun _ => (zeroF : F .f32))) := by
  funext acc; unfold inv1; rw [zrows_all, zrows_all]

/-- The entry fact as an entailment. -/
theorem inv1_entry (g0 g1 : S112x224.Idx → Elt F .f32) (acc : PUnit) :
    iprop(((o0V).view.loc (thr d L) ↦{fullShare} g0) ∗ ((o1V).view.loc (thr d L) ↦{fullShare} g1))
      ⊢ inv1 d L g0 g1 0 acc := by
  rw [inv1_zero]

/-- The exit fact as an entailment, at the loop's own trip count. -/
theorem inv1_exit (g0 g1 : S112x224.Idx → Elt F .f32) (acc : PUnit) :
    inv1 d L g0 g1 (Scf.trips k0_t1_loop.lb k0_t1_loop.ub k0_t1_loop.st) acc
      ⊢ iprop(((o0V).view.loc (thr d L) ↦{fullShare} fun _ => (zeroF : F .f32))
          ∗ ((o1V).view.loc (thr d L) ↦{fullShare} fun _ => (zeroF : F .f32))) := by
  rw [t1_trips, inv1_all]

end Tile

end Cert.Proof.KB

end
-- ==== Proof.KB.Half.lean ====
import proofs.«218969_g18416819765331_cont_7to1_658_22_alg».proof.Proof.KB.Common

/-!
A staging buffer holds one half of a result image: 112 rows of 224. Its odd rows and columns copy
fifty-six rows of the input image; everything else is zero.
-/

noncomputable section

namespace Cert.Proof.KB

open Cert.Kernel Cert.Kernel.Gen
open Idealize.ShloMosaic

variable {F : FTy → Type} [FloatOps F]

/-- Entry `(r, c)` of an input image buffer (coordinates past the buffer are clamped; never used there). -/
def hIdx (r c : Nat) : S112x112.Idx :=
  fun a => match a with
    | ⟨0, _⟩ => ⟨min r 111, by show _ < 112; omega⟩
    | ⟨1, _⟩ => ⟨min c 111, by show _ < 112; omega⟩

/-- The staging buffer after `k` rows of the input image, from row `base` on, have been scattered over `g`:
    staging row `2 q + 1`, `q < k`, holds at column `2 w + 1` the input entry `(base + q, w)`. -/
def scatK (fi : S112x112.Idx → Elt F .f32) (base k : Nat) (g : S112x224.Idx → Elt F .f32) : S112x224.Idx → Elt F .f32 :=
  fun j => if (j 0).val % 2 = 1 ∧ (j 0).val / 2 < k ∧ (j 1).val % 2 = 1 then fi (hIdx (base + (j 0).val / 2) ((j 1).val / 2)) else g j

/-- Half a result image: the fifty-six input rows from `base` on at the odd rows and columns, zero elsewhere. -/
def halfImg (fi : S112x112.Idx → Elt F .f32) (base : Nat) : S112x224.Idx → Elt F .f32 :=
  fun j => if (j 0).val % 2 = 1 ∧ (j 1).val % 2 = 1 then fi (hIdx (base + (j 0).val / 2) ((j 1).val / 2)) else (zeroF : F .f32)

/-- Zero away from the odd rows and columns. -/
def ZeroOff (g : S112x224.Idx → Elt F .f32) : Prop :=
  ∀ j, ¬((j 0).val % 2 = 1 ∧ (j 1).val % 2 = 1) → g j = (zeroF : F .f32)

theorem scatK_zero (fi : S112x112.Idx → Elt F .f32) (base : Nat) (g : S112x224.Idx → Elt F .f32) : scatK fi base 0 g = g := by
  funext j; unfold scatK; rw [if_neg]; omega

theorem scatK_full (fi : S112x112.Idx → Elt F .f32) (base : Nat) (g : S112x224.Idx → Elt F .f32) (hg : ZeroOff g) :
    scatK fi base 56 g = halfImg fi base := by
  funext j; unfold scatK halfImg
  have h0 : (j 0).val < 112 := (j 0).isLt
  by_cases h : (j 0).val % 2 = 1 ∧ (j 1).val % 2 = 1
  · rw [if_pos ⟨h.1, by omega, h.2⟩, if_pos h]
  · rw [if_neg (fun hh => h ⟨hh.1, hh.2.2⟩), if_neg h]; exact hg j h

theorem zeroOff_halfImg (fi : S112x112.Idx → Elt F .f32) (base : Nat) : ZeroOff (halfImg fi base) := by
  intro j h; unfold halfImg; rw [if_neg h]

theorem zeroOff_zero : ZeroOff (fun _ : S112x224.Idx => (zeroF : F .f32)) := fun _ _ => rfl

end Cert.Proof.KB

end
-- ==== Proof.KB.Windows.lean ====
import proofs.«218969_g18416819765331_cont_7to1_658_22_alg».proof.Proof.KB.Pay
import proofs.«218969_g18416819765331_cont_7to1_658_22_alg».proof.Proof.KB.Half

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

/-!
Windows of the two image arrays: one input image of the slab, and one half (112 rows) of a result
image. Two windows at different images, or at the two halves of one image, share no element.
-/

/-- The first image of the subcore's slab. -/
abbrev bOf (L : grid0.Coords) : Nat := 96 * (L 1).val + 48 * (L 0).val

theorem bOf_le (L : grid0.Coords) : bOf L + 48 ≤ 1536 := by
  have h0 : (L 0).val < 2 := (L 0).isLt
  have h1 : (L 1).val < 16 := (L 1).isLt
  show 96 * (L 1).val + 48 * (L 0).val + 48 ≤ 1536; omega

/-- Image `n` of the slab, as an input buffer receives it. -/
def imgOf (L : grid0.Coords) (X : S1536x112x112.Idx → Elt F .f32) (n : Nat) : S112x112.Idx → Elt F .f32 :=
  fun y => X (fun a => match a with
    | ⟨0, _⟩ => ⟨min (bOf L + n) 1535, by show _ < 1536; omega⟩
    | ⟨1, _⟩ => ⟨(y 0).val, (y 0).isLt⟩
    | ⟨2, _⟩ => ⟨(y 1).val, (y 1).isLt⟩)

/-- The result images of the slab below its image `n` are final in `fo`. -/
def Done (L : grid0.Coords) (X : S1536x112x112.Idx → Elt F .f32) (fo : S1536x224x224.Idx → Elt F .f32) (n : Nat) : Prop :=
  ∀ j : S1536x224x224.Idx, bOf L ≤ (j 0).val → (j 0).val < bOf L + n → fo j = up X j

theorem done_zero (L : grid0.Coords) (X : S1536x112x112.Idx → Elt F .f32) (fo : S1536x224x224.Idx → Elt F .f32) : Done L X fo 0 := by
  intro j h1 h2; omega

omit [FloatOps F] in
/-- Two input-image windows at different images are disjoint. -/
theorem xwin_disjoint (o1 o2 : Fin 3 → Nat) (h1 : ∀ a, o1 a + S1x112x112.size a ≤ S1536x112x112.size a) (h2 : ∀ a, o2 a + S1x112x112.size a ≤ S1536x112x112.size a)
    (hne : o1 0 + 1 ≤ o2 0 ∨ o2 0 + 1 ≤ o1 0) :
    Disjoint ((xV).slice (Rect.unit (s := S1536x112x112) o1 S1x112x112.size h1) (fun _ => rfl)).view.set
      (((xV).slice (Rect.unit (s := S1536x112x112) o2 S1x112x112.size h2) (fun _ => rfl)).squeeze S112x112 squeezes_S1x112x112_S112x112).view.set := by
  rw [Memref.set_view_squeeze]
  refine View.disjoint_of_boxes (xV).view (Rect.unit (s := S1536x112x112) o1 S1x112x112.size h1).toLoadRect
    (Rect.unit (s := S1536x112x112) o2 S1x112x112.size h2).toLoadRect ?_ ?_ ⟨0, by decide⟩ ?_
  · exact View.set_slice_subset_setOn _ _
  · exact View.set_slice_subset_setOn _ _
  · show (1 = 0 ∨ o1 0 + 1 * (1 - 1) < o2 0) ∨ (1 = 0 ∨ o2 0 + 1 * (1 - 1) < o1 0)
    omega

omit [FloatOps F] in
/-- Two result half-image windows at different images, or at different halves, are disjoint. -/
theorem owin_disjoint (o1 o2 : Fin 3 → Nat) (h1 : ∀ a, o1 a + S1x112x224.size a ≤ S1536x224x224.size a) (h2 : ∀ a, o2 a + S1x112x224.size a ≤ S1536x224x224.size a)
    (hne : (o1 0 + 1 ≤ o2 0 ∨ o2 0 + 1 ≤ o1 0) ∨ (o1 1 + 112 ≤ o2 1 ∨ o2 1 + 112 ≤ o1 1)) :
    Disjoint ((oV).slice (Rect.unit (s := S1536x224x224) o1 S1x112x224.size h1) (fun _ => rfl)).view.set
      (((oV).slice (Rect.unit (s := S1536x224x224) o2 S1x112x224.size h2) (fun _ => rfl)).squeeze S112x224 squeezes_S1x112x224_S112x224).view.set := by
  rw [Memref.set_view_squeeze]
  rcases hne with hne | hne
  · refine View.disjoint_of_boxes (oV).view (Rect.unit (s := S1536x224x224) o1 S1x112x224.size h1).toLoadRect
      (Rect.unit (s := S1536x224x224) o2 S1x112x224.size h2).toLoadRect ?_ ?_ ⟨0, by decide⟩ ?_
    · exact View.set_slice_subset_setOn _ _
    · exact View.set_slice_subset_setOn _ _
    · show (1 = 0 ∨ o1 0 + 1 * (1 - 1) < o2 0) ∨ (1 = 0 ∨ o2 0 + 1 * (1 - 1) < o1 0)
      omega
  · refine View.disjoint_of_boxes (oV).view (Rect.unit (s := S1536x224x224) o1 S1x112x224.size h1).toLoadRect
      (Rect.unit (s := S1536x224x224) o2 S1x112x224.size h2).toLoadRect ?_ ?_ ⟨1, by decide⟩ ?_
    · exact View.set_slice_subset_setOn _ _
    · exact View.set_slice_subset_setOn _ _
    · show (112 = 0 ∨ o1 1 + 1 * (112 - 1) < o2 1) ∨ (112 = 0 ∨ o2 1 + 1 * (112 - 1) < o1 1)
      omega

end Cert.Proof.KB

end
-- ==== Proof.KB.Inv.lean ====
import proofs.«218969_g18416819765331_cont_7to1_658_22_alg».proof.Proof.KB.Pay
import proofs.«218969_g18416819765331_cont_7to1_658_22_alg».proof.Proof.KB.Windows

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

/-!
The state of a subcore between two images. Images are copied in two ahead, alternating between the two
input buffers, and each staging buffer's copy out is left under way until the next image needs the buffer.
-/

/-- The offsets of the window of input image `n` of the slab, and of the half at row `r` of its result image. -/
def xOff (L : grid0.Coords) (n : Nat) : Fin 3 → Nat := ![96 * (L 1).val + 48 * (L 0).val + n, 0, 0]
instance closedOff_xOff (L : grid0.Coords) (n : Nat) : ClosedOff (xOff L n) := ⟨![96 * (L 1).val + 48 * (L 0).val + n, 0, 0], rfl⟩
def oOff (L : grid0.Coords) (n r : Nat) : Fin 3 → Nat := ![96 * (L 1).val + 48 * (L 0).val + n, r, 0]
instance closedOff_oOff (L : grid0.Coords) (n r : Nat) : ClosedOff (oOff L n r) := ⟨![96 * (L 1).val + 48 * (L 0).val + n, r, 0], rfl⟩

omit [FloatOps F] in
theorem xOff_eq (L : grid0.Coords) (n : Nat) : xOff L n = ![bOf L + n, 0, 0] := rfl
omit [FloatOps F] in
theorem oOff_eq (L : grid0.Coords) (n r : Nat) : oOff L n r = ![bOf L + n, r, 0] := rfl

section Inv
variable (d : Dev nD) (L : grid0.Coords) (X : S1536x112x112.Idx → Elt F .f32)

/-- Both input buffers await an image of the slab: the older copy, of image `n`, lands in the first input buffer,
    the newer, of image `n + 1`, in the second; the slab of input images is held less the two windows lent. -/
def inTwoE (n : Nat) : sProp 𝕄 :=
  iprop(∃ (offA offB : Fin 3 → Nat) (hA : ∀ a, offA a + S1x112x112.size a ≤ S1536x112x112.size a)
      (hB : ∀ a, offB a + S1x112x112.size a ≤ S1536x112x112.size a) (payA payB : S112x112.Idx → Elt F .f32),
    ⌜offA = xOff L n ∧ offB = xOff L (n + 1) ∧ payA = imgOf L X n ∧ payB = imgOf L X (n + 1)⌝
    ∗ Transfers.Flight countersEmb (thr d L) (SemLoc.dma cc0_scratch4.sem) (default : HIx 1) 401408
      iprop(((i0V).view.loc (thr d L) ↦{fullShare} payA)
        ∗ ((xV).view.loc (thr d L) ↦[(((xV).slice (Rect.unit (s := S1536x112x112) offA S1x112x112.size hA) (fun _ => rfl)).squeeze S112x112 squeezes_S1x112x112_S112x112).view.set]{fullShare} X))
    ∗ Transfers.Flight countersEmb (thr d L) (SemLoc.dma cc0_scratch5.sem) (default : HIx 1) 401408
      iprop(((i1V).view.loc (thr d L) ↦{fullShare} payB)
        ∗ ((xV).view.loc (thr d L) ↦[(((xV).slice (Rect.unit (s := S1536x112x112) offB S1x112x112.size hB) (fun _ => rfl)).squeeze S112x112 squeezes_S1x112x112_S112x112).view.set]{fullShare} X))
    ∗ ((xV).view.loc (thr d L) ↦[((xV).view.setOn (xR L).set \ (((xV).slice (Rect.unit (s := S1536x112x112) offA S1x112x112.size hA) (fun _ => rfl)).squeeze S112x112 squeezes_S1x112x112_S112x112).view.set) \ (((xV).slice (Rect.unit (s := S1536x112x112) offB S1x112x112.size hB) (fun _ => rfl)).squeeze S112x112 squeezes_S1x112x112_S112x112).view.set]{fullShare} X))

/-- Both input buffers await an image of the slab, their roles exchanged: the older copy, of image `n`, lands in the
    second input buffer, the newer, of image `n + 1`, in the first; the slab of input images is held less the two windows lent. -/
def inTwoO (n : Nat) : sProp 𝕄 :=
  iprop(∃ (offA offB : Fin 3 → Nat) (hA : ∀ a, offA a + S1x112x112.size a ≤ S1536x112x112.size a)
      (hB : ∀ a, offB a + S1x112x112.size a ≤ S1536x112x112.size a) (payA payB : S112x112.Idx → Elt F .f32),
    ⌜offA = xOff L n ∧ offB = xOff L (n + 1) ∧ payA = imgOf L X n ∧ payB = imgOf L X (n + 1)⌝
    ∗ Transfers.Flight countersEmb (thr d L) (SemLoc.dma cc0_scratch5.sem) (default : HIx 1) 401408
      iprop(((i1V).view.loc (thr d L) ↦{fullShare} payA)
        ∗ ((xV).view.loc (thr d L) ↦[(((xV).slice (Rect.unit (s := S1536x112x112) offA S1x112x112.size hA) (fun _ => rfl)).squeeze S112x112 squeezes_S1x112x112_S112x112).view.set]{fullShare} X))
    ∗ Transfers.Flight countersEmb (thr d L) (SemLoc.dma cc0_scratch4.sem) (default : HIx 1) 401408
      iprop(((i0V).view.loc (thr d L) ↦{fullShare} payB)
        ∗ ((xV).view.loc (thr d L) ↦[(((xV).slice (Rect.unit (s := S1536x112x112) offB S1x112x112.size hB) (fun _ => rfl)).squeeze S112x112 squeezes_S1x112x112_S112x112).view.set]{fullShare} X))
    ∗ ((xV).view.loc (thr d L) ↦[((xV).view.setOn (xR L).set \ (((xV).slice (Rect.unit (s := S1536x112x112) offA S1x112x112.size hA) (fun _ => rfl)).squeeze S112x112 squeezes_S1x112x112_S112x112).view.set) \ (((xV).slice (Rect.unit (s := S1536x112x112) offB S1x112x112.size hB) (fun _ => rfl)).squeeze S112x112 squeezes_S1x112x112_S112x112).view.set]{fullShare} X))

/-- Both staging buffers are on their way out, carrying the two halves of result image `n` of the slab; every
    result image up to `n` is final in the contents the slab of result images is held at. -/
def outTwo (n : Nat) : sProp 𝕄 :=
  iprop(∃ (offC offD : Fin 3 → Nat) (hC : ∀ a, offC a + S1x112x224.size a ≤ S1536x224x224.size a)
      (hD : ∀ a, offD a + S1x112x224.size a ≤ S1536x224x224.size a) (fo : S1536x224x224.Idx → Elt F .f32) (ga gb : S112x224.Idx → Elt F .f32),
    ⌜offC = oOff L n 0 ∧ offD = oOff L n 112 ∧ ZeroOff ga ∧ ZeroOff gb ∧ Done L X fo (n + 1)⌝
    ∗ Transfers.Flight countersEmb (thr d L) (SemLoc.dma cc0_scratch6.sem) (default : HIx 1) 802816
      iprop(((oV).view.loc (thr d L) ↦[(((oV).slice (Rect.unit (s := S1536x224x224) offC S1x112x224.size hC) (fun _ => rfl)).squeeze S112x224 squeezes_S1x112x224_S112x224).view.set]{fullShare} fo)
        ∗ ((o0V).view.loc (thr d L) ↦[(o0V).view.set]{fullShare} ga))
    ∗ ((o0V).view.loc (thr d L) ↦[Finset.univ \ (o0V).view.set]{fullShare} ga)
    ∗ Transfers.Flight countersEmb (thr d L) (SemLoc.dma cc0_scratch7.sem) (default : HIx 1) 802816
      iprop(((oV).view.loc (thr d L) ↦[(((oV).slice (Rect.unit (s := S1536x224x224) offD S1x112x224.size hD) (fun _ => rfl)).squeeze S112x224 squeezes_S1x112x224_S112x224).view.set]{fullShare} fo)
        ∗ ((o1V).view.loc (thr d L) ↦[(o1V).view.set]{fullShare} gb))
    ∗ ((o1V).view.loc (thr d L) ↦[Finset.univ \ (o1V).view.set]{fullShare} gb)
    ∗ ((oV).view.loc (thr d L) ↦[((oV).view.setOn (oR L).set \ (((oV).slice (Rect.unit (s := S1536x224x224) offC S1x112x224.size hC) (fun _ => rfl)).squeeze S112x224 squeezes_S1x112x224_S112x224).view.set) \ (((oV).slice (Rect.unit (s := S1536x224x224) offD S1x112x224.size hD) (fun _ => rfl)).squeeze S112x224 squeezes_S1x112x224_S112x224).view.set]{fullShare} fo))

/-- What the subcore owes, its recorded waits grown only by waits of its own semaphores. -/
def owesAt (O : CellTallies nD τ sig (HIx 1)) (W : Waits sig (HIx 1)) : sProp 𝕄 :=
  iprop(∃ W', ⌜∀ p ∈ W', p ∈ W ∨ p.2 = none⌝ ∗ owes (thr d L) O W')

end Inv

end Cert.Proof.KB

end
-- ==== Proof.KB.Inv2.lean ====
import proofs.«218969_g18416819765331_cont_7to1_658_22_alg».proof.Proof.KB.Pay
import proofs.«218969_g18416819765331_cont_7to1_658_22_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

/-!
The states at the ends of a subcore's run: before the first image nothing is on its way out; before the
last image only one input copy is outstanding; after it none.
-/

section Inv
variable (d : Dev nD) (L : grid0.Coords) (X : S1536x112x112.Idx → Elt F .f32)

/-- Before the first image: both staging buffers zero, their semaphores free, the slab of result images whole. -/
def outZero : sProp 𝕄 :=
  iprop(∃ (fo : S1536x224x224.Idx → Elt F .f32),
    ((o0V).view.loc (thr d L) ↦{fullShare} (fun _ => (zeroF : F .f32)))
    ∗ ((o1V).view.loc (thr d L) ↦{fullShare} (fun _ => (zeroF : F .f32)))
    ∗ semVal (thr d L, .dma cc0_scratch6.sem) 0 ∗ semVal (thr d L, .dma cc0_scratch7.sem) 0
    ∗ ((oV).view.loc (thr d L) ↦[(oV).view.setOn (oR L).set]{fullShare} fo))

/-- Before the last image (the forty-eighth, an odd trip): its copy into the second input buffer is outstanding,
    the first input buffer is free. -/
def inOne47 : sProp 𝕄 :=
  iprop(∃ (offA : Fin 3 → Nat) (hA : ∀ a, offA a + S1x112x112.size a ≤ S1536x112x112.size a) (payA : S112x112.Idx → Elt F .f32),
    ⌜offA = xOff L 47 ∧ payA = imgOf L X 47⌝
    ∗ Transfers.Flight countersEmb (thr d L) (SemLoc.dma cc0_scratch5.sem) (default : HIx 1) 401408
      iprop(((i1V).view.loc (thr d L) ↦{fullShare} payA)
        ∗ ((xV).view.loc (thr d L) ↦[(((xV).slice (Rect.unit (s := S1536x112x112) offA S1x112x112.size hA) (fun _ => rfl)).squeeze S112x112 squeezes_S1x112x112_S112x112).view.set]{fullShare} X))
    ∗ (∃ f, (i0V).view.loc (thr d L) ↦{fullShare} f) ∗ semVal (thr d L, .dma cc0_scratch4.sem) 0
    ∗ ((xV).view.loc (thr d L) ↦[(xV).view.setOn (xR L).set \ (((xV).slice (Rect.unit (s := S1536x112x112) offA S1x112x112.size hA) (fun _ => rfl)).squeeze S112x112 squeezes_S1x112x112_S112x112).view.set]{fullShare} X))

/-- After the last image: both input buffers free, the slab of input images whole. -/
def inNone : sProp 𝕄 :=
  iprop((∃ f, (i0V).view.loc (thr d L) ↦{fullShare} f) ∗ (∃ f, (i1V).view.loc (thr d L) ↦{fullShare} f)
    ∗ semVal (thr d L, .dma cc0_scratch4.sem) 0 ∗ semVal (thr d L, .dma cc0_scratch5.sem) 0
    ∗ ((xV).view.loc (thr d L) ↦[(xV).view.setOn (xR L).set]{fullShare} X))

/-- The input side before trip `t`. -/
def inPart (t : Nat) : sProp 𝕄 :=
  if t % 2 = 0 then (if t + 1 < 48 then inTwoE d L X t else inNone d L X)
  else (if t + 1 < 48 then inTwoO d L X t else inOne47 d L X)

/-- The output side before trip `t`. -/
def outPart (t : Nat) : sProp 𝕄 :=
  if t = 0 then outZero d L else outTwo d L X (t - 1)

/-- The subcore's state before trip `t` of the loop over its images. -/
def tinv (O : CellTallies nD τ sig (HIx 1)) (W : Waits sig (HIx 1)) (t : Nat) (_ : PUnit) : sProp 𝕄 :=
  iprop(Transfers.MayWaits (thr d L) (default : HIx 1) O ∗ inPart d L X t ∗ outPart d L X t ∗ owesAt d L O W)

end Inv

end Cert.Proof.KB

end
-- ==== Proof.KB.WinIn.lean ====
import proofs.«218969_g18416819765331_cont_7to1_658_22_alg».proof.Proof.KB.Windows

/-!
What an input buffer holds after one image of the slab has been copied into it. The copy reads the
image's window of the input array — one image, all its rows and columns, seen as a 112 × 112 array by
dropping the leading axis of size one — and writes it over the whole buffer: the buffer then holds
the image, whatever it held before.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

/-- Image `n` of the slab lies inside the input array. -/
theorem xwin_inb (L : grid0.Coords) (n : Nat) (hn : n < 48) :
    ∀ a, (![bOf L + n, 0, 0] : Fin 3 → Nat) a + S1x112x112.size a ≤ S1536x112x112.size a := by
  have hb := bOf_le L
  intro a
  match a with
  | ⟨0, _⟩ => show bOf L + n + 1 ≤ 1536; omega
  | ⟨1, _⟩ => show 0 + 112 ≤ 112; omega
  | ⟨2, _⟩ => show 0 + 112 ≤ 112; omega

/-- Either half (rows from `r = 0` or from `r = 112`) of result image `n` of the slab lies inside the result array. -/
theorem owin_inb (L : grid0.Coords) (n : Nat) (hn : n < 48) (r : Nat) (hr : r = 0 ∨ r = 112) :
    ∀ a, (![bOf L + n, r, 0] : Fin 3 → Nat) a + S1x112x224.size a ≤ S1536x224x224.size a := by
  have hb := bOf_le L
  intro a
  match a with
  | ⟨0, _⟩ => show bOf L + n + 1 ≤ 1536; omega
  | ⟨1, _⟩ => show r + 112 ≤ 224; omega
  | ⟨2, _⟩ => show 0 + 224 ≤ 224; omega

variable [FloatOps F]

/-- The window of image `bOf L + n` of the input array, read as a 112 × 112 array, is image `n` of the slab. -/
theorem xwin_read (L : grid0.Coords) (X : S1536x112x112.Idx → Elt F .f32) (n : Nat) (hn : n < 48) (off : Fin 3 → Nat)
    (h : ∀ a, off a + S1x112x112.size a ≤ S1536x112x112.size a) (hoff : off = ![bOf L + n, 0, 0]) :
    View.read (Elt F) (((xV).slice (Rect.unit (s := S1536x112x112) off S1x112x112.size h) (fun _ => rfl)).squeeze S112x112 squeezes_S1x112x112_S112x112).view X
      = imgOf L X n := by
  subst hoff
  funext y
  rw [View.read_apply]
  unfold imgOf
  have he : (((xV).slice (Rect.unit (s := S1536x112x112) ![bOf L + n, 0, 0] S1x112x112.size h) (fun _ => rfl)).squeeze S112x112 squeezes_S1x112x112_S112x112).view.emb y
      = (fun a => match a with
          | ⟨0, _⟩ => ⟨min (bOf L + n) 1535, by show _ < 1536; omega⟩
          | ⟨1, _⟩ => ⟨(y 0).val, (y 0).isLt⟩
          | ⟨2, _⟩ => ⟨(y 1).val, (y 1).isLt⟩ : S1536x112x112.Idx) := by
    show (Rect.unit (s := S1536x112x112) ![bOf L + n, 0, 0] S1x112x112.size h).emb (Shape.reshapeEquiv _ y) = _
    rw [Shape.reshapeEquiv_cons_one]
    have hb := bOf_le L
    funext a
    match a with
    | ⟨0, _⟩ => apply Fin.ext; show bOf L + n + 1 * 0 = min (bOf L + n) 1535; omega
    | ⟨1, _⟩ => apply Fin.ext; show 0 + 1 * (y 0).val = (y 0).val; omega
    | ⟨2, _⟩ => apply Fin.ext; show 0 + 1 * (y 1).val = (y 1).val; omega
  rw [he]
  rfl

/-- After the copy of image `n` into the first input buffer, the buffer holds the image. -/
theorem in_pay_eq0 (L : grid0.Coords) (X : S1536x112x112.Idx → Elt F .f32) (n : Nat) (hn : n < 48) (off : Fin 3 → Nat)
    (h : ∀ a, off a + S1x112x112.size a ≤ S1536x112x112.size a) (hoff : off = ![bOf L + n, 0, 0])
    (f : S112x112.Idx → Elt F .f32) :
    View.write (Elt F) (Memref.whole cc0_scratch0).view f
        (ReadAs.same.apply (View.read (Elt F) (((xV).slice (Rect.unit (s := S1536x112x112) off S1x112x112.size h) (fun _ => rfl)).squeeze S112x112 squeezes_S1x112x112_S112x112).view X))
        Finset.univ
      = imgOf L X n := by
  rw [xwin_read L X n hn off h hoff]
  exact View.write_whole_univ cc0_scratch0 f (imgOf L X n)

/-- After the copy of image `n` into the second input buffer, the buffer holds the image. -/
theorem in_pay_eq1 (L : grid0.Coords) (X : S1536x112x112.Idx → Elt F .f32) (n : Nat) (hn : n < 48) (off : Fin 3 → Nat)
    (h : ∀ a, off a + S1x112x112.size a ≤ S1536x112x112.size a) (hoff : off = ![bOf L + n, 0, 0])
    (f : S112x112.Idx → Elt F .f32) :
    View.write (Elt F) (Memref.whole cc0_scratch1).view f
        (ReadAs.same.apply (View.read (Elt F) (((xV).slice (Rect.unit (s := S1536x112x112) off S1x112x112.size h) (fun _ => rfl)).squeeze S112x112 squeezes_S1x112x112_S112x112).view X))
        Finset.univ
      = imgOf L X n := by
  rw [xwin_read L X n hn off h hoff]
  exact View.write_whole_univ cc0_scratch1 f (imgOf L X n)

end Cert.Proof.KB

end
-- ==== Proof.KB.WinOut.lean ====
import proofs.«218969_g18416819765331_cont_7to1_658_22_alg».proof.Proof.KB.Windows

/-!
The result side of one image. A half-image window of the result images, at image `b` and first row
`r₀`, holds entry `(r, c)` of a staging buffer at result entry `(b, r₀ + r, c)`. Writing the two
staging buffers of image `n` of the slab — the upper half of its upsampling, then the lower half —
through the two windows of that image makes the result images final up to and including image `n`:
row `r` of the upper half and row `r - 112` of the lower half are row `r` of the upsampled image,
whose odd rows and columns copy row `r / 2` of the input image, 112 being even. The two windows share
no element, so the second write leaves the first window as the first write left it. When all
forty-eight images are final the subcore's result slab is the upsampling of its input slab.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

/-! ## A half-image window and where its entries sit -/

/-- The half-image window of the result images at offsets `off`: one image, 112 rows, all 224 columns. -/
abbrev OW (off : Fin 3 → Nat) (h : ∀ a, off a + S1x112x224.size a ≤ S1536x224x224.size a) : Memref sig .scVector .hbm S112x224 .f32 :=
  ((oV).slice (Rect.unit (s := S1536x224x224) off S1x112x224.size h) (fun _ => rfl)).squeeze S112x224 squeezes_S1x112x224_S112x224

/-- Entry `(r, c)` of a half image as entry `(0, r, c)` of a block of one image. -/
def owLift (y : S112x224.Idx) : S1x112x224.Idx :=
  fun a => match a with
    | ⟨0, _⟩ => ⟨0, show 0 < 1 from Nat.one_pos⟩
    | ⟨1, _⟩ => ⟨(y 0).val, (y 0).isLt⟩
    | ⟨2, _⟩ => ⟨(y 1).val, (y 1).isLt⟩

theorem reshape_owLift (hq : S112x224.numel = S1x112x224.numel) (y : S112x224.Idx) : Shape.reshapeEquiv hq y = owLift y := by
  refine Shape.reshapeEquiv_eq_of_rowMajor hq ?_
  rw [Shape.rowMajor_val_three, Shape.rowMajor_val_two]
  show (0 * 112 + (y 0).val) * 224 + (y 1).val = (y 0).val * 224 + (y 1).val
  omega

/-- The result entry under entry `(r, c)` of the window at offsets `off`. -/
def owIdx (off : Fin 3 → Nat) (h : ∀ a, off a + S1x112x224.size a ≤ S1536x224x224.size a) (y : S112x224.Idx) : S1536x224x224.Idx :=
  fun a => match a with
    | ⟨0, _⟩ => ⟨off 0, by have h0 : off 0 + 1 ≤ 1536 := h 0; show off 0 < 1536; omega⟩
    | ⟨1, _⟩ => ⟨off 1 + (y 0).val, by have h1 : off 1 + 112 ≤ 224 := h 1; have hy : (y 0).val < 112 := (y 0).isLt; show off 1 + (y 0).val < 224; omega⟩
    | ⟨2, _⟩ => ⟨off 2 + (y 1).val, by have h2 : off 2 + 224 ≤ 224 := h 2; have hy : (y 1).val < 224 := (y 1).isLt; show off 2 + (y 1).val < 224; omega⟩

theorem emb_OW (off : Fin 3 → Nat) (h : ∀ a, off a + S1x112x224.size a ≤ S1536x224x224.size a) (y : S112x224.Idx) :
    (OW off h).view.emb y = owIdx off h y := by
  show (Rect.unit (s := S1536x224x224) off S1x112x224.size h).emb (Shape.reshapeEquiv squeezes_S1x112x224_S112x224.numel_eq y) = _
  rw [reshape_owLift]
  funext a; apply Fin.ext
  rw [Rect.emb_apply]
  match a with
  | ⟨0, _⟩ => show off 0 + 1 * 0 = off 0; omega
  | ⟨1, _⟩ => show off 1 + 1 * (y 0).val = off 1 + (y 0).val; omega
  | ⟨2, _⟩ => show off 2 + 1 * (y 1).val = off 2 + (y 1).val; omega

theorem mem_OW (off : Fin 3 → Nat) (h : ∀ a, off a + S1x112x224.size a ≤ S1536x224x224.size a) (j : S1536x224x224.Idx)
    (hj : j ∈ (OW off h).view.set) : ∃ y, j = owIdx off h y := by
  obtain ⟨y, -, e⟩ := Finset.mem_map.mp hj
  exact ⟨y, e.symm.trans (emb_OW off h y)⟩

variable [FloatOps F]

/-- Writing a half image through the window puts its entry `(r, c)` at the result entry under it, -/
theorem write_OW_emb (off : Fin 3 → Nat) (h : ∀ a, off a + S1x112x224.size a ≤ S1536x224x224.size a)
    (f : S1536x224x224.Idx → Elt F .f32) (w : S112x224.Idx → Elt F .f32) (y : S112x224.Idx) :
    View.write (Elt F) (OW off h).view f w Finset.univ (owIdx off h y) = w y := by
  rw [← emb_OW, View.write_emb_of_mem _ _ (Finset.mem_univ _)]
  rfl
/-- and leaves every result entry under none of the window's alone. -/
theorem write_OW_not (off : Fin 3 → Nat) (h : ∀ a, off a + S1x112x224.size a ≤ S1536x224x224.size a)
    (f : S1536x224x224.Idx → Elt F .f32) (w : S112x224.Idx → Elt F .f32) (j : S1536x224x224.Idx) (hj : ∀ y, j ≠ owIdx off h y) :
    View.write (Elt F) (OW off h).view f w Finset.univ j = f j :=
  View.write_of_not_mem _ _ _ fun hm => by
    rw [View.setOn_univ] at hm
    obtain ⟨y, e⟩ := mem_OW off h j hm
    exact hj y e

/-! ## One image written out -/

section Image

variable (L : grid0.Coords) (X : S1536x112x112.Idx → Elt F .f32) (n : Nat)
variable (offC offD : Fin 3 → Nat)
variable (hC : ∀ a, offC a + S1x112x224.size a ≤ S1536x224x224.size a) (hD : ∀ a, offD a + S1x112x224.size a ≤ S1536x224x224.size a)

/-- The result images after the upper half of the upsampling of image `n` of the slab is written
    through the window at `offC`, -/
abbrev outA (fo : S1536x224x224.Idx → Elt F .f32) : S1536x224x224.Idx → Elt F .f32 :=
  View.write (Elt F) (OW offC hC).view fo (ReadAs.same.apply (View.read (Elt F) (o0V).view (halfImg (imgOf L X n) 0))) Finset.univ
/-- and after the lower half is then written through the window at `offD`. -/
abbrev outB (fo : S1536x224x224.Idx → Elt F .f32) : S1536x224x224.Idx → Elt F .f32 :=
  View.write (Elt F) (OW offD hD).view (outA L X n offC hC fo) (ReadAs.same.apply (View.read (Elt F) (o1V).view (halfImg (imgOf L X n) 56))) Finset.univ

/-- The input entry an odd row and column of the upsampled image `n` of the slab copies. -/
theorem imgOf_src (hn : n < 48) (j : S1536x224x224.Idx) (hj : (j 0).val = bOf L + n) :
    imgOf L X n (hIdx ((j 1).val / 2) ((j 2).val / 2)) = X (srcIdx j) := by
  have hb : bOf L + 48 ≤ 1536 := bOf_le L
  have h1 : (j 1).val < 224 := (j 1).isLt
  have h2 : (j 2).val < 224 := (j 2).isLt
  unfold imgOf
  refine congrArg X (funext fun a => Fin.ext ?_)
  match a with
  | ⟨0, _⟩ => show min (bOf L + n) 1535 = (j 0).val; omega
  | ⟨1, _⟩ => show min ((j 1).val / 2) 111 = (j 1).val / 2; omega
  | ⟨2, _⟩ => show min ((j 2).val / 2) 111 = (j 2).val / 2; omega

/-- (1) With the images below image `n` of the slab final, writing out the two halves of image `n` makes the images below `n + 1` final. -/
theorem out_done (hC' : offC = ![bOf L + n, 0, 0]) (hD' : offD = ![bOf L + n, 112, 0]) (hn : n < 48)
    (fo : S1536x224x224.Idx → Elt F .f32) (hdone : Done L X fo n) :
    Done L X (outB L X n offC offD hC hD fo) (n + 1) := by
  subst hC' hD'
  intro j hlo hhi
  have h1 : (j 1).val < 224 := (j 1).isLt
  have h2 : (j 2).val < 224 := (j 2).isLt
  by_cases hlt : (j 0).val < bOf L + n
  · -- an earlier image: under neither window
    have hnD : ∀ y, j ≠ owIdx ![bOf L + n, 112, 0] hD y := fun y e => by
      have e0 : (j 0).val = bOf L + n := congrArg (fun k : S1536x224x224.Idx => (k 0).val) e
      omega
    have hnC : ∀ y, j ≠ owIdx ![bOf L + n, 0, 0] hC y := fun y e => by
      have e0 : (j 0).val = bOf L + n := congrArg (fun k : S1536x224x224.Idx => (k 0).val) e
      omega
    show View.write (Elt F) (OW _ hD).view _ _ Finset.univ j = _
    rw [write_OW_not _ hD _ _ j hnD]
    show View.write (Elt F) (OW _ hC).view _ _ Finset.univ j = _
    rw [write_OW_not _ hC _ _ j hnC]
    exact hdone j hlo hlt
  · have h0 : (j 0).val = bOf L + n := by omega
    by_cases hr : (j 1).val < 112
    · -- the upper half: under the first window, not under the second
      have hnD : ∀ y, j ≠ owIdx ![bOf L + n, 112, 0] hD y := fun y e => by
        have e1 : (j 1).val = 112 + (y 0).val := congrArg (fun k : S1536x224x224.Idx => (k 1).val) e
        omega
      have hj : j = owIdx ![bOf L + n, 0, 0] hC (fun a => match a with | ⟨0, _⟩ => ⟨(j 1).val, hr⟩ | ⟨1, _⟩ => ⟨(j 2).val, h2⟩) := by
        funext a; apply Fin.ext
        match a with
        | ⟨0, _⟩ => exact h0
        | ⟨1, _⟩ => show (j 1).val = 0 + (j 1).val; omega
        | ⟨2, _⟩ => show (j 2).val = 0 + (j 2).val; omega
      show View.write (Elt F) (OW _ hD).view _ _ Finset.univ j = _
      rw [write_OW_not _ hD _ _ j hnD]
      show View.write (Elt F) (OW _ hC).view _ _ Finset.univ j = _
      rw [hj, write_OW_emb _ hC, ← hj]
      show halfImg (imgOf L X n) 0 _ = up X j
      unfold halfImg up
      show (if (j 1).val % 2 = 1 ∧ (j 2).val % 2 = 1 then imgOf L X n (hIdx (0 + (j 1).val / 2) ((j 2).val / 2)) else _) = _
      rw [Nat.zero_add, imgOf_src L X n hn j h0]
    · -- the lower half: under the second window
      have hr' : (j 1).val - 112 < 112 := by omega
      have hj : j = owIdx ![bOf L + n, 112, 0] hD (fun a => match a with | ⟨0, _⟩ => ⟨(j 1).val - 112, hr'⟩ | ⟨1, _⟩ => ⟨(j 2).val, h2⟩) := by
        funext a; apply Fin.ext
        match a with
        | ⟨0, _⟩ => exact h0
        | ⟨1, _⟩ => show (j 1).val = 112 + ((j 1).val - 112); omega
        | ⟨2, _⟩ => show (j 2).val = 0 + (j 2).val; omega
      show View.write (Elt F) (OW _ hD).view _ _ Finset.univ j = _
      rw [hj, write_OW_emb _ hD, ← hj]
      show halfImg (imgOf L X n) 56 _ = up X j
      unfold halfImg up
      show (if ((j 1).val - 112) % 2 = 1 ∧ (j 2).val % 2 = 1 then imgOf L X n (hIdx (56 + ((j 1).val - 112) / 2) ((j 2).val / 2)) else _) = _
      have hp : (((j 1).val - 112) % 2 = 1 ∧ (j 2).val % 2 = 1) ↔ ((j 1).val % 2 = 1 ∧ (j 2).val % 2 = 1) := by omega
      have hq : 56 + ((j 1).val - 112) / 2 = (j 1).val / 2 := by omega
      rw [hq, imgOf_src L X n hn j h0]
      exact if_congr hp rfl rfl

/-- (2) The two windows of one image share no element: the second write leaves the first window as the first write left it. -/
theorem out_agree (hC' : offC = ![bOf L + n, 0, 0]) (hD' : offD = ![bOf L + n, 112, 0]) (fo : S1536x224x224.Idx → Elt F .f32) :
    ∀ j ∈ (OW offC hC).view.set, outA L X n offC hC fo j = outB L X n offC offD hC hD fo j := by
  subst hC' hD'
  intro j hj
  obtain ⟨y, e⟩ := mem_OW _ hC j hj
  have hy : (y 0).val < 112 := (y 0).isLt
  have e1 : (j 1).val = 0 + (y 0).val := congrArg (fun k : S1536x224x224.Idx => (k 1).val) e
  refine (write_OW_not _ hD _ _ j fun y' e' => ?_).symm
  have e1' : (j 1).val = 112 + (y' 0).val := congrArg (fun k : S1536x224x224.Idx => (k 1).val) e'
  omega

/-- The same as an equation of assertions: the first window held at either contents. -/
theorem out_agree_pts (hC' : offC = ![bOf L + n, 0, 0]) (hD' : offD = ![bOf L + n, 112, 0]) (fo : S1536x224x224.Idx → Elt F .f32)
    (d : Dev nD) (c : Fin τ.nSC) (i : Fin τ.nSub) :
    ((oV).view.loc (V d c i) ↦[(OW offC hC).view.set]{fullShare} outA L X n offC hC fo : sProp 𝕄)
      = ((oV).view.loc (V d c i) ↦[(OW offC hC).view.set]{fullShare} outB L X n offC offD hC hD fo) :=
  pointsTo_congr (out_agree L X n offC offD hC hD hC' hD' fo)
/-- The same with the location spelt through the window. -/
theorem out_agree_pts' (hC' : offC = ![bOf L + n, 0, 0]) (hD' : offD = ![bOf L + n, 112, 0]) (fo : S1536x224x224.Idx → Elt F .f32)
    (d : Dev nD) (c : Fin τ.nSC) (i : Fin τ.nSub) :
    ((OW offC hC).view.loc (V d c i) ↦[(OW offC hC).view.set]{fullShare} outA L X n offC hC fo : sProp 𝕄)
      = ((OW offC hC).view.loc (V d c i) ↦[(OW offC hC).view.set]{fullShare} outB L X n offC offD hC hD fo) :=
  pointsTo_congr (out_agree L X n offC offD hC hD hC' hD' fo)

end Image

/-! ## The whole slab -/

/-- (3) With all forty-eight images final, the subcore's result slab is the upsampling. -/
theorem done_all (L : grid0.Coords) (X : S1536x112x112.Idx → Elt F .f32) (fo : S1536x224x224.Idx → Elt F .f32) (hdone : Done L X fo 48) :
    ∀ j ∈ (oV).view.setOn (oR L).set, fo j = up X j := by
  intro j hj
  have hj' : j ∈ (oR L).set := by
    have e : (oV).view.setOn (oR L).set = (oR L).set := by
      show ((oR L).set).map (View.whole (main_v1_scv : Ref sig .scVector)).emb = _
      exact Finset.map_refl
    rwa [e] at hj
  have h0 := (Rect.mem_set_unit.mp hj') 0
  exact hdone j h0.1 h0.2

/-- The same as an equation of assertions: the result slab held at what the subcore left is held at the upsampling. -/
theorem done_all_pts (d : Dev nD) (L : grid0.Coords) (X : S1536x112x112.Idx → Elt F .f32) (fo : Buf (Elt F) (oLoc d)) (hdone : Done L X fo 48) :
    (oLoc d ↦[oSet L]{fullShare} fo : sProp 𝕄) = (oLoc d ↦[oSet L]{fullShare} up X) :=
  pointsTo_congr (done_all L X fo hdone)

end Cert.Proof.KB

end
-- ==== Proof.KB.Conds.lean ====
import proofs.«218969_g18416819765331_cont_7to1_658_22_alg».proof.Proof.KB.Pay

/-!
The conditions the image loop tests, in closed form. The loop runs forty-eight trips, one per image
of a subcore's slab. Even trips work through the first pair of buffers, odd trips through the second;
every trip but the first waits for an earlier write-back, and every trip but the last two starts the
read of the image two trips ahead.
-/

namespace Cert.Proof.KB

open Cert.Kernel Cert.Kernel.Gen
open Idealize.ShloMosaic

/-- The image loop has forty-eight trips. -/
theorem t3_trips : Scf.trips k0_t3_loop.lb k0_t3_loop.ub k0_t3_loop.st = 48 := by decide
theorem t3_trips' : k0_t3_loop.trips = 48 := t3_trips

theorem t3_lt (t : Fin k0_t3_loop.trips) : t.val < 48 := lt_of_lt_of_eq t.isLt t3_trips'

/-- The trip is even. -/
theorem cond1_iff : ∀ t : Fin k0_t3_loop.trips, k0_cond1 t = 1#1 ↔ t.val % 2 = 0 := by decide +kernel
/-- The trip is odd. -/
theorem cond5_iff : ∀ t : Fin k0_t3_loop.trips, k0_cond5 t = 1#1 ↔ t.val % 2 = 1 := by decide +kernel
/-- The trip is not the first. -/
theorem cond2_iff : ∀ t : Fin k0_t3_loop.trips, k0_cond2 t = 1#1 ↔ 0 < t.val := by decide +kernel
theorem cond3_iff : ∀ t : Fin k0_t3_loop.trips, k0_cond3 t = 1#1 ↔ 0 < t.val := by decide +kernel
theorem cond6_iff : ∀ t : Fin k0_t3_loop.trips, k0_cond6 t = 1#1 ↔ 0 < t.val := by decide +kernel
theorem cond7_iff : ∀ t : Fin k0_t3_loop.trips, k0_cond7 t = 1#1 ↔ 0 < t.val := by decide +kernel
/-- The trip is not one of the last two. -/
theorem cond4_iff : ∀ t : Fin k0_t3_loop.trips, k0_cond4 t = 1#1 ↔ t.val + 2 < 48 := by decide +kernel
theorem cond8_iff : ∀ t : Fin k0_t3_loop.trips, k0_cond8 t = 1#1 ↔ t.val + 2 < 48 := by decide +kernel

end Cert.Proof.KB
-- ==== Proof.KB.Scatter.lean ====
import proofs.«218969_g18416819765331_cont_7to1_658_22_alg».proof.Proof.KB.Common

/-!
Pure facts about the kernel's indexed scatter stores. Each trip of the inner loops writes seven
sixteen-lane pieces into one odd row of a 112 × 224 staging buffer: store number `n` of trip `k`
puts lane `l` of its piece at row `2k + 1`, column `32n + 1 + 2l`. This file gives the closed form of
an indexed store whose lanes name pairwise distinct elements, the lane values of the row and column
index vectors, the in-range facts the stores need, and the effect of one store and of the seven
stores of a trip as functions on the buffer's contents.
-/

noncomputable section

namespace Cert.Proof.KB

open Cert.Kernel Cert.Kernel.Gen
open Idealize.ShloMosaic

variable {F : FTy → Type} [FloatOps F]

/-! ## A general lemma: an unmasked, non-adding indexed store whose lanes name pairwise distinct indices

The store folds over the lanes in ascending order, each lane overwriting the element its index names.
When no two lanes name one index the order does not matter: the element a lane names ends as that
lane's value, and every element no lane names keeps its old value. -/

section StoreIdxDistinct
variable {s : Shape} {e : EltTy} {d : Fin 1 → Nat}

/-- One lane's write: the element the lane's index names becomes the lane's value. -/
def putLane (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- The unmasked, non-adding store is the fold of the lanes' writes. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (putLane idxs v h) f := by
  unfold storeIdx
  dsimp only
  congr 1
  funext g k
  have h1 : (1#1 : BitVec 1) = 1 := rfl
  rw [if_pos h1]
  funext j
  rw [if_neg (by decide : ¬ (false = true))]
  unfold putLane
  by_cases hc : ∀ a, (j a).val = (idxAt idxs h (Shape.ofLane k) a).val
  · rw [if_pos hc, if_pos hc]
  · rw [if_neg hc, if_neg hc]

/-- An element none of the listed lanes names is untouched by their writes. -/
theorem foldl_putLane_miss (idxs : Fin s.rank → IVec ⟨1, d⟩ 32) (v : Vec F ⟨1, d⟩ e)
    (h : ∀ a x, (idxs a x).toNat < s.size a) (L : List (Fin (d 0))) (g : Vec F s e) (j : s.Idx)
    (hmiss : ∀ k ∈ L, idxAt idxs h (Shape.ofLane k) ≠ j) : (L.foldl (putLane idxs v h) g) j = g j := by
  induction L generalizing g with
  | nil => rfl
  | cons k L ih =>
    rw [List.foldl_cons, ih _ (fun k' hk' => hmiss k' (List.mem_cons_of_mem _ hk'))]
    unfold putLane
    rw [if_neg]
    intro hall
    exact hmiss k (List.mem_cons_self ..) (funext fun a => Fin.ext (hall a).symm)

/-- With pairwise distinct indices, the element a listed lane names ends as that lane's value. -/
theorem foldl_putLane_hit (idxs : Fin s.rank → IVec ⟨1, d⟩ 32) (v : Vec F ⟨1, d⟩ e)
    (h : ∀ a x, (idxs a x).toNat < s.size a)
    (hinj : Function.Injective fun k : Fin (d 0) => idxAt idxs h (Shape.ofLane k))
    (L : List (Fin (d 0))) (g : Vec F s e) (k : Fin (d 0)) (hk : k ∈ L) :
    (L.foldl (putLane idxs v h) g) (idxAt idxs h (Shape.ofLane k)) = v (Shape.ofLane k) := by
  induction L generalizing g with
  | nil => cases hk
  | cons k' L ih =>
    rw [List.foldl_cons]
    by_cases hin : k ∈ L
    · exact ih _ hin
    · have hkk : k = k' := by
        rcases List.mem_cons.1 hk with h' | h'
        · exact h'
        · exact absurd h' hin
      subst hkk
      rw [foldl_putLane_miss idxs v h L _ _ (fun k'' hk'' heq => hin (by have e : k'' = k := hinj heq; rw [← e]; exact hk''))]
      unfold putLane
      rw [if_pos (fun a => rfl)]

/-- **Indexed store, distinct indices, at a named element.** The element lane `k` names holds lane `k`'s
    value after the store. -/
theorem storeIdx_at_lane (f : Vec F s e) (idxs : Fin s.rank → IVec ⟨1, d⟩ 32) (v : Vec F ⟨1, d⟩ e)
    (h : ∀ a x, (idxs a x).toNat < s.size a)
    (hinj : Function.Injective fun k : Fin (d 0) => idxAt idxs h (Shape.ofLane k)) (k : Fin (d 0)) :
    storeIdx f idxs v (fun _ => 1#1) false h (idxAt idxs h (Shape.ofLane k)) = v (Shape.ofLane k) := by
  rw [storeIdx_eq_foldl]
  exact foldl_putLane_hit idxs v h hinj _ f k (List.mem_finRange k)

/-- **Indexed store at an element no lane names.** It keeps its old value (no distinctness needed). -/
theorem storeIdx_off_lanes (f : Vec F s e) (idxs : Fin s.rank → IVec ⟨1, d⟩ 32) (v : Vec F ⟨1, d⟩ e)
    (h : ∀ a x, (idxs a x).toNat < s.size a) (j : s.Idx)
    (hmiss : ∀ k : Fin (d 0), idxAt idxs h (Shape.ofLane k) ≠ j) :
    storeIdx f idxs v (fun _ => 1#1) false h j = f j := by
  rw [storeIdx_eq_foldl]
  exact foldl_putLane_miss idxs v h _ f j (fun k _ => hmiss k)

/-- **Indexed store, distinct indices, in closed form** against a lane finder: if `lane j` is the lane
    naming `j` when there is one (and `none` otherwise), the store reads that lane's value there and
    the old value elsewhere. -/
theorem storeIdx_eq_of_finder (f : Vec F s e) (idxs : Fin s.rank → IVec ⟨1, d⟩ 32) (v : Vec F ⟨1, d⟩ e)
    (h : ∀ a x, (idxs a x).toNat < s.size a)
    (hinj : Function.Injective fun k : Fin (d 0) => idxAt idxs h (Shape.ofLane k))
    (lane : s.Idx → Option (Fin (d 0)))
    (hsome : ∀ j k, lane j = some k → idxAt idxs h (Shape.ofLane k) = j)
    (hnone : ∀ j, lane j = none → ∀ k, idxAt idxs h (Shape.ofLane k) ≠ j) :
    storeIdx f idxs v (fun _ => 1#1) false h
      = fun j => match lane j with | some k => v (Shape.ofLane k) | none => f j := by
  funext j
  cases hl : lane j with
  | some k =>
    show _ = v (Shape.ofLane k)
    rw [← hsome j k hl]
    exact storeIdx_at_lane f idxs v h hinj k
  | none => exact storeIdx_off_lanes f idxs v h j (hnone j hl)

end StoreIdxDistinct

/-! ## Lane values of the index vectors -/

/-- The row word of trip `k`: `2k + 1` computed in 32-bit words. -/
abbrev rowWord (k : Nat) : BitVec 32 := Scalar.addi (Scalar.muli 2#32 (Scf.iv 0#32 1#32 k)) 1#32

/-- The row vector of trip `k`: every lane holds the row word. -/
abbrev rowVec (k : Nat) : IVec S16 32 := broadcast S16 (rowWord k)

/-- The column vector with base `c`: lane `l` holds `c + 2l`. -/
abbrev colVec (c : BitVec 32) : IVec S16 32 := addi (broadcast S16 c) k0_pay57

theorem t4_trips : k0_t4_loop.trips = 56 := by decide
theorem t5_trips : k0_t5_loop.trips = 56 := by decide
theorem t6_trips : k0_t6_loop.trips = 56 := by decide
theorem t7_trips : k0_t7_loop.trips = 56 := by decide

theorem lane_lt (x : S16.Idx) : (x 0).val < 16 := (x 0).isLt

/-- Lane `l` of the doubled lane numbers is `2l`. -/
theorem pay57_toNat (x : S16.Idx) : (k0_pay57 x).toNat = 2 * (x 0).val := by
  have hx := lane_lt x
  have h : k0_pay57 x = 2#32 * BitVec.ofNat 32 (x 0).val := by
    simp [k0_pay57, muli, IntOp.muli, broadcast, iota]
  rw [h, BitVec.toNat_mul, BitVec.toNat_ofNat, BitVec.toNat_ofNat]
  omega

/-- Lane `l` of a column vector with base `c` is `c + 2l`, when that does not wrap. -/
theorem colVec_toNat (c : BitVec 32) (hc : c.toNat + 30 < 2 ^ 32) (x : S16.Idx) :
    (colVec c x).toNat = c.toNat + 2 * (x 0).val := by
  have hx := lane_lt x
  have h57 := pay57_toNat x
  simp only [colVec, addi, IntOp.addi, broadcast, BitVec.toNat_add, h57]
  omega

/-- The row word of trip `k` is `2k + 1`, when that does not wrap. -/
theorem rowWord_toNat (k : Nat) (hk : 2 * k + 1 < 2 ^ 32) : (rowWord k).toNat = 2 * k + 1 := by
  simp only [rowWord, Scalar.addi, Scalar.muli, IntOp.addi, IntOp.muli, Scf.iv, BitVec.toNat_add, BitVec.toNat_mul,
    BitVec.toNat_ofNat]
  omega

theorem rowVec_toNat (k : Nat) (hk : 2 * k + 1 < 2 ^ 32) (x : S16.Idx) : (rowVec k x).toNat = 2 * k + 1 :=
  rowWord_toNat k hk

theorem rowVec_t4 (k : Fin k0_t4_loop.trips) (x : S16.Idx) : (rowVec k x).toNat = 2 * k.val + 1 :=
  rowVec_toNat _ (by have := lt_of_lt_of_eq k.isLt t4_trips; omega) x
theorem rowVec_t5 (k : Fin k0_t5_loop.trips) (x : S16.Idx) : (rowVec k x).toNat = 2 * k.val + 1 :=
  rowVec_toNat _ (by have := lt_of_lt_of_eq k.isLt t5_trips; omega) x
theorem rowVec_t6 (k : Fin k0_t6_loop.trips) (x : S16.Idx) : (rowVec k x).toNat = 2 * k.val + 1 :=
  rowVec_toNat _ (by have := lt_of_lt_of_eq k.isLt t6_trips; omega) x
theorem rowVec_t7 (k : Fin k0_t7_loop.trips) (x : S16.Idx) : (rowVec k x).toNat = 2 * k.val + 1 :=
  rowVec_toNat _ (by have := lt_of_lt_of_eq k.isLt t7_trips; omega) x

/-! ## The column payloads are column vectors, and the side conditions the body assumes hold -/

theorem pay2_eq : k0_pay2 k0_pay57 = colVec 1#32 := rfl
theorem pay4_eq : k0_pay4 k0_pay57 = colVec 33#32 := rfl
theorem pay6_eq : k0_pay6 k0_pay57 = colVec 65#32 := rfl
theorem pay8_eq : k0_pay8 k0_pay57 = colVec 97#32 := rfl
theorem pay10_eq : k0_pay10 k0_pay57 = colVec 129#32 := rfl
theorem pay22_eq : k0_pay22 k0_pay57 = colVec 161#32 := rfl
theorem pay24_eq : k0_pay24 k0_pay57 = colVec 193#32 := rfl
theorem pay12_eq : k0_pay12 k0_pay57 = colVec 1#32 := rfl
theorem pay14_eq : k0_pay14 k0_pay57 = colVec 33#32 := rfl
theorem pay16_eq : k0_pay16 k0_pay57 = colVec 65#32 := rfl
theorem pay18_eq : k0_pay18 k0_pay57 = colVec 97#32 := rfl
theorem pay20_eq : k0_pay20 k0_pay57 = colVec 129#32 := rfl
theorem pay26_eq : k0_pay26 k0_pay57 = colVec 161#32 := rfl
theorem pay28_eq : k0_pay28 k0_pay57 = colVec 193#32 := rfl
theorem pay30_eq : k0_pay30 k0_pay57 = colVec 1#32 := rfl
theorem pay32_eq : k0_pay32 k0_pay57 = colVec 33#32 := rfl
theorem pay34_eq : k0_pay34 k0_pay57 = colVec 65#32 := rfl
theorem pay36_eq : k0_pay36 k0_pay57 = colVec 97#32 := rfl
theorem pay38_eq : k0_pay38 k0_pay57 = colVec 129#32 := rfl
theorem pay50_eq : k0_pay50 k0_pay57 = colVec 161#32 := rfl
theorem pay52_eq : k0_pay52 k0_pay57 = colVec 193#32 := rfl
theorem pay40_eq : k0_pay40 k0_pay57 = colVec 1#32 := rfl
theorem pay42_eq : k0_pay42 k0_pay57 = colVec 33#32 := rfl
theorem pay44_eq : k0_pay44 k0_pay57 = colVec 65#32 := rfl
theorem pay46_eq : k0_pay46 k0_pay57 = colVec 97#32 := rfl
theorem pay48_eq : k0_pay48 k0_pay57 = colVec 129#32 := rfl
theorem pay54_eq : k0_pay54 k0_pay57 = colVec 161#32 := rfl
theorem pay56_eq : k0_pay56 k0_pay57 = colVec 193#32 := rfl

/-- Rows `2k + 1 ≤ 111` and columns `c + 2l ≤ 223` are inside the 112 × 224 staging buffer. -/
theorem idx_inb (k : Nat) (hk : k < 56) (c : BitVec 32) (hc : c.toNat + 30 < 224) :
    ∀ a x, ((![rowVec k, colVec c] : Fin 2 → IVec S16 32) a x).toNat < S112x224.size a := by
  intro a x
  have hx := lane_lt x
  match a with
  | ⟨0, _⟩ =>
    show (rowVec k x).toNat < 112
    rw [rowVec_toNat k (by omega) x]; omega
  | ⟨1, _⟩ =>
    show (colVec c x).toNat < 224
    rw [colVec_toNat c (by omega) x]; omega

theorem chk1_holds (t : Fin k0_t3_loop.trips) (k : Fin k0_t4_loop.trips) : k0_chk1 t (rowVec k) (k0_pay2 k0_pay57) :=
  fun _ => idx_inb k (lt_of_lt_of_eq k.isLt t4_trips) 1#32 (by decide)
theorem chk2_holds (t : Fin k0_t3_loop.trips) (k : Fin k0_t4_loop.trips) : k0_chk2 t (rowVec k) (k0_pay4 k0_pay57) :=
  fun _ => idx_inb k (lt_of_lt_of_eq k.isLt t4_trips) 33#32 (by decide)
theorem chk3_holds (t : Fin k0_t3_loop.trips) (k : Fin k0_t4_loop.trips) : k0_chk3 t (rowVec k) (k0_pay6 k0_pay57) :=
  fun _ => idx_inb k (lt_of_lt_of_eq k.isLt t4_trips) 65#32 (by decide)
theorem chk4_holds (t : Fin k0_t3_loop.trips) (k : Fin k0_t4_loop.trips) : k0_chk4 t (rowVec k) (k0_pay8 k0_pay57) :=
  fun _ => idx_inb k (lt_of_lt_of_eq k.isLt t4_trips) 97#32 (by decide)
theorem chk5_holds (t : Fin k0_t3_loop.trips) (k : Fin k0_t4_loop.trips) : k0_chk5 t (rowVec k) (k0_pay10 k0_pay57) :=
  fun _ => idx_inb k (lt_of_lt_of_eq k.isLt t4_trips) 129#32 (by decide)
theorem chk6_holds (t : Fin k0_t3_loop.trips) (k : Fin k0_t4_loop.trips) : k0_chk6 t (rowVec k) (k0_pay22 k0_pay57) :=
  fun _ => idx_inb k (lt_of_lt_of_eq k.isLt t4_trips) 161#32 (by decide)
theorem chk7_holds (t : Fin k0_t3_loop.trips) (k : Fin k0_t4_loop.trips) : k0_chk7 t (rowVec k) (k0_pay24 k0_pay57) :=
  fun _ => idx_inb k (lt_of_lt_of_eq k.isLt t4_trips) 193#32 (by decide)
theorem chk8_holds (t : Fin k0_t3_loop.trips) (k : Fin k0_t5_loop.trips) : k0_chk8 t (rowVec k) (k0_pay12 k0_pay57) :=
  fun _ => idx_inb k (lt_of_lt_of_eq k.isLt t5_trips) 1#32 (by decide)
theorem chk9_holds (t : Fin k0_t3_loop.trips) (k : Fin k0_t5_loop.trips) : k0_chk9 t (rowVec k) (k0_pay14 k0_pay57) :=
  fun _ => idx_inb k (lt_of_lt_of_eq k.isLt t5_trips) 33#32 (by decide)
theorem chk10_holds (t : Fin k0_t3_loop.trips) (k : Fin k0_t5_loop.trips) : k0_chk10 t (rowVec k) (k0_pay16 k0_pay57) :=
  fun _ => idx_inb k (lt_of_lt_of_eq k.isLt t5_trips) 65#32 (by decide)
theorem chk11_holds (t : Fin k0_t3_loop.trips) (k : Fin k0_t5_loop.trips) : k0_chk11 t (rowVec k) (k0_pay18 k0_pay57) :=
  fun _ => idx_inb k (lt_of_lt_of_eq k.isLt t5_trips) 97#32 (by decide)
theorem chk12_holds (t : Fin k0_t3_loop.trips) (k : Fin k0_t5_loop.trips) : k0_chk12 t (rowVec k) (k0_pay20 k0_pay57) :=
  fun _ => idx_inb k (lt_of_lt_of_eq k.isLt t5_trips) 129#32 (by decide)
theorem chk13_holds (t : Fin k0_t3_loop.trips) (k : Fin k0_t5_loop.trips) : k0_chk13 t (rowVec k) (k0_pay26 k0_pay57) :=
  fun _ => idx_inb k (lt_of_lt_of_eq k.isLt t5_trips) 161#32 (by decide)
theorem chk14_holds (t : Fin k0_t3_loop.trips) (k : Fin k0_t5_loop.trips) : k0_chk14 t (rowVec k) (k0_pay28 k0_pay57) :=
  fun _ => idx_inb k (lt_of_lt_of_eq k.isLt t5_trips) 193#32 (by decide)
theorem chk15_holds (t : Fin k0_t3_loop.trips) (k : Fin k0_t6_loop.trips) : k0_chk15 t (rowVec k) (k0_pay30 k0_pay57) :=
  fun _ => idx_inb k (lt_of_lt_of_eq k.isLt t6_trips) 1#32 (by decide)
theorem chk16_holds (t : Fin k0_t3_loop.trips) (k : Fin k0_t6_loop.trips) : k0_chk16 t (rowVec k) (k0_pay32 k0_pay57) :=
  fun _ => idx_inb k (lt_of_lt_of_eq k.isLt t6_trips) 33#32 (by decide)
theorem chk17_holds (t : Fin k0_t3_loop.trips) (k : Fin k0_t6_loop.trips) : k0_chk17 t (rowVec k) (k0_pay34 k0_pay57) :=
  fun _ => idx_inb k (lt_of_lt_of_eq k.isLt t6_trips) 65#32 (by decide)
theorem chk18_holds (t : Fin k0_t3_loop.trips) (k : Fin k0_t6_loop.trips) : k0_chk18 t (rowVec k) (k0_pay36 k0_pay57) :=
  fun _ => idx_inb k (lt_of_lt_of_eq k.isLt t6_trips) 97#32 (by decide)
theorem chk19_holds (t : Fin k0_t3_loop.trips) (k : Fin k0_t6_loop.trips) : k0_chk19 t (rowVec k) (k0_pay38 k0_pay57) :=
  fun _ => idx_inb k (lt_of_lt_of_eq k.isLt t6_trips) 129#32 (by decide)
theorem chk20_holds (t : Fin k0_t3_loop.trips) (k : Fin k0_t6_loop.trips) : k0_chk20 t (rowVec k) (k0_pay50 k0_pay57) :=
  fun _ => idx_inb k (lt_of_lt_of_eq k.isLt t6_trips) 161#32 (by decide)
theorem chk21_holds (t : Fin k0_t3_loop.trips) (k : Fin k0_t6_loop.trips) : k0_chk21 t (rowVec k) (k0_pay52 k0_pay57) :=
  fun _ => idx_inb k (lt_of_lt_of_eq k.isLt t6_trips) 193#32 (by decide)
theorem chk22_holds (t : Fin k0_t3_loop.trips) (k : Fin k0_t7_loop.trips) : k0_chk22 t (rowVec k) (k0_pay40 k0_pay57) :=
  fun _ => idx_inb k (lt_of_lt_of_eq k.isLt t7_trips) 1#32 (by decide)
theorem chk23_holds (t : Fin k0_t3_loop.trips) (k : Fin k0_t7_loop.trips) : k0_chk23 t (rowVec k) (k0_pay42 k0_pay57) :=
  fun _ => idx_inb k (lt_of_lt_of_eq k.isLt t7_trips) 33#32 (by decide)
theorem chk24_holds (t : Fin k0_t3_loop.trips) (k : Fin k0_t7_loop.trips) : k0_chk24 t (rowVec k) (k0_pay44 k0_pay57) :=
  fun _ => idx_inb k (lt_of_lt_of_eq k.isLt t7_trips) 65#32 (by decide)
theorem chk25_holds (t : Fin k0_t3_loop.trips) (k : Fin k0_t7_loop.trips) : k0_chk25 t (rowVec k) (k0_pay46 k0_pay57) :=
  fun _ => idx_inb k (lt_of_lt_of_eq k.isLt t7_trips) 97#32 (by decide)
theorem chk26_holds (t : Fin k0_t3_loop.trips) (k : Fin k0_t7_loop.trips) : k0_chk26 t (rowVec k) (k0_pay48 k0_pay57) :=
  fun _ => idx_inb k (lt_of_lt_of_eq k.isLt t7_trips) 129#32 (by decide)
theorem chk27_holds (t : Fin k0_t3_loop.trips) (k : Fin k0_t7_loop.trips) : k0_chk27 t (rowVec k) (k0_pay54 k0_pay57) :=
  fun _ => idx_inb k (lt_of_lt_of_eq k.isLt t7_trips) 161#32 (by decide)
theorem chk28_holds (t : Fin k0_t3_loop.trips) (k : Fin k0_t7_loop.trips) : k0_chk28 t (rowVec k) (k0_pay56 k0_pay57) :=
  fun _ => idx_inb k (lt_of_lt_of_eq k.isLt t7_trips) 193#32 (by decide)

/-! ## One store as a function on the staging buffer's contents -/

/-- Two indices of a rank-two shape are equal when their coordinates are. -/
theorem idx2_ext {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

/-- Lane `m mod 16` of a sixteen-lane vector, as its index. -/
def lane16 (m : Nat) : S16.Idx := Shape.ofLane (d := ![16]) ⟨m % 16, Nat.mod_lt _ (by decide)⟩

theorem lane16_val (m : Nat) : (lane16 m 0).val = m % 16 := rfl

/-- One store with row word `r = R` and column base `c = C`: lane `l` lands at `(R, C + 2l)`, so the
    store reads the piece at row `R` on the sixteen columns `C, C + 2, …, C + 30` and the old contents
    elsewhere. -/
theorem store_one (f : Vec F S112x224 .f32) (r c : BitVec 32) (R C : Nat) (hr : r.toNat = R) (hc : c.toNat = C)
    (hC : C + 30 < 224) (v : Vec F S16 .f32)
    (h : ∀ a x, ((![broadcast S16 r, colVec c] : Fin 2 → IVec S16 32) a x).toNat < S112x224.size a) :
    storeIdx f ![broadcast S16 r, colVec c] v (fun _ => 1#1) false h
      = fun j => if (j 0).val = R ∧ C ≤ (j 1).val ∧ (j 1).val ≤ C + 30 ∧ ((j 1).val - C) % 2 = 0
          then v (lane16 (((j 1).val - C) / 2)) else f j := by
  have hrow : ∀ k : Fin 16, (idxAt (s := S112x224) ![broadcast S16 r, colVec c] h (Shape.ofLane (d := ![16]) k) 0).val = R :=
    fun _ => hr
  have hcol : ∀ k : Fin 16, (idxAt (s := S112x224) ![broadcast S16 r, colVec c] h (Shape.ofLane (d := ![16]) k) 1).val
      = C + 2 * k.val := by
    intro k
    show (colVec c (Shape.ofLane (d := ![16]) k)).toNat = _
    rw [colVec_toNat c (by omega), hc]; rfl
  have hinj : Function.Injective fun k : Fin 16 =>
      idxAt (s := S112x224) ![broadcast S16 r, colVec c] h (Shape.ofLane (d := ![16]) k) := by
    intro k k' hkk
    have h1 := congrArg (fun i : S112x224.Idx => (i 1).val) hkk
    simp only [hcol] at h1
    exact Fin.ext (by omega)
  funext j
  by_cases hj : (j 0).val = R ∧ C ≤ (j 1).val ∧ (j 1).val ≤ C + 30 ∧ ((j 1).val - C) % 2 = 0
  · rw [if_pos hj]
    obtain ⟨h0, h1, h2, h3⟩ := hj
    have hm : ((j 1).val - C) / 2 < 16 := by omega
    have hjk : idxAt (s := S112x224) ![broadcast S16 r, colVec c] h
        (Shape.ofLane (d := ![16]) (⟨((j 1).val - C) / 2, hm⟩ : Fin 16)) = j :=
      idx2_ext _ _ (by rw [hrow]; exact h0.symm) (by rw [hcol]; show C + 2 * (((j 1).val - C) / 2) = (j 1).val; omega)
    have hl : lane16 (((j 1).val - C) / 2) = Shape.ofLane (d := ![16]) (⟨((j 1).val - C) / 2, hm⟩ : Fin 16) := by
      unfold lane16; congr 1; exact Fin.ext (Nat.mod_eq_of_lt hm)
    have key := storeIdx_at_lane f ![broadcast S16 r, colVec c] v h hinj (⟨((j 1).val - C) / 2, hm⟩ : Fin 16)
    rw [hjk] at key
    rw [hl]; exact key
  · rw [if_neg hj]
    apply storeIdx_off_lanes
    intro k hk
    apply hj
    have e0 := hrow k
    have e1 := hcol k
    rw [hk] at e0 e1
    have := k.isLt
    refine ⟨e0, ?_, ?_, ?_⟩ <;> omega

/-- The store of piece `n` (`n < 7`) of a trip: column base `32n + 1`. The sixteen columns are the odd
    columns of the `n`-th block of thirty-two, and lane `l` is read back as lane `(col / 2) mod 16`. -/
theorem store_piece (f : Vec F S112x224 .f32) (r c : BitVec 32) (R n : Nat) (hr : r.toNat = R) (hn : n < 7)
    (hc : c.toNat = 32 * n + 1) (v : Vec F S16 .f32)
    (h : ∀ a x, ((![broadcast S16 r, colVec c] : Fin 2 → IVec S16 32) a x).toNat < S112x224.size a) :
    storeIdx f ![broadcast S16 r, colVec c] v (fun _ => 1#1) false h
      = fun j => if (j 0).val = R ∧ 32 * n + 1 ≤ (j 1).val ∧ (j 1).val ≤ 32 * n + 31 ∧ (j 1).val % 2 = 1
          then v (lane16 ((j 1).val / 2)) else f j := by
  rw [store_one f r c R (32 * n + 1) hr hc (by omega) v h]
  funext j
  by_cases hj : (j 0).val = R ∧ 32 * n + 1 ≤ (j 1).val ∧ (j 1).val ≤ 32 * n + 31 ∧ (j 1).val % 2 = 1
  · have hj' : (j 0).val = R ∧ 32 * n + 1 ≤ (j 1).val ∧ (j 1).val ≤ 32 * n + 1 + 30 ∧ ((j 1).val - (32 * n + 1)) % 2 = 0 := by
      obtain ⟨h0, h1, h2, h3⟩ := hj
      refine ⟨h0, h1, ?_, ?_⟩ <;> omega
    rw [if_pos hj, if_pos hj']
    congr 1
    funext a
    match a with
    | ⟨0, _⟩ =>
      apply Fin.ext
      show ((j 1).val - (32 * n + 1)) / 2 % 16 = (j 1).val / 2 % 16
      obtain ⟨h0, h1, h2, h3⟩ := hj
      omega
  · have hj' : ¬ ((j 0).val = R ∧ 32 * n + 1 ≤ (j 1).val ∧ (j 1).val ≤ 32 * n + 1 + 30 ∧ ((j 1).val - (32 * n + 1)) % 2 = 0) := by
      intro ⟨h0, h1, h2, h3⟩
      apply hj
      refine ⟨h0, h1, ?_, ?_⟩ <;> omega
    rw [if_neg hj, if_neg hj']

/-! ## The seven stores of one trip -/

/-- One of seven by number (the last for every number from six on). -/
def pick7 {α : Type} (v0 v1 v2 v3 v4 v5 v6 : α) : Nat → α
  | 0 => v0 | 1 => v1 | 2 => v2 | 3 => v3 | 4 => v4 | 5 => v5 | _ => v6

/-- The seven stores of a trip with row word `r = R`, column bases `1, 33, …, 193` and pieces `v0 … v6`:
    together they fill the odd columns of row `R` — column `c` reads lane `(c / 2) mod 16` of piece
    `c / 32` — and leave everything else as it was. -/
theorem trip_stores (f : Vec F S112x224 .f32) (r : BitVec 32) (R : Nat) (hr : r.toNat = R)
    (v0 v1 v2 v3 v4 v5 v6 : Vec F S16 .f32)
    (h0 : ∀ a x, ((![broadcast S16 r, colVec 1#32] : Fin 2 → IVec S16 32) a x).toNat < S112x224.size a)
    (h1 : ∀ a x, ((![broadcast S16 r, colVec 33#32] : Fin 2 → IVec S16 32) a x).toNat < S112x224.size a)
    (h2 : ∀ a x, ((![broadcast S16 r, colVec 65#32] : Fin 2 → IVec S16 32) a x).toNat < S112x224.size a)
    (h3 : ∀ a x, ((![broadcast S16 r, colVec 97#32] : Fin 2 → IVec S16 32) a x).toNat < S112x224.size a)
    (h4 : ∀ a x, ((![broadcast S16 r, colVec 129#32] : Fin 2 → IVec S16 32) a x).toNat < S112x224.size a)
    (h5 : ∀ a x, ((![broadcast S16 r, colVec 161#32] : Fin 2 → IVec S16 32) a x).toNat < S112x224.size a)
    (h6 : ∀ a x, ((![broadcast S16 r, colVec 193#32] : Fin 2 → IVec S16 32) a x).toNat < S112x224.size a) :
    storeIdx (storeIdx (storeIdx (storeIdx (storeIdx (storeIdx (storeIdx f ![broadcast S16 r, colVec 1#32] v0 (fun _ => 1#1) false h0) ![broadcast S16 r, colVec 33#32] v1 (fun _ => 1#1) false h1) ![broadcast S16 r, colVec 65#32] v2 (fun _ => 1#1) false h2) ![broadcast S16 r, colVec 97#32] v3 (fun _ => 1#1) false h3) ![broadcast S16 r, colVec 129#32] v4 (fun _ => 1#1) false h4) ![broadcast S16 r, colVec 161#32] v5 (fun _ => 1#1) false h5) ![broadcast S16 r, colVec 193#32] v6 (fun _ => 1#1) false h6
      = fun j => if (j 0).val = R ∧ (j 1).val % 2 = 1
          then pick7 v0 v1 v2 v3 v4 v5 v6 ((j 1).val / 32) (lane16 ((j 1).val / 2)) else f j := by
  rw [store_piece _ r 193#32 R 6 hr (by omega) rfl v6 h6,
    store_piece _ r 161#32 R 5 hr (by omega) rfl v5 h5,
    store_piece _ r 129#32 R 4 hr (by omega) rfl v4 h4,
    store_piece _ r 97#32 R 3 hr (by omega) rfl v3 h3,
    store_piece _ r 65#32 R 2 hr (by omega) rfl v2 h2,
    store_piece _ r 33#32 R 1 hr (by omega) rfl v1 h1,
    store_piece _ r 1#32 R 0 hr (by omega) rfl v0 h0]
  funext j
  have hj1 : (j 1).val < 224 := (j 1).isLt
  beta_reduce
  split_ifs <;> first
    | rfl
    | (exfalso; omega)
    | (have hq : (j 1).val / 32 = 0 := by omega
       rw [hq]; rfl)
    | (have hq : (j 1).val / 32 = 1 := by omega
       rw [hq]; rfl)
    | (have hq : (j 1).val / 32 = 2 := by omega
       rw [hq]; rfl)
    | (have hq : (j 1).val / 32 = 3 := by omega
       rw [hq]; rfl)
    | (have hq : (j 1).val / 32 = 4 := by omega
       rw [hq]; rfl)
    | (have hq : (j 1).val / 32 = 5 := by omega
       rw [hq]; rfl)
    | (have hq : (j 1).val / 32 = 6 := by omega
       rw [hq]; rfl)

/-! ## The same at the kernel's own names: one site, and the trips of the four inner loops -/

/-- One store of trip `k` with column base `c = 32n + 1`. -/
theorem store_site (f : Vec F S112x224 .f32) (k : Nat) (hk : k < 56) (c : BitVec 32) (n : Nat) (hn : n < 7)
    (hc : c.toNat = 32 * n + 1) (v : Vec F S16 .f32)
    (h : ∀ a x, ((![rowVec k, colVec c] : Fin 2 → IVec S16 32) a x).toNat < S112x224.size a) :
    storeIdx f ![rowVec k, colVec c] v (fun _ => 1#1) false h
      = fun j => if (j 0).val = 2 * k + 1 ∧ 32 * n + 1 ≤ (j 1).val ∧ (j 1).val ≤ 32 * n + 31 ∧ (j 1).val % 2 = 1
          then v (lane16 ((j 1).val / 2)) else f j :=
  store_piece f (rowWord k) c (2 * k + 1) n (rowWord_toNat k (by omega)) hn hc v h

/-- The seven stores of trip `k` of the first inner loop fill the odd columns of row `2k + 1`. -/
theorem trip_t4 (f : Vec F S112x224 .f32) (k : Fin k0_t4_loop.trips) (v0 v1 v2 v3 v4 v5 v6 : Vec F S16 .f32)
    (h0 : ∀ a x, ((![rowVec k, k0_pay2 k0_pay57] : Fin 2 → IVec S16 32) a x).toNat < S112x224.size a)
    (h1 : ∀ a x, ((![rowVec k, k0_pay4 k0_pay57] : Fin 2 → IVec S16 32) a x).toNat < S112x224.size a)
    (h2 : ∀ a x, ((![rowVec k, k0_pay6 k0_pay57] : Fin 2 → IVec S16 32) a x).toNat < S112x224.size a)
    (h3 : ∀ a x, ((![rowVec k, k0_pay8 k0_pay57] : Fin 2 → IVec S16 32) a x).toNat < S112x224.size a)
    (h4 : ∀ a x, ((![rowVec k, k0_pay10 k0_pay57] : Fin 2 → IVec S16 32) a x).toNat < S112x224.size a)
    (h5 : ∀ a x, ((![rowVec k, k0_pay22 k0_pay57] : Fin 2 → IVec S16 32) a x).toNat < S112x224.size a)
    (h6 : ∀ a x, ((![rowVec k, k0_pay24 k0_pay57] : Fin 2 → IVec S16 32) a x).toNat < S112x224.size a) :
    storeIdx (storeIdx (storeIdx (storeIdx (storeIdx (storeIdx (storeIdx f ![rowVec k, k0_pay2 k0_pay57] v0 (fun _ => 1#1) false h0) ![rowVec k, k0_pay4 k0_pay57] v1 (fun _ => 1#1) false h1) ![rowVec k, k0_pay6 k0_pay57] v2 (fun _ => 1#1) false h2) ![rowVec k, k0_pay8 k0_pay57] v3 (fun _ => 1#1) false h3) ![rowVec k, k0_pay10 k0_pay57] v4 (fun _ => 1#1) false h4) ![rowVec k, k0_pay22 k0_pay57] v5 (fun _ => 1#1) false h5) ![rowVec k, k0_pay24 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t4_trips; omega))
    v0 v1 v2 v3 v4 v5 v6 h0 h1 h2 h3 h4 h5 h6

/-- The seven stores of trip `k` of the second inner loop fill the odd columns of row `2k + 1`. -/
theorem trip_t5 (f : Vec F S112x224 .f32) (k : Fin k0_t5_loop.trips) (v0 v1 v2 v3 v4 v5 v6 : Vec F S16 .f32)
    (h0 : ∀ a x, ((![rowVec k, k0_pay12 k0_pay57] : Fin 2 → IVec S16 32) a x).toNat < S112x224.size a)
    (h1 : ∀ a x, ((![rowVec k, k0_pay14 k0_pay57] : Fin 2 → IVec S16 32) a x).toNat < S112x224.size a)
    (h2 : ∀ a x, ((![rowVec k, k0_pay16 k0_pay57] : Fin 2 → IVec S16 32) a x).toNat < S112x224.size a)
    (h3 : ∀ a x, ((![rowVec k, k0_pay18 k0_pay57] : Fin 2 → IVec S16 32) a x).toNat < S112x224.size a)
    (h4 : ∀ a x, ((![rowVec k, k0_pay20 k0_pay57] : Fin 2 → IVec S16 32) a x).toNat < S112x224.size a)
    (h5 : ∀ a x, ((![rowVec k, k0_pay26 k0_pay57] : Fin 2 → IVec S16 32) a x).toNat < S112x224.size a)
    (h6 : ∀ a x, ((![rowVec k, k0_pay28 k0_pay57] : Fin 2 → IVec S16 32) a x).toNat < S112x224.size a) :
    storeIdx (storeIdx (storeIdx (storeIdx (storeIdx (storeIdx (storeIdx f ![rowVec k, k0_pay12 k0_pay57] v0 (fun _ => 1#1) false h0) ![rowVec k, k0_pay14 k0_pay57] v1 (fun _ => 1#1) false h1) ![rowVec k, k0_pay16 k0_pay57] v2 (fun _ => 1#1) false h2) ![rowVec k, k0_pay18 k0_pay57] v3 (fun _ => 1#1) false h3) ![rowVec k, k0_pay20 k0_pay57] v4 (fun _ => 1#1) false h4) ![rowVec k, k0_pay26 k0_pay57] v5 (fun _ => 1#1) false h5) ![rowVec k, k0_pay28 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t5_trips; omega))
    v0 v1 v2 v3 v4 v5 v6 h0 h1 h2 h3 h4 h5 h6

/-- The seven stores of trip `k` of the third inner loop fill the odd columns of row `2k + 1`. -/
theorem trip_t6 (f : Vec F S112x224 .f32) (k : Fin k0_t6_loop.trips) (v0 v1 v2 v3 v4 v5 v6 : Vec F S16 .f32)
    (h0 : ∀ a x, ((![rowVec k, k0_pay30 k0_pay57] : Fin 2 → IVec S16 32) a x).toNat < S112x224.size a)
    (h1 : ∀ a x, ((![rowVec k, k0_pay32 k0_pay57] : Fin 2 → IVec S16 32) a x).toNat < S112x224.size a)
    (h2 : ∀ a x, ((![rowVec k, k0_pay34 k0_pay57] : Fin 2 → IVec S16 32) a x).toNat < S112x224.size a)
    (h3 : ∀ a x, ((![rowVec k, k0_pay36 k0_pay57] : Fin 2 → IVec S16 32) a x).toNat < S112x224.size a)
    (h4 : ∀ a x, ((![rowVec k, k0_pay38 k0_pay57] : Fin 2 → IVec S16 32) a x).toNat < S112x224.size a)
    (h5 : ∀ a x, ((![rowVec k, k0_pay50 k0_pay57] : Fin 2 → IVec S16 32) a x).toNat < S112x224.size a)
    (h6 : ∀ a x, ((![rowVec k, k0_pay52 k0_pay57] : Fin 2 → IVec S16 32) a x).toNat < S112x224.size a) :
    storeIdx (storeIdx (storeIdx (storeIdx (storeIdx (storeIdx (storeIdx f ![rowVec k, k0_pay30 k0_pay57] v0 (fun _ => 1#1) false h0) ![rowVec k, k0_pay32 k0_pay57] v1 (fun _ => 1#1) false h1) ![rowVec k, k0_pay34 k0_pay57] v2 (fun _ => 1#1) false h2) ![rowVec k, k0_pay36 k0_pay57] v3 (fun _ => 1#1) false h3) ![rowVec k, k0_pay38 k0_pay57] v4 (fun _ => 1#1) false h4) ![rowVec k, k0_pay50 k0_pay57] v5 (fun _ => 1#1) false h5) ![rowVec k, k0_pay52 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t6_trips; omega))
    v0 v1 v2 v3 v4 v5 v6 h0 h1 h2 h3 h4 h5 h6

/-- The seven stores of trip `k` of the fourth inner loop fill the odd columns of row `2k + 1`. -/
theorem trip_t7 (f : Vec F S112x224 .f32) (k : Fin k0_t7_loop.trips) (v0 v1 v2 v3 v4 v5 v6 : Vec F S16 .f32)
    (h0 : ∀ a x, ((![rowVec k, k0_pay40 k0_pay57] : Fin 2 → IVec S16 32) a x).toNat < S112x224.size a)
    (h1 : ∀ a x, ((![rowVec k, k0_pay42 k0_pay57] : Fin 2 → IVec S16 32) a x).toNat < S112x224.size a)
    (h2 : ∀ a x, ((![rowVec k, k0_pay44 k0_pay57] : Fin 2 → IVec S16 32) a x).toNat < S112x224.size a)
    (h3 : ∀ a x, ((![rowVec k, k0_pay46 k0_pay57] : Fin 2 → IVec S16 32) a x).toNat < S112x224.size a)
    (h4 : ∀ a x, ((![rowVec k, k0_pay48 k0_pay57] : Fin 2 → IVec S16 32) a x).toNat < S112x224.size a)
    (h5 : ∀ a x, ((![rowVec k, k0_pay54 k0_pay57] : Fin 2 → IVec S16 32) a x).toNat < S112x224.size a)
    (h6 : ∀ a x, ((![rowVec k, k0_pay56 k0_pay57] : Fin 2 → IVec S16 32) a x).toNat < S112x224.size a) :
    storeIdx (storeIdx (storeIdx (storeIdx (storeIdx (storeIdx (storeIdx f ![rowVec k, k0_pay40 k0_pay57] v0 (fun _ => 1#1) false h0) ![rowVec k, k0_pay42 k0_pay57] v1 (fun _ => 1#1) false h1) ![rowVec k, k0_pay44 k0_pay57] v2 (fun _ => 1#1) false h2) ![rowVec k, k0_pay46 k0_pay57] v3 (fun _ => 1#1) false h3) ![rowVec k, k0_pay48 k0_pay57] v4 (fun _ => 1#1) false h4) ![rowVec k, k0_pay54 k0_pay57] v5 (fun _ => 1#1) false h5) ![rowVec k, k0_pay56 k0_pay57] v6 (fun _ => 1#1) false h6
      = fun j => if (j 0).val = 2 * k.val + 1 ∧ (j 1).val % 2 = 1
          then pick7 v0 v1 v2 v3 v4 v5 v6 ((j 1).val / 32) (lane16 ((j 1).val / 2)) else f j :=
  trip_stores f (rowWord k) (2 * k.val + 1) (rowWord_toNat k (by have := lt_of_lt_of_eq k.isLt t7_trips; omega))
    v0 v1 v2 v3 v4 v5 v6 h0 h1 h2 h3 h4 h5 h6

end Cert.Proof.KB

end
-- ==== Proof.KB.ScatterLoop.lean ====
import proofs.«218969_g18416819765331_cont_7to1_658_22_alg».proof.Proof.KB.Pay
import proofs.«218969_g18416819765331_cont_7to1_658_22_alg».proof.Proof.KB.Scatter
import proofs.«218969_g18416819765331_cont_7to1_658_22_alg».proof.Proof.KB.Half
import Idealize.ShloMosaic.Lib.Pipeline.Value

/-!
What the kernel's four scatter loops leave in a staging buffer. Trip `k` of a loop loads row
`base + k` of a 112 × 112 input image as seven pieces of sixteen entries and stores piece `n`, lane `l`,
at row `2k + 1`, column `32n + 1 + 2l` of a 112 × 224 staging buffer: the row lands on the odd columns
of an odd row. With the buffer after `k` trips stated as a function, this file reads the loaded pieces back as entries
of the input image and shows that one more trip's seven stores take the function at `k` to the
function at `k + 1`.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

/-! ## One more trip, as functions

Trip `k` writes row `base + k` of the input onto the odd columns of row `2k + 1`. -/

section Pure
variable [FloatOps F]

/-- One more trip: writing row `base + k` of the input onto the odd columns of row `2k + 1` turns the
    buffer after `k` trips into the buffer after `k + 1`. The pieces are read by column: column `2c + 1`
    takes lane `c mod 16` of piece `c / 16`, which is the input's entry `(base + k, c)`. -/
theorem scatK_succ_of_pieces (fi : S112x112.Idx → Elt F .f32) (base k : Nat) (g : S112x224.Idx → Elt F .f32)
    (v0 v1 v2 v3 v4 v5 v6 : Vec F S16 .f32)
    (hv : ∀ c : Nat, c < 112 → pick7 v0 v1 v2 v3 v4 v5 v6 (c / 16) (lane16 c) = fi (hIdx (base + k) c)) :
    (fun j : S112x224.Idx => if (j 0).val = 2 * k + 1 ∧ (j 1).val % 2 = 1
        then pick7 v0 v1 v2 v3 v4 v5 v6 ((j 1).val / 32) (lane16 ((j 1).val / 2)) else scatK fi base k g j)
      = scatK fi base (k + 1) g := by
  funext j
  have h1 : (j 1).val < 224 := (j 1).isLt
  by_cases hc : (j 0).val = 2 * k + 1 ∧ (j 1).val % 2 = 1
  · obtain ⟨hr, ho⟩ := hc
    have e : (j 1).val / 32 = (j 1).val / 2 / 16 := by omega
    have hq : (j 0).val / 2 = k := by omega
    rw [if_pos ⟨hr, ho⟩, e, hv _ (by omega)]
    unfold scatK
    rw [if_pos ⟨by omega, by omega, ho⟩, hq]
  · rw [if_neg hc]
    unfold scatK
    by_cases hd : (j 0).val % 2 = 1 ∧ (j 0).val / 2 < k ∧ (j 1).val % 2 = 1
    · rw [if_pos hd, if_pos ⟨hd.1, by omega, hd.2.2⟩]
    · rw [if_neg hd, if_neg]
      rintro ⟨a, b, c⟩
      by_cases hlt : (j 0).val / 2 < k
      · exact hd ⟨a, hlt, c⟩
      · exact hc ⟨by omega, c⟩

end Pure

/-! ## The pieces a trip loads -/

section Pieces
variable [FloatOps F]

/-- Sixteen consecutive entries of row `r` of the image in the first input buffer, from column `16n` on, loaded as a
    1 × 16 block and viewed as sixteen lanes: for a column `c` of that block, lane `c mod 16` is the image's
    entry `(r, c)`. -/
theorem piece_i0 (fi : S112x112.Idx → Elt F .f32) (off : Fin 2 → Nat)
    (inb : ∀ a, off a + S1x16.size a ≤ S112x112.size a) (r n : Nat) (hoff : off = ![r, 16 * n]) (c : Nat)
    (hcn : c / 16 = n) :
    (shapeCast S16 (View.readAt (Elt F) (i0V).view (Rect.unit (s := S112x112) off S1x16.size inb).toLoadRect fi)
        shapeCasts_S1x16_S16) (lane16 c) = fi (hIdx r c) := by
  subst hoff
  have h0' : r + 1 ≤ 112 := inb 0
  have h1' : 16 * n + 16 ≤ 112 := inb 1
  refine (shapeCast_dropUnit_apply ![16] _ shapeCasts_S1x16_S16 (lane16 c)).trans ?_
  rw [View.readAt_apply]
  show fi _ = fi _
  refine congrArg fi (idx2_ext _ _ ?_ ?_)
  · show r + 1 * 0 = min r 111
    omega
  · show 16 * n + 1 * (c % 16) = min c 111
    omega

/-- Sixteen consecutive entries of row `r` of the image in the second input buffer, from column `16n` on, loaded as a
    1 × 16 block and viewed as sixteen lanes: for a column `c` of that block, lane `c mod 16` is the image's
    entry `(r, c)`. -/
theorem piece_i1 (fi : S112x112.Idx → Elt F .f32) (off : Fin 2 → Nat)
    (inb : ∀ a, off a + S1x16.size a ≤ S112x112.size a) (r n : Nat) (hoff : off = ![r, 16 * n]) (c : Nat)
    (hcn : c / 16 = n) :
    (shapeCast S16 (View.readAt (Elt F) (i1V).view (Rect.unit (s := S112x112) off S1x16.size inb).toLoadRect fi)
        shapeCasts_S1x16_S16) (lane16 c) = fi (hIdx r c) := by
  subst hoff
  have h0' : r + 1 ≤ 112 := inb 0
  have h1' : 16 * n + 16 ≤ 112 := inb 1
  refine (shapeCast_dropUnit_apply ![16] _ shapeCasts_S1x16_S16 (lane16 c)).trans ?_
  rw [View.readAt_apply]
  show fi _ = fi _
  refine congrArg fi (idx2_ext _ _ ?_ ?_)
  · show r + 1 * 0 = min r 111
    omega
  · show 16 * n + 1 * (c % 16) = min c 111
    omega

end Pieces

/-! ## A whole-buffer load and store on a staging buffer -/

section Whole
variable [FloatOps F]

/-- Storing a whole staging buffer's worth of contents leaves those contents, and loading the whole
    buffer reads its contents. -/
theorem writes_o0 (g w : S112x224.Idx → Elt F .f32) :
    (o0V).view.writes (Elt F) g [⟨Rect.whole S112x224, w⟩] = w :=
  Memref.write_access_whole_univ (Elt F) cc0_scratch2 g w
theorem writes_o1 (g w : S112x224.Idx → Elt F .f32) :
    (o1V).view.writes (Elt F) g [⟨Rect.whole S112x224, w⟩] = w :=
  Memref.write_access_whole_univ (Elt F) cc0_scratch3 g w
theorem readAt_o0 (g : S112x224.Idx → Elt F .f32) :
    View.readAt (Elt F) (o0V).view (LoadRect.whole S112x224) g = g :=
  Memref.readAt_whole (Elt F) cc0_scratch2 g
theorem readAt_o1 (g : S112x224.Idx → Elt F .f32) :
    View.readAt (Elt F) (o1V).view (LoadRect.whole S112x224) g = g :=
  Memref.readAt_whole (Elt F) cc0_scratch3 g

end Whole

end Cert.Proof.KB

end
-- ==== Proof.KB.ScatterLoop4.lean ====
import proofs.«218969_g18416819765331_cont_7to1_658_22_alg».proof.Proof.KB.ScatterLoop

/-!
The first scatter loop of the kernel, one trip at a time: a trip's seven loads and seven indexed
stores take the staging buffer with `k` rows scattered to the staging buffer with `k + 1`.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

/-! ## The first scatter loop

It reads rows `k` of the image in the first input buffer and fills the odd rows of the first staging buffer. -/

section Loop4
variable [FloatOps F] (d : Dev nD) (L : grid0.Coords)

/-- After `k` trips: the input buffer as it was, the staging buffer with `k` rows scattered. -/
def inv4 (fi : S112x112.Idx → Elt F .f32) (g : S112x224.Idx → Elt F .f32) (k : Nat) (_ : Unit) : sProp 𝕄 :=
  iprop(((i0V).view.loc (thr d L) ↦{fullShare} fi) ∗ ((o0V).view.loc (thr d L) ↦{fullShare} scatK fi 0 k g))

/-- The seven pieces trip `k` loads are row `k` of the input, sixteen columns each. -/
theorem t4_pieces (fi : S112x112.Idx → Elt F .f32) (k : Fin k0_t4_loop.trips)
    (p0 : ∀ a, k0_off6 k a + S1x16.size a ≤ S112x112.size a)
    (p1 : ∀ a, k0_off7 k a + S1x16.size a ≤ S112x112.size a)
    (p2 : ∀ a, k0_off8 k a + S1x16.size a ≤ S112x112.size a)
    (p3 : ∀ a, k0_off9 k a + S1x16.size a ≤ S112x112.size a)
    (p4 : ∀ a, k0_off10 k a + S1x16.size a ≤ S112x112.size a)
    (p5 : ∀ a, k0_off11 k a + S1x16.size a ≤ S112x112.size a)
    (p6 : ∀ a, k0_off12 k a + S1x16.size a ≤ S112x112.size a)
    (c : Nat) (hc : c < 112) :
    pick7 (k0_pay1 (View.readAt (Elt F) (i0V).view (Rect.unit (s := S112x112) (k0_off6 k) S1x16.size p0).toLoadRect fi))
      (k0_pay3 (View.readAt (Elt F) (i0V).view (Rect.unit (s := S112x112) (k0_off7 k) S1x16.size p1).toLoadRect fi))
      (k0_pay5 (View.readAt (Elt F) (i0V).view (Rect.unit (s := S112x112) (k0_off8 k) S1x16.size p2).toLoadRect fi))
      (k0_pay7 (View.readAt (Elt F) (i0V).view (Rect.unit (s := S112x112) (k0_off9 k) S1x16.size p3).toLoadRect fi))
      (k0_pay9 (View.readAt (Elt F) (i0V).view (Rect.unit (s := S112x112) (k0_off10 k) S1x16.size p4).toLoadRect fi))
      (k0_pay21 (View.readAt (Elt F) (i0V).view (Rect.unit (s := S112x112) (k0_off11 k) S1x16.size p5).toLoadRect fi))
      (k0_pay23 (View.readAt (Elt F) (i0V).view (Rect.unit (s := S112x112) (k0_off12 k) S1x16.size p6).toLoadRect fi))
      (c / 16) (lane16 c) = fi (hIdx (0 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i0 fi _ p0 (k.val) 0 (k0_off6_eq k) c e).trans (congrArg (fun r => fi (hIdx r c)) (by omega))
  · rw [e]
    exact (piece_i0 fi _ p1 (k.val) 1 (k0_off7_eq k) c e).trans (congrArg (fun r => fi (hIdx r c)) (by omega))
  · rw [e]
    exact (piece_i0 fi _ p2 (k.val) 2 (k0_off8_eq k) c e).trans (congrArg (fun r => fi (hIdx r c)) (by omega))
  · rw [e]
    exact (piece_i0 fi _ p3 (k.val) 3 (k0_off9_eq k) c e).trans (congrArg (fun r => fi (hIdx r c)) (by omega))
  · rw [e]
    exact (piece_i0 fi _ p4 (k.val) 4 (k0_off10_eq k) c e).trans (congrArg (fun r => fi (hIdx r c)) (by omega))
  · rw [e]
    exact (piece_i0 fi _ p5 (k.val) 5 (k0_off11_eq k) c e).trans (congrArg (fun r => fi (hIdx r c)) (by omega))
  · rw [e]
    exact (piece_i0 fi _ p6 (k.val) 6 (k0_off12_eq k) c e).trans (congrArg (fun r => fi (hIdx r c)) (by omega))

set_option maxHeartbeats 4000000 in
/-- One trip of the loop takes the invariant at `k` to the invariant at `k + 1`. -/
theorem t4_step (t : Fin k0_t3_loop.trips) (h1 : k0_cond1 t = 1#1) (k : Fin k0_t4_loop.trips) (acc : Unit)
    (fi : S112x112.Idx → Elt F .f32) (g : S112x224.Idx → Elt F .f32) :
    inv4 d L fi g k.val acc
      ⊢ wp frame (wpE (defs₀ (F := F)) 𝒱₀ (thr d L) none) Set.univ
          (k0_t4_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h1 k acc)
          (inv4 d L fi g (k.val + 1)) := by
  unfold inv4
  iintro ⟨Hi, Ho⟩
  sl_unfold [k0_t4_body]
  sl_exec (disch := first | exact chk1_holds t k | exact chk2_holds t k | exact chk3_holds t k | exact chk4_holds t k | exact chk5_holds t k | exact chk6_holds t k | exact chk7_holds t k)
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  rw [SparseCore.vectorStoreIdx_bind (thr d L)]
  sl_exec (disch := first | exact chk1_holds t k | exact chk2_holds t k | exact chk3_holds t k | exact chk4_holds t k | exact chk5_holds t k | exact chk6_holds t k | exact chk7_holds t k)
  rw [writes_o0]
  sl_unfold_run_names
  repeat rw [readAt_o0]
  rw [trip_t4 (scatK fi 0 k.val g) k,
    scatK_succ_of_pieces fi 0 k.val g _ _ _ _ _ _ _ (t4_pieces fi k _ _ _ _ _ _ _)]
  sl_step
  isplitl [Hi]
  · iexact Hi
  · iexact Ho

end Loop4

end Cert.Proof.KB

end
-- ==== Proof.KB.ScatterLoop5.lean ====
import proofs.«218969_g18416819765331_cont_7to1_658_22_alg».proof.Proof.KB.ScatterLoop

/-!
The second scatter loop of the kernel, one trip at a time: a trip's seven loads and seven indexed
stores take the staging buffer with `k` rows scattered to the staging buffer with `k + 1`.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

/-! ## The second scatter loop

It reads rows `56 + k` of the image in the first input buffer and fills the odd rows of the second staging buffer. -/

section Loop5
variable [FloatOps F] (d : Dev nD) (L : grid0.Coords)

/-- After `k` trips: the input buffer as it was, the staging buffer with `k` rows scattered. -/
def inv5 (fi : S112x112.Idx → Elt F .f32) (g : S112x224.Idx → Elt F .f32) (k : Nat) (_ : Unit) : sProp 𝕄 :=
  iprop(((i0V).view.loc (thr d L) ↦{fullShare} fi) ∗ ((o1V).view.loc (thr d L) ↦{fullShare} scatK fi 56 k g))

/-- The seven pieces trip `k` loads are row `56 + k` of the input, sixteen columns each. -/
theorem t5_pieces (fi : S112x112.Idx → Elt F .f32) (k : Fin k0_t5_loop.trips)
    (p0 : ∀ a, k0_off15 k a + S1x16.size a ≤ S112x112.size a)
    (p1 : ∀ a, k0_off16 k a + S1x16.size a ≤ S112x112.size a)
    (p2 : ∀ a, k0_off17 k a + S1x16.size a ≤ S112x112.size a)
    (p3 : ∀ a, k0_off18 k a + S1x16.size a ≤ S112x112.size a)
    (p4 : ∀ a, k0_off19 k a + S1x16.size a ≤ S112x112.size a)
    (p5 : ∀ a, k0_off20 k a + S1x16.size a ≤ S112x112.size a)
    (p6 : ∀ a, k0_off21 k a + S1x16.size a ≤ S112x112.size a)
    (c : Nat) (hc : c < 112) :
    pick7 (k0_pay11 (View.readAt (Elt F) (i0V).view (Rect.unit (s := S112x112) (k0_off15 k) S1x16.size p0).toLoadRect fi))
      (k0_pay13 (View.readAt (Elt F) (i0V).view (Rect.unit (s := S112x112) (k0_off16 k) S1x16.size p1).toLoadRect fi))
      (k0_pay15 (View.readAt (Elt F) (i0V).view (Rect.unit (s := S112x112) (k0_off17 k) S1x16.size p2).toLoadRect fi))
      (k0_pay17 (View.readAt (Elt F) (i0V).view (Rect.unit (s := S112x112) (k0_off18 k) S1x16.size p3).toLoadRect fi))
      (k0_pay19 (View.readAt (Elt F) (i0V).view (Rect.unit (s := S112x112) (k0_off19 k) S1x16.size p4).toLoadRect fi))
      (k0_pay25 (View.readAt (Elt F) (i0V).view (Rect.unit (s := S112x112) (k0_off20 k) S1x16.size p5).toLoadRect fi))
      (k0_pay27 (View.readAt (Elt F) (i0V).view (Rect.unit (s := S112x112) (k0_off21 k) S1x16.size p6).toLoadRect fi))
      (c / 16) (lane16 c) = fi (hIdx (56 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i0 fi _ p0 (k.val + 56) 0 (k0_off15_eq k) c e).trans (congrArg (fun r => fi (hIdx r c)) (by omega))
  · rw [e]
    exact (piece_i0 fi _ p1 (k.val + 56) 1 (k0_off16_eq k) c e).trans (congrArg (fun r => fi (hIdx r c)) (by omega))
  · rw [e]
    exact (piece_i0 fi _ p2 (k.val + 56) 2 (k0_off17_eq k) c e).trans (congrArg (fun r => fi (hIdx r c)) (by omega))
  · rw [e]
    exact (piece_i0 fi _ p3 (k.val + 56) 3 (k0_off18_eq k) c e).trans (congrArg (fun r => fi (hIdx r c)) (by omega))
  · rw [e]
    exact (piece_i0 fi _ p4 (k.val + 56) 4 (k0_off19_eq k) c e).trans (congrArg (fun r => fi (hIdx r c)) (by omega))
  · rw [e]
    exact (piece_i0 fi _ p5 (k.val + 56) 5 (k0_off20_eq k) c e).trans (congrArg (fun r => fi (hIdx r c)) (by omega))
  · rw [e]
    exact (piece_i0 fi _ p6 (k.val + 56) 6 (k0_off21_eq k) c e).trans (congrArg (fun r => fi (hIdx r c)) (by omega))

set_option maxHeartbeats 4000000 in
/-- One trip of the loop takes the invariant at `k` to the invariant at `k + 1`. -/
theorem t5_step (t : Fin k0_t3_loop.trips) (h1 : k0_cond1 t = 1#1) (k : Fin k0_t5_loop.trips) (acc : Unit)
    (fi : S112x112.Idx → Elt F .f32) (g : S112x224.Idx → Elt F .f32) :
    inv5 d L fi g k.val acc
      ⊢ wp frame (wpE (defs₀ (F := F)) 𝒱₀ (thr d L) none) Set.univ
          (k0_t5_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h1 k acc)
          (inv5 d L fi g (k.val + 1)) := by
  unfold inv5
  iintro ⟨Hi, Ho⟩
  sl_unfold [k0_t5_body]
  sl_exec (disch := first | exact chk8_holds t k | exact chk9_holds t k | exact chk10_holds t k | exact chk11_holds t k | exact chk12_holds t k | exact chk13_holds t k | exact chk14_holds t k)
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  rw [SparseCore.vectorStoreIdx_bind (thr d L)]
  sl_exec (disch := first | exact chk8_holds t k | exact chk9_holds t k | exact chk10_holds t k | exact chk11_holds t k | exact chk12_holds t k | exact chk13_holds t k | exact chk14_holds t k)
  rw [writes_o1]
  sl_unfold_run_names
  repeat rw [readAt_o1]
  rw [trip_t5 (scatK fi 56 k.val g) k,
    scatK_succ_of_pieces fi 56 k.val g _ _ _ _ _ _ _ (t5_pieces fi k _ _ _ _ _ _ _)]
  sl_step
  isplitl [Hi]
  · iexact Hi
  · iexact Ho

end Loop5

end Cert.Proof.KB

end
-- ==== Proof.KB.TripE.lean ====
import proofs.«218969_g18416819765331_cont_7to1_658_22_alg».proof.Proof.KB.Pay
import proofs.«218969_g18416819765331_cont_7to1_658_22_alg».proof.Proof.KB.Inv
import proofs.«218969_g18416819765331_cont_7to1_658_22_alg».proof.Proof.KB.ScatterLoop4
import proofs.«218969_g18416819765331_cont_7to1_658_22_alg».proof.Proof.KB.ScatterLoop5
import proofs.«218969_g18416819765331_cont_7to1_658_22_alg».proof.Proof.KB.WinIn
import proofs.«218969_g18416819765331_cont_7to1_658_22_alg».proof.Proof.KB.WinOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

section Tile
variable (d : Dev nD) (L : grid0.Coords)

set_option maxHeartbeats 8000000 in
/-- An even trip in the middle of the run: the image in the first input buffer is scattered into both staging buffers
    and copied out; the image after next is fetched into the first input buffer. -/
theorem trip_even (O : CellTallies nD τ sig (HIx 1)) (W : Waits sig (HIx 1))
    (X : S1536x112x112.Idx → Elt F .f32)
    (t : Fin k0_t3_loop.trips) (acc : Unit)
    (h1 : k0_cond1 t = 1#1) (h5 : ¬ k0_cond5 t = 1#1) (h2 : k0_cond2 t = 1#1) (h3 : k0_cond3 t = 1#1) (h4 : k0_cond4 t = 1#1)
    (ht1 : 1 ≤ t.val) (ht2 : t.val + 2 < 48) :
    iprop(Transfers.MayWaits (thr d L) (default : HIx 1) O
        ∗ inTwoE d L X t.val
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inTwoO d L X (t.val + 1) ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  unfold inTwoE outTwo owesAt
  iintro ⟨#Hmw, ⟨%offA, %offB, %hA, %hB, %payA, %payB, %hp, HfA, HfB, Hx⟩, ⟨%offC, %offD, %hC, %hD, %fo, %ga, %gb, %hq, HfC, Ho0, HfD, Ho1, Ho⟩, ⟨%W', %hW', HO⟩⟩
  obtain ⟨rfl, rfl, rfl, rfl⟩ := hp
  obtain ⟨rfl, rfl, hga, hgb, hdone⟩ := hq
  sl_unfold [k0_t3_body]
  sl_exec
  sl_for (inv4 d L (imgOf L X t.val) ga) $$ [HfA_dst Ho0]
  case region => intro k acc'; exact t4_step d L t h1 k acc' _ _
  · unfold inv4; rw [scatK_zero]
    isplitl [HfA_dst]; · iexact HfA_dst
    iexact Ho0
  iintro %_ HI
  unfold inv4
  icases HI with ⟨Hi0, Ho0⟩
  sl_exec
  sl_for (inv5 d L (imgOf L X t.val) gb) $$ [Hi0 Ho1]
  case region => intro k acc'; exact t5_step d L t h1 k acc' _ _
  · unfold inv5; rw [scatK_zero]
    isplitl [Hi0]; · iexact Hi0
    iexact Ho1
  iintro %_ HI
  unfold inv5
  icases HI with ⟨Hi0, Ho1⟩
  sl_exec
  sl_step
  sl_unfold_run_names
  have e4 : Scf.trips k0_t4_loop.lb k0_t4_loop.ub k0_t4_loop.st = 56 := by decide
  have e5 : Scf.trips k0_t5_loop.lb k0_t5_loop.ub k0_t5_loop.st = 56 := by decide
  rw [e4, scatK_full _ _ _ hga, scatK_full _ _ _ hgb]
  have hoff23 : k0_off23 L t = xOff L (t.val + 1 + 1) := by
    rw [k0_off23_eq]; unfold xOff; congr 1
  unfold inTwoO
  isplitl [HfB HfA Hx]
  · iexists (xOff L (t.val + 1)), (k0_off23 L t), hB, (k0_off23_inb L t h1 h4), (imgOf L X (t.val + 1)), _
    isplitr
    · ipureintro
      exact ⟨rfl, hoff23, rfl, in_pay_eq0 L X (t.val + 1 + 1) (by omega) (k0_off23 L t) (k0_off23_inb L t h1 h4) (hoff23.trans (xOff_eq L _)) (imgOf L X t.val)⟩
    isplitl [HfB]; · iexact HfB
    isplitl [HfA]; · iexact HfA
    iexact Hx
  isplitl [HfC Ho0 HfD Ho1 Ho]
  · have hoff13 : k0_off13 L t = ![bOf L + t.val, 0, 0] := k0_off13_eq L t
    have hoff22 : k0_off22 L t = ![bOf L + t.val, 112, 0] := k0_off22_eq L t
    have hdone' : Done L X fo t.val := by
      have e : t.val - 1 + 1 = t.val := by omega
      rw [e] at hdone; exact hdone
    rw [out_agree_pts' L X t.val (k0_off13 L t) (k0_off22 L t) (k0_off13_inb L t h1) (k0_off22_inb L t h1) hoff13 hoff22 fo d (cV L) (jV L)]
    iexists (k0_off13 L t), (k0_off22 L t), (k0_off13_inb L t h1), (k0_off22_inb L t h1), _, (halfImg (imgOf L X t.val) 0), (halfImg (imgOf L X t.val) 56)
    isplitr
    · ipureintro
      exact ⟨hoff13.trans (oOff_eq L _ _).symm, hoff22.trans (oOff_eq L _ _).symm, zeroOff_halfImg _ _, zeroOff_halfImg _ _,
        out_done L X t.val (k0_off13 L t) (k0_off22 L t) (k0_off13_inb L t h1) (k0_off22_inb L t h1) hoff13 hoff22 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KB

end
-- ==== Proof.KB.ScatterLoop6.lean ====
import proofs.«218969_g18416819765331_cont_7to1_658_22_alg».proof.Proof.KB.ScatterLoop

/-!
The third scatter loop of the kernel, one trip at a time: a trip's seven loads and seven indexed
stores take the staging buffer with `k` rows scattered to the staging buffer with `k + 1`.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

/-! ## The third scatter loop

It reads rows `k` of the image in the second input buffer and fills the odd rows of the first staging buffer. -/

section Loop6
variable [FloatOps F] (d : Dev nD) (L : grid0.Coords)

/-- After `k` trips: the input buffer as it was, the staging buffer with `k` rows scattered. -/
def inv6 (fi : S112x112.Idx → Elt F .f32) (g : S112x224.Idx → Elt F .f32) (k : Nat) (_ : Unit) : sProp 𝕄 :=
  iprop(((i1V).view.loc (thr d L) ↦{fullShare} fi) ∗ ((o0V).view.loc (thr d L) ↦{fullShare} scatK fi 0 k g))

/-- The seven pieces trip `k` loads are row `k` of the input, sixteen columns each. -/
theorem t6_pieces (fi : S112x112.Idx → Elt F .f32) (k : Fin k0_t6_loop.trips)
    (p0 : ∀ a, k0_off26 k a + S1x16.size a ≤ S112x112.size a)
    (p1 : ∀ a, k0_off27 k a + S1x16.size a ≤ S112x112.size a)
    (p2 : ∀ a, k0_off28 k a + S1x16.size a ≤ S112x112.size a)
    (p3 : ∀ a, k0_off29 k a + S1x16.size a ≤ S112x112.size a)
    (p4 : ∀ a, k0_off30 k a + S1x16.size a ≤ S112x112.size a)
    (p5 : ∀ a, k0_off31 k a + S1x16.size a ≤ S112x112.size a)
    (p6 : ∀ a, k0_off32 k a + S1x16.size a ≤ S112x112.size a)
    (c : Nat) (hc : c < 112) :
    pick7 (k0_pay29 (View.readAt (Elt F) (i1V).view (Rect.unit (s := S112x112) (k0_off26 k) S1x16.size p0).toLoadRect fi))
      (k0_pay31 (View.readAt (Elt F) (i1V).view (Rect.unit (s := S112x112) (k0_off27 k) S1x16.size p1).toLoadRect fi))
      (k0_pay33 (View.readAt (Elt F) (i1V).view (Rect.unit (s := S112x112) (k0_off28 k) S1x16.size p2).toLoadRect fi))
      (k0_pay35 (View.readAt (Elt F) (i1V).view (Rect.unit (s := S112x112) (k0_off29 k) S1x16.size p3).toLoadRect fi))
      (k0_pay37 (View.readAt (Elt F) (i1V).view (Rect.unit (s := S112x112) (k0_off30 k) S1x16.size p4).toLoadRect fi))
      (k0_pay49 (View.readAt (Elt F) (i1V).view (Rect.unit (s := S112x112) (k0_off31 k) S1x16.size p5).toLoadRect fi))
      (k0_pay51 (View.readAt (Elt F) (i1V).view (Rect.unit (s := S112x112) (k0_off32 k) S1x16.size p6).toLoadRect fi))
      (c / 16) (lane16 c) = fi (hIdx (0 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i1 fi _ p0 (k.val) 0 (k0_off26_eq k) c e).trans (congrArg (fun r => fi (hIdx r c)) (by omega))
  · rw [e]
    exact (piece_i1 fi _ p1 (k.val) 1 (k0_off27_eq k) c e).trans (congrArg (fun r => fi (hIdx r c)) (by omega))
  · rw [e]
    exact (piece_i1 fi _ p2 (k.val) 2 (k0_off28_eq k) c e).trans (congrArg (fun r => fi (hIdx r c)) (by omega))
  · rw [e]
    exact (piece_i1 fi _ p3 (k.val) 3 (k0_off29_eq k) c e).trans (congrArg (fun r => fi (hIdx r c)) (by omega))
  · rw [e]
    exact (piece_i1 fi _ p4 (k.val) 4 (k0_off30_eq k) c e).trans (congrArg (fun r => fi (hIdx r c)) (by omega))
  · rw [e]
    exact (piece_i1 fi _ p5 (k.val) 5 (k0_off31_eq k) c e).trans (congrArg (fun r => fi (hIdx r c)) (by omega))
  · rw [e]
    exact (piece_i1 fi _ p6 (k.val) 6 (k0_off32_eq k) c e).trans (congrArg (fun r => fi (hIdx r c)) (by omega))

set_option maxHeartbeats 4000000 in
/-- One trip of the loop takes the invariant at `k` to the invariant at `k + 1`. -/
theorem t6_step (t : Fin k0_t3_loop.trips) (h5 : k0_cond5 t = 1#1) (k : Fin k0_t6_loop.trips) (acc : Unit)
    (fi : S112x112.Idx → Elt F .f32) (g : S112x224.Idx → Elt F .f32) :
    inv6 d L fi g k.val acc
      ⊢ wp frame (wpE (defs₀ (F := F)) 𝒱₀ (thr d L) none) Set.univ
          (k0_t6_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h5 k acc)
          (inv6 d L fi g (k.val + 1)) := by
  unfold inv6
  iintro ⟨Hi, Ho⟩
  sl_unfold [k0_t6_body]
  sl_exec (disch := first | exact chk15_holds t k | exact chk16_holds t k | exact chk17_holds t k | exact chk18_holds t k | exact chk19_holds t k | exact chk20_holds t k | exact chk21_holds t k)
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  rw [SparseCore.vectorStoreIdx_bind (thr d L)]
  sl_exec (disch := first | exact chk15_holds t k | exact chk16_holds t k | exact chk17_holds t k | exact chk18_holds t k | exact chk19_holds t k | exact chk20_holds t k | exact chk21_holds t k)
  rw [writes_o0]
  sl_unfold_run_names
  repeat rw [readAt_o0]
  rw [trip_t6 (scatK fi 0 k.val g) k,
    scatK_succ_of_pieces fi 0 k.val g _ _ _ _ _ _ _ (t6_pieces fi k _ _ _ _ _ _ _)]
  sl_step
  isplitl [Hi]
  · iexact Hi
  · iexact Ho

end Loop6

end Cert.Proof.KB

end
-- ==== Proof.KB.ScatterLoop7.lean ====
import proofs.«218969_g18416819765331_cont_7to1_658_22_alg».proof.Proof.KB.ScatterLoop

/-!
The fourth scatter loop of the kernel, one trip at a time: a trip's seven loads and seven indexed
stores take the staging buffer with `k` rows scattered to the staging buffer with `k + 1`.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

/-! ## The fourth scatter loop

It reads rows `56 + k` of the image in the second input buffer and fills the odd rows of the second staging buffer. -/

section Loop7
variable [FloatOps F] (d : Dev nD) (L : grid0.Coords)

/-- After `k` trips: the input buffer as it was, the staging buffer with `k` rows scattered. -/
def inv7 (fi : S112x112.Idx → Elt F .f32) (g : S112x224.Idx → Elt F .f32) (k : Nat) (_ : Unit) : sProp 𝕄 :=
  iprop(((i1V).view.loc (thr d L) ↦{fullShare} fi) ∗ ((o1V).view.loc (thr d L) ↦{fullShare} scatK fi 56 k g))

/-- The seven pieces trip `k` loads are row `56 + k` of the input, sixteen columns each. -/
theorem t7_pieces (fi : S112x112.Idx → Elt F .f32) (k : Fin k0_t7_loop.trips)
    (p0 : ∀ a, k0_off35 k a + S1x16.size a ≤ S112x112.size a)
    (p1 : ∀ a, k0_off36 k a + S1x16.size a ≤ S112x112.size a)
    (p2 : ∀ a, k0_off37 k a + S1x16.size a ≤ S112x112.size a)
    (p3 : ∀ a, k0_off38 k a + S1x16.size a ≤ S112x112.size a)
    (p4 : ∀ a, k0_off39 k a + S1x16.size a ≤ S112x112.size a)
    (p5 : ∀ a, k0_off40 k a + S1x16.size a ≤ S112x112.size a)
    (p6 : ∀ a, k0_off41 k a + S1x16.size a ≤ S112x112.size a)
    (c : Nat) (hc : c < 112) :
    pick7 (k0_pay39 (View.readAt (Elt F) (i1V).view (Rect.unit (s := S112x112) (k0_off35 k) S1x16.size p0).toLoadRect fi))
      (k0_pay41 (View.readAt (Elt F) (i1V).view (Rect.unit (s := S112x112) (k0_off36 k) S1x16.size p1).toLoadRect fi))
      (k0_pay43 (View.readAt (Elt F) (i1V).view (Rect.unit (s := S112x112) (k0_off37 k) S1x16.size p2).toLoadRect fi))
      (k0_pay45 (View.readAt (Elt F) (i1V).view (Rect.unit (s := S112x112) (k0_off38 k) S1x16.size p3).toLoadRect fi))
      (k0_pay47 (View.readAt (Elt F) (i1V).view (Rect.unit (s := S112x112) (k0_off39 k) S1x16.size p4).toLoadRect fi))
      (k0_pay53 (View.readAt (Elt F) (i1V).view (Rect.unit (s := S112x112) (k0_off40 k) S1x16.size p5).toLoadRect fi))
      (k0_pay55 (View.readAt (Elt F) (i1V).view (Rect.unit (s := S112x112) (k0_off41 k) S1x16.size p6).toLoadRect fi))
      (c / 16) (lane16 c) = fi (hIdx (56 + k.val) c) := by
  rcases (by omega : c / 16 = 0 ∨ c / 16 = 1 ∨ c / 16 = 2 ∨ c / 16 = 3 ∨ c / 16 = 4 ∨ c / 16 = 5 ∨ c / 16 = 6)
    with e | e | e | e | e | e | e
  · rw [e]
    exact (piece_i1 fi _ p0 (k.val + 56) 0 (k0_off35_eq k) c e).trans (congrArg (fun r => fi (hIdx r c)) (by omega))
  · rw [e]
    exact (piece_i1 fi _ p1 (k.val + 56) 1 (k0_off36_eq k) c e).trans (congrArg (fun r => fi (hIdx r c)) (by omega))
  · rw [e]
    exact (piece_i1 fi _ p2 (k.val + 56) 2 (k0_off37_eq k) c e).trans (congrArg (fun r => fi (hIdx r c)) (by omega))
  · rw [e]
    exact (piece_i1 fi _ p3 (k.val + 56) 3 (k0_off38_eq k) c e).trans (congrArg (fun r => fi (hIdx r c)) (by omega))
  · rw [e]
    exact (piece_i1 fi _ p4 (k.val + 56) 4 (k0_off39_eq k) c e).trans (congrArg (fun r => fi (hIdx r c)) (by omega))
  · rw [e]
    exact (piece_i1 fi _ p5 (k.val + 56) 5 (k0_off40_eq k) c e).trans (congrArg (fun r => fi (hIdx r c)) (by omega))
  · rw [e]
    exact (piece_i1 fi _ p6 (k.val + 56) 6 (k0_off41_eq k) c e).trans (congrArg (fun r => fi (hIdx r c)) (by omega))

set_option maxHeartbeats 4000000 in
/-- One trip of the loop takes the invariant at `k` to the invariant at `k + 1`. -/
theorem t7_step (t : Fin k0_t3_loop.trips) (h5 : k0_cond5 t = 1#1) (k : Fin k0_t7_loop.trips) (acc : Unit)
    (fi : S112x112.Idx → Elt F .f32) (g : S112x224.Idx → Elt F .f32) :
    inv7 d L fi g k.val acc
      ⊢ wp frame (wpE (defs₀ (F := F)) 𝒱₀ (thr d L) none) Set.univ
          (k0_t7_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 k0_pay57 t (Scf.iv 0#32 1#32 t) h5 k acc)
          (inv7 d L fi g (k.val + 1)) := by
  unfold inv7
  iintro ⟨Hi, Ho⟩
  sl_unfold [k0_t7_body]
  sl_exec (disch := first | exact chk22_holds t k | exact chk23_holds t k | exact chk24_holds t k | exact chk25_holds t k | exact chk26_holds t k | exact chk27_holds t k | exact chk28_holds t k)
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  rw [SparseCore.vectorStoreIdx_bind (thr d L)]
  sl_exec (disch := first | exact chk22_holds t k | exact chk23_holds t k | exact chk24_holds t k | exact chk25_holds t k | exact chk26_holds t k | exact chk27_holds t k | exact chk28_holds t k)
  rw [writes_o1]
  sl_unfold_run_names
  repeat rw [readAt_o1]
  rw [trip_t7 (scatK fi 56 k.val g) k,
    scatK_succ_of_pieces fi 56 k.val g _ _ _ _ _ _ _ (t7_pieces fi k _ _ _ _ _ _ _)]
  sl_step
  isplitl [Hi]
  · iexact Hi
  · iexact Ho

end Loop7

end Cert.Proof.KB

end
-- ==== Proof.KB.TripO.lean ====
import proofs.«218969_g18416819765331_cont_7to1_658_22_alg».proof.Proof.KB.Pay
import proofs.«218969_g18416819765331_cont_7to1_658_22_alg».proof.Proof.KB.Inv
import proofs.«218969_g18416819765331_cont_7to1_658_22_alg».proof.Proof.KB.ScatterLoop6
import proofs.«218969_g18416819765331_cont_7to1_658_22_alg».proof.Proof.KB.ScatterLoop7
import proofs.«218969_g18416819765331_cont_7to1_658_22_alg».proof.Proof.KB.WinIn
import proofs.«218969_g18416819765331_cont_7to1_658_22_alg».proof.Proof.KB.WinOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

section Tile
variable (d : Dev nD) (L : grid0.Coords)

set_option maxHeartbeats 8000000 in
/-- An odd trip in the middle of the run: the image in the second input buffer is scattered into both staging buffers
    and copied out; the image after next is fetched into the second input buffer. -/
theorem trip_odd (O : CellTallies nD τ sig (HIx 1)) (W : Waits sig (HIx 1))
    (X : S1536x112x112.Idx → Elt F .f32)
    (t : Fin k0_t3_loop.trips) (acc : Unit)
    (h5 : k0_cond5 t = 1#1) (h1 : ¬ k0_cond1 t = 1#1) (h6 : k0_cond6 t = 1#1) (h7 : k0_cond7 t = 1#1) (h8 : k0_cond8 t = 1#1)
    (ht1 : 1 ≤ t.val) (ht2 : t.val + 2 < 48) :
    iprop(Transfers.MayWaits (thr d L) (default : HIx 1) O
        ∗ inTwoO d L X t.val
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inTwoE d L X (t.val + 1) ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  unfold inTwoO outTwo owesAt
  iintro ⟨#Hmw, ⟨%offA, %offB, %hA, %hB, %payA, %payB, %hp, HfA, HfB, Hx⟩, ⟨%offC, %offD, %hC, %hD, %fo, %ga, %gb, %hq, HfC, Ho0, HfD, Ho1, Ho⟩, ⟨%W', %hW', HO⟩⟩
  obtain ⟨rfl, rfl, rfl, rfl⟩ := hp
  obtain ⟨rfl, rfl, hga, hgb, hdone⟩ := hq
  sl_unfold [k0_t3_body]
  sl_exec
  sl_for (inv6 d L (imgOf L X t.val) ga) $$ [HfA_dst Ho0]
  case region => intro k acc'; exact t6_step d L t h5 k acc' _ _
  · unfold inv6; rw [scatK_zero]
    isplitl [HfA_dst]; · iexact HfA_dst
    iexact Ho0
  iintro %_ HI
  unfold inv6
  icases HI with ⟨Hi1, Ho0⟩
  sl_exec
  sl_for (inv7 d L (imgOf L X t.val) gb) $$ [Hi1 Ho1]
  case region => intro k acc'; exact t7_step d L t h5 k acc' _ _
  · unfold inv7; rw [scatK_zero]
    isplitl [Hi1]; · iexact Hi1
    iexact Ho1
  iintro %_ HI
  unfold inv7
  icases HI with ⟨Hi1, Ho1⟩
  sl_exec
  sl_step
  sl_unfold_run_names
  have e6 : Scf.trips k0_t6_loop.lb k0_t6_loop.ub k0_t6_loop.st = 56 := by decide
  have e7 : Scf.trips k0_t7_loop.lb k0_t7_loop.ub k0_t7_loop.st = 56 := by decide
  rw [e6, scatK_full _ _ _ hga, scatK_full _ _ _ hgb]
  have hoff43 : k0_off43 L t = xOff L (t.val + 1 + 1) := by
    rw [k0_off43_eq]; unfold xOff; congr 1
  unfold inTwoE
  isplitl [HfB HfA Hx]
  · iexists (xOff L (t.val + 1)), (k0_off43 L t), hB, (k0_off43_inb L t h5 h8), (imgOf L X (t.val + 1)), _
    isplitr
    · ipureintro
      exact ⟨rfl, hoff43, rfl, in_pay_eq1 L X (t.val + 1 + 1) (by omega) (k0_off43 L t) (k0_off43_inb L t h5 h8) (hoff43.trans (xOff_eq L _)) (imgOf L X t.val)⟩
    isplitl [HfB]; · iexact HfB
    isplitl [HfA]; · iexact HfA
    iexact Hx
  isplitl [HfC Ho0 HfD Ho1 Ho]
  · have hoff33 : k0_off33 L t = ![bOf L + t.val, 0, 0] := k0_off33_eq L t
    have hoff42 : k0_off42 L t = ![bOf L + t.val, 112, 0] := k0_off42_eq L t
    have hdone' : Done L X fo t.val := by
      have e : t.val - 1 + 1 = t.val := by omega
      rw [e] at hdone; exact hdone
    rw [out_agree_pts' L X t.val (k0_off33 L t) (k0_off42 L t) (k0_off33_inb L t h5) (k0_off42_inb L t h5) hoff33 hoff42 fo d (cV L) (jV L)]
    iexists (k0_off33 L t), (k0_off42 L t), (k0_off33_inb L t h5), (k0_off42_inb L t h5), _, (halfImg (imgOf L X t.val) 0), (halfImg (imgOf L X t.val) 56)
    isplitr
    · ipureintro
      exact ⟨hoff33.trans (oOff_eq L _ _).symm, hoff42.trans (oOff_eq L _ _).symm, zeroOff_halfImg _ _, zeroOff_halfImg _ _,
        out_done L X t.val (k0_off33 L t) (k0_off42 L t) (k0_off33_inb L t h5) (k0_off42_inb L t h5) hoff33 hoff42 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KB

end
-- ==== Proof.KB.TripE0.lean ====
import proofs.«218969_g18416819765331_cont_7to1_658_22_alg».proof.Proof.KB.Pay
import proofs.«218969_g18416819765331_cont_7to1_658_22_alg».proof.Proof.KB.Inv
import proofs.«218969_g18416819765331_cont_7to1_658_22_alg».proof.Proof.KB.Inv2
import proofs.«218969_g18416819765331_cont_7to1_658_22_alg».proof.Proof.KB.ScatterLoop4
import proofs.«218969_g18416819765331_cont_7to1_658_22_alg».proof.Proof.KB.ScatterLoop5
import proofs.«218969_g18416819765331_cont_7to1_658_22_alg».proof.Proof.KB.WinIn
import proofs.«218969_g18416819765331_cont_7to1_658_22_alg».proof.Proof.KB.WinOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

section Tile
variable (d : Dev nD) (L : grid0.Coords)

set_option maxHeartbeats 8000000 in
/-- The first trip: nothing is on its way out yet and both staging buffers are zero, so no copy out is waited for; the
    image in the first input buffer is scattered into both staging buffers and copied out; the image after next is
    fetched into the first input buffer. No result image was final before; the first one is after. -/
theorem trip_zero (O : CellTallies nD τ sig (HIx 1)) (W : Waits sig (HIx 1))
    (X : S1536x112x112.Idx → Elt F .f32)
    (t : Fin k0_t3_loop.trips) (acc : Unit)
    (h1 : k0_cond1 t = 1#1) (h5 : ¬ k0_cond5 t = 1#1) (h2 : ¬ k0_cond2 t = 1#1) (h3 : ¬ k0_cond3 t = 1#1) (h4 : k0_cond4 t = 1#1)
    (ht0 : t.val = 0) :
    iprop(Transfers.MayWaits (thr d L) (default : HIx 1) O
        ∗ inTwoE d L X t.val
        ∗ outZero d L
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inTwoO d L X (t.val + 1) ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  unfold inTwoE outZero outTwo owesAt
  iintro ⟨#Hmw, ⟨%offA, %offB, %hA, %hB, %payA, %payB, %hp, HfA, HfB, Hx⟩, ⟨%fo, Ho0, Ho1, HfC, HfD, Ho⟩, ⟨%W', %hW', HO⟩⟩
  obtain ⟨rfl, rfl, rfl, rfl⟩ := hp
  sl_unfold [k0_t3_body]
  sl_exec
  sl_for (inv4 d L (imgOf L X t.val) (fun _ => (zeroF : F .f32))) $$ [HfA_dst Ho0]
  case region => intro k acc'; exact t4_step d L t h1 k acc' _ _
  · unfold inv4; rw [scatK_zero]
    isplitl [HfA_dst]; · iexact HfA_dst
    iexact Ho0
  iintro %_ HI
  unfold inv4
  icases HI with ⟨Hi0, Ho0⟩
  sl_exec
  sl_for (inv5 d L (imgOf L X t.val) (fun _ => (zeroF : F .f32))) $$ [Hi0 Ho1]
  case region => intro k acc'; exact t5_step d L t h1 k acc' _ _
  · unfold inv5; rw [scatK_zero]
    isplitl [Hi0]; · iexact Hi0
    iexact Ho1
  iintro %_ HI
  unfold inv5
  icases HI with ⟨Hi0, Ho1⟩
  sl_exec
  sl_step
  sl_unfold_run_names
  have e4 : Scf.trips k0_t4_loop.lb k0_t4_loop.ub k0_t4_loop.st = 56 := by decide
  rw [e4, scatK_full _ _ _ (zeroOff_zero (F := F)), scatK_full _ _ _ (zeroOff_zero (F := F))]
  have hoff23 : k0_off23 L t = xOff L (t.val + 1 + 1) := by
    rw [k0_off23_eq]; unfold xOff; congr 1
  unfold inTwoO
  isplitl [HfB HfA Hx]
  · iexists (xOff L (t.val + 1)), (k0_off23 L t), hB, (k0_off23_inb L t h1 h4), (imgOf L X (t.val + 1)), _
    isplitr
    · ipureintro
      exact ⟨rfl, hoff23, rfl, in_pay_eq0 L X (t.val + 1 + 1) (by omega) (k0_off23 L t) (k0_off23_inb L t h1 h4) (hoff23.trans (xOff_eq L _)) (imgOf L X t.val)⟩
    isplitl [HfB]; · iexact HfB
    isplitl [HfA]; · iexact HfA
    iexact Hx
  isplitl [HfC Ho0 HfD Ho1 Ho]
  · have hoff13 : k0_off13 L t = ![bOf L + t.val, 0, 0] := k0_off13_eq L t
    have hoff22 : k0_off22 L t = ![bOf L + t.val, 112, 0] := k0_off22_eq L t
    have hdone' : Done L X fo t.val := by
      rw [ht0]; exact done_zero L X fo
    rw [out_agree_pts' L X t.val (k0_off13 L t) (k0_off22 L t) (k0_off13_inb L t h1) (k0_off22_inb L t h1) hoff13 hoff22 fo d (cV L) (jV L)]
    iexists (k0_off13 L t), (k0_off22 L t), (k0_off13_inb L t h1), (k0_off22_inb L t h1), _, (halfImg (imgOf L X t.val) 0), (halfImg (imgOf L X t.val) 56)
    isplitr
    · ipureintro
      exact ⟨hoff13.trans (oOff_eq L _ _).symm, hoff22.trans (oOff_eq L _ _).symm, zeroOff_halfImg _ _, zeroOff_halfImg _ _,
        out_done L X t.val (k0_off13 L t) (k0_off22 L t) (k0_off13_inb L t h1) (k0_off22_inb L t h1) hoff13 hoff22 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    exact hW' p hp

end Tile

end Cert.Proof.KB

end
-- ==== Proof.KB.TripE46.lean ====
import proofs.«218969_g18416819765331_cont_7to1_658_22_alg».proof.Proof.KB.Pay
import proofs.«218969_g18416819765331_cont_7to1_658_22_alg».proof.Proof.KB.Inv
import proofs.«218969_g18416819765331_cont_7to1_658_22_alg».proof.Proof.KB.Inv2
import proofs.«218969_g18416819765331_cont_7to1_658_22_alg».proof.Proof.KB.ScatterLoop4
import proofs.«218969_g18416819765331_cont_7to1_658_22_alg».proof.Proof.KB.ScatterLoop5
import proofs.«218969_g18416819765331_cont_7to1_658_22_alg».proof.Proof.KB.WinIn
import proofs.«218969_g18416819765331_cont_7to1_658_22_alg».proof.Proof.KB.WinOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

section Tile
variable (d : Dev nD) (L : grid0.Coords)

set_option maxHeartbeats 8000000 in
/-- The last even trip: the image in the first input buffer is scattered into both staging buffers and copied
    out; no image is left to fetch, so the first input buffer stays free. -/
theorem trip_last_even (O : CellTallies nD τ sig (HIx 1)) (W : Waits sig (HIx 1))
    (X : S1536x112x112.Idx → Elt F .f32)
    (t : Fin k0_t3_loop.trips) (acc : Unit)
    (h1 : k0_cond1 t = 1#1) (h5 : ¬ k0_cond5 t = 1#1) (h2 : k0_cond2 t = 1#1) (h3 : k0_cond3 t = 1#1) (h4 : ¬ k0_cond4 t = 1#1)
    (ht : t.val = 46) :
    iprop(Transfers.MayWaits (thr d L) (default : HIx 1) O
        ∗ inTwoE d L X t.val
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inOne47 d L X ∗ outTwo d L X t.val ∗ owesAt d L O W)) := by
  have ht48 : t.val < 48 := lt_of_lt_of_le t.isLt k0_t3_abs.2.1
  have hL0 : (L 0).val < 2 := (L 0).isLt
  have e47 : t.val + 1 = 47 := by omega
  have hL1 : (L 1).val < 16 := (L 1).isLt
  unfold inTwoE outTwo owesAt
  iintro ⟨#Hmw, ⟨%offA, %offB, %hA, %hB, %payA, %payB, %hp, HfA, HfB, Hx⟩, ⟨%offC, %offD, %hC, %hD, %fo, %ga, %gb, %hq, HfC, Ho0, HfD, Ho1, Ho⟩, ⟨%W', %hW', HO⟩⟩
  obtain ⟨rfl, rfl, rfl, rfl⟩ := hp
  obtain ⟨rfl, rfl, hga, hgb, hdone⟩ := hq
  sl_unfold [k0_t3_body]
  sl_exec
  sl_for (inv4 d L (imgOf L X t.val) ga) $$ [HfA_dst Ho0]
  case region => intro k acc'; exact t4_step d L t h1 k acc' _ _
  · unfold inv4; rw [scatK_zero]
    isplitl [HfA_dst]; · iexact HfA_dst
    iexact Ho0
  iintro %_ HI
  unfold inv4
  icases HI with ⟨Hi0, Ho0⟩
  sl_exec
  sl_for (inv5 d L (imgOf L X t.val) gb) $$ [Hi0 Ho1]
  case region => intro k acc'; exact t5_step d L t h1 k acc' _ _
  · unfold inv5; rw [scatK_zero]
    isplitl [Hi0]; · iexact Hi0
    iexact Ho1
  iintro %_ HI
  unfold inv5
  icases HI with ⟨Hi0, Ho1⟩
  sl_exec
  sl_step
  sl_unfold_run_names
  have e4 : Scf.trips k0_t4_loop.lb k0_t4_loop.ub k0_t4_loop.st = 56 := by decide
  have e5 : Scf.trips k0_t5_loop.lb k0_t5_loop.ub k0_t5_loop.st = 56 := by decide
  rw [e4, scatK_full _ _ _ hga, scatK_full _ _ _ hgb]
  unfold inOne47
  isplitl [HfB HfA Hi0 Hx]
  · iexists (xOff L (t.val + 1)), hB, (imgOf L X (t.val + 1))
    isplitr
    · ipureintro
      exact ⟨congrArg (xOff L) e47, congrArg (imgOf L X) e47⟩
    isplitl [HfB]; · iexact HfB
    isplitl [Hi0]; · iexists _; iexact Hi0
    isplitl [HfA]; · iexact HfA
    iexact Hx
  isplitl [HfC Ho0 HfD Ho1 Ho]
  · have hoff13 : k0_off13 L t = ![bOf L + t.val, 0, 0] := k0_off13_eq L t
    have hoff22 : k0_off22 L t = ![bOf L + t.val, 112, 0] := k0_off22_eq L t
    have hdone' : Done L X fo t.val := by
      have e : t.val - 1 + 1 = t.val := by omega
      rw [e] at hdone; exact hdone
    rw [out_agree_pts' L X t.val (k0_off13 L t) (k0_off22 L t) (k0_off13_inb L t h1) (k0_off22_inb L t h1) hoff13 hoff22 fo d (cV L) (jV L)]
    iexists (k0_off13 L t), (k0_off22 L t), (k0_off13_inb L t h1), (k0_off22_inb L t h1), _, (halfImg (imgOf L X t.val) 0), (halfImg (imgOf L X t.val) 56)
    isplitr
    · ipureintro
      exact ⟨hoff13.trans (oOff_eq L _ _).symm, hoff22.trans (oOff_eq L _ _).symm, zeroOff_halfImg _ _, zeroOff_halfImg _ _,
        out_done L X t.val (k0_off13 L t) (k0_off22 L t) (k0_off13_inb L t h1) (k0_off22_inb L t h1) hoff13 hoff22 ht48 fo hdone'⟩
    isplitl [HfC]; · iexact HfC
    isplitl [Ho0]; · iexact Ho0
    isplitl [HfD]; · iexact HfD
    isplitl [Ho1]; · iexact Ho1
    iexact Ho
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KB

end
-- ==== Proof.KB.TripO47.lean ====
import proofs.«218969_g18416819765331_cont_7to1_658_22_alg».proof.Proof.KB.Pay
import proofs.«218969_g18416819765331_cont_7to1_658_22_alg».proof.Proof.KB.Inv
import proofs.«218969_g18416819765331_cont_7to1_658_22_alg».proof.Proof.KB.Inv2
import proofs.«218969_g18416819765331_cont_7to1_658_22_alg».proof.Proof.KB.ScatterLoop6
import proofs.«218969_g18416819765331_cont_7to1_658_22_alg».proof.Proof.KB.ScatterLoop7
import proofs.«218969_g18416819765331_cont_7to1_658_22_alg».proof.Proof.KB.WinIn
import proofs.«218969_g18416819765331_cont_7to1_658_22_alg».proof.Proof.KB.WinOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

/-!
The last image of a subcore's slab. It is the forty-eighth, on an odd trip: its copy into the second
input buffer is the only input copy outstanding. The trip waits for it, waits for the two write-backs
of the image before, scatters the image's upper fifty-six rows over the first staging buffer and its
lower fifty-six over the second, and starts the two write-backs; no further image is fetched. After
it both input buffers are free, the slab of input images is whole again, and every result image of
the slab is final in the contents the write-backs carry.
-/

section Tile
variable (d : Dev nD) (L : grid0.Coords)

set_option maxHeartbeats 8000000 in
/-- The last trip: the image in the second input buffer is scattered into both staging buffers and copied out;
    nothing more is fetched. -/
theorem trip_last_odd (O : CellTallies nD τ sig (HIx 1)) (W : Waits sig (HIx 1))
    (X : S1536x112x112.Idx → Elt F .f32)
    (t : Fin k0_t3_loop.trips) (acc : Unit) (ht : t.val = 47)
    (h5 : k0_cond5 t = 1#1) (h1 : ¬ k0_cond1 t = 1#1) (h6 : k0_cond6 t = 1#1) (h7 : k0_cond7 t = 1#1) (h8 : ¬ k0_cond8 t = 1#1) :
    iprop(Transfers.MayWaits (thr d L) (default : HIx 1) O
        ∗ inOne47 d L X
        ∗ outTwo d L X (t.val - 1)
        ∗ owesAt d L O W)
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (fun _ => iprop(inNone d L X ∗ outTwo d L X t.val ∗ owesAt d L O W)) := by
  have ht48 : t.val < 48 := lt_of_lt_of_le t.isLt k0_t3_abs.2.1
  have hL0 : (L 0).val < 2 := (L 0).isLt
  have hL1 : (L 1).val < 16 := (L 1).isLt
  have e47 : (47 : Nat) = t.val := ht.symm
  unfold inOne47 outTwo owesAt
  iintro ⟨#Hmw, ⟨%offA, %hA, %payA, %hp, HfA, ⟨%f0, Hi0⟩, Hs4, Hx⟩, ⟨%offC, %offD, %hC, %hD, %fo, %ga, %gb, %hq, HfC, Ho0, HfD, Ho1, Ho⟩, ⟨%W', %hW', HO⟩⟩
  -- the image awaited is image `t` of the slab
  rw [e47] at hp
  obtain ⟨rfl, rfl⟩ := hp
  obtain ⟨rfl, rfl, hga, hgb, hdone⟩ := hq
  sl_unfold [k0_t3_body]
  sl_exec
  sl_for (inv6 d L (imgOf L X t.val) ga) $$ [HfA_dst Ho0]
  case region => intro k acc'; exact t6_step d L t h5 k acc' _ _
  · unfold inv6; rw [scatK_zero]
    isplitl [HfA_dst]; · iexact HfA_dst
    iexact Ho0
  iintro %_ HI
  unfold inv6
  icases HI with ⟨Hi1, Ho0⟩
  sl_exec
  sl_for (inv7 d L (imgOf L X t.val) gb) $$ [Hi1 Ho1]
  case region => intro k acc'; exact t7_step d L t h5 k acc' _ _
  · unfold inv7; rw [scatK_zero]
    isplitl [Hi1]; · iexact Hi1
    iexact Ho1
  iintro %_ HI
  unfold inv7
  icases HI with ⟨Hi1, Ho1⟩
  sl_exec
  sl_step
  sl_unfold_run_names
  have e6 : Scf.trips k0_t6_loop.lb k0_t6_loop.ub k0_t6_loop.st = 56 := by decide
  rw [e6, scatK_full _ _ _ hga, scatK_full _ _ _ hgb]
  -- the input side: both buffers free, both semaphores at zero, the slab whole
  unfold inNone
  isplitl [Hi0 Hi1 Hs4 HfA Hx]
  · isplitl [Hi0]; · iexists _; iexact Hi0
    isplitl [Hi1]; · iexists _; iexact Hi1
    isplitl [Hs4]; · iexact Hs4
    isplitl [HfA]; · iexact HfA
    iexact Hx
  -- the output side: the two halves of the last image on their way out, every image of the slab final
  isplitl [HfC Ho0 HfD Ho1 Ho]
  · have hoff33 : k0_off33 L t = ![bOf L + t.val, 0, 0] := k0_off33_eq L t
    have hoff42 : k0_off42 L t = ![bOf L + t.val, 112, 0] := k0_off42_eq L t
    have hdone' : Done L X fo t.val := by
      have e : t.val - 1 + 1 = t.val := by omega
      rw [e] at hdone; exact hdone
    rw [out_agree_pts' L X t.val (k0_off33 L t) (k0_off42 L t) (k0_off33_inb L t h5) (k0_off42_inb L t h5) hoff33 hoff42 fo d (cV L) (jV L)]
    iexists (k0_off33 L t), (k0_off42 L t), (k0_off33_inb L t h5), (k0_off42_inb L t h5), _, (halfImg (imgOf L X t.val) 0), (halfImg (imgOf L X t.val) 56)
    isplitr
    · ipureintro
      exact ⟨hoff33.trans (oOff_eq L _ _).symm, hoff42.trans (oOff_eq L _ _).symm, zeroOff_halfImg _ _, zeroOff_halfImg _ _,
        out_done L X t.val (k0_off33 L t) (k0_off42 L t) (k0_off33_inb L t h5) (k0_off42_inb L t h5) hoff33 hoff42 ht48 fo hdone'⟩
    isplitl [HfC]; · iexact HfC
    isplitl [Ho0]; · iexact Ho0
    isplitl [HfD]; · iexact HfD
    isplitl [Ho1]; · iexact Ho1
    iexact Ho
  -- the waits recorded are of the subcore's own semaphores
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile

end Cert.Proof.KB

end
-- ==== Proof.KB.TripStep.lean ====
import proofs.«218969_g18416819765331_cont_7to1_658_22_alg».proof.Proof.KB.Pay
import proofs.«218969_g18416819765331_cont_7to1_658_22_alg».proof.Proof.KB.Inv2
import proofs.«218969_g18416819765331_cont_7to1_658_22_alg».proof.Proof.KB.Conds
import proofs.«218969_g18416819765331_cont_7to1_658_22_alg».proof.Proof.KB.TripE
import proofs.«218969_g18416819765331_cont_7to1_658_22_alg».proof.Proof.KB.TripO
import proofs.«218969_g18416819765331_cont_7to1_658_22_alg».proof.Proof.KB.TripE0
import proofs.«218969_g18416819765331_cont_7to1_658_22_alg».proof.Proof.KB.TripE46
import proofs.«218969_g18416819765331_cont_7to1_658_22_alg».proof.Proof.KB.TripO47

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]

/-!
One trip of the loop over the subcore's images, from the state before it to the state before the next:
by cases on the trip's parity (which input buffer it reads) and on whether it is the first trip (nothing to
wait for on the way out), one of the last two (nothing left to fetch), or one in between.
-/

section Tile
variable (d : Dev nD) (L : grid0.Coords)

set_option maxHeartbeats 4000000 in
theorem trip_step (O : CellTallies nD τ sig (HIx 1)) (W : Waits sig (HIx 1)) (X : S1536x112x112.Idx → Elt F .f32)
    (t : Fin k0_t3_loop.trips) (acc : Unit) :
    tinv d L X O W t.val acc
      ⊢ wp frame (wpE (defs₀ (F := F)) 𝒱₀ (thr d L) none) Set.univ
          (k0_t3_body L xV (Memref.isWhole_whole _) oV (Memref.isWhole_whole _) i0V (Memref.isWhole_whole _) i1V (Memref.isWhole_whole _)
            o0V (Memref.isWhole_whole _) o1V (Memref.isWhole_whole _) cc0_scratch4 cc0_scratch5 cc0_scratch6 cc0_scratch7 t acc)
          (tinv d L X O W (t.val + 1)) := by
  have ht := t3_lt t
  unfold tinv
  iintro ⟨#Hmw, HR⟩
  iapply (wp_frame_l frame (wpE (defs₀ (F := F)) 𝒱₀ (thr d L) none) Set.univ (R := Transfers.MayWaits (thr d L) (default : HIx 1) O))
  isplitr; · iexact Hmw
  have hout' : outPart d L X (t.val + 1) = outTwo d L X t.val := by
    unfold outPart; rw [if_neg (by omega), Nat.add_sub_cancel]
  rw [hout']
  by_cases hpar : t.val % 2 = 0
  · have h1 : k0_cond1 t = 1#1 := (cond1_iff t).mpr hpar
    have h5 : ¬ k0_cond5 t = 1#1 := fun h => by have := (cond5_iff t).mp h; omega
    have hin : inPart d L X t.val = inTwoE d L X t.val := by unfold inPart; rw [if_pos hpar, if_pos (by omega)]
    rw [hin]
    by_cases h0 : t.val = 0
    · have h2 : ¬ k0_cond2 t = 1#1 := fun h => by have := (cond2_iff t).mp h; omega
      have h3 : ¬ k0_cond3 t = 1#1 := fun h => by have := (cond3_iff t).mp h; omega
      have h4 : k0_cond4 t = 1#1 := (cond4_iff t).mpr (by omega)
      have hin' : inPart d L X (t.val + 1) = inTwoO d L X (t.val + 1) := by unfold inPart; rw [if_neg (by omega), if_pos (by omega)]
      have hout : outPart d L X t.val = outZero d L := by unfold outPart; rw [if_pos h0]
      rw [hin', hout]
      iapply (trip_zero d L O W X t acc h1 h5 h2 h3 h4 h0)
      isplitr; · iexact Hmw
      iexact HR
    · have h2 : k0_cond2 t = 1#1 := (cond2_iff t).mpr (by omega)
      have h3 : k0_cond3 t = 1#1 := (cond3_iff t).mpr (by omega)
      have hout : outPart d L X t.val = outTwo d L X (t.val - 1) := by unfold outPart; rw [if_neg h0]
      rw [hout]
      by_cases h46 : t.val = 46
      · have h4 : ¬ k0_cond4 t = 1#1 := fun h => by have := (cond4_iff t).mp h; omega
        have hin' : inPart d L X (t.val + 1) = inOne47 d L X := by unfold inPart; rw [if_neg (by omega), if_neg (by omega)]
        rw [hin']
        iapply (trip_last_even d L O W X t acc h1 h5 h2 h3 h4 h46)
        isplitr; · iexact Hmw
        iexact HR
      · have h4 : k0_cond4 t = 1#1 := (cond4_iff t).mpr (by omega)
        have hin' : inPart d L X (t.val + 1) = inTwoO d L X (t.val + 1) := by unfold inPart; rw [if_neg (by omega), if_pos (by omega)]
        rw [hin']
        iapply (trip_even d L O W X t acc h1 h5 h2 h3 h4 (by omega) (by omega))
        isplitr; · iexact Hmw
        iexact HR
  · have h1 : ¬ k0_cond1 t = 1#1 := fun h => hpar ((cond1_iff t).mp h)
    have h5 : k0_cond5 t = 1#1 := (cond5_iff t).mpr (by omega)
    have h6 : k0_cond6 t = 1#1 := (cond6_iff t).mpr (by omega)
    have h7 : k0_cond7 t = 1#1 := (cond7_iff t).mpr (by omega)
    have hout : outPart d L X t.val = outTwo d L X (t.val - 1) := by unfold outPart; rw [if_neg (by omega)]
    rw [hout]
    by_cases h47 : t.val = 47
    · have h8 : ¬ k0_cond8 t = 1#1 := fun h => by have := (cond8_iff t).mp h; omega
      have hin : inPart d L X t.val = inOne47 d L X := by unfold inPart; rw [if_neg hpar, if_neg (by omega)]
      have hin' : inPart d L X (t.val + 1) = inNone d L X := by unfold inPart; rw [if_pos (by omega), if_neg (by omega)]
      rw [hin, hin']
      iapply (trip_last_odd d L O W X t acc h47 h5 h1 h6 h7 h8)
      isplitr; · iexact Hmw
      iexact HR
    · have h8 : k0_cond8 t = 1#1 := (cond8_iff t).mpr (by omega)
      have hin : inPart d L X t.val = inTwoO d L X t.val := by unfold inPart; rw [if_neg hpar, if_pos (by omega)]
      have hin' : inPart d L X (t.val + 1) = inTwoE d L X (t.val + 1) := by unfold inPart; rw [if_pos (by omega), if_pos (by omega)]
      rw [hin, hin']
      iapply (trip_odd d L O W X t acc h5 h1 h6 h7 h8 (by omega) (by omega))
      isplitr; · iexact Hmw
      iexact HR

end Tile

end Cert.Proof.KB

end
-- ==== Proof.KB.TileBody.lean ====
import proofs.«218969_g18416819765331_cont_7to1_658_22_alg».proof.Proof.KB.TileObl
import proofs.«218969_g18416819765331_cont_7to1_658_22_alg».proof.Proof.KB.Zero
import proofs.«218969_g18416819765331_cont_7to1_658_22_alg».proof.Proof.KB.Inv2
import proofs.«218969_g18416819765331_cont_7to1_658_22_alg».proof.Proof.KB.WinIn
import proofs.«218969_g18416819765331_cont_7to1_658_22_alg».proof.Proof.KB.WinOut
import proofs.«218969_g18416819765331_cont_7to1_658_22_alg».proof.Proof.KB.Conds
import proofs.«218969_g18416819765331_cont_7to1_658_22_alg».proof.Proof.KB.TripStep

/-!
One vector subcore's whole task. From its slab of the input images and its slab of the result images,
its four staging buffers and four transfer semaphores, and what it owes: it zeroes the two result
staging buffers, starts the copies of its first two input images, and runs the loop over its
forty-eight images, each trip taking the state before image `t` to the state before image `t + 1`.
After the last trip no input copy is outstanding and the two halves of the last result image are on
their way out; the two final waits bring them back, the result slab is whole again and holds the
upsampling of the input slab, and buffers and semaphores are handed back as they were found.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S1536x112x112 EltTy.f32)
local notation "oV" => (Memref.whole Cert.Kernel.main_v1_scv : Memref Cert.Kernel.sig Kind.scVector Space.hbm Cert.Kernel.S1536x224x224 EltTy.f32)
local notation "i0V" => (Memref.whole Cert.Kernel.cc0_scratch0 : Memref Cert.Kernel.sig Kind.scVector Space.vmem Cert.Kernel.S112x112 EltTy.f32)
local notation "i1V" => (Memref.whole Cert.Kernel.cc0_scratch1 : Memref Cert.Kernel.sig Kind.scVector Space.vmem Cert.Kernel.S112x112 EltTy.f32)
local notation "o0V" => (Memref.whole Cert.Kernel.cc0_scratch2 : Memref Cert.Kernel.sig Kind.scVector Space.vmem Cert.Kernel.S112x224 EltTy.f32)
local notation "o1V" => (Memref.whole Cert.Kernel.cc0_scratch3 : Memref Cert.Kernel.sig Kind.scVector Space.vmem Cert.Kernel.S112x224 EltTy.f32)

variable [FloatOps F]
variable (X : (d : Dev nD) → Buf (Elt F) (xLoc d)) (O₀ : (d : Dev nD) → Buf (Elt F) (oLoc d))

/-! ## The loop's invariant at its two ends -/

/-- Before the first image both input copies are under way and nothing is on its way out. -/
theorem inPart_zero (d : Dev nD) (L : grid0.Coords) (X : S1536x112x112.Idx → Elt F .f32) : inPart d L X 0 = inTwoE d L X 0 := by
  unfold inPart; rw [if_pos rfl, if_pos (by omega)]
/-- Before the first image the staging buffers are zero and the result slab is whole. -/
theorem outPart_zero (d : Dev nD) (L : grid0.Coords) (X : S1536x112x112.Idx → Elt F .f32) : outPart d L X 0 = outZero d L := by
  unfold outPart; rw [if_pos rfl]
/-- After the last image no input copy is outstanding. -/
theorem inPart_end (d : Dev nD) (L : grid0.Coords) (X : S1536x112x112.Idx → Elt F .f32) : inPart d L X 48 = inNone d L X := by
  unfold inPart; rw [if_pos rfl, if_neg (by omega)]
/-- After the last image the two halves of the last result image are on their way out. -/
theorem outPart_end (d : Dev nD) (L : grid0.Coords) (X : S1536x112x112.Idx → Elt F .f32) : outPart d L X 48 = outTwo d L X 47 := by
  unfold outPart; rw [if_neg (by omega)]

/-! ## The task -/

set_option maxHeartbeats 8000000 in
/-- The subcore's task: the prologue establishes the loop's invariant before the first image, each trip
    carries it one image on, and after the last image the two final waits return the result slab whole,
    holding the upsampling of the input slab. -/
theorem tile_body : TileBody X O₀ := by
  intro hF d L O W hO
  rw [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%f0, H0⟩, ⟨%f1, H1⟩, ⟨%f2, H2⟩, ⟨%f3, H3⟩, Hbufs⟩, ⟨Hs4, Hs5, Hs6, Hs7, Hsems⟩, HO⟩
  ihave Hmw := (show levAts (K (F := F)).L (K (F := F)).lev ⊢ Transfers.MayWaits (thr d L) (default : HIx 1) O from
    (K (F := F)).mayWaits_none (thr := thr d L) hO) $$ Hlv
  ihave Hx := (Entails.of_eq (show (xLoc d ↦[xSet L]{fullShare} X d : sProp 𝕄)
      = ((xV).view.loc (thr d L) ↦[(xV).view.setOn (xR L).set]{fullShare} X d) from rfl)) $$ Hx
  ihave Ho := (Entails.of_eq (show (oLoc d ↦[oSet L]{fullShare} O₀ d : sProp 𝕄)
      = ((oV).view.loc (thr d L) ↦[(oV).view.setOn (oR L).set]{fullShare} O₀ d) from rfl)) $$ Ho
  ihave H0 := (Entails.of_eq (pts_i0V (F := F) d L _).symm) $$ H0
  ihave H1 := (Entails.of_eq (pts_i1V (F := F) d L _).symm) $$ H1
  ihave H2 := (Entails.of_eq (pts_o0V (F := F) d L _).symm) $$ H2
  ihave H3 := (Entails.of_eq (pts_o1V (F := F) d L _).symm) $$ H3
  ihave Hs4 := (Entails.of_eq (show (semVal (cell4 d L) 0 : sProp 𝕄) = semVal (thr d L, .dma cc0_scratch4.sem) 0 from rfl)) $$ Hs4
  ihave Hs5 := (Entails.of_eq (show (semVal (cell5 d L) 0 : sProp 𝕄) = semVal (thr d L, .dma cc0_scratch5.sem) 0 from rfl)) $$ Hs5
  ihave Hs6 := (Entails.of_eq (show (semVal (cell6 d L) 0 : sProp 𝕄) = semVal (thr d L, .dma cc0_scratch6.sem) 0 from rfl)) $$ Hs6
  ihave Hs7 := (Entails.of_eq (show (semVal (cell7 d L) 0 : sProp 𝕄) = semVal (thr d L, .dma cc0_scratch7.sem) 0 from rfl)) $$ Hs7
  sl_exec
  sl_for (inv1 d L f2 f3) $$ [H2 H3]
  case region =>
    intro k1 acc
    exact zero_outer_step d L f2 f3 k1 acc
  · irw [inv1_zero]
    isplitl [H2]
    · iexact H2
    · iexact H3
  irw [t1_trips, inv1_all]
  iintro %acc1 ⟨Ho0, Ho1⟩
  sl_exec
  sl_for (tinv d L (X d) O W) $$ [Hs4 Hs5 Hx Ho Ho0 Ho1 Hs6 Hs7 HO]
  case region =>
    intro t acc
    exact trip_step d L O W (X d) t acc
  · unfold tinv; rw [inPart_zero, outPart_zero]; unfold inTwoE outZero owesAt
    isplitr; · iexact Hmw
    isplitl [Hs4 Hs5 Hx]
    · iexists (k0_off2 L), (k0_off3 L), (k0_off2_inb L), (k0_off3_inb L), _, _
      isplitr
      swap
      · isplitl [Hs4]; · iexact Hs4
        isplitl [Hs5]; · iexact Hs5
        iexact Hx
      ipureintro
      refine ⟨(k0_off2_eq L).trans rfl, (k0_off3_eq L).trans rfl, ?_, ?_⟩
      · exact in_pay_eq0 L (X d) 0 (by omega) (k0_off2 L) (k0_off2_inb L) ((k0_off2_eq L).trans rfl) f0
      · exact in_pay_eq1 L (X d) (0 + 1) (by omega) (k0_off3 L) (k0_off3_inb L) ((k0_off3_eq L).trans rfl) f1
    isplitl [Ho Ho0 Ho1 Hs6 Hs7]
    · iexists _
      isplitl [Ho0]; · iexact Ho0
      isplitl [Ho1]; · iexact Ho1
      isplitl [Hs6]; · iexact Hs6
      isplitl [Hs7]; · iexact Hs7
      iexact Ho
    iexists W; isplitr
    · ipureintro; exact fun p hp => .inl hp
    · iexact HO
  irw [t3_trips]
  iintro %acc2 HI
  unfold tinv
  rw [inPart_end, outPart_end]
  unfold inNone outTwo owesAt
  icases HI with ⟨-, ⟨⟨%g0, Hi0⟩, ⟨%g1, Hi1⟩, Hs4, Hs5, Hx⟩, ⟨%offC, %offD, %hC, %hD, %fo, %ga, %gb, %hp, Hf6, Ho0r, Hf7, Ho1r, Ho⟩, ⟨%W', %hW', HO⟩⟩
  obtain ⟨rfl, rfl, hza, hzb, hdone⟩ := hp
  sl_exec
  sl_step
  ihave Hx := (Entails.of_eq (show (((xV).view.loc (thr d L) ↦[(xV).view.setOn (xR L).set]{fullShare} X d) : sProp 𝕄)
      = (xLoc d ↦[xSet L]{fullShare} X d) from rfl)) $$ Hx
  ihave Ho := (Entails.of_eq (show (((oV).view.loc (thr d L) ↦[(oV).view.setOn (oR L).set]{fullShare} fo) : sProp 𝕄)
      = (oLoc d ↦[oSet L]{fullShare} fo) from rfl)) $$ Ho
  ihave Ho := (Entails.of_eq (done_all_pts (F := F) d L (X d) fo hdone)) $$ Ho
  ihave Hi0 := (Entails.of_eq (pts_i0V (F := F) d L _)) $$ Hi0
  ihave Hi1 := (Entails.of_eq (pts_i1V (F := F) d L _)) $$ Hi1
  ihave Ho0r := (Entails.of_eq (pts_o0V (F := F) d L _)) $$ Ho0r
  ihave Ho1r := (Entails.of_eq (pts_o1V (F := F) d L _)) $$ Ho1r
  isplitl [Hx Ho]
  · isplitl [Hx]; · iexact Hx
    iexact Ho
  isplitl [Hi0 Hi1 Ho0r Ho1r Hbufs]
  · isplitl [Hi0]; · iexists _; iexact Hi0
    isplitl [Hi1]; · iexists _; iexact Hi1
    isplitl [Ho0r]; · iexists _; iexact Ho0r
    isplitl [Ho1r]; · iexists _; iexact Ho1r
    iexact Hbufs
  isplitl [Hs4 Hs5 Hf6 Hf7 Hsems]
  · isplitl [Hs4]; · iexact Hs4
    isplitl [Hs5]; · iexact Hs5
    isplitl [Hf6]; · iexact Hf6
    isplitl [Hf7]; · iexact Hf7
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The launch's obligation for the one call's tasks, at any contents of the two arrays. -/
theorem tileObl_tile : (K (F := F)).TileObl (D (F := F)) 𝒱 (P X O₀) v₀ 0 :=
  tileObl_of X O₀ (tile_body X O₀)

end Cert.Proof.KB

end
-- ==== Proof.KB.Launch.lean ====
import proofs.«218969_g18416819765331_cont_7to1_658_22_alg».proof.Proof.KB.Pay
import proofs.«218969_g18416819765331_cont_7to1_658_22_alg».proof.Proof.Spec

/-!
The launch. The host reads the argument as 1536 images, starts the two SparseCores, waits for them,
and reads the 1536 result images back as the five-axis result. The thirty-two slabs of forty-eight
images tile the 1536 images of either array, so the whole input and result arrays split into what
the subcores are handed and join again from what they hand back; with each subcore's task proved,
every fair run of all the threads ends with the argument unchanged and the result the upsampling.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slabs tile the images -/

theorem xSet_eq (L : grid0.Coords) : xSet L = (xR L).set := by
  show ((xR L).set).map (View.whole (main_v0_scv : Ref sig .scVector)).emb = _
  exact Finset.map_refl
theorem oSet_eq (L : grid0.Coords) : oSet L = (oR L).set := by
  show ((oR L).set).map (View.whole (main_v1_scv : Ref sig .scVector)).emb = _
  exact Finset.map_refl

theorem LL_zero (c : Fin ((K (F := F)).nCore 0)) (i : Fin ((K (F := F)).nSub 0)) : ((LL (F := F) c i) 0).val = c.val := rfl
theorem LL_one (c : Fin ((K (F := F)).nCore 0)) (i : Fin ((K (F := F)).nSub 0)) : ((LL (F := F) c i) 1).val = i.val := rfl

/-- Two different subcores' slabs start at least forty-eight images apart. -/
theorem slab_apart (c c' : Fin ((K (F := F)).nCore 0)) (i i' : Fin ((K (F := F)).nSub 0)) (h : c ≠ c' ∨ i ≠ i') :
    96 * i.val + 48 * c.val + 48 ≤ 96 * i'.val + 48 * c'.val ∨ 96 * i'.val + 48 * c'.val + 48 ≤ 96 * i.val + 48 * c.val := by
  have hc : c.val < 2 := c.isLt
  have hc' : c'.val < 2 := c'.isLt
  have h' : c.val ≠ c'.val ∨ i.val ≠ i'.val := h.imp (fun e e' => e (Fin.ext e')) (fun e e' => e (Fin.ext e'))
  omega

theorem xSlab_disjoint (c c' : Fin ((K (F := F)).nCore 0)) (i i' : Fin ((K (F := F)).nSub 0)) (h : c ≠ c' ∨ i ≠ i') :
    Disjoint (xSet (LL (F := F) c i)) (xSet (LL (F := F) c' i')) := by
  rw [xSet_eq, xSet_eq]
  exact Rect.unit_disjoint (0 : Fin 3) (slab_apart c c' i i' h)
theorem oSlab_disjoint (c c' : Fin ((K (F := F)).nCore 0)) (i i' : Fin ((K (F := F)).nSub 0)) (h : c ≠ c' ∨ i ≠ i') :
    Disjoint (oSet (LL (F := F) c i)) (oSet (LL (F := F) c' i')) := by
  rw [oSet_eq, oSet_eq]
  exact Rect.unit_disjoint (0 : Fin 3) (slab_apart c c' i i' h)

/-- Image `n` is in the slab of subcore `n / 96` of SparseCore `(n % 96) / 48`. -/
theorem xSlab_cover (j : S1536x112x112.Idx) : ∃ (c : Fin ((K (F := F)).nCore 0)) (i : Fin ((K (F := F)).nSub 0)), j ∈ xSet (LL (F := F) c i) := by
  have h0 : (j 0).val < 1536 := (j 0).isLt
  have h1 : (j 1).val < 112 := (j 1).isLt
  have h2 : (j 2).val < 112 := (j 2).isLt
  refine ⟨⟨(j 0).val % 96 / 48, show (j 0).val % 96 / 48 < 2 by omega⟩, ⟨(j 0).val / 96, show (j 0).val / 96 < 16 by omega⟩, ?_⟩
  rw [xSet_eq, Rect.mem_set_unit]
  intro a; fin_cases a
  · show 96 * ((j 0).val / 96) + 48 * ((j 0).val % 96 / 48) ≤ (j 0).val ∧ (j 0).val < 96 * ((j 0).val / 96) + 48 * ((j 0).val % 96 / 48) + 48
    omega
  · show 0 ≤ (j 1).val ∧ (j 1).val < 0 + 112
    omega
  · show 0 ≤ (j 2).val ∧ (j 2).val < 0 + 112
    omega
theorem oSlab_cover (j : S1536x224x224.Idx) : ∃ (c : Fin ((K (F := F)).nCore 0)) (i : Fin ((K (F := F)).nSub 0)), j ∈ oSet (LL (F := F) c i) := by
  have h0 : (j 0).val < 1536 := (j 0).isLt
  have h1 : (j 1).val < 224 := (j 1).isLt
  have h2 : (j 2).val < 224 := (j 2).isLt
  refine ⟨⟨(j 0).val % 96 / 48, show (j 0).val % 96 / 48 < 2 by omega⟩, ⟨(j 0).val / 96, show (j 0).val / 96 < 16 by omega⟩, ?_⟩
  rw [oSet_eq, Rect.mem_set_unit]
  intro a; fin_cases a
  · show 96 * ((j 0).val / 96) + 48 * ((j 0).val % 96 / 48) ≤ (j 0).val ∧ (j 0).val < 96 * ((j 0).val / 96) + 48 * ((j 0).val % 96 / 48) + 48
    omega
  · show 0 ≤ (j 1).val ∧ (j 1).val < 0 + 224
    omega
  · show 0 ≤ (j 2).val ∧ (j 2).val < 0 + 224
    omega

/-- A whole array is the pieces of a family of element sets, indexed by two finite types, that are
    pairwise disjoint and cover it. -/
theorem pointsTo_grid {ℓ : Loc nD τ sig} {A B : Type} [Fintype A] [Fintype B] [DecidableEq A] [DecidableEq B]
    (Kf : A → B → Finset (Idx ℓ))
    (hd : ∀ a a' b b', (a ≠ a' ∨ b ≠ b') → Disjoint (Kf a b) (Kf a' b'))
    (hc : ∀ j, ∃ a b, j ∈ Kf a b) (f : Buf (Elt F) ℓ) :
    (ℓ ↦{fullShare} f : sProp 𝕄) = bigSep Finset.univ fun a : A => bigSep Finset.univ fun b : B => ℓ ↦[Kf a b]{fullShare} f := by
  have hcov : (Finset.univ : Finset A).biUnion (fun a => (Finset.univ : Finset B).biUnion (Kf a)) = Finset.univ := by
    ext j; simp only [Finset.mem_biUnion, Finset.mem_univ, true_and, iff_true]; exact hc j
  have hd1 : ∀ a ∈ (Finset.univ : Finset A), ∀ a' ∈ (Finset.univ : Finset A), a ≠ a' →
      Disjoint ((Finset.univ : Finset B).biUnion (Kf a)) ((Finset.univ : Finset B).biUnion (Kf a')) := fun a _ a' _ h =>
    (Finset.disjoint_biUnion_left _ _ _).mpr fun b _ => (Finset.disjoint_biUnion_right _ _ _).mpr fun b' _ => hd a a' b b' (.inl h)
  rw [show (ℓ ↦{fullShare} f : sProp 𝕄) = ℓ ↦[Finset.univ]{fullShare} f from rfl, ← hcov, pointsTo_biUnion Finset.univ _ hd1]
  exact bigSep_congr fun a _ => pointsTo_biUnion Finset.univ (Kf a) fun b _ b' _ h => hd a a b b' (.inr h)

theorem xPts_slabs (d : Dev nD) (f : Buf (Elt F) (xLoc d)) :
    (xLoc d ↦{fullShare} f : sProp 𝕄)
      = bigSep Finset.univ fun c : Fin ((K (F := F)).nCore 0) => bigSep Finset.univ fun i : Fin ((K (F := F)).nSub 0) =>
          xLoc d ↦[xSet (LL (F := F) c i)]{fullShare} f :=
  pointsTo_grid (ℓ := xLoc d) (fun c i => xSet (LL (F := F) c i)) (fun c c' i i' h => xSlab_disjoint c c' i i' h) xSlab_cover f
theorem oPts_slabs (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[oSet (LL (F := F) c i)]{fullShare} f :=
  pointsTo_grid (ℓ := oLoc d) (fun c i => oSet (LL (F := F) c i)) (fun c c' i i' h => oSlab_disjoint c c' i i' h) oSlab_cover f

/-! ## The arrays when the kernel is called, and the result -/

variable [FloatOps F]
variable (m : (ℓ : Loc nD τ sig) → Buf (Elt F) ℓ) (ρ : Dev nD → PrngReg)

/-- The input images when the kernel is called: the argument read as 1536 images. -/
def X₀ (d : Dev nD) : Buf (Elt F) (xLoc d) :=
  shapeCast S1536x112x112 (m (aLoc d)) Facts₀.shapeCasts_S4x4x96x112x112_S1536x112x112
/-- The result images when the kernel is called: whatever the launch memory holds there. -/
def O₀ (d : Dev nD) : Buf (Elt F) (oLoc d) := m (oLoc d)
/-- The result: the upsampled images read back as the five-axis array. -/
def R₀ (d : Dev nD) : Buf (Elt F) (rLoc d) :=
  shapeCast S4x4x96x224x224 (up (X₀ m d)) Facts₀.shapeCasts_S1536x224x224_S4x4x96x224x224

/-! ## What the call takes for the two SparseCores, and what it hands back -/

variable (X : (d : Dev nD) → Buf (Elt F) (xLoc d)) (O : (d : Dev nD) → Buf (Elt F) (oLoc d))

theorem st0_eq (d : Dev nD) :
    (bigSep Finset.univ fun c : Fin ((K (F := F)).nCore 0) => (P X O).st 0 d c)
      = iprop((xLoc d ↦{fullShare} X d) ∗ (oLoc d ↦{fullShare} O d)) := by
  show (bigSep Finset.univ fun c : Fin ((K (F := F)).nCore 0) => bigSep Finset.univ fun i : Fin ((K (F := F)).nSub 0) =>
      iprop((xLoc d ↦[xSet (LL (F := F) c i)]{fullShare} X d) ∗ (oLoc d ↦[oSet (LL (F := F) c i)]{fullShare} O d))) = _
  rw [xPts_slabs, oPts_slabs, ← bigSep_sep']
  exact bigSep_congr fun c _ => bigSep_sep' _ _ _
theorem dn0_eq (d : Dev nD) :
    (bigSep Finset.univ fun c : Fin ((K (F := F)).nCore 0) => (P X O).dn 0 d c)
      = iprop((xLoc d ↦{fullShare} X d) ∗ (oLoc d ↦{fullShare} up (X d))) := by
  show (bigSep Finset.univ fun c : Fin ((K (F := F)).nCore 0) => bigSep Finset.univ fun i : Fin ((K (F := F)).nSub 0) =>
      iprop((xLoc d ↦[xSet (LL (F := F) c i)]{fullShare} X d) ∗ (oLoc d ↦[oSet (LL (F := F) c i)]{fullShare} up (X d)))) = _
  rw [xPts_slabs, oPts_slabs, ← bigSep_sep']
  exact bigSep_congr fun c _ => bigSep_sep' _ _ _

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X O).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X O).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the argument read as 1536 images, the 1536 result images read back. -/
abbrev op1 : HloOp τ sig (Elt F) :=
  StableHlo.reshape main_arg0 main_v0 rfl Facts₀.shapeCasts_S4x4x96x112x112_S1536x112x112
abbrev op2 : HloOp τ sig (Elt F) :=
  StableHlo.reshape main_v1 main_v2 rfl Facts₀.shapeCasts_S1536x224x224_S4x4x96x224x224

/-- The TensorCore's arrays, all unscoped. -/
abbrev S4 : Finset (DevRef τ sig) := {a', x', o', r'}

omit [FloatOps F] in
theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; and the arrays after the call: the input images as the first reshape left
    them, the result images as the subcores left them. -/
def V0 (d : Dev nD) : Valuation τ sig (Elt F) := fun b => m (d, b)
def V2 (d : Dev nD) : Valuation τ sig (Elt F) := Function.update (Function.update (V0 m d) x' (X₀ m d)) o' (up (X₀ m d))

theorem unscoped_held (d : Dev nD) : (unscopedBufs d (fun b => m ((SparseCore.T d).loc b)) : sProp 𝕄) = held (T d) S4 (V0 m d) := by
  rw [unscopedBufs_eq, held_S4]; rfl

theorem V2_a (d : Dev nD) : V2 m d a' = m (aLoc d) :=
  (Function.update_of_ne (show a' ≠ o' by decide) _ _).trans (Function.update_of_ne (show a' ≠ x' by decide) _ _)
theorem V2_x (d : Dev nD) : V2 m d x' = X₀ m d :=
  (Function.update_of_ne (show x' ≠ o' by decide) _ _).trans (Function.update_self _ _ _)
theorem V2_o (d : Dev nD) : V2 m d o' = up (X₀ m d) := Function.update_self _ _ _
theorem V2_r (d : Dev nD) : V2 m d r' = m (rLoc d) :=
  (Function.update_of_ne (show r' ≠ o' by decide) _ _).trans (Function.update_of_ne (show r' ≠ x' by decide) _ _)

theorem hOp1 : (op1 (F := F)).bufs ⊆ S4 := show ({a', x'} : Finset (DevRef τ sig)) ⊆ S4 by decide
theorem hOp2 : (op2 (F := F)).bufs ⊆ S4 := show ({o', r'} : Finset (DevRef τ sig)) ⊆ S4 by decide

/-- After the first reshape: the input images hold the argument read as 1536 images, the rest what the launch memory holds. -/
theorem held_op1 (d : Dev nD) :
    (held (T d) S4 ((op1 (F := F)).result (V0 m d)) : sProp 𝕄)
      = iprop((aLoc d ↦{fullShare} m (aLoc d)) ∗ (xLoc d ↦{fullShare} X₀ m d) ∗ (oLoc d ↦{fullShare} O₀ m d) ∗ rLoc d ↦{fullShare} m (rLoc d)) := by
  rw [held_S4,
    StableHlo.reshape_result_ne (x := main_arg0) (y := main_v0) _ _ _ _ (V0 m d) (r := main_arg0) (by decide),
    StableHlo.reshape_result_ne (x := main_arg0) (y := main_v0) _ _ _ _ (V0 m d) (r := main_v1) (by decide),
    StableHlo.reshape_result_ne (x := main_arg0) (y := main_v0) _ _ _ _ (V0 m d) (r := main_v2) (by decide),
    StableHlo.reshape_result]
  rfl

/-- After the second: the result holds the result images read back, the argument what it held. -/
theorem held_op2 (d : Dev nD) :
    (held (T d) S4 ((op2 (F := F)).result (V2 m d)) : sProp 𝕄)
      = iprop((aLoc d ↦{fullShare} m (aLoc d)) ∗ (xLoc d ↦{fullShare} X₀ m d) ∗ (oLoc d ↦{fullShare} up (X₀ m d)) ∗ rLoc d ↦{fullShare} R₀ m d) := by
  rw [held_S4,
    StableHlo.reshape_result_ne (x := main_v1) (y := main_v2) _ _ _ _ (V2 m d) (r := main_arg0) (by decide),
    StableHlo.reshape_result_ne (x := main_v1) (y := main_v2) _ _ _ _ (V2 m d) (r := main_v0) (by decide),
    StableHlo.reshape_result_ne (x := main_v1) (y := main_v2) _ _ _ _ (V2 m d) (r := main_v1) (by decide),
    StableHlo.reshape_result, V2_a, V2_x, V2_o]
  rfl

/-- What @main leaves the claim: the argument at its launch contents, the result the upsampling. -/
abbrev FIN (d : Dev nD) : sProp 𝕄 := iprop((aLoc d ↦{fullShare} m (aLoc d)) ∗ (rLoc d ↦{fullShare} R₀ m d))

/-- @main on device `d`'s TensorCore: the argument read as 1536 images, the one call on the two whole
    image arrays, the result images read back; the argument kept. -/
theorem hmain (κ : GSem nD τ sig → ℕ) (d : Dev nD) :
    iprop((K (F := F)).ctx EH (P (X₀ m) (O₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the argument read as 1536 images
  iapply (wp_hlo_within 𝒱 (SparseCore.T d) none Set.univ (op := op1) (S := S4) hOp1 (V := V0 m d)) $$ [Hb Hheld]
  · isplitl [Hb]; · iexact Hb
    iexact Hheld
  iintro ⟨Hb, Hheld⟩
  ihave Hh := (Entails.of_eq (held_op1 (F := F) m d)) $$ Hheld
  icases Hh with ⟨Ha, Hx, Ho, Hr⟩
  rw [wp_ret]; imodintro
  -- the call: both image arrays whole, as the thirty-two slabs, to the two SparseCores and back
  iapply ((K (F := F)).wp_run (D (F := F)) 𝒱 (EH := EH) (P := P (X₀ m) (O₀ m)) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq (X₀ m) (O₀ m) d)) $$ Hdn
  icases Hdn' with ⟨Hx, Ho⟩
  -- the result images read back as the five-axis result
  iapply (wp_hlo_within 𝒱 (SparseCore.T d) none Set.univ (op := op2) (S := S4) hOp2 (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_op2 (F := F) m d)) $$ Hheld
  icases Hh with ⟨Ha, -, -, Hr⟩
  rw [wp_ret]; imodintro; imodintro
  isplitl [Hst]; · iexact Hst
  isplitl [Ha]; · iexact Ha
  iexact Hr

/-! ## The final memory reads the claim -/

def fq (d : Dev nD) (s' : Phys nD τ sig (Elt F)) : Prop := s'.mem.mem (rLoc d) = R₀ m d ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := R₀ m d)) $$ [HSI Hr]
  · isplitl [HSI] <;> iassumption
  icases H with %h2
  ipureintro; exact ⟨funext fun i => h2 i (Finset.mem_univ i), funext fun i => h1 i (Finset.mem_univ i)⟩

/-! ## The program's run -/

/-- Every device ends with its result the upsampled images read back as the five-axis array, and its argument unchanged. -/
def QC : PUnit × MemSt nD τ sig (Elt F) → Prop := fun r => ∀ c : Dev nD, r.2.mem (rLoc c) = R₀ m c ∧ r.2.mem (aLoc c) = m (aLoc c)

/-- With each subcore's task proved, every weakly fair run of all the threads from the launch memory ends so. -/
theorem run_main [∀ e, Nonempty (Elt F e)] (hT : (K (F := F)).TileObl (D (F := F)) 𝒱 (P (X₀ m) (O₀ m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (X₀ m) (O₀ m)) facts v₀
    (fun q hq => match q with | 0 => nomatch hq)
    (fun q _ => match q with | 0 => hT)
    (fun q _ => match q with | 0 => SparseCore.Cfg.VecSplit.of_plain (vecSplit (X₀ m) (O₀ m)))
    m ρ main (fun _ => iprop(emp)) (FIN m) (u₀ (F := F)) (sep_elim_left.trans (hu₀ (X₀ m) (O₀ m))) (hmain m ρ) (fq m) (hfin m) (QC m) (fun _ h => h)

end Cert.Proof.KB

end
-- ==== Proof.KB.Claims.lean ====
import proofs.«218969_g18416819765331_cont_7to1_658_22_alg».proof.Proof.KB.TileBody
import proofs.«218969_g18416819765331_cont_7to1_658_22_alg».proof.Proof.KB.Launch
import proofs.«218969_g18416819765331_cont_7to1_658_22_alg».proof.Proof.Gen.Pre_finite_inputs
import proofs.«218969_g18416819765331_cont_7to1_658_22_alg».proof.Defs

/-!
The kernel as printed, read at the bit-level float instance: every weakly fair execution of its threads ends, nothing
faults, and the argument array is unchanged. It is the run of the launch with each vector subcore's task proved, the
result's value dropped.
-/

noncomputable section

namespace Cert.Proof.KB

open Cert.Kernel Cert.Kernel.Gen
open Idealize.ShloMosaic Idealize.ShloMosaic.TcCoe Idealize.SL.Sem

theorem frame_kb (hT : ∀ (X : (d : Dev nD) → Buf (Elt Bits) (xLoc d)) (O : (d : Dev nD) → Buf (Elt Bits) (oLoc d)), (K (F := Bits)).TileObl (D (F := Bits)) 𝒱 (P X O) v₀ 0) :
    @Cert.frame_Kernel Cert.Kernel.Gen.facts Cert.Pre_finite_inputs.Gen.facts :=
  fun m g _ => (θ_run Cert.Kernel.defs _ _).mono (fun _ h c => (h c).2) (run_main (F := Bits) m g (hT _ _))

end Cert.Proof.KB

end
-- ==== Proof.lean ====
/-
  The certificate's claims for the zero-insertion upsampling kernel. The argument x has shape [4,4,96,112,112];
  the result has shape [4,4,96,224,224], with result[b,i,c,2h+1,2w+1] = x[b,i,c,h,w] and zero at every entry
  with an even row or column.

  The kernel runs on thirty-two vector subcores. Subcore i of SparseCore c takes images 96 i + 48 c … + 47 of the
  argument viewed as 1536 images. It zeroes two staging buffers of 112 × 224 once; then, image by image, it waits for
  the image's copy into one of two input buffers (images are fetched two ahead, alternating buffers), scatters
  rows 0–55 of the image to the odd rows and columns of the first staging buffer and rows 56–111 to those of the
  second (entries off the odd rows and columns are never touched, so they stay zero), and copies the two staging
  buffers out as the upper and lower half of the result image; a staging buffer is written again only after its
  previous copy out has been waited for. The loop's invariant (Proof/KI/Inv.lean, Inv2.lean) names the two input
  copies and the two output copies outstanding between trips and says that every result image already issued is
  final. Each subcore ends holding its slab of the result at the upsampling of its slab of the argument; the
  thirty-two slabs tile the array, and the two host reshapes around the kernel commute with the per-image map
  (Proof/KI/Reshape.lean).

  The reference is a scatter of x into zeros at the indices (2h+1, 2w+1), which are pairwise distinct and in range:
  every result entry is the one update that names it, or zero (Proof/RefSide.lean). Both sides are the same function
  of the argument (Proof/Spec.lean), entry by entry, with no arithmetic: the equality needs no fact about the
  argument's values. The kernel as printed and its idealization are the same text read at two float instances; the
  proof is written once, generic in the instance (Proof/KI), and restated for the bit-level program (Proof/KB).
  The idealization pass rewrote nothing, so there is nothing to preserve.
-/
import proofs.«218969_g18416819765331_cont_7to1_658_22_alg».proof.Defs
import proofs.«218969_g18416819765331_cont_7to1_658_22_alg».proof.Proof.Gen.Kernel
import proofs.«218969_g18416819765331_cont_7to1_658_22_alg».proof.Proof.Gen.Kernel.Skeleton
import proofs.«218969_g18416819765331_cont_7to1_658_22_alg».proof.Proof.Gen.KernelIdeal
import proofs.«218969_g18416819765331_cont_7to1_658_22_alg».proof.Proof.Gen.KernelIdeal.Skeleton
import proofs.«218969_g18416819765331_cont_7to1_658_22_alg».proof.Proof.Gen.ReferenceIdeal
import proofs.«218969_g18416819765331_cont_7to1_658_22_alg».proof.Proof.Gen.Pre_finite_inputs
import proofs.«218969_g18416819765331_cont_7to1_658_22_alg».proof.Proof.Gen.ReferenceIdeal.Run
import proofs.«218969_g18416819765331_cont_7to1_658_22_alg».proof.Proof.Gen.ReferenceIdeal.Read
import proofs.«218969_g18416819765331_cont_7to1_658_22_alg».proof.Proof.RefSide
import proofs.«218969_g18416819765331_cont_7to1_658_22_alg».proof.Proof.LibStoreIdx
import proofs.«218969_g18416819765331_cont_7to1_658_22_alg».proof.Proof.KI.TileBody
import proofs.«218969_g18416819765331_cont_7to1_658_22_alg».proof.Proof.KI.Claims
import proofs.«218969_g18416819765331_cont_7to1_658_22_alg».proof.Proof.KB.TileBody
import proofs.«218969_g18416819765331_cont_7to1_658_22_alg».proof.Proof.KB.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.KB.frame_kb (fun X O => Cert.Proof.KB.tileObl_of X O (Cert.Proof.KB.tile_body X O)),
    Cert.Proof.KI.frame_ki (fun X O => Cert.Proof.KI.tileObl_of X O (Cert.Proof.KI.tile_body X O)),
    Cert.Proof.RefSide.frame_ri,
    trivial,
    Cert.Proof.KI.algebraic (fun X O => Cert.Proof.KI.tileObl_of X O (Cert.Proof.KI.tile_body X O))⟩

end Cert.Proof

end
